-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S4096x4096 : Shape := ⟨2, ![4096, 4096]⟩
abbrev S32x8192x128 : Shape := ⟨3, ![32, 8192, 128]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x8192x128 : S_.BroadcastsInDim S32x8192x128 (![] : Fin 0 → Fin S32x8192x128.rank)
  reducesTo_S32x8192x128_S_d0_1_2 : S32x8192x128.ReducesTo [0, 1, 2] S_

variable [Facts]

def fn_part1 {F : FTy → Type} [FloatOps F] (main_arg4 : FVec F S32x8192x128 .f32) (main_arg5 : FVec F S32x8192x128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S32x8192x128 .f32 := Host.absf main_arg4
  let main_cst_6 : FVec F S_ .f32 := constant S_ .f32 0x7F800000#32
  let main_v20 : FVec F S32x8192x128 .f32 := broadcastInDim S32x8192x128 ![] bcast_S_S32x8192x128 main_cst_6
  let main_v21 : IVec S32x8192x128 1 := cmpf .olt main_v19 main_v20
  let main_c_7 : IVec S_ 1 := constantI S_ 1 1#1
  let main_v22 : IVec S_ 1 := (fun x v => Host.reduce IntOp.andi x v reducesTo_S32x8192x128_S_d0_1_2 h_S_) main_v21 main_c_7
  let main_v23 : IVec S_ 1 := andi main_v18 main_v22
  let main_v24 : FVec F S32x8192x128 .f32 := Host.absf main_arg5
  let main_cst_8 : FVec F S_ .f32 := constant S_ .f32 0x7F800000#32
  let main_v25 : FVec F S32x8192x128 .f32 := broadcastInDim S32x8192x128 ![] bcast_S_S32x8192x128 main_cst_8
  let main_v26 : IVec S32x8192x128 1 := cmpf .olt main_v24 main_v25
  let main_c_9 : IVec S_ 1 := constantI S_ 1 1#1
  let main_v27 : IVec S_ 1 := (fun x v => Host.reduce IntOp.andi x v reducesTo_S32x8192x128_S_d0_1_2 h_S_) main_v26 main_c_9
  let main_v28 : IVec S_ 1 := andi main_v23 main_v27
  main_v28

def fn {F : FTy → Type} [FloatOps F] (main_arg0 : FVec F S16x4096 .f32) (main_arg1 : FVec F S4096x4096 .f32) (main_arg2 : FVec F S4096x4096 .f32) (main_arg3 : FVec F S4096x4096 .f32) (main_arg4 : FVec F S32x8192x128 .f32) (main_arg5 : FVec F S32x8192x128 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S16x4096 : Shape := ⟨2, ![16, 4096]⟩
abbrev S4096x4096 : Shape := ⟨2, ![4096, 4096]⟩
abbrev S32x8192x128 : Shape := ⟨3, ![32, 8192, 128]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S16x512 : Shape := ⟨2, ![16, 512]⟩
abbrev S16x32x128 : Shape := ⟨3, ![16, 32, 128]⟩
abbrev S32x16x128 : Shape := ⟨3, ![32, 16, 128]⟩
abbrev S1x16x128 : Shape := ⟨3, ![1, 16, 128]⟩
abbrev S1x4096x128 : Shape := ⟨3, ![1, 4096, 128]⟩
abbrev S16x128 : Shape := ⟨2, ![16, 128]⟩
abbrev S4096x128 : Shape := ⟨2, ![4096, 128]⟩
abbrev S16x16 : Shape := ⟨2, ![16, 16]⟩

abbrev nBuf : Space → Nat
  | .hbm => 18
  | .vmem => 32
  | .smem => 0
  | _ => 0

abbrev bufTy : (tb : Table) → Fin (tcTables nBuf tb) → BufTy
  | .hbm, ⟨0, _⟩ => ⟨S16x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x8192x128, .f32⟩
  | .hbm, ⟨5, _⟩ => ⟨S32x8192x128, .f32⟩
  | .hbm, ⟨6, _⟩ => ⟨S16x4096, .f32⟩
  | .hbm, ⟨7, _⟩ => ⟨S16x4096, .f32⟩
  | .hbm, ⟨8, _⟩ => ⟨S16x4096, .f32⟩
  | .hbm, ⟨9, _⟩ => ⟨S16x32x128, .f32⟩
  | .hbm, ⟨10, _⟩ => ⟨S32x16x128, .f32⟩
  | .hbm, ⟨11, _⟩ => ⟨S16x32x128, .f32⟩
  | .hbm, ⟨12, _⟩ => ⟨S32x16x128, .f32⟩
  | .hbm, ⟨13, _⟩ => ⟨S16x32x128, .f32⟩
  | .hbm, ⟨14, _⟩ => ⟨S32x16x128, .f32⟩
  | .hbm, ⟨15, _⟩ => ⟨S32x16x128, .f32⟩
  | .hbm, ⟨16, _⟩ => ⟨S16x32x128, .f32⟩
  | .hbm, ⟨17, _⟩ => ⟨S16x4096, .f32⟩
  | .local _ .vmem, ⟨0, _⟩ => ⟨S16x4096, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S16x2048, .f32⟩
  | .local _ .vmem, ⟨8, _⟩ => ⟨S16x2048, .f32⟩
  | .local _ .vmem, ⟨9, _⟩ => ⟨S16x2048, .f32⟩
  | .local _ .vmem, ⟨10, _⟩ => ⟨S16x2048, .f32⟩
  | .local _ .vmem, ⟨11, _⟩ => ⟨S16x2048, .f32⟩
  | .local _ .vmem, ⟨12, _⟩ => ⟨S16x2048, .f32⟩
  | .local _ .vmem, ⟨13, _⟩ => ⟨S16x2048, .f32⟩
  | .local _ .vmem, ⟨14, _⟩ => ⟨S16x2048, .f32⟩
  | .local _ .vmem, ⟨15, _⟩ => ⟨S16x2048, .f32⟩
  | .local _ .vmem, ⟨16, _⟩ => ⟨S16x4096, .f32⟩
  | .local _ .vmem, ⟨17, _⟩ => ⟨S1x16x128, .f32⟩
  | .local _ .vmem, ⟨18, _⟩ => ⟨S1x16x128, .f32⟩
  | .local _ .vmem, ⟨19, _⟩ => ⟨S1x4096x128, .f32⟩
  | .local _ .vmem, ⟨20, _⟩ => ⟨S1x4096x128, .f32⟩
  | .local _ .vmem, ⟨21, _⟩ => ⟨S1x4096x128, .f32⟩
  | .local _ .vmem, ⟨22, _⟩ => ⟨S1x4096x128, .f32⟩
  | .local _ .vmem, ⟨23, _⟩ => ⟨S1x16x128, .f32⟩
  | .local _ .vmem, ⟨24, _⟩ => ⟨S1x16x128, .f32⟩
  | .local _ .vmem, ⟨25, _⟩ => ⟨S1x16x128, .f32⟩
  | .local _ .vmem, ⟨26, _⟩ => ⟨S1x16x128, .f32⟩
  | .local _ .vmem, ⟨27, _⟩ => ⟨S1x16x128, .f32⟩
  | .local _ .vmem, ⟨28, _⟩ => ⟨S1x16x128, .f32⟩
  | .local _ .vmem, ⟨29, _⟩ => ⟨S16x1, .f32⟩
  | .local _ .vmem, ⟨30, _⟩ => ⟨S16x1, .f32⟩
  | .local _ .vmem, ⟨31, _⟩ => ⟨S16x128, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![32, 2], ![false, false]⟩

def k1_cond2 (i : grid1.Coords) : BitVec 1 :=
  let arg1 : BitVec 32 := BitVec.ofNat 32 (i 1).val
  let c1_i32 : BitVec 32 := 1#32
  let v43 : BitVec 1 := Scalar.cmpi .eq arg1 c1_i32
  let v44 : BitVec 32 := Scalar.extui v43
  let c0_i32_26 : BitVec 32 := 0#32
  let v45 : BitVec 1 := Scalar.cmpi .ne v44 c0_i32_26
  v45

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x16x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x16x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x16x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S16x4096_S16x4096_0_0 : ∀ a, (![0, 0] : Fin 2 → Nat) a + S16x4096.size a ≤ S16x4096.size a
  h_S16x4096 : 0 < S16x4096.numel
  reduces_S16x4096_S16 : S16x4096.Reduces [1] S16
  shapeCasts_S16_S16x1 : S16.ShapeCasts S16x1
  broadcasts_S16x1_S16x4096 : S16x1.Broadcasts S16x4096
  shapeCasts_S16x4096_S16x4096 : S16x4096.ShapeCasts S16x4096
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  h_S16x512 : 0 < S16x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S16x4096_S16x32x128 : S16x4096.ShapeCasts S16x32x128
  transposes_S16x32x128_S32x16x128_1_0_2 : S16x32x128.Transposes [1, 0, 2] S32x16x128
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  broadcasts_S16x1_S16x128 : S16x1.Broadcasts S16x128
  reduces_S16x16_S16 : S16x16.Reduces [1] S16
  broadcasts_S16x1_S16x16 : S16x1.Broadcasts S16x16
  shapeCasts_S16x128_S1x16x128 : S16x128.ShapeCasts S1x16x128
  transposes_S32x16x128_S16x32x128_1_0_2 : S32x16x128.Transposes [1, 0, 2] S16x32x128
  shapeCasts_S16x32x128_S16x4096 : S16x32x128.ShapeCasts S16x4096
  dot_S16x512_S512x2048_S16x2048_1_0_0_1_n_n_wf : DotDims.WF S16x512 S512x2048 S16x2048 [1] [0] [0] [1] [] []
  dot_S16x128_S4096x128_S16x4096_1_1_0_0_n_n_wf : DotDims.WF S16x128 S4096x128 S16x4096 [1] [1] [0] [0] [] []
  dot_S16x4096_S4096x128_S16x128_1_0_0_1_n_n_wf : DotDims.WF S16x4096 S4096x128 S16x128 [1] [0] [0] [1] [] []
  dot_S16x128_S16x128_S16x16_1_1_0_0_n_n_wf : DotDims.WF S16x128 S16x128 S16x16 [1] [1] [0] [0] [] []
  dot_S16x16_S16x128_S16x128_1_0_0_1_n_n_wf : DotDims.WF S16x16 S16x128 S16x128 [1] [0] [0] [1] [] []
  hrank0 : 0 < grid0.rank
  k0_mult1_dvd : ∀ i : grid0.Coords, 512 ∣ (k0_mult1 i).toNat
  k0_off1_inb : ∀ i : grid0.Coords, ∀ a, (k0_off1 i) a + S16x512.size a ≤ S16x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .f32 = 32 ∨ (Rect.block (s := S16x4096) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x4096.size a
  hwx0_2 : ∀ i : grid0.Coords, EltTy.bits .f32 = 32 ∨ (Rect.block (s := S4096x4096) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x4096.size a
  hwx0_3 : ∀ i : grid0.Coords, EltTy.bits .f32 = 32 ∨ (Rect.block (s := S4096x4096) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x2048.size a ≤ S16x4096.size a
  hwx0_4 : ∀ i : grid0.Coords, EltTy.bits .f32 = 32 ∨ (Rect.block (s := S16x4096) S16x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x2048.size a ≤ S16x4096.size a
  hwx0_5 : ∀ i : grid0.Coords, EltTy.bits .f32 = 32 ∨ (Rect.block (s := S16x4096) S16x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x2048.size a ≤ S16x4096.size a
  hwx0_6 : ∀ i : grid0.Coords, EltTy.bits .f32 = 32 ∨ (Rect.block (s := S16x4096) S16x2048.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x128.size a ≤ S32x16x128.size a
  hwx1_0 : ∀ i : grid1.Coords, EltTy.bits .f32 = 32 ∨ (Rect.block (s := S32x16x128) S1x16x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S32x8192x128.size a
  hwx1_1 : ∀ i : grid1.Coords, EltTy.bits .f32 = 32 ∨ (Rect.block (s := S32x8192x128) S1x4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x128.size a ≤ S32x8192x128.size a
  hwx1_2 : ∀ i : grid1.Coords, EltTy.bits .f32 = 32 ∨ (Rect.block (s := S32x8192x128) S1x4096x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x128.size a ≤ S32x16x128.size a
  hwx1_3 : ∀ i : grid1.Coords, EltTy.bits .f32 = 32 ∨ (Rect.block (s := S32x16x128) S1x16x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16x128.size a ≤ S32x16x128.size a
  hwx1_4 : ∀ i : grid1.Coords, EltTy.bits .f32 = 32 ∨ (Rect.block (s := S32x16x128) S1x16x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x16x128.size a ≤ S32x16x128.size a
  hwx1_5 : ∀ i : grid1.Coords, EltTy.bits .f32 = 32 ∨ (Rect.block (s := S32x16x128) S1x16x128.size (cc1_transform_5 i) (hinb1_5 i)).WholeWords (EltTy.packing .f32)

variable [Facts₀]

def dot_S16x512_S512x2048_S16x2048_1_0_0_1_n_n : DotDims S16x512 S512x2048 S16x2048 where
  lhsContracting := [1]
  rhsContracting := [0]
  lhsNonContracting := [0]
  rhsNonContracting := [1]
  lhsBatch := []
  rhsBatch := []
  wf := dot_S16x512_S512x2048_S16x2048_1_0_0_1_n_n_wf
def dot_S16x128_S4096x128_S16x4096_1_1_0_0_n_n : DotDims S16x128 S4096x128 S16x4096 where
  lhsContracting := [1]
  rhsContracting := [1]
  lhsNonContracting := [0]
  rhsNonContracting := [0]
  lhsBatch := []
  rhsBatch := []
  wf := dot_S16x128_S4096x128_S16x4096_1_1_0_0_n_n_wf
def dot_S16x4096_S4096x128_S16x128_1_0_0_1_n_n : DotDims S16x4096 S4096x128 S16x128 where
  lhsContracting := [1]
  rhsContracting := [0]
  lhsNonContracting := [0]
  rhsNonContracting := [1]
  lhsBatch := []
  rhsBatch := []
  wf := dot_S16x4096_S4096x128_S16x128_1_0_0_1_n_n_wf
def dot_S16x128_S16x128_S16x16_1_1_0_0_n_n : DotDims S16x128 S16x128 S16x16 where
  lhsContracting := [1]
  rhsContracting := [1]
  lhsNonContracting := [0]
  rhsNonContracting := [0]
  lhsBatch := []
  rhsBatch := []
  wf := dot_S16x128_S16x128_S16x16_1_1_0_0_n_n_wf
def dot_S16x16_S16x128_S16x128_1_0_0_1_n_n : DotDims S16x16 S16x128 S16x128 where
  lhsContracting := [1]
  rhsContracting := [0]
  lhsNonContracting := [0]
  rhsNonContracting := [1]
  lhsBatch := []
  rhsBatch := []
  wf := dot_S16x16_S16x128_S16x128_1_0_0_1_n_n_wf

abbrev win0_0 : Pipeline.Window sig grid0 :=
  Pipeline.Window.ofSpec (Memref.whole main_arg0) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S16x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S16x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S16x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v2) S1x16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x16x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x16x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x16x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16x4096 : Shape := ⟨2, ![16, 4096]⟩
abbrev S4096x4096 : Shape := ⟨2, ![4096, 4096]⟩
abbrev S32x8192x128 : Shape := ⟨3, ![32, 8192, 128]⟩
abbrev S_ : Shape := ⟨0, ![]⟩
abbrev S16 : Shape := ⟨1, ![16]⟩
abbrev S16x1 : Shape := ⟨2, ![16, 1]⟩
abbrev S16x32x128 : Shape := ⟨3, ![16, 32, 128]⟩
abbrev S32x16x128 : Shape := ⟨3, ![32, 16, 128]⟩
abbrev S32x8208x128 : Shape := ⟨3, ![32, 8208, 128]⟩
abbrev S32x16x8208 : Shape := ⟨3, ![32, 16, 8208]⟩
abbrev S32x16 : Shape := ⟨2, ![32, 16]⟩
abbrev S32x16x1 : Shape := ⟨3, ![32, 16, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x8192x128, .f32⟩
  | .hbm, ⟨5, _⟩ => ⟨S32x8192x128, .f32⟩
  | .hbm, ⟨6, _⟩ => ⟨S16x4096, .f32⟩
  | .hbm, ⟨7, _⟩ => ⟨S_, .f32⟩
  | .hbm, ⟨8, _⟩ => ⟨S16, .f32⟩
  | .hbm, ⟨9, _⟩ => ⟨S16x1, .f32⟩
  | .hbm, ⟨10, _⟩ => ⟨S_, .f32⟩
  | .hbm, ⟨11, _⟩ => ⟨S16x1, .f32⟩
  | .hbm, ⟨12, _⟩ => ⟨S16x1, .f32⟩
  | .hbm, ⟨13, _⟩ => ⟨S16x1, .f32⟩
  | .hbm, ⟨14, _⟩ => ⟨S16x4096, .f32⟩
  | .hbm, ⟨15, _⟩ => ⟨S16x4096, .f32⟩
  | .hbm, ⟨16, _⟩ => ⟨S16x4096, .f32⟩
  | .hbm, ⟨17, _⟩ => ⟨S16x32x128, .f32⟩
  | .hbm, ⟨18, _⟩ => ⟨S32x16x128, .f32⟩
  | .hbm, ⟨19, _⟩ => ⟨S16x4096, .f32⟩
  | .hbm, ⟨20, _⟩ => ⟨S16x32x128, .f32⟩
  | .hbm, ⟨21, _⟩ => ⟨S32x16x128, .f32⟩
  | .hbm, ⟨22, _⟩ => ⟨S16x4096, .f32⟩
  | .hbm, ⟨23, _⟩ => ⟨S16x32x128, .f32⟩
  | .hbm, ⟨24, _⟩ => ⟨S32x16x128, .f32⟩
  | .hbm, ⟨25, _⟩ => ⟨S32x8208x128, .f32⟩
  | .hbm, ⟨26, _⟩ => ⟨S32x8208x128, .f32⟩
  | .hbm, ⟨27, _⟩ => ⟨S32x16x8208, .f32⟩
  | .hbm, ⟨28, _⟩ => ⟨S_, .f32⟩
  | .hbm, ⟨29, _⟩ => ⟨S32x16, .f32⟩
  | .hbm, ⟨30, _⟩ => ⟨S_, .f32⟩
  | .hbm, ⟨31, _⟩ => ⟨S32x16, .f32⟩
  | .hbm, ⟨32, _⟩ => ⟨S32x16, .f32⟩
  | .hbm, ⟨33, _⟩ => ⟨S32x16x1, .f32⟩
  | .hbm, ⟨34, _⟩ => ⟨S32x16x8208, .f32⟩
  | .hbm, ⟨35, _⟩ => ⟨S32x16x8208, .f32⟩
  | .hbm, ⟨36, _⟩ => ⟨S32x16x8208, .f32⟩
  | .hbm, ⟨37, _⟩ => ⟨S_, .f32⟩
  | .hbm, ⟨38, _⟩ => ⟨S32x16, .f32⟩
  | .hbm, ⟨39, _⟩ => ⟨S32x16x1, .f32⟩
  | .hbm, ⟨40, _⟩ => ⟨S32x16x8208, .f32⟩
  | .hbm, ⟨41, _⟩ => ⟨S32x16x8208, .f32⟩
  | .hbm, ⟨42, _⟩ => ⟨S32x16x128, .f32⟩
  | .hbm, ⟨43, _⟩ => ⟨S16x32x128, .f32⟩
  | .hbm, ⟨44, _⟩ => ⟨S16x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  reducesTo_S16x4096_S16_d1 : S16x4096.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x4096_0_1 : S16x1.BroadcastsInDim S16x4096 (![0, 1] : Fin 2 → Fin S16x4096.rank)
  shapeCasts_S16x4096_S16x32x128 : S16x4096.ShapeCasts S16x32x128
  transposes_S16x32x128_S32x16x128_1_0_2 : S16x32x128.Transposes [1, 0, 2] S32x16x128
  concatenates_S32x8192x128_S32x16x128_S32x8208x128_d1 : Shape.Concatenates [S32x8192x128, S32x16x128] S32x8208x128 1
  reducesTo_S32x16x8208_S32x16_d2 : S32x16x8208.ReducesTo [2] S32x16
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16x1_S32x16x8208_0_1_2 : S32x16x1.BroadcastsInDim S32x16x8208 (![0, 1, 2] : Fin 3 → Fin S32x16x8208.rank)
  transposes_S32x16x128_S16x32x128_1_0_2 : S32x16x128.Transposes [1, 0, 2] S16x32x128
  shapeCasts_S16x32x128_S16x4096 : S16x32x128.ShapeCasts S16x4096
  dot_S16x4096_S4096x4096_S16x4096_1_0_0_1_n_n_wf : DotDims.WF S16x4096 S4096x4096 S16x4096 [1] [0] [0] [1] [] []
  dot_S32x16x128_S32x8208x128_S32x16x8208_2_2_1_1_0_0_wf : DotDims.WF S32x16x128 S32x8208x128 S32x16x8208 [2] [2] [1] [1] [0] [0]
  dot_S32x16x8208_S32x8208x128_S32x16x128_2_1_1_2_0_0_wf : DotDims.WF S32x16x8208 S32x8208x128 S32x16x128 [2] [1] [1] [2] [0] [0]

variable [Facts₀]

def dot_S16x4096_S4096x4096_S16x4096_1_0_0_1_n_n : DotDims S16x4096 S4096x4096 S16x4096 where
  lhsContracting := [1]
  rhsContracting := [0]
  lhsNonContracting := [0]
  rhsNonContracting := [1]
  lhsBatch := []
  rhsBatch := []
  wf := dot_S16x4096_S4096x4096_S16x4096_1_0_0_1_n_n_wf
def dot_S32x16x128_S32x8208x128_S32x16x8208_2_2_1_1_0_0 : DotDims S32x16x128 S32x8208x128 S32x16x8208 where
  lhsContracting := [2]
  rhsContracting := [2]
  lhsNonContracting := [1]
  rhsNonContracting := [1]
  lhsBatch := [0]
  rhsBatch := [0]
  wf := dot_S32x16x128_S32x8208x128_S32x16x8208_2_2_1_1_0_0_wf
def dot_S32x16x8208_S32x8208x128_S32x16x128_2_1_1_2_0_0 : DotDims S32x16x8208 S32x8208x128 S32x16x128 where
  lhsContracting := [2]
  rhsContracting := [1]
  lhsNonContracting := [1]
  rhsNonContracting := [2]
  lhsBatch := [0]
  rhsBatch := [0]
  wf := dot_S32x16x8208_S32x8208x128_S32x16x128_2_1_1_2_0_0_wf

class Facts : Prop extends Facts₀ where

variable [Facts]
-- ==== Proof.RefFrame.lean ====
/-
  The reference program's frame, and the idealization's ledger.

  The reference is a straight-line host program: its run ends with its result at the composed term of its
  operations and with every argument array as launched.  Forgetting the result leaves the frame claim.
  The ideal pass rewrote no operation of the kernel, so the idealized kernel is the kernel's own text read at
  the extended reals and there is nothing to preserve.
-/
import proofs.«129545_j317827580172_2_alg».proof.Defs
import proofs.«129545_j317827580172_2_alg».proof.Proof.Gen.ReferenceIdeal
import proofs.«129545_j317827580172_2_alg».proof.Proof.Gen.Pre_finite_inputs
import proofs.«129545_j317827580172_2_alg».proof.Proof.Gen.ReferenceIdeal.Run

noncomputable section

open Idealize.ShloMosaic Idealize.ShloMosaic.TcCoe Idealize.SL.Sem

namespace Cert.Proof.Claims

/-- Every weakly fair execution of the reference terminates without a fault and leaves its six arguments
    unchanged: the run's post, its first conjunct (the result's value) dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger of rewrites is empty. -/
theorem preserves : Cert.preserves_Kernel_KernelIdeal := trivial

end Cert.Proof.Claims

end
-- ==== Proof.K.Conds.lean ====
/-
  The branch conditions of the two kernels, as propositions over a grid point's coordinates.

  The projection kernel runs over (column block j, row block k) of the weights, k innermost: at k = 0 it stores
  the normalised rows and clears its three accumulators, at every k it adds one 512-row slab's products, and at
  k = 7 it copies the accumulators into its three output blocks.  The attention kernel runs over (head, chunk) of
  the cache, chunk innermost: at chunk 0 it resets the running maximum, denominator and numerator, at every chunk
  it folds 4096 cached keys in, and at chunk 1 it also folds the 16 new keys in and divides.
-/
import proofs.«129545_j317827580172_2_alg».proof.Proof.Gen.Kernel.Launch
import proofs.«129545_j317827580172_2_alg».proof.Proof.Gen.Kernel.Skeleton
import proofs.«129545_j317827580172_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The second coordinate of a point of the projection's grid is 0: rows normalised, accumulators cleared. -/
abbrev cond0_0 (i : grid0.Coords) : Prop := (Scalar.cmpi .ne (Scalar.extui (Scalar.cmpi .eq (BitVec.ofNat 32 (i 1).val) 0#32)) 0#32) = 1#1
/-- It is 7: the accumulators are copied out. -/
abbrev cond0_1 (i : grid0.Coords) : Prop := k0_cond2 i = 1#1
/-- The second coordinate of a point of the attention's grid is 0: the running triple is reset. -/
abbrev cond1_0 (i : grid1.Coords) : Prop := (Scalar.cmpi .ne (Scalar.extui (Scalar.cmpi .eq (BitVec.ofNat 32 (i 1).val) 0#32)) 0#32) = 1#1
/-- It is 1: the new keys are folded in and the quotient stored. -/
abbrev cond1_1 (i : grid1.Coords) : Prop := k1_cond2 i = 1#1

end Cert.Kernel.Hand

end
-- ==== Proof.K.Run0A.lean ====
/-
  The projection kernel's body at a point whose second coordinate is 0.

  It reads the rows of X, stores X·rsqrt(mean of squares) into the row scratch, clears the three accumulators,
  then adds the first 512-row slab's three products into them.  The three output blocks are not touched, and
  nothing the four scratch buffers held before is used.
-/
import proofs.«129545_j317827580172_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The kernel body run once on whole buffers in this case: each buffer it stores into ends as its former
    contents overwritten by the listed pieces (which the run itself finds), every other buffer as it was. -/
noncomputable def kernelRun0_A (c : Dev nD) (i : grid0.Coords) (arg2 : Memref sig .tc .vmem S16x4096 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S16x2048 .f32) (harg9 : arg9.IsWhole) (arg10 : Memref sig .tc .vmem S16x2048 .f32) (harg10 : arg10.IsWhole) (arg11 : Memref sig .tc .vmem S16x2048 .f32) (harg11 : arg11.IsWhole) (arg12 : Memref sig .tc .vmem S16x4096 .f32) (harg12 : arg12.IsWhole) (hc0 : cond0_0 i) (hc1 : ¬cond0_1 i)
    (x0 : Vec F S16x4096 .f32) (x1 : Vec F S512x2048 .f32) (x2 : Vec F S512x2048 .f32) (x3 : Vec F S512x2048 .f32) :
    Σ' (LS0 : List (View.Piece (Elt F) S16x2048 .f32)) (LS1 : List (View.Piece (Elt F) S16x2048 .f32)) (LS2 : List (View.Piece (Elt F) S16x2048 .f32)), { LS3 : List (View.Piece (Elt F) S16x4096 .f32) //
      ∀ (xi4 : Vec F S16x2048 .f32) (xi5 : Vec F S16x2048 .f32) (xi6 : Vec F S16x2048 .f32) (xs0 : Vec F S16x2048 .f32) (xs1 : Vec F S16x2048 .f32) (xs2 : Vec F S16x2048 .f32) (xs3 : Vec F S16x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 xs0 xs1 xs2 xs3 E K => ?run⟩
  case run =>
    simp only [cc0__qkv_kernel_eq_skeleton]; unfold cc0__qkv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    isplitl [H9]
    · iexists _; iexact H9
    iexists _; iexact H10

end Cert.Kernel.Hand

end
-- ==== Proof.K.Run0B.lean ====
/-
  The projection kernel's body at a point whose second coordinate is neither 0 nor 7.

  It adds one 512-row slab's three products into the three accumulators; the normalised rows are only read,
  the three output blocks are not touched.
-/
import proofs.«129545_j317827580172_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The kernel body run once on whole buffers in this case: each buffer it stores into ends as its former
    contents overwritten by the listed pieces (which the run itself finds), every other buffer as it was. -/
noncomputable def kernelRun0_B (c : Dev nD) (i : grid0.Coords) (arg2 : Memref sig .tc .vmem S16x4096 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S16x2048 .f32) (harg9 : arg9.IsWhole) (arg10 : Memref sig .tc .vmem S16x2048 .f32) (harg10 : arg10.IsWhole) (arg11 : Memref sig .tc .vmem S16x2048 .f32) (harg11 : arg11.IsWhole) (arg12 : Memref sig .tc .vmem S16x4096 .f32) (harg12 : arg12.IsWhole) (hc0 : ¬cond0_0 i) (hc1 : ¬cond0_1 i)
    (x0 : Vec F S16x4096 .f32) (x1 : Vec F S512x2048 .f32) (x2 : Vec F S512x2048 .f32) (x3 : Vec F S512x2048 .f32) (xs0 : Vec F S16x2048 .f32) (xs1 : Vec F S16x2048 .f32) (xs2 : Vec F S16x2048 .f32) (xs3 : Vec F S16x4096 .f32) :
    Σ' (LS0 : List (View.Piece (Elt F) S16x2048 .f32)) (LS1 : List (View.Piece (Elt F) S16x2048 .f32)), { LS2 : List (View.Piece (Elt F) S16x2048 .f32) //
      ∀ (xi4 : Vec F S16x2048 .f32) (xi5 : Vec F S16x2048 .f32) (xi6 : Vec F S16x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc0__qkv_kernel_eq_skeleton]; unfold cc0__qkv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    isplitl [H9]
    · iexists _; iexact H9
    iexists _; isplitr; · ipureintro; exact harg12.read_unread _
    iexact H10

end Cert.Kernel.Hand

end
-- ==== Proof.K.Run0C.lean ====
/-
  The projection kernel's body at a point whose second coordinate is 7.

  It adds the last 512-row slab's three products into the three accumulators and copies each accumulator whole
  into its output block.
-/
import proofs.«129545_j317827580172_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The kernel body run once on whole buffers in this case: each buffer it stores into ends as its former
    contents overwritten by the listed pieces (which the run itself finds), every other buffer as it was. -/
noncomputable def kernelRun0_C (c : Dev nD) (i : grid0.Coords) (arg2 : Memref sig .tc .vmem S16x4096 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S16x2048 .f32) (harg9 : arg9.IsWhole) (arg10 : Memref sig .tc .vmem S16x2048 .f32) (harg10 : arg10.IsWhole) (arg11 : Memref sig .tc .vmem S16x2048 .f32) (harg11 : arg11.IsWhole) (arg12 : Memref sig .tc .vmem S16x4096 .f32) (harg12 : arg12.IsWhole) (hc0 : ¬cond0_0 i) (hc1 : cond0_1 i)
    (x0 : Vec F S16x4096 .f32) (x1 : Vec F S512x2048 .f32) (x2 : Vec F S512x2048 .f32) (x3 : Vec F S512x2048 .f32) (xs0 : Vec F S16x2048 .f32) (xs1 : Vec F S16x2048 .f32) (xs2 : Vec F S16x2048 .f32) (xs3 : Vec F S16x4096 .f32) :
    Σ' (L4 : List (View.Piece (Elt F) S16x2048 .f32)) (L5 : List (View.Piece (Elt F) S16x2048 .f32)) (L6 : List (View.Piece (Elt F) S16x2048 .f32)) (LS0 : List (View.Piece (Elt F) S16x2048 .f32)) (LS1 : List (View.Piece (Elt F) S16x2048 .f32)), { LS2 : List (View.Piece (Elt F) S16x2048 .f32) //
      ∀ (xi4 : Vec F S16x2048 .f32) (xi5 : Vec F S16x2048 .f32) (xi6 : Vec F S16x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun xi4 xi5 xi6 E K => ?run⟩
  case run =>
    simp only [cc0__qkv_kernel_eq_skeleton]; unfold cc0__qkv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [H9]
    · iexists _; iexact H9
    iexists _; isplitr; · ipureintro; exact harg12.read_unread _
    iexact H10

end Cert.Kernel.Hand

end
-- ==== Proof.K.Reg0.lean ====
/-
  The projection kernel over its whole grid: what each buffer holds after every point, and the body obligation.

  The grid has 16 points, (column block j, row slab k) with k innermost, so point t has k = t mod 8.  Writing
  xn for the rows of X scaled by the reciprocal root of their mean square, after the point with slab k the three
  accumulators hold the sums over slabs 0..k of xn's slab times the weights' slab, for W_q, W_k, W_v, and the row
  scratch holds xn; at k = 7 the accumulators are copied into the output blocks, which are written back to column
  block j of the three results.  The state after a point is defined by recursion on the point from the three
  per-case runs of the body; the invariant between points names the four scratch buffers at that state.
-/
import proofs.«129545_j317827580172_2_alg».proof.Proof.K.Run0A
import proofs.«129545_j317827580172_2_alg».proof.Proof.K.Run0B
import proofs.«129545_j317827580172_2_alg».proof.Proof.K.Run0C
import Idealize.ShloMosaic.Lib.Pipeline.Frame
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents and whose body leaves the block in place. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions in closed form, and where the output windows are idle -/

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_4_C : ∀ t : Fin cfg0.N, ¬cond0_0 (grid0.coords t) → cond0_1 (grid0.coords t) → cfg0.idle 4 (grid0.coords t) = false := by decide +kernel
theorem liveAt0_5_C : ∀ t : Fin cfg0.N, ¬cond0_0 (grid0.coords t) → cond0_1 (grid0.coords t) → cfg0.idle 5 (grid0.coords t) = false := by decide +kernel
theorem liveAt0_6_C : ∀ t : Fin cfg0.N, ¬cond0_0 (grid0.coords t) → cond0_1 (grid0.coords t) → cfg0.idle 6 (grid0.coords t) = false := by decide +kernel

/-! ## The buffers the body is called on -/

/-- One staging buffer of output window 4, through whose view its contents are stated (which one does not matter). -/
abbrev VO0_4 : View sig .tc .vmem S16x2048 .f32 := (Memref.whole cc0_stg4_0 : Memref sig .tc .vmem S16x2048 .f32).view
/-- One staging buffer of output window 5, through whose view its contents are stated (which one does not matter). -/
abbrev VO0_5 : View sig .tc .vmem S16x2048 .f32 := (Memref.whole cc0_stg5_0 : Memref sig .tc .vmem S16x2048 .f32).view
/-- One staging buffer of output window 6, through whose view its contents are stated (which one does not matter). -/
abbrev VO0_6 : View sig .tc .vmem S16x2048 .f32 := (Memref.whole cc0_stg6_0 : Memref sig .tc .vmem S16x2048 .f32).view
abbrev ms0_0 (t : Fin cfg0.N) : Memref sig .tc .vmem S16x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x2048 .f32 := win0_6.stage (cfg0.slots t 6)
abbrev hs0_6 (t : Fin cfg0.N) : (ms0_6 t).IsWhole := hstage0_6 ((cfg0.slots t 6).cast nbuf0_6)
/-- Scratch operand 0 of the kernel: a whole scoped buffer of its own. -/
abbrev scM0_0 : Memref sig .tc .vmem S16x2048 .f32 := Memref.whole cc0_scratch0
abbrev VS0_0 : View sig .tc .vmem S16x2048 .f32 := scM0_0.view
/-- Scratch operand 1 of the kernel: a whole scoped buffer of its own. -/
abbrev scM0_1 : Memref sig .tc .vmem S16x2048 .f32 := Memref.whole cc0_scratch1
abbrev VS0_1 : View sig .tc .vmem S16x2048 .f32 := scM0_1.view
/-- Scratch operand 2 of the kernel: a whole scoped buffer of its own. -/
abbrev scM0_2 : Memref sig .tc .vmem S16x2048 .f32 := Memref.whole cc0_scratch2
abbrev VS0_2 : View sig .tc .vmem S16x2048 .f32 := scM0_2.view
/-- Scratch operand 3 of the kernel: a whole scoped buffer of its own. -/
abbrev scM0_3 : Memref sig .tc .vmem S16x4096 .f32 := Memref.whole cc0_scratch3
abbrev VS0_3 : View sig .tc .vmem S16x4096 .f32 := scM0_3.view

/-- The region's invariant before the first point, with the kernel's scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  unfold Pipeline.ΦA; rw [scopedRest0_eq]; simp only [scM0_0, scM0_1, scM0_2, scM0_3, owns_whole]; try rfl

/-! ## The state after a point -/

/-- What the output windows' staging buffers (`o·`) and the scratch buffers (`s·`) hold after a point. -/
structure St0 (F : FTy → Type) where
  o4 : Vec F S16x2048 .f32
  o5 : Vec F S16x2048 .f32
  o6 : Vec F S16x2048 .f32
  s0 : Vec F S16x2048 .f32
  s1 : Vec F S16x2048 .f32
  s2 : Vec F S16x2048 .f32
  s3 : Vec F S16x4096 .f32

/-- Contents nothing reads: an output block's at a point that neither stores into it nor writes it back. -/
def junk0_o (w : Unit) : Vec F S16x2048 .f32 := VO0_4.read (Elt F) VO0_4.junk

/-- The body's run at a point of case A, on the point's memrefs and input blocks. -/
noncomputable abbrev run0_A (c : Dev nD) (t : Fin cfg0.N) (hc0 : cond0_0 (grid0.coords t)) (hc1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 (iblk0 V c 0 t) (iblk0 V c 1 t) (iblk0 V c 2 t) (iblk0 V c 3 t)

/-- Case A's pieces for scratch 0 tile the buffer, so they cover it. -/
theorem cover0_A_s0 (c : Dev nD) (t : Fin cfg0.N) (hc0 : cond0_0 (grid0.coords t)) (hc1 : ¬cond0_1 (grid0.coords t)) (y : S16x2048.Idx) :
    ∃ pc ∈ (run0_A V c t hc0 hc1).1, y ∈ pc.1.set :=
  View.cover_of_tiledL (run0_A V c t hc0 hc1).1 S16x2048.size (by sl_kernel_rfl) y

/-- Case A's pieces for scratch 1 tile the buffer, so they cover it. -/
theorem cover0_A_s1 (c : Dev nD) (t : Fin cfg0.N) (hc0 : cond0_0 (grid0.coords t)) (hc1 : ¬cond0_1 (grid0.coords t)) (y : S16x2048.Idx) :
    ∃ pc ∈ (run0_A V c t hc0 hc1).2.1, y ∈ pc.1.set :=
  View.cover_of_tiledL (run0_A V c t hc0 hc1).2.1 S16x2048.size (by sl_kernel_rfl) y

/-- Case A's pieces for scratch 2 tile the buffer, so they cover it. -/
theorem cover0_A_s2 (c : Dev nD) (t : Fin cfg0.N) (hc0 : cond0_0 (grid0.coords t)) (hc1 : ¬cond0_1 (grid0.coords t)) (y : S16x2048.Idx) :
    ∃ pc ∈ (run0_A V c t hc0 hc1).2.2.1, y ∈ pc.1.set :=
  View.cover_of_tiledL (run0_A V c t hc0 hc1).2.2.1 S16x2048.size (by sl_kernel_rfl) y

/-- Case A's pieces for scratch 3 tile the buffer, so they cover it. -/
theorem cover0_A_s3 (c : Dev nD) (t : Fin cfg0.N) (hc0 : cond0_0 (grid0.coords t)) (hc1 : ¬cond0_1 (grid0.coords t)) (y : S16x4096.Idx) :
    ∃ pc ∈ (run0_A V c t hc0 hc1).2.2.2.1, y ∈ pc.1.set :=
  View.cover_of_tiledL (run0_A V c t hc0 hc1).2.2.2.1 S16x4096.size (by sl_kernel_rfl) y

/-- The state after a point of case A: each buffer the case stores into at its pieces read back, an idle output block at
    contents nothing reads. -/
noncomputable def st0_A (c : Dev nD) (t : Fin cfg0.N) (hc0 : cond0_0 (grid0.coords t)) (hc1 : ¬cond0_1 (grid0.coords t)) : St0 F where
  o4 := VO0_4.read (Elt F) VO0_4.junk
  o5 := VO0_5.read (Elt F) VO0_5.junk
  o6 := VO0_6.read (Elt F) VO0_6.junk
  s0 := VS0_0.read (Elt F) (VS0_0.writes (Elt F) VS0_0.junk (run0_A V c t hc0 hc1).1)
  s1 := VS0_1.read (Elt F) (VS0_1.writes (Elt F) VS0_1.junk (run0_A V c t hc0 hc1).2.1)
  s2 := VS0_2.read (Elt F) (VS0_2.writes (Elt F) VS0_2.junk (run0_A V c t hc0 hc1).2.2.1)
  s3 := VS0_3.read (Elt F) (VS0_3.writes (Elt F) VS0_3.junk (run0_A V c t hc0 hc1).2.2.2.1)

/-- The body's run at a point of case B, on the point's memrefs and input blocks and the state the point before left. -/
noncomputable abbrev run0_B (c : Dev nD) (t : Fin cfg0.N) (hc0 : ¬cond0_0 (grid0.coords t)) (hc1 : ¬cond0_1 (grid0.coords t)) (p : St0 F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 (iblk0 V c 0 t) (iblk0 V c 1 t) (iblk0 V c 2 t) (iblk0 V c 3 t) p.s0 p.s1 p.s2 p.s3

/-- Case B's pieces for scratch 0 tile the buffer, so they cover it. -/
theorem cover0_B_s0 (c : Dev nD) (t : Fin cfg0.N) (hc0 : ¬cond0_0 (grid0.coords t)) (hc1 : ¬cond0_1 (grid0.coords t)) (p : St0 F) (y : S16x2048.Idx) :
    ∃ pc ∈ (run0_B V c t hc0 hc1 p).1, y ∈ pc.1.set :=
  View.cover_of_tiledL (run0_B V c t hc0 hc1 p).1 S16x2048.size (by sl_kernel_rfl) y

/-- Case B's pieces for scratch 1 tile the buffer, so they cover it. -/
theorem cover0_B_s1 (c : Dev nD) (t : Fin cfg0.N) (hc0 : ¬cond0_0 (grid0.coords t)) (hc1 : ¬cond0_1 (grid0.coords t)) (p : St0 F) (y : S16x2048.Idx) :
    ∃ pc ∈ (run0_B V c t hc0 hc1 p).2.1, y ∈ pc.1.set :=
  View.cover_of_tiledL (run0_B V c t hc0 hc1 p).2.1 S16x2048.size (by sl_kernel_rfl) y

/-- Case B's pieces for scratch 2 tile the buffer, so they cover it. -/
theorem cover0_B_s2 (c : Dev nD) (t : Fin cfg0.N) (hc0 : ¬cond0_0 (grid0.coords t)) (hc1 : ¬cond0_1 (grid0.coords t)) (p : St0 F) (y : S16x2048.Idx) :
    ∃ pc ∈ (run0_B V c t hc0 hc1 p).2.2.1, y ∈ pc.1.set :=
  View.cover_of_tiledL (run0_B V c t hc0 hc1 p).2.2.1 S16x2048.size (by sl_kernel_rfl) y

/-- The state after a point of case B: each buffer the case stores into at its pieces read back, an idle output block at
    contents nothing reads, a scratch the case only reads as the point before left it. -/
noncomputable def st0_B (c : Dev nD) (t : Fin cfg0.N) (hc0 : ¬cond0_0 (grid0.coords t)) (hc1 : ¬cond0_1 (grid0.coords t)) (p : St0 F) : St0 F where
  o4 := VO0_4.read (Elt F) VO0_4.junk
  o5 := VO0_5.read (Elt F) VO0_5.junk
  o6 := VO0_6.read (Elt F) VO0_6.junk
  s0 := VS0_0.read (Elt F) (VS0_0.writes (Elt F) VS0_0.junk (run0_B V c t hc0 hc1 p).1)
  s1 := VS0_1.read (Elt F) (VS0_1.writes (Elt F) VS0_1.junk (run0_B V c t hc0 hc1 p).2.1)
  s2 := VS0_2.read (Elt F) (VS0_2.writes (Elt F) VS0_2.junk (run0_B V c t hc0 hc1 p).2.2.1)
  s3 := p.s3

/-- The body's run at a point of case C, on the point's memrefs and input blocks and the state the point before left. -/
noncomputable abbrev run0_C (c : Dev nD) (t : Fin cfg0.N) (hc0 : ¬cond0_0 (grid0.coords t)) (hc1 : cond0_1 (grid0.coords t)) (p : St0 F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 (iblk0 V c 0 t) (iblk0 V c 1 t) (iblk0 V c 2 t) (iblk0 V c 3 t) p.s0 p.s1 p.s2 p.s3

/-- Case C's pieces for output window 4 tile the buffer, so they cover it. -/
theorem cover0_C_o4 (c : Dev nD) (t : Fin cfg0.N) (hc0 : ¬cond0_0 (grid0.coords t)) (hc1 : cond0_1 (grid0.coords t)) (p : St0 F) (y : S16x2048.Idx) :
    ∃ pc ∈ (run0_C V c t hc0 hc1 p).1, y ∈ pc.1.set :=
  View.cover_of_tiledL (run0_C V c t hc0 hc1 p).1 S16x2048.size (by sl_kernel_rfl) y

/-- Case C's pieces for output window 5 tile the buffer, so they cover it. -/
theorem cover0_C_o5 (c : Dev nD) (t : Fin cfg0.N) (hc0 : ¬cond0_0 (grid0.coords t)) (hc1 : cond0_1 (grid0.coords t)) (p : St0 F) (y : S16x2048.Idx) :
    ∃ pc ∈ (run0_C V c t hc0 hc1 p).2.1, y ∈ pc.1.set :=
  View.cover_of_tiledL (run0_C V c t hc0 hc1 p).2.1 S16x2048.size (by sl_kernel_rfl) y

/-- Case C's pieces for output window 6 tile the buffer, so they cover it. -/
theorem cover0_C_o6 (c : Dev nD) (t : Fin cfg0.N) (hc0 : ¬cond0_0 (grid0.coords t)) (hc1 : cond0_1 (grid0.coords t)) (p : St0 F) (y : S16x2048.Idx) :
    ∃ pc ∈ (run0_C V c t hc0 hc1 p).2.2.1, y ∈ pc.1.set :=
  View.cover_of_tiledL (run0_C V c t hc0 hc1 p).2.2.1 S16x2048.size (by sl_kernel_rfl) y

/-- Case C's pieces for scratch 0 tile the buffer, so they cover it. -/
theorem cover0_C_s0 (c : Dev nD) (t : Fin cfg0.N) (hc0 : ¬cond0_0 (grid0.coords t)) (hc1 : cond0_1 (grid0.coords t)) (p : St0 F) (y : S16x2048.Idx) :
    ∃ pc ∈ (run0_C V c t hc0 hc1 p).2.2.2.1, y ∈ pc.1.set :=
  View.cover_of_tiledL (run0_C V c t hc0 hc1 p).2.2.2.1 S16x2048.size (by sl_kernel_rfl) y

/-- Case C's pieces for scratch 1 tile the buffer, so they cover it. -/
theorem cover0_C_s1 (c : Dev nD) (t : Fin cfg0.N) (hc0 : ¬cond0_0 (grid0.coords t)) (hc1 : cond0_1 (grid0.coords t)) (p : St0 F) (y : S16x2048.Idx) :
    ∃ pc ∈ (run0_C V c t hc0 hc1 p).2.2.2.2.1, y ∈ pc.1.set :=
  View.cover_of_tiledL (run0_C V c t hc0 hc1 p).2.2.2.2.1 S16x2048.size (by sl_kernel_rfl) y

/-- Case C's pieces for scratch 2 tile the buffer, so they cover it. -/
theorem cover0_C_s2 (c : Dev nD) (t : Fin cfg0.N) (hc0 : ¬cond0_0 (grid0.coords t)) (hc1 : cond0_1 (grid0.coords t)) (p : St0 F) (y : S16x2048.Idx) :
    ∃ pc ∈ (run0_C V c t hc0 hc1 p).2.2.2.2.2.1, y ∈ pc.1.set :=
  View.cover_of_tiledL (run0_C V c t hc0 hc1 p).2.2.2.2.2.1 S16x2048.size (by sl_kernel_rfl) y

/-- The state after a point of case C: each buffer the case stores into at its pieces read back, an idle output block at
    contents nothing reads, a scratch the case only reads as the point before left it. -/
noncomputable def st0_C (c : Dev nD) (t : Fin cfg0.N) (hc0 : ¬cond0_0 (grid0.coords t)) (hc1 : cond0_1 (grid0.coords t)) (p : St0 F) : St0 F where
  o4 := VO0_4.read (Elt F) (VO0_4.writes (Elt F) VO0_4.junk (run0_C V c t hc0 hc1 p).1)
  o5 := VO0_5.read (Elt F) (VO0_5.writes (Elt F) VO0_5.junk (run0_C V c t hc0 hc1 p).2.1)
  o6 := VO0_6.read (Elt F) (VO0_6.writes (Elt F) VO0_6.junk (run0_C V c t hc0 hc1 p).2.2.1)
  s0 := VS0_0.read (Elt F) (VS0_0.writes (Elt F) VS0_0.junk (run0_C V c t hc0 hc1 p).2.2.2.1)
  s1 := VS0_1.read (Elt F) (VS0_1.writes (Elt F) VS0_1.junk (run0_C V c t hc0 hc1 p).2.2.2.2.1)
  s2 := VS0_2.read (Elt F) (VS0_2.writes (Elt F) VS0_2.junk (run0_C V c t hc0 hc1 p).2.2.2.2.2.1)
  s3 := p.s3

/-- THE ACCUMULATION: the state after the body at position `n`, by recursion on the position — the case the closed
    forms select there, run on what the point before left. -/
noncomputable def outsAt0 (c : Dev nD) : (n : ℕ) → n < cfg0.N → St0 F
  | 0, hn => st0_A V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      if h1 : (n + 1) % 8 = 7 then
        False.elim (by omega)
      else
        st0_A V c ⟨n + 1, hn⟩ ((hcond0_0 ⟨n + 1, hn⟩).mpr h0) (fun h => h1 ((hcond0_1 ⟨n + 1, hn⟩).mp h))
    else
      if h1 : (n + 1) % 8 = 7 then
        st0_C V c ⟨n + 1, hn⟩ (fun h => h0 ((hcond0_0 ⟨n + 1, hn⟩).mp h)) ((hcond0_1 ⟨n + 1, hn⟩).mpr h1) (outsAt0 c n (Nat.lt_of_succ_lt hn))
      else
        st0_B V c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val % 8 = 0) (h1 : ¬t.val % 8 = 7) :
    outsAt0 V c t.val t.isLt = st0_A V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_C (c : Dev nD) (t : Fin cfg0.N) (h0 : ¬t.val % 8 = 0) (h1 : t.val % 8 = 7) :
    outsAt0 V c t.val t.isLt = st0_C V c t (fun h => h0 ((hcond0_0 t).mp h)) ((hcond0_1 t).mpr h1) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem outsAt0_B (c : Dev nD) (t : Fin cfg0.N) (h0 : ¬t.val % 8 = 0) (h1 : ¬t.val % 8 = 7) :
    outsAt0 V c t.val t.isLt = st0_B V c t (fun h => h0 ((hcond0_0 t).mp h)) (fun h => h1 ((hcond0_1 t).mp h)) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The region's invariant before position `n`: before the first point every scratch at anything; afterwards each
    scratch at what the point before left in it. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (outsAt0 V c (n - 1) (by omega)).s0 ∗ owns (c : Thread nD τ) scM0_1 fullShare (outsAt0 V c (n - 1) (by omega)).s1 ∗ owns (c : Thread nD τ) scM0_2 fullShare (outsAt0 V c (n - 1) (by omega)).s2 ∗ owns (c : Thread nD τ) scM0_3 fullShare (outsAt0 V c (n - 1) (by omega)).s3 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  cases n with
  | zero => exact absurd rfl hz
  | succ n => rfl

/-! ## The pipeline's proof data -/

/-- The proof data on core `c`: the arrays as the region finds them; after the body at point `t` each input's buffer at
    its block and each output's at the state's component; the invariant above; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).o4
    | ⟨5, _⟩ => (outsAt0 V c t.val t.isLt).o5
    | ⟨6, _⟩ => (outsAt0 V c t.val t.isLt).o6
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).o4 := by dsimp only [dat0]
theorem after0_5 (c : Dev nD) (t : Fin cfg0.N) : (dat0 V c).after 5 t = (outsAt0 V c t.val t.isLt).o5 := by dsimp only [dat0]
theorem after0_6 (c : Dev nD) (t : Fin cfg0.N) : (dat0 V c).after 6 t = (outsAt0 V c t.val t.isLt).o6 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the closed forms say which case the point is in; the inputs' memrefs hold their blocks, the
    invariant hands over the scratch at what the point before left (at anything before the first point), the case's
    run applies, and each buffer it stored into is owned again at its pieces read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold st0_A; (try dsimp only)
      by_cases hz : t.val = 0
      · rw [PhiS0_castSucc V c t, PhiS0_zero V c _ _ hz, PhiA0_eq]
        iintro ⟨⟨⟨⟨%ds0, HS0⟩, ⟨%ds1, HS1⟩, ⟨%ds2, HS2⟩, ⟨%ds3, HS3⟩, Hr0, Hr1, Hr2, Hr3, Hr4, Hr5, Hr6, Hr7, Hr8, Hr9, Hr10, Hr11, Hr12, Hr13, Hr14⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, H4, H5, H6, ⟨%eHS0, HS0⟩, ⟨%eHS1, HS1⟩, ⟨%eHS2, HS2⟩, ⟨%eHS3, HS3⟩⟩
        isplitl [HS0 HS1 HS2 HS3 Hr0 Hr1 Hr2 Hr3 Hr4 Hr5 Hr6 Hr7 Hr8 Hr9 Hr10 Hr11 Hr12 Hr13 Hr14 Hg]
        · isplitl [HS0 HS1 HS2 HS3 Hr0 Hr1 Hr2 Hr3 Hr4 Hr5 Hr6 Hr7 Hr8 Hr9 Hr10 Hr11 Hr12 Hr13 Hr14]
          · isplitl [HS0]
            · unfold owns; iexists _; isplitr
              swap; · iexact HS0
              ipureintro; exact View.read_writes_of_cover _ _ _ _ _ (cover0_A_s0 V c t ((hcond0_0 t).mpr h0) (fun h => h1 ((hcond0_1 t).mp h)) )
            isplitl [HS1]
            · unfold owns; iexists _; isplitr
              swap; · iexact HS1
              ipureintro; exact View.read_writes_of_cover _ _ _ _ _ (cover0_A_s1 V c t ((hcond0_0 t).mpr h0) (fun h => h1 ((hcond0_1 t).mp h)) )
            isplitl [HS2]
            · unfold owns; iexists _; isplitr
              swap; · iexact HS2
              ipureintro; exact View.read_writes_of_cover _ _ _ _ _ (cover0_A_s2 V c t ((hcond0_0 t).mpr h0) (fun h => h1 ((hcond0_1 t).mp h)) )
            isplitl [HS3]
            · unfold owns; iexists _; isplitr
              swap; · iexact HS3
              ipureintro; exact View.read_writes_of_cover _ _ _ _ _ (cover0_A_s3 V c t ((hcond0_0 t).mpr h0) (fun h => h1 ((hcond0_1 t).mp h)) )
            isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            iexact Hr14
          iexact Hg
        isplitl [Ho]; · iexact Ho
        isplitl [H0]
        · iexact H0
        isplitl [H1]
        · iexact H1
        isplitl [H2]
        · iexact H2
        isplitl [H3]
        · iexact H3
        isplitl [H4]
        · iexists _; iexact H4
        isplitl [H5]
        · iexists _; iexact H5
        iexists _; iexact H6
      · rw [PhiS0_castSucc V c t, PhiS0_pos V c _ _ hz]
        iintro ⟨⟨⟨HS0, HS1, HS2, HS3, Hr0, Hr1, Hr2, Hr3, Hr4, Hr5, Hr6, Hr7, Hr8, Hr9, Hr10, Hr11, Hr12, Hr13, Hr14⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, H4, H5, H6, ⟨%eHS0, HS0⟩, ⟨%eHS1, HS1⟩, ⟨%eHS2, HS2⟩, ⟨%eHS3, HS3⟩⟩
        isplitl [HS0 HS1 HS2 HS3 Hr0 Hr1 Hr2 Hr3 Hr4 Hr5 Hr6 Hr7 Hr8 Hr9 Hr10 Hr11 Hr12 Hr13 Hr14 Hg]
        · isplitl [HS0 HS1 HS2 HS3 Hr0 Hr1 Hr2 Hr3 Hr4 Hr5 Hr6 Hr7 Hr8 Hr9 Hr10 Hr11 Hr12 Hr13 Hr14]
          · isplitl [HS0]
            · unfold owns; iexists _; isplitr
              swap; · iexact HS0
              ipureintro; exact View.read_writes_of_cover _ _ _ _ _ (cover0_A_s0 V c t ((hcond0_0 t).mpr h0) (fun h => h1 ((hcond0_1 t).mp h)) )
            isplitl [HS1]
            · unfold owns; iexists _; isplitr
              swap; · iexact HS1
              ipureintro; exact View.read_writes_of_cover _ _ _ _ _ (cover0_A_s1 V c t ((hcond0_0 t).mpr h0) (fun h => h1 ((hcond0_1 t).mp h)) )
            isplitl [HS2]
            · unfold owns; iexists _; isplitr
              swap; · iexact HS2
              ipureintro; exact View.read_writes_of_cover _ _ _ _ _ (cover0_A_s2 V c t ((hcond0_0 t).mpr h0) (fun h => h1 ((hcond0_1 t).mp h)) )
            isplitl [HS3]
            · unfold owns; iexists _; isplitr
              swap; · iexact HS3
              ipureintro; exact View.read_writes_of_cover _ _ _ _ _ (cover0_A_s3 V c t ((hcond0_0 t).mpr h0) (fun h => h1 ((hcond0_1 t).mp h)) )
            isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            iexact Hr14
          iexact Hg
        isplitl [Ho]; · iexact Ho
        isplitl [H0]
        · iexact H0
        isplitl [H1]
        · iexact H1
        isplitl [H2]
        · iexact H2
        isplitl [H3]
        · iexact H3
        isplitl [H4]
        · iexists _; iexact H4
        isplitl [H5]
        · iexists _; iexact H5
        iexists _; iexact H6
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold st0_C; (try dsimp only)
      by_cases hz : t.val = 0
      · exfalso; omega
      · rw [PhiS0_castSucc V c t, PhiS0_pos V c _ _ hz]
        iintro ⟨⟨⟨HS0, HS1, HS2, HS3, Hr0, Hr1, Hr2, Hr3, Hr4, Hr5, Hr6, Hr7, Hr8, Hr9, Hr10, Hr11, Hr12, Hr13, Hr14⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ _ _).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, ⟨%eH4, H4⟩, ⟨%eH5, H5⟩, ⟨%eH6, H6⟩, ⟨%eHS0, HS0⟩, ⟨%eHS1, HS1⟩, ⟨%eHS2, HS2⟩, HS3⟩
        isplitl [HS0 HS1 HS2 HS3 Hr0 Hr1 Hr2 Hr3 Hr4 Hr5 Hr6 Hr7 Hr8 Hr9 Hr10 Hr11 Hr12 Hr13 Hr14 Hg]
        · isplitl [HS0 HS1 HS2 HS3 Hr0 Hr1 Hr2 Hr3 Hr4 Hr5 Hr6 Hr7 Hr8 Hr9 Hr10 Hr11 Hr12 Hr13 Hr14]
          · isplitl [HS0]
            · unfold owns; iexists _; isplitr
              swap; · iexact HS0
              ipureintro; exact View.read_writes_of_cover _ _ _ _ _ (cover0_C_s0 V c t (fun h => h0 ((hcond0_0 t).mp h)) ((hcond0_1 t).mpr h1) _ )
            isplitl [HS1]
            · unfold owns; iexists _; isplitr
              swap; · iexact HS1
              ipureintro; exact View.read_writes_of_cover _ _ _ _ _ (cover0_C_s1 V c t (fun h => h0 ((hcond0_0 t).mp h)) ((hcond0_1 t).mpr h1) _ )
            isplitl [HS2]
            · unfold owns; iexists _; isplitr
              swap; · iexact HS2
              ipureintro; exact View.read_writes_of_cover _ _ _ _ _ (cover0_C_s2 V c t (fun h => h0 ((hcond0_0 t).mp h)) ((hcond0_1 t).mpr h1) _ )
            isplitl [HS3]
            · iexact HS3
            isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            iexact Hr14
          iexact Hg
        isplitl [Ho]; · iexact Ho
        isplitl [H0]
        · iexact H0
        isplitl [H1]
        · iexact H1
        isplitl [H2]
        · iexact H2
        isplitl [H3]
        · iexact H3
        isplitl [H4]
        · unfold owns; iexists _; isplitr
          swap; · iexact H4
          ipureintro; exact View.read_writes_of_cover _ _ _ _ _ (cover0_C_o4 V c t (fun h => h0 ((hcond0_0 t).mp h)) ((hcond0_1 t).mpr h1) _ )
        isplitl [H5]
        · unfold owns; iexists _; isplitr
          swap; · iexact H5
          ipureintro; exact View.read_writes_of_cover _ _ _ _ _ (cover0_C_o5 V c t (fun h => h0 ((hcond0_0 t).mp h)) ((hcond0_1 t).mpr h1) _ )
        unfold owns; iexists _; isplitr
        swap; · iexact H6
        ipureintro; exact View.read_writes_of_cover _ _ _ _ _ (cover0_C_o6 V c t (fun h => h0 ((hcond0_0 t).mp h)) ((hcond0_1 t).mpr h1) _ )
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold st0_B; (try dsimp only)
      by_cases hz : t.val = 0
      · exfalso; omega
      · rw [PhiS0_castSucc V c t, PhiS0_pos V c _ _ hz]
        iintro ⟨⟨⟨HS0, HS1, HS2, HS3, Hr0, Hr1, Hr2, Hr3, Hr4, Hr5, Hr6, Hr7, Hr8, Hr9, Hr10, Hr11, Hr12, Hr13, Hr14⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ _ _).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, H4, H5, H6, ⟨%eHS0, HS0⟩, ⟨%eHS1, HS1⟩, ⟨%eHS2, HS2⟩, HS3⟩
        isplitl [HS0 HS1 HS2 HS3 Hr0 Hr1 Hr2 Hr3 Hr4 Hr5 Hr6 Hr7 Hr8 Hr9 Hr10 Hr11 Hr12 Hr13 Hr14 Hg]
        · isplitl [HS0 HS1 HS2 HS3 Hr0 Hr1 Hr2 Hr3 Hr4 Hr5 Hr6 Hr7 Hr8 Hr9 Hr10 Hr11 Hr12 Hr13 Hr14]
          · isplitl [HS0]
            · unfold owns; iexists _; isplitr
              swap; · iexact HS0
              ipureintro; exact View.read_writes_of_cover _ _ _ _ _ (cover0_B_s0 V c t (fun h => h0 ((hcond0_0 t).mp h)) (fun h => h1 ((hcond0_1 t).mp h)) _ )
            isplitl [HS1]
            · unfold owns; iexists _; isplitr
              swap; · iexact HS1
              ipureintro; exact View.read_writes_of_cover _ _ _ _ _ (cover0_B_s1 V c t (fun h => h0 ((hcond0_0 t).mp h)) (fun h => h1 ((hcond0_1 t).mp h)) _ )
            isplitl [HS2]
            · unfold owns; iexists _; isplitr
              swap; · iexact HS2
              ipureintro; exact View.read_writes_of_cover _ _ _ _ _ (cover0_B_s2 V c t (fun h => h0 ((hcond0_0 t).mp h)) (fun h => h1 ((hcond0_1 t).mp h)) _ )
            isplitl [HS3]
            · iexact HS3
            isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            iexact Hr14
          iexact Hg
        isplitl [Ho]; · iexact Ho
        isplitl [H0]
        · iexact H0
        isplitl [H1]
        · iexact H1
        isplitl [H2]
        · iexact H2
        isplitl [H3]
        · iexact H3
        isplitl [H4]
        · iexists _; iexact H4
        isplitl [H5]
        · iexists _; iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, Hr0, Hr1, Hr2, Hr3, Hr4, Hr5, Hr6, Hr7, Hr8, Hr9, Hr10, Hr11, Hr12, Hr13, Hr14⟩, Hg⟩
  isplitl [HS0 HS1 HS2 HS3 Hr0 Hr1 Hr2 Hr3 Hr4 Hr5 Hr6 Hr7 Hr8 Hr9 Hr10 Hr11 Hr12 Hr13 Hr14]
  · isplitl [HS0]; · iexists _; iexact HS0
    isplitl [HS1]; · iexists _; iexact HS1
    isplitl [HS2]; · iexists _; iexact HS2
    isplitl [HS3]; · iexists _; iexact HS3
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    iexact Hr14
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.K.Run1A.lean ====
/-
  The attention kernel's body at chunk 0 of a head.

  It resets the running maximum to -inf and the running denominator and numerator to 0, then folds the chunk's
  4096 cached keys and values in.  The new keys and values and the output block are not touched, and nothing the
  three scratch buffers held before is used.
-/
import proofs.«129545_j317827580172_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The kernel body run once on whole buffers in this case: each buffer it stores into ends as its former
    contents overwritten by the listed pieces (which the run itself finds), every other buffer as it was. -/
noncomputable def kernelRun1_A (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x128 .f32) (harg10 : arg10.IsWhole) (hc0 : cond1_0 i) (hc1 : ¬cond1_1 i)
    (x0 : Vec F S1x16x128 .f32) (x1 : Vec F S1x4096x128 .f32) (x2 : Vec F S1x4096x128 .f32) :
    Σ' (LS0 : List (View.Piece (Elt F) S16x1 .f32)) (LS1 : List (View.Piece (Elt F) S16x1 .f32)), { LS2 : List (View.Piece (Elt F) S16x128 .f32) //
      ∀ (x3 : Vec F S1x16x128 .f32) (x4 : Vec F S1x16x128 .f32) (xi5 : Vec F S1x16x128 .f32) (xs0 : Vec F S16x1 .f32) (xs1 : Vec F S16x1 .f32) (xs2 : Vec F S16x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun x3 x4 xi5 xs0 xs1 xs2 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    iexists _; iexact H8

end Cert.Kernel.Hand

end
-- ==== Proof.K.Run1B.lean ====
/-
  The attention kernel's body at chunk 1 (the last) of a head.

  It folds the chunk's 4096 cached keys and values into the running triple, then the 16 new keys and values, and
  stores numerator / denominator into the output block.
-/
import proofs.«129545_j317827580172_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The kernel body run once on whole buffers in this case: each buffer it stores into ends as its former
    contents overwritten by the listed pieces (which the run itself finds), every other buffer as it was. -/
noncomputable def kernelRun1_B (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x128 .f32) (harg10 : arg10.IsWhole) (hc0 : ¬cond1_0 i) (hc1 : cond1_1 i)
    (x0 : Vec F S1x16x128 .f32) (x1 : Vec F S1x4096x128 .f32) (x2 : Vec F S1x4096x128 .f32) (x3 : Vec F S1x16x128 .f32) (x4 : Vec F S1x16x128 .f32) (xs0 : Vec F S16x1 .f32) (xs1 : Vec F S16x1 .f32) (xs2 : Vec F S16x128 .f32) :
    Σ' (L5 : List (View.Piece (Elt F) S1x16x128 .f32)) (LS0 : List (View.Piece (Elt F) S16x1 .f32)) (LS1 : List (View.Piece (Elt F) S16x1 .f32)), { LS2 : List (View.Piece (Elt F) S16x128 .f32) //
      ∀ (xi5 : Vec F S1x16x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, ?_, fun xi5 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    isplitl [H7]
    · iexists _; iexact H7
    iexists _; iexact H8

end Cert.Kernel.Hand

end
-- ==== Proof.K.Reg1.lean ====
/-
  The attention kernel over its whole grid: what each buffer holds after every point, and the body obligation.

  The grid has 64 points, (head h, chunk c) with c innermost, so point t has c = t mod 2.  After chunk 0 the
  scratch holds the running maximum, denominator and numerator of the head's first 4096 keys; after chunk 1 it
  holds those of all 8192 cached keys and the 16 new ones, and the output block holds numerator / denominator,
  which is written back to block h of the result.  The state after a point is defined by recursion on the point
  from the two per-case runs of the body; the invariant between points names the three scratch buffers at it.
-/
import proofs.«129545_j317827580172_2_alg».proof.Proof.K.Run1A
import proofs.«129545_j317827580172_2_alg».proof.Proof.K.Run1B
import Idealize.ShloMosaic.Lib.Pipeline.Frame
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents and whose body leaves the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is the entry contents and whose body leaves the block in place. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions in closed form, and where the output windows are idle -/

theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem liveAt1_5_B : ∀ t : Fin cfg1.N, ¬cond1_0 (grid1.coords t) → cond1_1 (grid1.coords t) → cfg1.idle 5 (grid1.coords t) = false := by decide +kernel

/-! ## The buffers the body is called on -/

/-- One staging buffer of output window 5, through whose view its contents are stated (which one does not matter). -/
abbrev VO1_5 : View sig .tc .vmem S1x16x128 .f32 := (Memref.whole cc1_stg5_0 : Memref sig .tc .vmem S1x16x128 .f32).view
abbrev ms1_0 (t : Fin cfg1.N) : Memref sig .tc .vmem S1x16x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x16x128 .f32 := win1_5.stage (cfg1.slots t 5)
abbrev hs1_5 (t : Fin cfg1.N) : (ms1_5 t).IsWhole := hstage1_5 ((cfg1.slots t 5).cast nbuf1_5)
/-- Scratch operand 0 of the kernel: a whole scoped buffer of its own. -/
abbrev scM1_0 : Memref sig .tc .vmem S16x1 .f32 := Memref.whole cc1_scratch0
abbrev VS1_0 : View sig .tc .vmem S16x1 .f32 := scM1_0.view
/-- Scratch operand 1 of the kernel: a whole scoped buffer of its own. -/
abbrev scM1_1 : Memref sig .tc .vmem S16x1 .f32 := Memref.whole cc1_scratch1
abbrev VS1_1 : View sig .tc .vmem S16x1 .f32 := scM1_1.view
/-- Scratch operand 2 of the kernel: a whole scoped buffer of its own. -/
abbrev scM1_2 : Memref sig .tc .vmem S16x128 .f32 := Memref.whole cc1_scratch2
abbrev VS1_2 : View sig .tc .vmem S16x128 .f32 := scM1_2.view

/-- The region's invariant before the first point, with the kernel's scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-! ## The state after a point -/

/-- What the output windows' staging buffers (`o·`) and the scratch buffers (`s·`) hold after a point. -/
structure St1 (F : FTy → Type) where
  o5 : Vec F S1x16x128 .f32
  s0 : Vec F S16x1 .f32
  s1 : Vec F S16x1 .f32
  s2 : Vec F S16x128 .f32

/-- Contents nothing reads: an output block's at a point that neither stores into it nor writes it back. -/
def junk1_o (w : Unit) : Vec F S1x16x128 .f32 := VO1_5.read (Elt F) VO1_5.junk

/-- The body's run at a point of case A, on the point's memrefs and input blocks. -/
noncomputable abbrev run1_A (c : Dev nD) (t : Fin cfg1.N) (hc0 : cond1_0 (grid1.coords t)) (hc1 : ¬cond1_1 (grid1.coords t)) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t)

/-- Case A's pieces for scratch 0 tile the buffer, so they cover it. -/
theorem cover1_A_s0 (c : Dev nD) (t : Fin cfg1.N) (hc0 : cond1_0 (grid1.coords t)) (hc1 : ¬cond1_1 (grid1.coords t)) (y : S16x1.Idx) :
    ∃ pc ∈ (run1_A V c t hc0 hc1).1, y ∈ pc.1.set :=
  View.cover_of_tiledL (run1_A V c t hc0 hc1).1 S16x1.size (by sl_kernel_rfl) y

/-- Case A's pieces for scratch 1 tile the buffer, so they cover it. -/
theorem cover1_A_s1 (c : Dev nD) (t : Fin cfg1.N) (hc0 : cond1_0 (grid1.coords t)) (hc1 : ¬cond1_1 (grid1.coords t)) (y : S16x1.Idx) :
    ∃ pc ∈ (run1_A V c t hc0 hc1).2.1, y ∈ pc.1.set :=
  View.cover_of_tiledL (run1_A V c t hc0 hc1).2.1 S16x1.size (by sl_kernel_rfl) y

/-- Case A's pieces for scratch 2 tile the buffer, so they cover it. -/
theorem cover1_A_s2 (c : Dev nD) (t : Fin cfg1.N) (hc0 : cond1_0 (grid1.coords t)) (hc1 : ¬cond1_1 (grid1.coords t)) (y : S16x128.Idx) :
    ∃ pc ∈ (run1_A V c t hc0 hc1).2.2.1, y ∈ pc.1.set :=
  View.cover_of_tiledL (run1_A V c t hc0 hc1).2.2.1 S16x128.size (by sl_kernel_rfl) y

/-- The state after a point of case A: each buffer the case stores into at its pieces read back, an idle output block at
    contents nothing reads. -/
noncomputable def st1_A (c : Dev nD) (t : Fin cfg1.N) (hc0 : cond1_0 (grid1.coords t)) (hc1 : ¬cond1_1 (grid1.coords t)) : St1 F where
  o5 := VO1_5.read (Elt F) VO1_5.junk
  s0 := VS1_0.read (Elt F) (VS1_0.writes (Elt F) VS1_0.junk (run1_A V c t hc0 hc1).1)
  s1 := VS1_1.read (Elt F) (VS1_1.writes (Elt F) VS1_1.junk (run1_A V c t hc0 hc1).2.1)
  s2 := VS1_2.read (Elt F) (VS1_2.writes (Elt F) VS1_2.junk (run1_A V c t hc0 hc1).2.2.1)

/-- The body's run at a point of case B, on the point's memrefs and input blocks and the state the point before left. -/
noncomputable abbrev run1_B (c : Dev nD) (t : Fin cfg1.N) (hc0 : ¬cond1_0 (grid1.coords t)) (hc1 : cond1_1 (grid1.coords t)) (p : St1 F) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) p.s0 p.s1 p.s2

/-- Case B's pieces for output window 5 tile the buffer, so they cover it. -/
theorem cover1_B_o5 (c : Dev nD) (t : Fin cfg1.N) (hc0 : ¬cond1_0 (grid1.coords t)) (hc1 : cond1_1 (grid1.coords t)) (p : St1 F) (y : S1x16x128.Idx) :
    ∃ pc ∈ (run1_B V c t hc0 hc1 p).1, y ∈ pc.1.set :=
  View.cover_of_tiledL (run1_B V c t hc0 hc1 p).1 S1x16x128.size (by sl_kernel_rfl) y

/-- Case B's pieces for scratch 0 tile the buffer, so they cover it. -/
theorem cover1_B_s0 (c : Dev nD) (t : Fin cfg1.N) (hc0 : ¬cond1_0 (grid1.coords t)) (hc1 : cond1_1 (grid1.coords t)) (p : St1 F) (y : S16x1.Idx) :
    ∃ pc ∈ (run1_B V c t hc0 hc1 p).2.1, y ∈ pc.1.set :=
  View.cover_of_tiledL (run1_B V c t hc0 hc1 p).2.1 S16x1.size (by sl_kernel_rfl) y

/-- Case B's pieces for scratch 1 tile the buffer, so they cover it. -/
theorem cover1_B_s1 (c : Dev nD) (t : Fin cfg1.N) (hc0 : ¬cond1_0 (grid1.coords t)) (hc1 : cond1_1 (grid1.coords t)) (p : St1 F) (y : S16x1.Idx) :
    ∃ pc ∈ (run1_B V c t hc0 hc1 p).2.2.1, y ∈ pc.1.set :=
  View.cover_of_tiledL (run1_B V c t hc0 hc1 p).2.2.1 S16x1.size (by sl_kernel_rfl) y

/-- Case B's pieces for scratch 2 tile the buffer, so they cover it. -/
theorem cover1_B_s2 (c : Dev nD) (t : Fin cfg1.N) (hc0 : ¬cond1_0 (grid1.coords t)) (hc1 : cond1_1 (grid1.coords t)) (p : St1 F) (y : S16x128.Idx) :
    ∃ pc ∈ (run1_B V c t hc0 hc1 p).2.2.2.1, y ∈ pc.1.set :=
  View.cover_of_tiledL (run1_B V c t hc0 hc1 p).2.2.2.1 S16x128.size (by sl_kernel_rfl) y

/-- The state after a point of case B: each buffer the case stores into at its pieces read back, an idle output block at
    contents nothing reads, a scratch the case only reads as the point before left it. -/
noncomputable def st1_B (c : Dev nD) (t : Fin cfg1.N) (hc0 : ¬cond1_0 (grid1.coords t)) (hc1 : cond1_1 (grid1.coords t)) (p : St1 F) : St1 F where
  o5 := VO1_5.read (Elt F) (VO1_5.writes (Elt F) VO1_5.junk (run1_B V c t hc0 hc1 p).1)
  s0 := VS1_0.read (Elt F) (VS1_0.writes (Elt F) VS1_0.junk (run1_B V c t hc0 hc1 p).2.1)
  s1 := VS1_1.read (Elt F) (VS1_1.writes (Elt F) VS1_1.junk (run1_B V c t hc0 hc1 p).2.2.1)
  s2 := VS1_2.read (Elt F) (VS1_2.writes (Elt F) VS1_2.junk (run1_B V c t hc0 hc1 p).2.2.2.1)

/-- THE ACCUMULATION: the state after the body at position `n`, by recursion on the position — the case the closed
    forms select there, run on what the point before left. -/
noncomputable def outsAt1 (c : Dev nD) : (n : ℕ) → n < cfg1.N → St1 F
  | 0, hn => st1_A V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 2 = 0 then
      if h1 : (n + 1) % 2 = 1 then
        False.elim (by omega)
      else
        st1_A V c ⟨n + 1, hn⟩ ((hcond1_0 ⟨n + 1, hn⟩).mpr h0) (fun h => h1 ((hcond1_1 ⟨n + 1, hn⟩).mp h))
    else
      if h1 : (n + 1) % 2 = 1 then
        st1_B V c ⟨n + 1, hn⟩ (fun h => h0 ((hcond1_0 ⟨n + 1, hn⟩).mp h)) ((hcond1_1 ⟨n + 1, hn⟩).mpr h1) (outsAt1 c n (Nat.lt_of_succ_lt hn))
      else
        False.elim (by omega)

theorem outsAt1_A (c : Dev nD) (t : Fin cfg1.N) (h0 : t.val % 2 = 0) (h1 : ¬t.val % 2 = 1) :
    outsAt1 V c t.val t.isLt = st1_A V c t ((hcond1_0 t).mpr h0) (fun h => h1 ((hcond1_1 t).mp h)) := by
  obtain ⟨n, hn⟩ := t
  cases n with
  | zero => exact rfl
  | succ n => exact (dif_pos h0).trans ((dif_neg h1).trans rfl)

theorem outsAt1_B (c : Dev nD) (t : Fin cfg1.N) (h0 : ¬t.val % 2 = 0) (h1 : t.val % 2 = 1) :
    outsAt1 V c t.val t.isLt = st1_B V c t (fun h => h0 ((hcond1_0 t).mp h)) ((hcond1_1 t).mpr h1) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch at anything; afterwards each
    scratch at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare (outsAt1 V c n hn).s0 ∗ owns (c : Thread nD τ) scM1_1 fullShare (outsAt1 V c n hn).s1 ∗ owns (c : Thread nD τ) scM1_2 fullShare (outsAt1 V c n hn).s2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare (outsAt1 V c n hn).s0 ∗ owns (c : Thread nD τ) scM1_1 fullShare (outsAt1 V c n hn).s1 ∗ owns (c : Thread nD τ) scM1_2 fullShare (outsAt1 V c n hn).s2) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare (outsAt1 V c (n - 1) (by omega)).s0 ∗ owns (c : Thread nD τ) scM1_1 fullShare (outsAt1 V c (n - 1) (by omega)).s1 ∗ owns (c : Thread nD τ) scM1_2 fullShare (outsAt1 V c (n - 1) (by omega)).s2) ∗ (∃ r, prngReg c r)) := by
  cases n with
  | zero => exact absurd rfl hz
  | succ n => rfl

/-! ## The pipeline's proof data -/

/-- The proof data on core `c`: the arrays as the region finds them; after the body at point `t` each input's buffer at
    its block and each output's at the state's component; the invariant above; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).o5
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).o5 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the closed forms say which case the point is in; the inputs' memrefs hold their blocks, the
    invariant hands over the scratch at what the point before left (at anything before the first point), the case's
    run applies, and each buffer it stored into is owned again at its pieces read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 2 = 0
  · by_cases h1 : t.val % 2 = 1
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold st1_A; (try dsimp only)
      by_cases hz : t.val = 0
      · rw [PhiS1_castSucc V c t, PhiS1_zero V c _ _ hz, PhiA1_eq]
        iintro ⟨⟨⟨Hr0, Hr1, Hr2, Hr3, Hr4, Hr5, Hr6, Hr7, Hr8, Hr9, Hr10, Hr11, Hr12, Hr13, Hr14, Hr15, Hr16, ⟨%ds0, HS0⟩, ⟨%ds1, HS1⟩, ⟨%ds2, HS2⟩⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t)).2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%eHS0, HS0⟩, ⟨%eHS1, HS1⟩, ⟨%eHS2, HS2⟩⟩
        isplitl [Hr0 Hr1 Hr2 Hr3 Hr4 Hr5 Hr6 Hr7 Hr8 Hr9 Hr10 Hr11 Hr12 Hr13 Hr14 Hr15 Hr16 HS0 HS1 HS2 Hg]
        · isplitl [Hr0 Hr1 Hr2 Hr3 Hr4 Hr5 Hr6 Hr7 Hr8 Hr9 Hr10 Hr11 Hr12 Hr13 Hr14 Hr15 Hr16 HS0 HS1 HS2]
          · isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            isplitl [Hr16]
            · iexact Hr16
            isplitl [HS0]
            · unfold owns; iexists _; isplitr
              swap; · iexact HS0
              ipureintro; exact View.read_writes_of_cover _ _ _ _ _ (cover1_A_s0 V c t ((hcond1_0 t).mpr h0) (fun h => h1 ((hcond1_1 t).mp h)) )
            isplitl [HS1]
            · unfold owns; iexists _; isplitr
              swap; · iexact HS1
              ipureintro; exact View.read_writes_of_cover _ _ _ _ _ (cover1_A_s1 V c t ((hcond1_0 t).mpr h0) (fun h => h1 ((hcond1_1 t).mp h)) )
            unfold owns; iexists _; isplitr
            swap; · iexact HS2
            ipureintro; exact View.read_writes_of_cover _ _ _ _ _ (cover1_A_s2 V c t ((hcond1_0 t).mpr h0) (fun h => h1 ((hcond1_1 t).mp h)) )
          iexact Hg
        isplitl [Ho]; · iexact Ho
        isplitl [H0]
        · iexact H0
        isplitl [H1]
        · iexact H1
        isplitl [H2]
        · iexact H2
        isplitl [H3]
        · iexact H3
        isplitl [H4]
        · iexact H4
        iexists _; iexact H5
      · rw [PhiS1_castSucc V c t, PhiS1_pos V c _ _ hz]
        iintro ⟨⟨⟨Hr0, Hr1, Hr2, Hr3, Hr4, Hr5, Hr6, Hr7, Hr8, Hr9, Hr10, Hr11, Hr12, Hr13, Hr14, Hr15, Hr16, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t)).2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%eHS0, HS0⟩, ⟨%eHS1, HS1⟩, ⟨%eHS2, HS2⟩⟩
        isplitl [Hr0 Hr1 Hr2 Hr3 Hr4 Hr5 Hr6 Hr7 Hr8 Hr9 Hr10 Hr11 Hr12 Hr13 Hr14 Hr15 Hr16 HS0 HS1 HS2 Hg]
        · isplitl [Hr0 Hr1 Hr2 Hr3 Hr4 Hr5 Hr6 Hr7 Hr8 Hr9 Hr10 Hr11 Hr12 Hr13 Hr14 Hr15 Hr16 HS0 HS1 HS2]
          · isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            isplitl [Hr16]
            · iexact Hr16
            isplitl [HS0]
            · unfold owns; iexists _; isplitr
              swap; · iexact HS0
              ipureintro; exact View.read_writes_of_cover _ _ _ _ _ (cover1_A_s0 V c t ((hcond1_0 t).mpr h0) (fun h => h1 ((hcond1_1 t).mp h)) )
            isplitl [HS1]
            · unfold owns; iexists _; isplitr
              swap; · iexact HS1
              ipureintro; exact View.read_writes_of_cover _ _ _ _ _ (cover1_A_s1 V c t ((hcond1_0 t).mpr h0) (fun h => h1 ((hcond1_1 t).mp h)) )
            unfold owns; iexists _; isplitr
            swap; · iexact HS2
            ipureintro; exact View.read_writes_of_cover _ _ _ _ _ (cover1_A_s2 V c t ((hcond1_0 t).mpr h0) (fun h => h1 ((hcond1_1 t).mp h)) )
          iexact Hg
        isplitl [Ho]; · iexact Ho
        isplitl [H0]
        · iexact H0
        isplitl [H1]
        · iexact H1
        isplitl [H2]
        · iexact H2
        isplitl [H3]
        · iexact H3
        isplitl [H4]
        · iexact H4
        iexists _; iexact H5
  · by_cases h1 : t.val % 2 = 1
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_B t (fun h => h0 ((hcond1_0 t).mp h)) ((hcond1_1 t).mpr h1)], after1_5]
      rw [outsAt1_B V c t h0 h1]
      unfold st1_B; (try dsimp only)
      by_cases hz : t.val = 0
      · exfalso; omega
      · rw [PhiS1_castSucc V c t, PhiS1_pos V c _ _ hz]
        iintro ⟨⟨⟨Hr0, Hr1, Hr2, Hr3, Hr4, Hr5, Hr6, Hr7, Hr8, Hr9, Hr10, Hr11, Hr12, Hr13, Hr14, Hr15, Hr16, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, ⟨%eH5, H5⟩, ⟨%eHS0, HS0⟩, ⟨%eHS1, HS1⟩, ⟨%eHS2, HS2⟩⟩
        isplitl [Hr0 Hr1 Hr2 Hr3 Hr4 Hr5 Hr6 Hr7 Hr8 Hr9 Hr10 Hr11 Hr12 Hr13 Hr14 Hr15 Hr16 HS0 HS1 HS2 Hg]
        · isplitl [Hr0 Hr1 Hr2 Hr3 Hr4 Hr5 Hr6 Hr7 Hr8 Hr9 Hr10 Hr11 Hr12 Hr13 Hr14 Hr15 Hr16 HS0 HS1 HS2]
          · isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            isplitl [Hr16]
            · iexact Hr16
            isplitl [HS0]
            · unfold owns; iexists _; isplitr
              swap; · iexact HS0
              ipureintro; exact View.read_writes_of_cover _ _ _ _ _ (cover1_B_s0 V c t (fun h => h0 ((hcond1_0 t).mp h)) ((hcond1_1 t).mpr h1) _ )
            isplitl [HS1]
            · unfold owns; iexists _; isplitr
              swap; · iexact HS1
              ipureintro; exact View.read_writes_of_cover _ _ _ _ _ (cover1_B_s1 V c t (fun h => h0 ((hcond1_0 t).mp h)) ((hcond1_1 t).mpr h1) _ )
            unfold owns; iexists _; isplitr
            swap; · iexact HS2
            ipureintro; exact View.read_writes_of_cover _ _ _ _ _ (cover1_B_s2 V c t (fun h => h0 ((hcond1_0 t).mp h)) ((hcond1_1 t).mpr h1) _ )
          iexact Hg
        isplitl [Ho]; · iexact Ho
        isplitl [H0]
        · iexact H0
        isplitl [H1]
        · iexact H1
        isplitl [H2]
        · iexact H2
        isplitl [H3]
        · iexact H3
        isplitl [H4]
        · iexact H4
        unfold owns; iexists _; isplitr
        swap; · iexact H5
        ipureintro; exact View.read_writes_of_cover _ _ _ _ _ (cover1_B_o5 V c t (fun h => h0 ((hcond1_0 t).mp h)) ((hcond1_1 t).mpr h1) _ )
    · exfalso; omega

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, Hr5, Hr6, Hr7, Hr8, Hr9, Hr10, Hr11, Hr12, Hr13, Hr14, Hr15, Hr16, HS0, HS1, HS2⟩, Hg⟩
  isplitl [Hr0 Hr1 Hr2 Hr3 Hr4 Hr5 Hr6 Hr7 Hr8 Hr9 Hr10 Hr11 Hr12 Hr13 Hr14 Hr15 Hr16 HS0 HS1 HS2]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.Main.lean ====
/-
  The whole program as a list of segments, and its run.

  @main is: the projection call, six host operations (each of the three results reshaped to [16, 32, 128] and
  transposed to [32, 16, 128]), the attention call, two host operations (the result transposed back and reshaped to
  [16, 4096]).  The buffer contents at each boundary are a fold from the launch memory: a call leaves its windows'
  arrays at what its write-backs make of them and every other buffer alone, a host stretch leaves what its
  operations compute.  Every weakly fair execution ends with every unscoped buffer at the last boundary's contents:
  the six arguments as launched (nothing writes them) and the result at the fold's value.
-/
import proofs.«129545_j317827580172_2_alg».proof.Proof.K.Reg0
import proofs.«129545_j317827580172_2_alg».proof.Proof.K.Reg1
import proofs.«129545_j317827580172_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After call 0: its windows' arrays at what the pipeline leaves (an input as entered, an output with its write-backs
    folded), every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operations `hostOps1`. -/
def W2 (c : Dev nD) : Valuation τ sig (Elt F) := StableHlo.after hostOps1 (W1 m c)
abbrev V2 : (c : Dev nD) → (b : Ref sig .tc) → Buf (Elt F) ((c : Thread nD τ).loc b) := fun c b => W2 m c b
theorem W2_of_not_written (c : Dev nD) (b : Ref sig .tc) (h : b ∉ hostOps1_W) : W2 m c (Proc.devRef .tc b) = W1 m c (Proc.devRef .tc b) :=
  StableHlo.after_of_writes_sub hostOps1 _ hostOps1_writes h

/-- After call 1: its windows' arrays at what the pipeline leaves (an input as entered, an output with its write-backs
    folded), every other buffer as before. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the host operations `hostOps2`. -/
def W4 (c : Dev nD) : Valuation τ sig (Elt F) := StableHlo.after hostOps2 (W3 m c)
abbrev V4 : (c : Dev nD) → (b : Ref sig .tc) → Buf (Elt F) ((c : Thread nD τ).loc b) := fun c b => W4 m c b
theorem W4_of_not_written (c : Dev nD) (b : Ref sig .tc) (h : b ∉ hostOps2_W) : W4 m c (Proc.devRef .tc b) = W3 m c (Proc.devRef .tc b) :=
  StableHlo.after_of_writes_sub hostOps2 _ hostOps2_writes h

/-! ## No segment writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_not_written m c main_arg0 (by decide)
    _ = W2 m c (Proc.devRef .tc main_arg0) := W3_of_ne m c main_arg0 (by decide)
    _ = W1 m c (Proc.devRef .tc main_arg0) := W2_of_not_written m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_not_written m c main_arg1 (by decide)
    _ = W2 m c (Proc.devRef .tc main_arg1) := W3_of_ne m c main_arg1 (by decide)
    _ = W1 m c (Proc.devRef .tc main_arg1) := W2_of_not_written m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_not_written m c main_arg2 (by decide)
    _ = W2 m c (Proc.devRef .tc main_arg2) := W3_of_ne m c main_arg2 (by decide)
    _ = W1 m c (Proc.devRef .tc main_arg2) := W2_of_not_written m c main_arg2 (by decide)
    _ = W0 m c (Proc.devRef .tc main_arg2) := (W1_arr m c 2).trans (((dat0 (V0 m) c).arrAt_in 2 rfl _).trans (A_eq0 (V0 m) c 2))
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_not_written m c main_arg3 (by decide)
    _ = W2 m c (Proc.devRef .tc main_arg3) := W3_of_ne m c main_arg3 (by decide)
    _ = W1 m c (Proc.devRef .tc main_arg3) := W2_of_not_written m c main_arg3 (by decide)
    _ = W0 m c (Proc.devRef .tc main_arg3) := (W1_arr m c 3).trans (((dat0 (V0 m) c).arrAt_in 3 rfl _).trans (A_eq0 (V0 m) c 3))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_not_written m c main_arg4 (by decide)
    _ = W2 m c (Proc.devRef .tc main_arg4) := (W3_arr m c 1).trans (((dat1 (V2 m) c).arrAt_in 1 rfl _).trans (A_eq1 (V2 m) c 1))
    _ = W1 m c (Proc.devRef .tc main_arg4) := W2_of_not_written m c main_arg4 (by decide)
    _ = W0 m c (Proc.devRef .tc main_arg4) := W1_of_ne m c main_arg4 (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_not_written m c main_arg5 (by decide)
    _ = W2 m c (Proc.devRef .tc main_arg5) := (W3_arr m c 2).trans (((dat1 (V2 m) c).arrAt_in 2 rfl _).trans (A_eq1 (V2 m) c 2))
    _ = W1 m c (Proc.devRef .tc main_arg5) := W2_of_not_written m c main_arg5 (by decide)
    _ = W0 m c (Proc.devRef .tc main_arg5) := W1_of_ne m c main_arg5 (by decide)
    _ = m ((c : Thread nD τ).loc main_arg5) := rfl

/-! ## The proof data family and the thread state -/

abbrev adm : (p : Fin 2) → (pcfgs (F := F) p).Adm := fun p => (cfgs p).toPCfg_adm
/-- Each call's proof data at the contents its region is entered from — a literal match on the call. -/
def pdats : (p : Fin 2) → (c : Dev nD) → Dat τ (Elt F) Unit ℕ (Pipeline.UD sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The calls as segments -/

-- `iapply` of a library lemma stated over the pinned configuration unifies only when unification may unfold plain
-- definitions in a metavariable's type
set_option backward.isDefEq.respectTransparency.types false in
/-- Call 0 as a segment: entered from every unscoped buffer at the contents before it, left at the contents after
    it.  Its windows' arrays are split out of the unscoped buffers and put back at what the write-backs leave; the
    generator register and the scoped rest go into the invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V0 m) c)
    unfold Pipeline.ΦA
    iintro ⟨Hp, -, Hr⟩
    isplitl [Hr]; · iexact Hr
    iexact Hp
  hout c := by
    rw [Pipeline.ownSems0_none]
    refine (hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Call 1 as a segment: entered from every unscoped buffer at the contents before it, left at the contents after
    it.  Its windows' arrays are split out of the unscoped buffers and put back at what the write-backs leave; the
    generator register and the scoped rest go into the invariant and come back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main terminates without a fault, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument ends as launched, and the result's buffer at the last boundary's contents. -/
theorem run_main : θ_run defs (onTc (τ := τ) (main (F := F))) ⟨m, fun _ => 0, ρ⟩ (fun r => ∀ c : Dev nD,
      r.2.mem ((c.tc : Thread nD τ).loc main_v9) = W4 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v9 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_main m ρ)

end Cert.Kernel.Hand

end
-- ==== Proof.KI.Conds.lean ====
/-
  The branch conditions of the two kernels, as propositions over a grid point's coordinates.

  The projection kernel runs over (column block j, row block k) of the weights, k innermost: at k = 0 it stores
  the normalised rows and clears its three accumulators, at every k it adds one 512-row slab's products, and at
  k = 7 it copies the accumulators into its three output blocks.  The attention kernel runs over (head, chunk) of
  the cache, chunk innermost: at chunk 0 it resets the running maximum, denominator and numerator, at every chunk
  it folds 4096 cached keys in, and at chunk 1 it also folds the 16 new keys in and divides.
-/
import proofs.«129545_j317827580172_2_alg».proof.Proof.Gen.KernelIdeal.Launch
import proofs.«129545_j317827580172_2_alg».proof.Proof.Gen.KernelIdeal.Skeleton
import proofs.«129545_j317827580172_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The second coordinate of a point of the projection's grid is 0: rows normalised, accumulators cleared. -/
abbrev cond0_0 (i : grid0.Coords) : Prop := (Scalar.cmpi .ne (Scalar.extui (Scalar.cmpi .eq (BitVec.ofNat 32 (i 1).val) 0#32)) 0#32) = 1#1
/-- It is 7: the accumulators are copied out. -/
abbrev cond0_1 (i : grid0.Coords) : Prop := k0_cond2 i = 1#1
/-- The second coordinate of a point of the attention's grid is 0: the running triple is reset. -/
abbrev cond1_0 (i : grid1.Coords) : Prop := (Scalar.cmpi .ne (Scalar.extui (Scalar.cmpi .eq (BitVec.ofNat 32 (i 1).val) 0#32)) 0#32) = 1#1
/-- It is 1: the new keys are folded in and the quotient stored. -/
abbrev cond1_1 (i : grid1.Coords) : Prop := k1_cond2 i = 1#1

end Cert.KernelIdeal.Hand

end
-- ==== Proof.KI.Run0A.lean ====
/-
  The projection kernel's body at a point whose second coordinate is 0.

  It reads the rows of X, stores X·rsqrt(mean of squares) into the row scratch, clears the three accumulators,
  then adds the first 512-row slab's three products into them.  The three output blocks are not touched, and
  nothing the four scratch buffers held before is used.
-/
import proofs.«129545_j317827580172_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The kernel body run once on whole buffers in this case: each buffer it stores into ends as its former
    contents overwritten by the listed pieces (which the run itself finds), every other buffer as it was. -/
noncomputable def kernelRun0_A (c : Dev nD) (i : grid0.Coords) (arg2 : Memref sig .tc .vmem S16x4096 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S16x2048 .f32) (harg9 : arg9.IsWhole) (arg10 : Memref sig .tc .vmem S16x2048 .f32) (harg10 : arg10.IsWhole) (arg11 : Memref sig .tc .vmem S16x2048 .f32) (harg11 : arg11.IsWhole) (arg12 : Memref sig .tc .vmem S16x4096 .f32) (harg12 : arg12.IsWhole) (hc0 : cond0_0 i) (hc1 : ¬cond0_1 i)
    (x0 : Vec F S16x4096 .f32) (x1 : Vec F S512x2048 .f32) (x2 : Vec F S512x2048 .f32) (x3 : Vec F S512x2048 .f32) :
    Σ' (LS0 : List (View.Piece (Elt F) S16x2048 .f32)) (LS1 : List (View.Piece (Elt F) S16x2048 .f32)) (LS2 : List (View.Piece (Elt F) S16x2048 .f32)), { LS3 : List (View.Piece (Elt F) S16x4096 .f32) //
      ∀ (xi4 : Vec F S16x2048 .f32) (xi5 : Vec F S16x2048 .f32) (xi6 : Vec F S16x2048 .f32) (xs0 : Vec F S16x2048 .f32) (xs1 : Vec F S16x2048 .f32) (xs2 : Vec F S16x2048 .f32) (xs3 : Vec F S16x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 xs0 xs1 xs2 xs3 E K => ?run⟩
  case run =>
    simp only [cc0__qkv_kernel_eq_skeleton]; unfold cc0__qkv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    isplitl [H9]
    · iexists _; iexact H9
    iexists _; iexact H10

end Cert.KernelIdeal.Hand

end
-- ==== Proof.KI.Run0B.lean ====
/-
  The projection kernel's body at a point whose second coordinate is neither 0 nor 7.

  It adds one 512-row slab's three products into the three accumulators; the normalised rows are only read,
  the three output blocks are not touched.
-/
import proofs.«129545_j317827580172_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The kernel body run once on whole buffers in this case: each buffer it stores into ends as its former
    contents overwritten by the listed pieces (which the run itself finds), every other buffer as it was. -/
noncomputable def kernelRun0_B (c : Dev nD) (i : grid0.Coords) (arg2 : Memref sig .tc .vmem S16x4096 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S16x2048 .f32) (harg9 : arg9.IsWhole) (arg10 : Memref sig .tc .vmem S16x2048 .f32) (harg10 : arg10.IsWhole) (arg11 : Memref sig .tc .vmem S16x2048 .f32) (harg11 : arg11.IsWhole) (arg12 : Memref sig .tc .vmem S16x4096 .f32) (harg12 : arg12.IsWhole) (hc0 : ¬cond0_0 i) (hc1 : ¬cond0_1 i)
    (x0 : Vec F S16x4096 .f32) (x1 : Vec F S512x2048 .f32) (x2 : Vec F S512x2048 .f32) (x3 : Vec F S512x2048 .f32) (xs0 : Vec F S16x2048 .f32) (xs1 : Vec F S16x2048 .f32) (xs2 : Vec F S16x2048 .f32) (xs3 : Vec F S16x4096 .f32) :
    Σ' (LS0 : List (View.Piece (Elt F) S16x2048 .f32)) (LS1 : List (View.Piece (Elt F) S16x2048 .f32)), { LS2 : List (View.Piece (Elt F) S16x2048 .f32) //
      ∀ (xi4 : Vec F S16x2048 .f32) (xi5 : Vec F S16x2048 .f32) (xi6 : Vec F S16x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc0__qkv_kernel_eq_skeleton]; unfold cc0__qkv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    isplitl [H9]
    · iexists _; iexact H9
    iexists _; isplitr; · ipureintro; exact harg12.read_unread _
    iexact H10

end Cert.KernelIdeal.Hand

end
-- ==== Proof.KI.Run0C.lean ====
/-
  The projection kernel's body at a point whose second coordinate is 7.

  It adds the last 512-row slab's three products into the three accumulators and copies each accumulator whole
  into its output block.
-/
import proofs.«129545_j317827580172_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The kernel body run once on whole buffers in this case: each buffer it stores into ends as its former
    contents overwritten by the listed pieces (which the run itself finds), every other buffer as it was. -/
noncomputable def kernelRun0_C (c : Dev nD) (i : grid0.Coords) (arg2 : Memref sig .tc .vmem S16x4096 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S16x2048 .f32) (harg9 : arg9.IsWhole) (arg10 : Memref sig .tc .vmem S16x2048 .f32) (harg10 : arg10.IsWhole) (arg11 : Memref sig .tc .vmem S16x2048 .f32) (harg11 : arg11.IsWhole) (arg12 : Memref sig .tc .vmem S16x4096 .f32) (harg12 : arg12.IsWhole) (hc0 : ¬cond0_0 i) (hc1 : cond0_1 i)
    (x0 : Vec F S16x4096 .f32) (x1 : Vec F S512x2048 .f32) (x2 : Vec F S512x2048 .f32) (x3 : Vec F S512x2048 .f32) (xs0 : Vec F S16x2048 .f32) (xs1 : Vec F S16x2048 .f32) (xs2 : Vec F S16x2048 .f32) (xs3 : Vec F S16x4096 .f32) :
    Σ' (L4 : List (View.Piece (Elt F) S16x2048 .f32)) (L5 : List (View.Piece (Elt F) S16x2048 .f32)) (L6 : List (View.Piece (Elt F) S16x2048 .f32)) (LS0 : List (View.Piece (Elt F) S16x2048 .f32)) (LS1 : List (View.Piece (Elt F) S16x2048 .f32)), { LS2 : List (View.Piece (Elt F) S16x2048 .f32) //
      ∀ (xi4 : Vec F S16x2048 .f32) (xi5 : Vec F S16x2048 .f32) (xi6 : Vec F S16x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun xi4 xi5 xi6 E K => ?run⟩
  case run =>
    simp only [cc0__qkv_kernel_eq_skeleton]; unfold cc0__qkv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [H9]
    · iexists _; iexact H9
    iexists _; isplitr; · ipureintro; exact harg12.read_unread _
    iexact H10

end Cert.KernelIdeal.Hand

end
-- ==== Proof.KI.Reg0.lean ====
/-
  The projection kernel over its whole grid: what each buffer holds after every point, and the body obligation.

  The grid has 16 points, (column block j, row slab k) with k innermost, so point t has k = t mod 8.  Writing
  xn for the rows of X scaled by the reciprocal root of their mean square, after the point with slab k the three
  accumulators hold the sums over slabs 0..k of xn's slab times the weights' slab, for W_q, W_k, W_v, and the row
  scratch holds xn; at k = 7 the accumulators are copied into the output blocks, which are written back to column
  block j of the three results.  The state after a point is defined by recursion on the point from the three
  per-case runs of the body; the invariant between points names the four scratch buffers at that state.
-/
import proofs.«129545_j317827580172_2_alg».proof.Proof.KI.Run0A
import proofs.«129545_j317827580172_2_alg».proof.Proof.KI.Run0B
import proofs.«129545_j317827580172_2_alg».proof.Proof.KI.Run0C
import Idealize.ShloMosaic.Lib.Pipeline.Frame
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents and whose body leaves the block in place. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions in closed form, and where the output windows are idle -/

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_4_C : ∀ t : Fin cfg0.N, ¬cond0_0 (grid0.coords t) → cond0_1 (grid0.coords t) → cfg0.idle 4 (grid0.coords t) = false := by decide +kernel
theorem liveAt0_5_C : ∀ t : Fin cfg0.N, ¬cond0_0 (grid0.coords t) → cond0_1 (grid0.coords t) → cfg0.idle 5 (grid0.coords t) = false := by decide +kernel
theorem liveAt0_6_C : ∀ t : Fin cfg0.N, ¬cond0_0 (grid0.coords t) → cond0_1 (grid0.coords t) → cfg0.idle 6 (grid0.coords t) = false := by decide +kernel

/-! ## The buffers the body is called on -/

/-- One staging buffer of output window 4, through whose view its contents are stated (which one does not matter). -/
abbrev VO0_4 : View sig .tc .vmem S16x2048 .f32 := (Memref.whole cc0_stg4_0 : Memref sig .tc .vmem S16x2048 .f32).view
/-- One staging buffer of output window 5, through whose view its contents are stated (which one does not matter). -/
abbrev VO0_5 : View sig .tc .vmem S16x2048 .f32 := (Memref.whole cc0_stg5_0 : Memref sig .tc .vmem S16x2048 .f32).view
/-- One staging buffer of output window 6, through whose view its contents are stated (which one does not matter). -/
abbrev VO0_6 : View sig .tc .vmem S16x2048 .f32 := (Memref.whole cc0_stg6_0 : Memref sig .tc .vmem S16x2048 .f32).view
abbrev ms0_0 (t : Fin cfg0.N) : Memref sig .tc .vmem S16x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x2048 .f32 := win0_6.stage (cfg0.slots t 6)
abbrev hs0_6 (t : Fin cfg0.N) : (ms0_6 t).IsWhole := hstage0_6 ((cfg0.slots t 6).cast nbuf0_6)
/-- Scratch operand 0 of the kernel: a whole scoped buffer of its own. -/
abbrev scM0_0 : Memref sig .tc .vmem S16x2048 .f32 := Memref.whole cc0_scratch0
abbrev VS0_0 : View sig .tc .vmem S16x2048 .f32 := scM0_0.view
/-- Scratch operand 1 of the kernel: a whole scoped buffer of its own. -/
abbrev scM0_1 : Memref sig .tc .vmem S16x2048 .f32 := Memref.whole cc0_scratch1
abbrev VS0_1 : View sig .tc .vmem S16x2048 .f32 := scM0_1.view
/-- Scratch operand 2 of the kernel: a whole scoped buffer of its own. -/
abbrev scM0_2 : Memref sig .tc .vmem S16x2048 .f32 := Memref.whole cc0_scratch2
abbrev VS0_2 : View sig .tc .vmem S16x2048 .f32 := scM0_2.view
/-- Scratch operand 3 of the kernel: a whole scoped buffer of its own. -/
abbrev scM0_3 : Memref sig .tc .vmem S16x4096 .f32 := Memref.whole cc0_scratch3
abbrev VS0_3 : View sig .tc .vmem S16x4096 .f32 := scM0_3.view

/-- The region's invariant before the first point, with the kernel's scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  unfold Pipeline.ΦA; rw [scopedRest0_eq]; simp only [scM0_0, scM0_1, scM0_2, scM0_3, owns_whole]; try rfl

/-! ## The state after a point -/

/-- What the output windows' staging buffers (`o·`) and the scratch buffers (`s·`) hold after a point. -/
structure St0 (F : FTy → Type) where
  o4 : Vec F S16x2048 .f32
  o5 : Vec F S16x2048 .f32
  o6 : Vec F S16x2048 .f32
  s0 : Vec F S16x2048 .f32
  s1 : Vec F S16x2048 .f32
  s2 : Vec F S16x2048 .f32
  s3 : Vec F S16x4096 .f32

/-- Contents nothing reads: an output block's at a point that neither stores into it nor writes it back. -/
def junk0_o (w : Unit) : Vec F S16x2048 .f32 := VO0_4.read (Elt F) VO0_4.junk

/-- The body's run at a point of case A, on the point's memrefs and input blocks. -/
noncomputable abbrev run0_A (c : Dev nD) (t : Fin cfg0.N) (hc0 : cond0_0 (grid0.coords t)) (hc1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 (iblk0 V c 0 t) (iblk0 V c 1 t) (iblk0 V c 2 t) (iblk0 V c 3 t)

/-- Case A's pieces for scratch 0 tile the buffer, so they cover it. -/
theorem cover0_A_s0 (c : Dev nD) (t : Fin cfg0.N) (hc0 : cond0_0 (grid0.coords t)) (hc1 : ¬cond0_1 (grid0.coords t)) (y : S16x2048.Idx) :
    ∃ pc ∈ (run0_A V c t hc0 hc1).1, y ∈ pc.1.set :=
  View.cover_of_tiledL (run0_A V c t hc0 hc1).1 S16x2048.size (by sl_kernel_rfl) y

/-- Case A's pieces for scratch 1 tile the buffer, so they cover it. -/
theorem cover0_A_s1 (c : Dev nD) (t : Fin cfg0.N) (hc0 : cond0_0 (grid0.coords t)) (hc1 : ¬cond0_1 (grid0.coords t)) (y : S16x2048.Idx) :
    ∃ pc ∈ (run0_A V c t hc0 hc1).2.1, y ∈ pc.1.set :=
  View.cover_of_tiledL (run0_A V c t hc0 hc1).2.1 S16x2048.size (by sl_kernel_rfl) y

/-- Case A's pieces for scratch 2 tile the buffer, so they cover it. -/
theorem cover0_A_s2 (c : Dev nD) (t : Fin cfg0.N) (hc0 : cond0_0 (grid0.coords t)) (hc1 : ¬cond0_1 (grid0.coords t)) (y : S16x2048.Idx) :
    ∃ pc ∈ (run0_A V c t hc0 hc1).2.2.1, y ∈ pc.1.set :=
  View.cover_of_tiledL (run0_A V c t hc0 hc1).2.2.1 S16x2048.size (by sl_kernel_rfl) y

/-- Case A's pieces for scratch 3 tile the buffer, so they cover it. -/
theorem cover0_A_s3 (c : Dev nD) (t : Fin cfg0.N) (hc0 : cond0_0 (grid0.coords t)) (hc1 : ¬cond0_1 (grid0.coords t)) (y : S16x4096.Idx) :
    ∃ pc ∈ (run0_A V c t hc0 hc1).2.2.2.1, y ∈ pc.1.set :=
  View.cover_of_tiledL (run0_A V c t hc0 hc1).2.2.2.1 S16x4096.size (by sl_kernel_rfl) y

/-- The state after a point of case A: each buffer the case stores into at its pieces read back, an idle output block at
    contents nothing reads. -/
noncomputable def st0_A (c : Dev nD) (t : Fin cfg0.N) (hc0 : cond0_0 (grid0.coords t)) (hc1 : ¬cond0_1 (grid0.coords t)) : St0 F where
  o4 := VO0_4.read (Elt F) VO0_4.junk
  o5 := VO0_5.read (Elt F) VO0_5.junk
  o6 := VO0_6.read (Elt F) VO0_6.junk
  s0 := VS0_0.read (Elt F) (VS0_0.writes (Elt F) VS0_0.junk (run0_A V c t hc0 hc1).1)
  s1 := VS0_1.read (Elt F) (VS0_1.writes (Elt F) VS0_1.junk (run0_A V c t hc0 hc1).2.1)
  s2 := VS0_2.read (Elt F) (VS0_2.writes (Elt F) VS0_2.junk (run0_A V c t hc0 hc1).2.2.1)
  s3 := VS0_3.read (Elt F) (VS0_3.writes (Elt F) VS0_3.junk (run0_A V c t hc0 hc1).2.2.2.1)

/-- The body's run at a point of case B, on the point's memrefs and input blocks and the state the point before left. -/
noncomputable abbrev run0_B (c : Dev nD) (t : Fin cfg0.N) (hc0 : ¬cond0_0 (grid0.coords t)) (hc1 : ¬cond0_1 (grid0.coords t)) (p : St0 F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 (iblk0 V c 0 t) (iblk0 V c 1 t) (iblk0 V c 2 t) (iblk0 V c 3 t) p.s0 p.s1 p.s2 p.s3

/-- Case B's pieces for scratch 0 tile the buffer, so they cover it. -/
theorem cover0_B_s0 (c : Dev nD) (t : Fin cfg0.N) (hc0 : ¬cond0_0 (grid0.coords t)) (hc1 : ¬cond0_1 (grid0.coords t)) (p : St0 F) (y : S16x2048.Idx) :
    ∃ pc ∈ (run0_B V c t hc0 hc1 p).1, y ∈ pc.1.set :=
  View.cover_of_tiledL (run0_B V c t hc0 hc1 p).1 S16x2048.size (by sl_kernel_rfl) y

/-- Case B's pieces for scratch 1 tile the buffer, so they cover it. -/
theorem cover0_B_s1 (c : Dev nD) (t : Fin cfg0.N) (hc0 : ¬cond0_0 (grid0.coords t)) (hc1 : ¬cond0_1 (grid0.coords t)) (p : St0 F) (y : S16x2048.Idx) :
    ∃ pc ∈ (run0_B V c t hc0 hc1 p).2.1, y ∈ pc.1.set :=
  View.cover_of_tiledL (run0_B V c t hc0 hc1 p).2.1 S16x2048.size (by sl_kernel_rfl) y

/-- Case B's pieces for scratch 2 tile the buffer, so they cover it. -/
theorem cover0_B_s2 (c : Dev nD) (t : Fin cfg0.N) (hc0 : ¬cond0_0 (grid0.coords t)) (hc1 : ¬cond0_1 (grid0.coords t)) (p : St0 F) (y : S16x2048.Idx) :
    ∃ pc ∈ (run0_B V c t hc0 hc1 p).2.2.1, y ∈ pc.1.set :=
  View.cover_of_tiledL (run0_B V c t hc0 hc1 p).2.2.1 S16x2048.size (by sl_kernel_rfl) y

/-- The state after a point of case B: each buffer the case stores into at its pieces read back, an idle output block at
    contents nothing reads, a scratch the case only reads as the point before left it. -/
noncomputable def st0_B (c : Dev nD) (t : Fin cfg0.N) (hc0 : ¬cond0_0 (grid0.coords t)) (hc1 : ¬cond0_1 (grid0.coords t)) (p : St0 F) : St0 F where
  o4 := VO0_4.read (Elt F) VO0_4.junk
  o5 := VO0_5.read (Elt F) VO0_5.junk
  o6 := VO0_6.read (Elt F) VO0_6.junk
  s0 := VS0_0.read (Elt F) (VS0_0.writes (Elt F) VS0_0.junk (run0_B V c t hc0 hc1 p).1)
  s1 := VS0_1.read (Elt F) (VS0_1.writes (Elt F) VS0_1.junk (run0_B V c t hc0 hc1 p).2.1)
  s2 := VS0_2.read (Elt F) (VS0_2.writes (Elt F) VS0_2.junk (run0_B V c t hc0 hc1 p).2.2.1)
  s3 := p.s3

/-- The body's run at a point of case C, on the point's memrefs and input blocks and the state the point before left. -/
noncomputable abbrev run0_C (c : Dev nD) (t : Fin cfg0.N) (hc0 : ¬cond0_0 (grid0.coords t)) (hc1 : cond0_1 (grid0.coords t)) (p : St0 F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 (iblk0 V c 0 t) (iblk0 V c 1 t) (iblk0 V c 2 t) (iblk0 V c 3 t) p.s0 p.s1 p.s2 p.s3

/-- Case C's pieces for output window 4 tile the buffer, so they cover it. -/
theorem cover0_C_o4 (c : Dev nD) (t : Fin cfg0.N) (hc0 : ¬cond0_0 (grid0.coords t)) (hc1 : cond0_1 (grid0.coords t)) (p : St0 F) (y : S16x2048.Idx) :
    ∃ pc ∈ (run0_C V c t hc0 hc1 p).1, y ∈ pc.1.set :=
  View.cover_of_tiledL (run0_C V c t hc0 hc1 p).1 S16x2048.size (by sl_kernel_rfl) y

/-- Case C's pieces for output window 5 tile the buffer, so they cover it. -/
theorem cover0_C_o5 (c : Dev nD) (t : Fin cfg0.N) (hc0 : ¬cond0_0 (grid0.coords t)) (hc1 : cond0_1 (grid0.coords t)) (p : St0 F) (y : S16x2048.Idx) :
    ∃ pc ∈ (run0_C V c t hc0 hc1 p).2.1, y ∈ pc.1.set :=
  View.cover_of_tiledL (run0_C V c t hc0 hc1 p).2.1 S16x2048.size (by sl_kernel_rfl) y

/-- Case C's pieces for output window 6 tile the buffer, so they cover it. -/
theorem cover0_C_o6 (c : Dev nD) (t : Fin cfg0.N) (hc0 : ¬cond0_0 (grid0.coords t)) (hc1 : cond0_1 (grid0.coords t)) (p : St0 F) (y : S16x2048.Idx) :
    ∃ pc ∈ (run0_C V c t hc0 hc1 p).2.2.1, y ∈ pc.1.set :=
  View.cover_of_tiledL (run0_C V c t hc0 hc1 p).2.2.1 S16x2048.size (by sl_kernel_rfl) y

/-- Case C's pieces for scratch 0 tile the buffer, so they cover it. -/
theorem cover0_C_s0 (c : Dev nD) (t : Fin cfg0.N) (hc0 : ¬cond0_0 (grid0.coords t)) (hc1 : cond0_1 (grid0.coords t)) (p : St0 F) (y : S16x2048.Idx) :
    ∃ pc ∈ (run0_C V c t hc0 hc1 p).2.2.2.1, y ∈ pc.1.set :=
  View.cover_of_tiledL (run0_C V c t hc0 hc1 p).2.2.2.1 S16x2048.size (by sl_kernel_rfl) y

/-- Case C's pieces for scratch 1 tile the buffer, so they cover it. -/
theorem cover0_C_s1 (c : Dev nD) (t : Fin cfg0.N) (hc0 : ¬cond0_0 (grid0.coords t)) (hc1 : cond0_1 (grid0.coords t)) (p : St0 F) (y : S16x2048.Idx) :
    ∃ pc ∈ (run0_C V c t hc0 hc1 p).2.2.2.2.1, y ∈ pc.1.set :=
  View.cover_of_tiledL (run0_C V c t hc0 hc1 p).2.2.2.2.1 S16x2048.size (by sl_kernel_rfl) y

/-- Case C's pieces for scratch 2 tile the buffer, so they cover it. -/
theorem cover0_C_s2 (c : Dev nD) (t : Fin cfg0.N) (hc0 : ¬cond0_0 (grid0.coords t)) (hc1 : cond0_1 (grid0.coords t)) (p : St0 F) (y : S16x2048.Idx) :
    ∃ pc ∈ (run0_C V c t hc0 hc1 p).2.2.2.2.2.1, y ∈ pc.1.set :=
  View.cover_of_tiledL (run0_C V c t hc0 hc1 p).2.2.2.2.2.1 S16x2048.size (by sl_kernel_rfl) y

/-- The state after a point of case C: each buffer the case stores into at its pieces read back, an idle output block at
    contents nothing reads, a scratch the case only reads as the point before left it. -/
noncomputable def st0_C (c : Dev nD) (t : Fin cfg0.N) (hc0 : ¬cond0_0 (grid0.coords t)) (hc1 : cond0_1 (grid0.coords t)) (p : St0 F) : St0 F where
  o4 := VO0_4.read (Elt F) (VO0_4.writes (Elt F) VO0_4.junk (run0_C V c t hc0 hc1 p).1)
  o5 := VO0_5.read (Elt F) (VO0_5.writes (Elt F) VO0_5.junk (run0_C V c t hc0 hc1 p).2.1)
  o6 := VO0_6.read (Elt F) (VO0_6.writes (Elt F) VO0_6.junk (run0_C V c t hc0 hc1 p).2.2.1)
  s0 := VS0_0.read (Elt F) (VS0_0.writes (Elt F) VS0_0.junk (run0_C V c t hc0 hc1 p).2.2.2.1)
  s1 := VS0_1.read (Elt F) (VS0_1.writes (Elt F) VS0_1.junk (run0_C V c t hc0 hc1 p).2.2.2.2.1)
  s2 := VS0_2.read (Elt F) (VS0_2.writes (Elt F) VS0_2.junk (run0_C V c t hc0 hc1 p).2.2.2.2.2.1)
  s3 := p.s3

/-- THE ACCUMULATION: the state after the body at position `n`, by recursion on the position — the case the closed
    forms select there, run on what the point before left. -/
noncomputable def outsAt0 (c : Dev nD) : (n : ℕ) → n < cfg0.N → St0 F
  | 0, hn => st0_A V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      if h1 : (n + 1) % 8 = 7 then
        False.elim (by omega)
      else
        st0_A V c ⟨n + 1, hn⟩ ((hcond0_0 ⟨n + 1, hn⟩).mpr h0) (fun h => h1 ((hcond0_1 ⟨n + 1, hn⟩).mp h))
    else
      if h1 : (n + 1) % 8 = 7 then
        st0_C V c ⟨n + 1, hn⟩ (fun h => h0 ((hcond0_0 ⟨n + 1, hn⟩).mp h)) ((hcond0_1 ⟨n + 1, hn⟩).mpr h1) (outsAt0 c n (Nat.lt_of_succ_lt hn))
      else
        st0_B V c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val % 8 = 0) (h1 : ¬t.val % 8 = 7) :
    outsAt0 V c t.val t.isLt = st0_A V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_C (c : Dev nD) (t : Fin cfg0.N) (h0 : ¬t.val % 8 = 0) (h1 : t.val % 8 = 7) :
    outsAt0 V c t.val t.isLt = st0_C V c t (fun h => h0 ((hcond0_0 t).mp h)) ((hcond0_1 t).mpr h1) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem outsAt0_B (c : Dev nD) (t : Fin cfg0.N) (h0 : ¬t.val % 8 = 0) (h1 : ¬t.val % 8 = 7) :
    outsAt0 V c t.val t.isLt = st0_B V c t (fun h => h0 ((hcond0_0 t).mp h)) (fun h => h1 ((hcond0_1 t).mp h)) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The region's invariant before position `n`: before the first point every scratch at anything; afterwards each
    scratch at what the point before left in it. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (outsAt0 V c (n - 1) (by omega)).s0 ∗ owns (c : Thread nD τ) scM0_1 fullShare (outsAt0 V c (n - 1) (by omega)).s1 ∗ owns (c : Thread nD τ) scM0_2 fullShare (outsAt0 V c (n - 1) (by omega)).s2 ∗ owns (c : Thread nD τ) scM0_3 fullShare (outsAt0 V c (n - 1) (by omega)).s3 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  cases n with
  | zero => exact absurd rfl hz
  | succ n => rfl

/-! ## The pipeline's proof data -/

/-- The proof data on core `c`: the arrays as the region finds them; after the body at point `t` each input's buffer at
    its block and each output's at the state's component; the invariant above; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).o4
    | ⟨5, _⟩ => (outsAt0 V c t.val t.isLt).o5
    | ⟨6, _⟩ => (outsAt0 V c t.val t.isLt).o6
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).o4 := by dsimp only [dat0]
theorem after0_5 (c : Dev nD) (t : Fin cfg0.N) : (dat0 V c).after 5 t = (outsAt0 V c t.val t.isLt).o5 := by dsimp only [dat0]
theorem after0_6 (c : Dev nD) (t : Fin cfg0.N) : (dat0 V c).after 6 t = (outsAt0 V c t.val t.isLt).o6 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the closed forms say which case the point is in; the inputs' memrefs hold their blocks, the
    invariant hands over the scratch at what the point before left (at anything before the first point), the case's
    run applies, and each buffer it stored into is owned again at its pieces read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold st0_A; (try dsimp only)
      by_cases hz : t.val = 0
      · rw [PhiS0_castSucc V c t, PhiS0_zero V c _ _ hz, PhiA0_eq]
        iintro ⟨⟨⟨⟨%ds0, HS0⟩, ⟨%ds1, HS1⟩, ⟨%ds2, HS2⟩, ⟨%ds3, HS3⟩, Hr0, Hr1, Hr2, Hr3, Hr4, Hr5, Hr6, Hr7, Hr8, Hr9, Hr10, Hr11, Hr12, Hr13, Hr14⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, H4, H5, H6, ⟨%eHS0, HS0⟩, ⟨%eHS1, HS1⟩, ⟨%eHS2, HS2⟩, ⟨%eHS3, HS3⟩⟩
        isplitl [HS0 HS1 HS2 HS3 Hr0 Hr1 Hr2 Hr3 Hr4 Hr5 Hr6 Hr7 Hr8 Hr9 Hr10 Hr11 Hr12 Hr13 Hr14 Hg]
        · isplitl [HS0 HS1 HS2 HS3 Hr0 Hr1 Hr2 Hr3 Hr4 Hr5 Hr6 Hr7 Hr8 Hr9 Hr10 Hr11 Hr12 Hr13 Hr14]
          · isplitl [HS0]
            · unfold owns; iexists _; isplitr
              swap; · iexact HS0
              ipureintro; exact View.read_writes_of_cover _ _ _ _ _ (cover0_A_s0 V c t ((hcond0_0 t).mpr h0) (fun h => h1 ((hcond0_1 t).mp h)) )
            isplitl [HS1]
            · unfold owns; iexists _; isplitr
              swap; · iexact HS1
              ipureintro; exact View.read_writes_of_cover _ _ _ _ _ (cover0_A_s1 V c t ((hcond0_0 t).mpr h0) (fun h => h1 ((hcond0_1 t).mp h)) )
            isplitl [HS2]
            · unfold owns; iexists _; isplitr
              swap; · iexact HS2
              ipureintro; exact View.read_writes_of_cover _ _ _ _ _ (cover0_A_s2 V c t ((hcond0_0 t).mpr h0) (fun h => h1 ((hcond0_1 t).mp h)) )
            isplitl [HS3]
            · unfold owns; iexists _; isplitr
              swap; · iexact HS3
              ipureintro; exact View.read_writes_of_cover _ _ _ _ _ (cover0_A_s3 V c t ((hcond0_0 t).mpr h0) (fun h => h1 ((hcond0_1 t).mp h)) )
            isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            iexact Hr14
          iexact Hg
        isplitl [Ho]; · iexact Ho
        isplitl [H0]
        · iexact H0
        isplitl [H1]
        · iexact H1
        isplitl [H2]
        · iexact H2
        isplitl [H3]
        · iexact H3
        isplitl [H4]
        · iexists _; iexact H4
        isplitl [H5]
        · iexists _; iexact H5
        iexists _; iexact H6
      · rw [PhiS0_castSucc V c t, PhiS0_pos V c _ _ hz]
        iintro ⟨⟨⟨HS0, HS1, HS2, HS3, Hr0, Hr1, Hr2, Hr3, Hr4, Hr5, Hr6, Hr7, Hr8, Hr9, Hr10, Hr11, Hr12, Hr13, Hr14⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, H4, H5, H6, ⟨%eHS0, HS0⟩, ⟨%eHS1, HS1⟩, ⟨%eHS2, HS2⟩, ⟨%eHS3, HS3⟩⟩
        isplitl [HS0 HS1 HS2 HS3 Hr0 Hr1 Hr2 Hr3 Hr4 Hr5 Hr6 Hr7 Hr8 Hr9 Hr10 Hr11 Hr12 Hr13 Hr14 Hg]
        · isplitl [HS0 HS1 HS2 HS3 Hr0 Hr1 Hr2 Hr3 Hr4 Hr5 Hr6 Hr7 Hr8 Hr9 Hr10 Hr11 Hr12 Hr13 Hr14]
          · isplitl [HS0]
            · unfold owns; iexists _; isplitr
              swap; · iexact HS0
              ipureintro; exact View.read_writes_of_cover _ _ _ _ _ (cover0_A_s0 V c t ((hcond0_0 t).mpr h0) (fun h => h1 ((hcond0_1 t).mp h)) )
            isplitl [HS1]
            · unfold owns; iexists _; isplitr
              swap; · iexact HS1
              ipureintro; exact View.read_writes_of_cover _ _ _ _ _ (cover0_A_s1 V c t ((hcond0_0 t).mpr h0) (fun h => h1 ((hcond0_1 t).mp h)) )
            isplitl [HS2]
            · unfold owns; iexists _; isplitr
              swap; · iexact HS2
              ipureintro; exact View.read_writes_of_cover _ _ _ _ _ (cover0_A_s2 V c t ((hcond0_0 t).mpr h0) (fun h => h1 ((hcond0_1 t).mp h)) )
            isplitl [HS3]
            · unfold owns; iexists _; isplitr
              swap; · iexact HS3
              ipureintro; exact View.read_writes_of_cover _ _ _ _ _ (cover0_A_s3 V c t ((hcond0_0 t).mpr h0) (fun h => h1 ((hcond0_1 t).mp h)) )
            isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            iexact Hr14
          iexact Hg
        isplitl [Ho]; · iexact Ho
        isplitl [H0]
        · iexact H0
        isplitl [H1]
        · iexact H1
        isplitl [H2]
        · iexact H2
        isplitl [H3]
        · iexact H3
        isplitl [H4]
        · iexists _; iexact H4
        isplitl [H5]
        · iexists _; iexact H5
        iexists _; iexact H6
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold st0_C; (try dsimp only)
      by_cases hz : t.val = 0
      · exfalso; omega
      · rw [PhiS0_castSucc V c t, PhiS0_pos V c _ _ hz]
        iintro ⟨⟨⟨HS0, HS1, HS2, HS3, Hr0, Hr1, Hr2, Hr3, Hr4, Hr5, Hr6, Hr7, Hr8, Hr9, Hr10, Hr11, Hr12, Hr13, Hr14⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ _ _).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, ⟨%eH4, H4⟩, ⟨%eH5, H5⟩, ⟨%eH6, H6⟩, ⟨%eHS0, HS0⟩, ⟨%eHS1, HS1⟩, ⟨%eHS2, HS2⟩, HS3⟩
        isplitl [HS0 HS1 HS2 HS3 Hr0 Hr1 Hr2 Hr3 Hr4 Hr5 Hr6 Hr7 Hr8 Hr9 Hr10 Hr11 Hr12 Hr13 Hr14 Hg]
        · isplitl [HS0 HS1 HS2 HS3 Hr0 Hr1 Hr2 Hr3 Hr4 Hr5 Hr6 Hr7 Hr8 Hr9 Hr10 Hr11 Hr12 Hr13 Hr14]
          · isplitl [HS0]
            · unfold owns; iexists _; isplitr
              swap; · iexact HS0
              ipureintro; exact View.read_writes_of_cover _ _ _ _ _ (cover0_C_s0 V c t (fun h => h0 ((hcond0_0 t).mp h)) ((hcond0_1 t).mpr h1) _ )
            isplitl [HS1]
            · unfold owns; iexists _; isplitr
              swap; · iexact HS1
              ipureintro; exact View.read_writes_of_cover _ _ _ _ _ (cover0_C_s1 V c t (fun h => h0 ((hcond0_0 t).mp h)) ((hcond0_1 t).mpr h1) _ )
            isplitl [HS2]
            · unfold owns; iexists _; isplitr
              swap; · iexact HS2
              ipureintro; exact View.read_writes_of_cover _ _ _ _ _ (cover0_C_s2 V c t (fun h => h0 ((hcond0_0 t).mp h)) ((hcond0_1 t).mpr h1) _ )
            isplitl [HS3]
            · iexact HS3
            isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            iexact Hr14
          iexact Hg
        isplitl [Ho]; · iexact Ho
        isplitl [H0]
        · iexact H0
        isplitl [H1]
        · iexact H1
        isplitl [H2]
        · iexact H2
        isplitl [H3]
        · iexact H3
        isplitl [H4]
        · unfold owns; iexists _; isplitr
          swap; · iexact H4
          ipureintro; exact View.read_writes_of_cover _ _ _ _ _ (cover0_C_o4 V c t (fun h => h0 ((hcond0_0 t).mp h)) ((hcond0_1 t).mpr h1) _ )
        isplitl [H5]
        · unfold owns; iexists _; isplitr
          swap; · iexact H5
          ipureintro; exact View.read_writes_of_cover _ _ _ _ _ (cover0_C_o5 V c t (fun h => h0 ((hcond0_0 t).mp h)) ((hcond0_1 t).mpr h1) _ )
        unfold owns; iexists _; isplitr
        swap; · iexact H6
        ipureintro; exact View.read_writes_of_cover _ _ _ _ _ (cover0_C_o6 V c t (fun h => h0 ((hcond0_0 t).mp h)) ((hcond0_1 t).mpr h1) _ )
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold st0_B; (try dsimp only)
      by_cases hz : t.val = 0
      · exfalso; omega
      · rw [PhiS0_castSucc V c t, PhiS0_pos V c _ _ hz]
        iintro ⟨⟨⟨HS0, HS1, HS2, HS3, Hr0, Hr1, Hr2, Hr3, Hr4, Hr5, Hr6, Hr7, Hr8, Hr9, Hr10, Hr11, Hr12, Hr13, Hr14⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ _ _).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, H4, H5, H6, ⟨%eHS0, HS0⟩, ⟨%eHS1, HS1⟩, ⟨%eHS2, HS2⟩, HS3⟩
        isplitl [HS0 HS1 HS2 HS3 Hr0 Hr1 Hr2 Hr3 Hr4 Hr5 Hr6 Hr7 Hr8 Hr9 Hr10 Hr11 Hr12 Hr13 Hr14 Hg]
        · isplitl [HS0 HS1 HS2 HS3 Hr0 Hr1 Hr2 Hr3 Hr4 Hr5 Hr6 Hr7 Hr8 Hr9 Hr10 Hr11 Hr12 Hr13 Hr14]
          · isplitl [HS0]
            · unfold owns; iexists _; isplitr
              swap; · iexact HS0
              ipureintro; exact View.read_writes_of_cover _ _ _ _ _ (cover0_B_s0 V c t (fun h => h0 ((hcond0_0 t).mp h)) (fun h => h1 ((hcond0_1 t).mp h)) _ )
            isplitl [HS1]
            · unfold owns; iexists _; isplitr
              swap; · iexact HS1
              ipureintro; exact View.read_writes_of_cover _ _ _ _ _ (cover0_B_s1 V c t (fun h => h0 ((hcond0_0 t).mp h)) (fun h => h1 ((hcond0_1 t).mp h)) _ )
            isplitl [HS2]
            · unfold owns; iexists _; isplitr
              swap; · iexact HS2
              ipureintro; exact View.read_writes_of_cover _ _ _ _ _ (cover0_B_s2 V c t (fun h => h0 ((hcond0_0 t).mp h)) (fun h => h1 ((hcond0_1 t).mp h)) _ )
            isplitl [HS3]
            · iexact HS3
            isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            iexact Hr14
          iexact Hg
        isplitl [Ho]; · iexact Ho
        isplitl [H0]
        · iexact H0
        isplitl [H1]
        · iexact H1
        isplitl [H2]
        · iexact H2
        isplitl [H3]
        · iexact H3
        isplitl [H4]
        · iexists _; iexact H4
        isplitl [H5]
        · iexists _; iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, Hr0, Hr1, Hr2, Hr3, Hr4, Hr5, Hr6, Hr7, Hr8, Hr9, Hr10, Hr11, Hr12, Hr13, Hr14⟩, Hg⟩
  isplitl [HS0 HS1 HS2 HS3 Hr0 Hr1 Hr2 Hr3 Hr4 Hr5 Hr6 Hr7 Hr8 Hr9 Hr10 Hr11 Hr12 Hr13 Hr14]
  · isplitl [HS0]; · iexists _; iexact HS0
    isplitl [HS1]; · iexists _; iexact HS1
    isplitl [HS2]; · iexists _; iexact HS2
    isplitl [HS3]; · iexists _; iexact HS3
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    iexact Hr14
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.KI.Run1A.lean ====
/-
  The attention kernel's body at chunk 0 of a head.

  It resets the running maximum to -inf and the running denominator and numerator to 0, then folds the chunk's
  4096 cached keys and values in.  The new keys and values and the output block are not touched, and nothing the
  three scratch buffers held before is used.
-/
import proofs.«129545_j317827580172_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The kernel body run once on whole buffers in this case: each buffer it stores into ends as its former
    contents overwritten by the listed pieces (which the run itself finds), every other buffer as it was. -/
noncomputable def kernelRun1_A (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x128 .f32) (harg10 : arg10.IsWhole) (hc0 : cond1_0 i) (hc1 : ¬cond1_1 i)
    (x0 : Vec F S1x16x128 .f32) (x1 : Vec F S1x4096x128 .f32) (x2 : Vec F S1x4096x128 .f32) :
    Σ' (LS0 : List (View.Piece (Elt F) S16x1 .f32)) (LS1 : List (View.Piece (Elt F) S16x1 .f32)), { LS2 : List (View.Piece (Elt F) S16x128 .f32) //
      ∀ (x3 : Vec F S1x16x128 .f32) (x4 : Vec F S1x16x128 .f32) (xi5 : Vec F S1x16x128 .f32) (xs0 : Vec F S16x1 .f32) (xs1 : Vec F S16x1 .f32) (xs2 : Vec F S16x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun x3 x4 xi5 xs0 xs1 xs2 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    iexists _; iexact H8

end Cert.KernelIdeal.Hand

end
-- ==== Proof.KI.Run1B.lean ====
/-
  The attention kernel's body at chunk 1 (the last) of a head.

  It folds the chunk's 4096 cached keys and values into the running triple, then the 16 new keys and values, and
  stores numerator / denominator into the output block.
-/
import proofs.«129545_j317827580172_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The kernel body run once on whole buffers in this case: each buffer it stores into ends as its former
    contents overwritten by the listed pieces (which the run itself finds), every other buffer as it was. -/
noncomputable def kernelRun1_B (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x128 .f32) (harg10 : arg10.IsWhole) (hc0 : ¬cond1_0 i) (hc1 : cond1_1 i)
    (x0 : Vec F S1x16x128 .f32) (x1 : Vec F S1x4096x128 .f32) (x2 : Vec F S1x4096x128 .f32) (x3 : Vec F S1x16x128 .f32) (x4 : Vec F S1x16x128 .f32) (xs0 : Vec F S16x1 .f32) (xs1 : Vec F S16x1 .f32) (xs2 : Vec F S16x128 .f32) :
    Σ' (L5 : List (View.Piece (Elt F) S1x16x128 .f32)) (LS0 : List (View.Piece (Elt F) S16x1 .f32)) (LS1 : List (View.Piece (Elt F) S16x1 .f32)), { LS2 : List (View.Piece (Elt F) S16x128 .f32) //
      ∀ (xi5 : Vec F S1x16x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, ?_, fun xi5 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    isplitl [H7]
    · iexists _; iexact H7
    iexists _; iexact H8

end Cert.KernelIdeal.Hand

end
-- ==== Proof.KI.Reg1.lean ====
/-
  The attention kernel over its whole grid: what each buffer holds after every point, and the body obligation.

  The grid has 64 points, (head h, chunk c) with c innermost, so point t has c = t mod 2.  After chunk 0 the
  scratch holds the running maximum, denominator and numerator of the head's first 4096 keys; after chunk 1 it
  holds those of all 8192 cached keys and the 16 new ones, and the output block holds numerator / denominator,
  which is written back to block h of the result.  The state after a point is defined by recursion on the point
  from the two per-case runs of the body; the invariant between points names the three scratch buffers at it.
-/
import proofs.«129545_j317827580172_2_alg».proof.Proof.KI.Run1A
import proofs.«129545_j317827580172_2_alg».proof.Proof.KI.Run1B
import Idealize.ShloMosaic.Lib.Pipeline.Frame
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents and whose body leaves the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is the entry contents and whose body leaves the block in place. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions in closed form, and where the output windows are idle -/

theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem liveAt1_5_B : ∀ t : Fin cfg1.N, ¬cond1_0 (grid1.coords t) → cond1_1 (grid1.coords t) → cfg1.idle 5 (grid1.coords t) = false := by decide +kernel

/-! ## The buffers the body is called on -/

/-- One staging buffer of output window 5, through whose view its contents are stated (which one does not matter). -/
abbrev VO1_5 : View sig .tc .vmem S1x16x128 .f32 := (Memref.whole cc1_stg5_0 : Memref sig .tc .vmem S1x16x128 .f32).view
abbrev ms1_0 (t : Fin cfg1.N) : Memref sig .tc .vmem S1x16x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x16x128 .f32 := win1_5.stage (cfg1.slots t 5)
abbrev hs1_5 (t : Fin cfg1.N) : (ms1_5 t).IsWhole := hstage1_5 ((cfg1.slots t 5).cast nbuf1_5)
/-- Scratch operand 0 of the kernel: a whole scoped buffer of its own. -/
abbrev scM1_0 : Memref sig .tc .vmem S16x1 .f32 := Memref.whole cc1_scratch0
abbrev VS1_0 : View sig .tc .vmem S16x1 .f32 := scM1_0.view
/-- Scratch operand 1 of the kernel: a whole scoped buffer of its own. -/
abbrev scM1_1 : Memref sig .tc .vmem S16x1 .f32 := Memref.whole cc1_scratch1
abbrev VS1_1 : View sig .tc .vmem S16x1 .f32 := scM1_1.view
/-- Scratch operand 2 of the kernel: a whole scoped buffer of its own. -/
abbrev scM1_2 : Memref sig .tc .vmem S16x128 .f32 := Memref.whole cc1_scratch2
abbrev VS1_2 : View sig .tc .vmem S16x128 .f32 := scM1_2.view

/-- The region's invariant before the first point, with the kernel's scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-! ## The state after a point -/

/-- What the output windows' staging buffers (`o·`) and the scratch buffers (`s·`) hold after a point. -/
structure St1 (F : FTy → Type) where
  o5 : Vec F S1x16x128 .f32
  s0 : Vec F S16x1 .f32
  s1 : Vec F S16x1 .f32
  s2 : Vec F S16x128 .f32

/-- Contents nothing reads: an output block's at a point that neither stores into it nor writes it back. -/
def junk1_o (w : Unit) : Vec F S1x16x128 .f32 := VO1_5.read (Elt F) VO1_5.junk

/-- The body's run at a point of case A, on the point's memrefs and input blocks. -/
noncomputable abbrev run1_A (c : Dev nD) (t : Fin cfg1.N) (hc0 : cond1_0 (grid1.coords t)) (hc1 : ¬cond1_1 (grid1.coords t)) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t)

/-- Case A's pieces for scratch 0 tile the buffer, so they cover it. -/
theorem cover1_A_s0 (c : Dev nD) (t : Fin cfg1.N) (hc0 : cond1_0 (grid1.coords t)) (hc1 : ¬cond1_1 (grid1.coords t)) (y : S16x1.Idx) :
    ∃ pc ∈ (run1_A V c t hc0 hc1).1, y ∈ pc.1.set :=
  View.cover_of_tiledL (run1_A V c t hc0 hc1).1 S16x1.size (by sl_kernel_rfl) y

/-- Case A's pieces for scratch 1 tile the buffer, so they cover it. -/
theorem cover1_A_s1 (c : Dev nD) (t : Fin cfg1.N) (hc0 : cond1_0 (grid1.coords t)) (hc1 : ¬cond1_1 (grid1.coords t)) (y : S16x1.Idx) :
    ∃ pc ∈ (run1_A V c t hc0 hc1).2.1, y ∈ pc.1.set :=
  View.cover_of_tiledL (run1_A V c t hc0 hc1).2.1 S16x1.size (by sl_kernel_rfl) y

/-- Case A's pieces for scratch 2 tile the buffer, so they cover it. -/
theorem cover1_A_s2 (c : Dev nD) (t : Fin cfg1.N) (hc0 : cond1_0 (grid1.coords t)) (hc1 : ¬cond1_1 (grid1.coords t)) (y : S16x128.Idx) :
    ∃ pc ∈ (run1_A V c t hc0 hc1).2.2.1, y ∈ pc.1.set :=
  View.cover_of_tiledL (run1_A V c t hc0 hc1).2.2.1 S16x128.size (by sl_kernel_rfl) y

/-- The state after a point of case A: each buffer the case stores into at its pieces read back, an idle output block at
    contents nothing reads. -/
noncomputable def st1_A (c : Dev nD) (t : Fin cfg1.N) (hc0 : cond1_0 (grid1.coords t)) (hc1 : ¬cond1_1 (grid1.coords t)) : St1 F where
  o5 := VO1_5.read (Elt F) VO1_5.junk
  s0 := VS1_0.read (Elt F) (VS1_0.writes (Elt F) VS1_0.junk (run1_A V c t hc0 hc1).1)
  s1 := VS1_1.read (Elt F) (VS1_1.writes (Elt F) VS1_1.junk (run1_A V c t hc0 hc1).2.1)
  s2 := VS1_2.read (Elt F) (VS1_2.writes (Elt F) VS1_2.junk (run1_A V c t hc0 hc1).2.2.1)

/-- The body's run at a point of case B, on the point's memrefs and input blocks and the state the point before left. -/
noncomputable abbrev run1_B (c : Dev nD) (t : Fin cfg1.N) (hc0 : ¬cond1_0 (grid1.coords t)) (hc1 : cond1_1 (grid1.coords t)) (p : St1 F) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) p.s0 p.s1 p.s2

/-- Case B's pieces for output window 5 tile the buffer, so they cover it. -/
theorem cover1_B_o5 (c : Dev nD) (t : Fin cfg1.N) (hc0 : ¬cond1_0 (grid1.coords t)) (hc1 : cond1_1 (grid1.coords t)) (p : St1 F) (y : S1x16x128.Idx) :
    ∃ pc ∈ (run1_B V c t hc0 hc1 p).1, y ∈ pc.1.set :=
  View.cover_of_tiledL (run1_B V c t hc0 hc1 p).1 S1x16x128.size (by sl_kernel_rfl) y

/-- Case B's pieces for scratch 0 tile the buffer, so they cover it. -/
theorem cover1_B_s0 (c : Dev nD) (t : Fin cfg1.N) (hc0 : ¬cond1_0 (grid1.coords t)) (hc1 : cond1_1 (grid1.coords t)) (p : St1 F) (y : S16x1.Idx) :
    ∃ pc ∈ (run1_B V c t hc0 hc1 p).2.1, y ∈ pc.1.set :=
  View.cover_of_tiledL (run1_B V c t hc0 hc1 p).2.1 S16x1.size (by sl_kernel_rfl) y

/-- Case B's pieces for scratch 1 tile the buffer, so they cover it. -/
theorem cover1_B_s1 (c : Dev nD) (t : Fin cfg1.N) (hc0 : ¬cond1_0 (grid1.coords t)) (hc1 : cond1_1 (grid1.coords t)) (p : St1 F) (y : S16x1.Idx) :
    ∃ pc ∈ (run1_B V c t hc0 hc1 p).2.2.1, y ∈ pc.1.set :=
  View.cover_of_tiledL (run1_B V c t hc0 hc1 p).2.2.1 S16x1.size (by sl_kernel_rfl) y

/-- Case B's pieces for scratch 2 tile the buffer, so they cover it. -/
theorem cover1_B_s2 (c : Dev nD) (t : Fin cfg1.N) (hc0 : ¬cond1_0 (grid1.coords t)) (hc1 : cond1_1 (grid1.coords t)) (p : St1 F) (y : S16x128.Idx) :
    ∃ pc ∈ (run1_B V c t hc0 hc1 p).2.2.2.1, y ∈ pc.1.set :=
  View.cover_of_tiledL (run1_B V c t hc0 hc1 p).2.2.2.1 S16x128.size (by sl_kernel_rfl) y

/-- The state after a point of case B: each buffer the case stores into at its pieces read back, an idle output block at
    contents nothing reads, a scratch the case only reads as the point before left it. -/
noncomputable def st1_B (c : Dev nD) (t : Fin cfg1.N) (hc0 : ¬cond1_0 (grid1.coords t)) (hc1 : cond1_1 (grid1.coords t)) (p : St1 F) : St1 F where
  o5 := VO1_5.read (Elt F) (VO1_5.writes (Elt F) VO1_5.junk (run1_B V c t hc0 hc1 p).1)
  s0 := VS1_0.read (Elt F) (VS1_0.writes (Elt F) VS1_0.junk (run1_B V c t hc0 hc1 p).2.1)
  s1 := VS1_1.read (Elt F) (VS1_1.writes (Elt F) VS1_1.junk (run1_B V c t hc0 hc1 p).2.2.1)
  s2 := VS1_2.read (Elt F) (VS1_2.writes (Elt F) VS1_2.junk (run1_B V c t hc0 hc1 p).2.2.2.1)

/-- THE ACCUMULATION: the state after the body at position `n`, by recursion on the position — the case the closed
    forms select there, run on what the point before left. -/
noncomputable def outsAt1 (c : Dev nD) : (n : ℕ) → n < cfg1.N → St1 F
  | 0, hn => st1_A V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 2 = 0 then
      if h1 : (n + 1) % 2 = 1 then
        False.elim (by omega)
      else
        st1_A V c ⟨n + 1, hn⟩ ((hcond1_0 ⟨n + 1, hn⟩).mpr h0) (fun h => h1 ((hcond1_1 ⟨n + 1, hn⟩).mp h))
    else
      if h1 : (n + 1) % 2 = 1 then
        st1_B V c ⟨n + 1, hn⟩ (fun h => h0 ((hcond1_0 ⟨n + 1, hn⟩).mp h)) ((hcond1_1 ⟨n + 1, hn⟩).mpr h1) (outsAt1 c n (Nat.lt_of_succ_lt hn))
      else
        False.elim (by omega)

theorem outsAt1_A (c : Dev nD) (t : Fin cfg1.N) (h0 : t.val % 2 = 0) (h1 : ¬t.val % 2 = 1) :
    outsAt1 V c t.val t.isLt = st1_A V c t ((hcond1_0 t).mpr h0) (fun h => h1 ((hcond1_1 t).mp h)) := by
  obtain ⟨n, hn⟩ := t
  cases n with
  | zero => exact rfl
  | succ n => exact (dif_pos h0).trans ((dif_neg h1).trans rfl)

theorem outsAt1_B (c : Dev nD) (t : Fin cfg1.N) (h0 : ¬t.val % 2 = 0) (h1 : t.val % 2 = 1) :
    outsAt1 V c t.val t.isLt = st1_B V c t (fun h => h0 ((hcond1_0 t).mp h)) ((hcond1_1 t).mpr h1) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch at anything; afterwards each
    scratch at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare (outsAt1 V c n hn).s0 ∗ owns (c : Thread nD τ) scM1_1 fullShare (outsAt1 V c n hn).s1 ∗ owns (c : Thread nD τ) scM1_2 fullShare (outsAt1 V c n hn).s2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare (outsAt1 V c n hn).s0 ∗ owns (c : Thread nD τ) scM1_1 fullShare (outsAt1 V c n hn).s1 ∗ owns (c : Thread nD τ) scM1_2 fullShare (outsAt1 V c n hn).s2) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare (outsAt1 V c (n - 1) (by omega)).s0 ∗ owns (c : Thread nD τ) scM1_1 fullShare (outsAt1 V c (n - 1) (by omega)).s1 ∗ owns (c : Thread nD τ) scM1_2 fullShare (outsAt1 V c (n - 1) (by omega)).s2) ∗ (∃ r, prngReg c r)) := by
  cases n with
  | zero => exact absurd rfl hz
  | succ n => rfl

/-! ## The pipeline's proof data -/

/-- The proof data on core `c`: the arrays as the region finds them; after the body at point `t` each input's buffer at
    its block and each output's at the state's component; the invariant above; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).o5
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).o5 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the closed forms say which case the point is in; the inputs' memrefs hold their blocks, the
    invariant hands over the scratch at what the point before left (at anything before the first point), the case's
    run applies, and each buffer it stored into is owned again at its pieces read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 2 = 0
  · by_cases h1 : t.val % 2 = 1
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold st1_A; (try dsimp only)
      by_cases hz : t.val = 0
      · rw [PhiS1_castSucc V c t, PhiS1_zero V c _ _ hz, PhiA1_eq]
        iintro ⟨⟨⟨Hr0, Hr1, Hr2, Hr3, Hr4, Hr5, Hr6, Hr7, Hr8, Hr9, Hr10, Hr11, Hr12, Hr13, Hr14, Hr15, Hr16, ⟨%ds0, HS0⟩, ⟨%ds1, HS1⟩, ⟨%ds2, HS2⟩⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t)).2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%eHS0, HS0⟩, ⟨%eHS1, HS1⟩, ⟨%eHS2, HS2⟩⟩
        isplitl [Hr0 Hr1 Hr2 Hr3 Hr4 Hr5 Hr6 Hr7 Hr8 Hr9 Hr10 Hr11 Hr12 Hr13 Hr14 Hr15 Hr16 HS0 HS1 HS2 Hg]
        · isplitl [Hr0 Hr1 Hr2 Hr3 Hr4 Hr5 Hr6 Hr7 Hr8 Hr9 Hr10 Hr11 Hr12 Hr13 Hr14 Hr15 Hr16 HS0 HS1 HS2]
          · isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            isplitl [Hr16]
            · iexact Hr16
            isplitl [HS0]
            · unfold owns; iexists _; isplitr
              swap; · iexact HS0
              ipureintro; exact View.read_writes_of_cover _ _ _ _ _ (cover1_A_s0 V c t ((hcond1_0 t).mpr h0) (fun h => h1 ((hcond1_1 t).mp h)) )
            isplitl [HS1]
            · unfold owns; iexists _; isplitr
              swap; · iexact HS1
              ipureintro; exact View.read_writes_of_cover _ _ _ _ _ (cover1_A_s1 V c t ((hcond1_0 t).mpr h0) (fun h => h1 ((hcond1_1 t).mp h)) )
            unfold owns; iexists _; isplitr
            swap; · iexact HS2
            ipureintro; exact View.read_writes_of_cover _ _ _ _ _ (cover1_A_s2 V c t ((hcond1_0 t).mpr h0) (fun h => h1 ((hcond1_1 t).mp h)) )
          iexact Hg
        isplitl [Ho]; · iexact Ho
        isplitl [H0]
        · iexact H0
        isplitl [H1]
        · iexact H1
        isplitl [H2]
        · iexact H2
        isplitl [H3]
        · iexact H3
        isplitl [H4]
        · iexact H4
        iexists _; iexact H5
      · rw [PhiS1_castSucc V c t, PhiS1_pos V c _ _ hz]
        iintro ⟨⟨⟨Hr0, Hr1, Hr2, Hr3, Hr4, Hr5, Hr6, Hr7, Hr8, Hr9, Hr10, Hr11, Hr12, Hr13, Hr14, Hr15, Hr16, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t)).2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%eHS0, HS0⟩, ⟨%eHS1, HS1⟩, ⟨%eHS2, HS2⟩⟩
        isplitl [Hr0 Hr1 Hr2 Hr3 Hr4 Hr5 Hr6 Hr7 Hr8 Hr9 Hr10 Hr11 Hr12 Hr13 Hr14 Hr15 Hr16 HS0 HS1 HS2 Hg]
        · isplitl [Hr0 Hr1 Hr2 Hr3 Hr4 Hr5 Hr6 Hr7 Hr8 Hr9 Hr10 Hr11 Hr12 Hr13 Hr14 Hr15 Hr16 HS0 HS1 HS2]
          · isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            isplitl [Hr16]
            · iexact Hr16
            isplitl [HS0]
            · unfold owns; iexists _; isplitr
              swap; · iexact HS0
              ipureintro; exact View.read_writes_of_cover _ _ _ _ _ (cover1_A_s0 V c t ((hcond1_0 t).mpr h0) (fun h => h1 ((hcond1_1 t).mp h)) )
            isplitl [HS1]
            · unfold owns; iexists _; isplitr
              swap; · iexact HS1
              ipureintro; exact View.read_writes_of_cover _ _ _ _ _ (cover1_A_s1 V c t ((hcond1_0 t).mpr h0) (fun h => h1 ((hcond1_1 t).mp h)) )
            unfold owns; iexists _; isplitr
            swap; · iexact HS2
            ipureintro; exact View.read_writes_of_cover _ _ _ _ _ (cover1_A_s2 V c t ((hcond1_0 t).mpr h0) (fun h => h1 ((hcond1_1 t).mp h)) )
          iexact Hg
        isplitl [Ho]; · iexact Ho
        isplitl [H0]
        · iexact H0
        isplitl [H1]
        · iexact H1
        isplitl [H2]
        · iexact H2
        isplitl [H3]
        · iexact H3
        isplitl [H4]
        · iexact H4
        iexists _; iexact H5
  · by_cases h1 : t.val % 2 = 1
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_B t (fun h => h0 ((hcond1_0 t).mp h)) ((hcond1_1 t).mpr h1)], after1_5]
      rw [outsAt1_B V c t h0 h1]
      unfold st1_B; (try dsimp only)
      by_cases hz : t.val = 0
      · exfalso; omega
      · rw [PhiS1_castSucc V c t, PhiS1_pos V c _ _ hz]
        iintro ⟨⟨⟨Hr0, Hr1, Hr2, Hr3, Hr4, Hr5, Hr6, Hr7, Hr8, Hr9, Hr10, Hr11, Hr12, Hr13, Hr14, Hr15, Hr16, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, ⟨%eH5, H5⟩, ⟨%eHS0, HS0⟩, ⟨%eHS1, HS1⟩, ⟨%eHS2, HS2⟩⟩
        isplitl [Hr0 Hr1 Hr2 Hr3 Hr4 Hr5 Hr6 Hr7 Hr8 Hr9 Hr10 Hr11 Hr12 Hr13 Hr14 Hr15 Hr16 HS0 HS1 HS2 Hg]
        · isplitl [Hr0 Hr1 Hr2 Hr3 Hr4 Hr5 Hr6 Hr7 Hr8 Hr9 Hr10 Hr11 Hr12 Hr13 Hr14 Hr15 Hr16 HS0 HS1 HS2]
          · isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            isplitl [Hr16]
            · iexact Hr16
            isplitl [HS0]
            · unfold owns; iexists _; isplitr
              swap; · iexact HS0
              ipureintro; exact View.read_writes_of_cover _ _ _ _ _ (cover1_B_s0 V c t (fun h => h0 ((hcond1_0 t).mp h)) ((hcond1_1 t).mpr h1) _ )
            isplitl [HS1]
            · unfold owns; iexists _; isplitr
              swap; · iexact HS1
              ipureintro; exact View.read_writes_of_cover _ _ _ _ _ (cover1_B_s1 V c t (fun h => h0 ((hcond1_0 t).mp h)) ((hcond1_1 t).mpr h1) _ )
            unfold owns; iexists _; isplitr
            swap; · iexact HS2
            ipureintro; exact View.read_writes_of_cover _ _ _ _ _ (cover1_B_s2 V c t (fun h => h0 ((hcond1_0 t).mp h)) ((hcond1_1 t).mpr h1) _ )
          iexact Hg
        isplitl [Ho]; · iexact Ho
        isplitl [H0]
        · iexact H0
        isplitl [H1]
        · iexact H1
        isplitl [H2]
        · iexact H2
        isplitl [H3]
        · iexact H3
        isplitl [H4]
        · iexact H4
        unfold owns; iexists _; isplitr
        swap; · iexact H5
        ipureintro; exact View.read_writes_of_cover _ _ _ _ _ (cover1_B_o5 V c t (fun h => h0 ((hcond1_0 t).mp h)) ((hcond1_1 t).mpr h1) _ )
    · exfalso; omega

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, Hr5, Hr6, Hr7, Hr8, Hr9, Hr10, Hr11, Hr12, Hr13, Hr14, Hr15, Hr16, HS0, HS1, HS2⟩, Hg⟩
  isplitl [Hr0 Hr1 Hr2 Hr3 Hr4 Hr5 Hr6 Hr7 Hr8 Hr9 Hr10 Hr11 Hr12 Hr13 Hr14 Hr15 Hr16 HS0 HS1 HS2]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Main.lean ====
/-
  The whole program as a list of segments, and its run.

  @main is: the projection call, six host operations (each of the three results reshaped to [16, 32, 128] and
  transposed to [32, 16, 128]), the attention call, two host operations (the result transposed back and reshaped to
  [16, 4096]).  The buffer contents at each boundary are a fold from the launch memory: a call leaves its windows'
  arrays at what its write-backs make of them and every other buffer alone, a host stretch leaves what its
  operations compute.  Every weakly fair execution ends with every unscoped buffer at the last boundary's contents:
  the six arguments as launched (nothing writes them) and the result at the fold's value.
-/
import proofs.«129545_j317827580172_2_alg».proof.Proof.KI.Reg0
import proofs.«129545_j317827580172_2_alg».proof.Proof.KI.Reg1
import proofs.«129545_j317827580172_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After call 0: its windows' arrays at what the pipeline leaves (an input as entered, an output with its write-backs
    folded), every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operations `hostOps1`. -/
def W2 (c : Dev nD) : Valuation τ sig (Elt F) := StableHlo.after hostOps1 (W1 m c)
abbrev V2 : (c : Dev nD) → (b : Ref sig .tc) → Buf (Elt F) ((c : Thread nD τ).loc b) := fun c b => W2 m c b
theorem W2_of_not_written (c : Dev nD) (b : Ref sig .tc) (h : b ∉ hostOps1_W) : W2 m c (Proc.devRef .tc b) = W1 m c (Proc.devRef .tc b) :=
  StableHlo.after_of_writes_sub hostOps1 _ hostOps1_writes h

/-- After call 1: its windows' arrays at what the pipeline leaves (an input as entered, an output with its write-backs
    folded), every other buffer as before. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the host operations `hostOps2`. -/
def W4 (c : Dev nD) : Valuation τ sig (Elt F) := StableHlo.after hostOps2 (W3 m c)
abbrev V4 : (c : Dev nD) → (b : Ref sig .tc) → Buf (Elt F) ((c : Thread nD τ).loc b) := fun c b => W4 m c b
theorem W4_of_not_written (c : Dev nD) (b : Ref sig .tc) (h : b ∉ hostOps2_W) : W4 m c (Proc.devRef .tc b) = W3 m c (Proc.devRef .tc b) :=
  StableHlo.after_of_writes_sub hostOps2 _ hostOps2_writes h

/-! ## No segment writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_not_written m c main_arg0 (by decide)
    _ = W2 m c (Proc.devRef .tc main_arg0) := W3_of_ne m c main_arg0 (by decide)
    _ = W1 m c (Proc.devRef .tc main_arg0) := W2_of_not_written m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_not_written m c main_arg1 (by decide)
    _ = W2 m c (Proc.devRef .tc main_arg1) := W3_of_ne m c main_arg1 (by decide)
    _ = W1 m c (Proc.devRef .tc main_arg1) := W2_of_not_written m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_not_written m c main_arg2 (by decide)
    _ = W2 m c (Proc.devRef .tc main_arg2) := W3_of_ne m c main_arg2 (by decide)
    _ = W1 m c (Proc.devRef .tc main_arg2) := W2_of_not_written m c main_arg2 (by decide)
    _ = W0 m c (Proc.devRef .tc main_arg2) := (W1_arr m c 2).trans (((dat0 (V0 m) c).arrAt_in 2 rfl _).trans (A_eq0 (V0 m) c 2))
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_not_written m c main_arg3 (by decide)
    _ = W2 m c (Proc.devRef .tc main_arg3) := W3_of_ne m c main_arg3 (by decide)
    _ = W1 m c (Proc.devRef .tc main_arg3) := W2_of_not_written m c main_arg3 (by decide)
    _ = W0 m c (Proc.devRef .tc main_arg3) := (W1_arr m c 3).trans (((dat0 (V0 m) c).arrAt_in 3 rfl _).trans (A_eq0 (V0 m) c 3))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_not_written m c main_arg4 (by decide)
    _ = W2 m c (Proc.devRef .tc main_arg4) := (W3_arr m c 1).trans (((dat1 (V2 m) c).arrAt_in 1 rfl _).trans (A_eq1 (V2 m) c 1))
    _ = W1 m c (Proc.devRef .tc main_arg4) := W2_of_not_written m c main_arg4 (by decide)
    _ = W0 m c (Proc.devRef .tc main_arg4) := W1_of_ne m c main_arg4 (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_not_written m c main_arg5 (by decide)
    _ = W2 m c (Proc.devRef .tc main_arg5) := (W3_arr m c 2).trans (((dat1 (V2 m) c).arrAt_in 2 rfl _).trans (A_eq1 (V2 m) c 2))
    _ = W1 m c (Proc.devRef .tc main_arg5) := W2_of_not_written m c main_arg5 (by decide)
    _ = W0 m c (Proc.devRef .tc main_arg5) := W1_of_ne m c main_arg5 (by decide)
    _ = m ((c : Thread nD τ).loc main_arg5) := rfl

/-! ## The proof data family and the thread state -/

abbrev adm : (p : Fin 2) → (pcfgs (F := F) p).Adm := fun p => (cfgs p).toPCfg_adm
/-- Each call's proof data at the contents its region is entered from — a literal match on the call. -/
def pdats : (p : Fin 2) → (c : Dev nD) → Dat τ (Elt F) Unit ℕ (Pipeline.UD sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The calls as segments -/

-- `iapply` of a library lemma stated over the pinned configuration unifies only when unification may unfold plain
-- definitions in a metavariable's type
set_option backward.isDefEq.respectTransparency.types false in
/-- Call 0 as a segment: entered from every unscoped buffer at the contents before it, left at the contents after
    it.  Its windows' arrays are split out of the unscoped buffers and put back at what the write-backs leave; the
    generator register and the scoped rest go into the invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V0 m) c)
    unfold Pipeline.ΦA
    iintro ⟨Hp, -, Hr⟩
    isplitl [Hr]; · iexact Hr
    iexact Hp
  hout c := by
    rw [Pipeline.ownSems0_none]
    refine (hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Call 1 as a segment: entered from every unscoped buffer at the contents before it, left at the contents after
    it.  Its windows' arrays are split out of the unscoped buffers and put back at what the write-backs leave; the
    generator register and the scoped rest go into the invariant and come back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main terminates without a fault, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument ends as launched, and the result's buffer at the last boundary's contents. -/
theorem run_main : θ_run defs (onTc (τ := τ) (main (F := F))) ⟨m, fun _ => 0, ρ⟩ (fun r => ∀ c : Dev nD,
      r.2.mem ((c.tc : Thread nD τ).loc main_v9) = W4 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v9 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_main m ρ)

end Cert.KernelIdeal.Hand

end
-- ==== Proof.Finite.lean ====
/-
  Finite inputs.

  The precondition of this certificate is one bit: the conjunction, over the six argument arrays, of "the absolute
  value of every element is strictly below plus infinity".  Each conjunct is a reduction by `and` over a whole
  array of element comparisons, so the bit being 1 says every comparison is 1.  On the extended reals the absolute
  value of `x` is `max x (-x)`, which is plus infinity at both infinities; so an element that passes the comparison
  is the coercion of a real number.
-/
import proofs.«129545_j317827580172_2_alg».proof.Pre_finite_inputs
import Idealize.ShloMosaic.Lib.ReduceAll
import Idealize.ShloMosaic.Lib.ValueIdx

noncomputable section

namespace Cert.Proof.Finite

open Idealize.ShloMosaic Idealize.ShloMosaic.ValueIdx Cert.Pre_finite_inputs

/-- The scalar shape has one index. -/
instance : Subsingleton S_.Idx := ⟨fun _ _ => funext fun d => d.elim0⟩

/-- An extended real whose absolute value compares strictly below the word of plus infinity is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One element of an array passing the printed comparison — its absolute value against the broadcast word of plus
    infinity — is a real. -/
theorem elem_real {s : Shape} (hb : S_.BroadcastsInDim s (![] : Fin 0 → Fin s.rank)) (a : FVec Ideal s .f32) (i : s.Idx)
    (e : cmpf .olt (Host.absf a) (broadcastInDim s ![] hb (constant (F := Ideal) S_ .f32 0x7F800000#32)) i = 1#1) :
    ∃ r : ℝ, a i = (r : EReal) :=
  real_of_abs_lt (a i) e

/-- Under the precondition every element of each of the six argument arrays is a real. -/
theorem args_real [Facts] (a0 : FVec Ideal S16x4096 .f32) (a1 a2 a3 : FVec Ideal S4096x4096 .f32)
    (a4 a5 : FVec Ideal S32x8192x128 .f32) (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 : fn (F := Ideal) a0 a1 a2 a3 a4 a5 ix0 = 1#1 := congrFun h ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨fun i => elem_real _ a0 i (Host.reduce_andi_all _ _ _ _ ix0 h0' i),
    fun i => elem_real _ a1 i (Host.reduce_andi_all _ _ _ _ ix0 h1 i),
    fun i => elem_real _ a2 i (Host.reduce_andi_all _ _ _ _ ix0 h2 i),
    fun i => elem_real _ a3 i (Host.reduce_andi_all _ _ _ _ ix0 h3 i),
    fun i => elem_real _ a4 i (Host.reduce_andi_all _ _ _ _ ix0 h4 i),
    fun i => elem_real _ a5 i (Host.reduce_andi_all _ _ _ _ ix0 h5 i)⟩

end Cert.Proof.Finite

end
-- ==== Proof.Spec.lean ====
/-
  The attention layer of this certificate as one function of its six argument arrays, over the extended reals.

  A row `p` of the activations `X` (16 rows of 4096) is scaled by the reciprocal square root of its mean square
  (the sum of its squares divided by 4096).  The scaled rows are multiplied by three weight matrices; column
  `h * 128 + d` of a product is lane `d` of head `h` (32 heads of 128 lanes).  For each head the 16 new key rows are
  appended after the 8192 cached ones, and the values likewise, giving 8208 keys.  Query row `p` of head `h` scores
  key `j` by the dot product over the 128 lanes; the scores of a row are shifted by their maximum, exponentiated,
  and divided by the sum of the exponentials; the output at column `h * 128 + d` of row `p` is the sum over the
  keys of weight times value.

  Every definition is stated over literal extents and over coordinates, so that an index of a program's array meets
  it by `ix2` / `ix3`.  The three float words the programs print (zero, minus infinity, 4096) are evaluated once here.
-/
import Idealize.ShloMosaic.PureOps.Ideal
import Idealize.ShloMosaic.Lib.ValueIdx

noncomputable section

open scoped BigOperators

namespace Cert.Proof.Spec

open Idealize.ShloMosaic Idealize.ShloMosaic.ValueIdx

/-- Activations: 16 rows of 4096. -/
abbrev ArrX : Type := (⟨2, ![16, 4096]⟩ : Shape).Idx → EReal
/-- A weight matrix: 4096 by 4096. -/
abbrev ArrW : Type := (⟨2, ![4096, 4096]⟩ : Shape).Idx → EReal
/-- A cache: 32 heads of 8192 rows of 128 lanes. -/
abbrev ArrC : Type := (⟨3, ![32, 8192, 128]⟩ : Shape).Idx → EReal

/-! ## The three float words -/

/-- The word of positive zero is zero. -/
theorem word_zero : Ideal.ofBits .f32 0x00000000#32 = (0 : EReal) := by simp [Ideal.ofBits, Ideal.ieee]
/-- The word of minus infinity is the bottom element. -/
theorem word_negInf : Ideal.ofBits .f32 0xFF800000#32 = (⊥ : EReal) := by simp [Ideal.ofBits, Ideal.ieee]
/-- The word `0x45800000` is 4096. -/
theorem word_4096 : Ideal.ofBits .f32 0x45800000#32 = ((4096 : ℝ) : EReal) := by
  simp [Ideal.ofBits, Ideal.ieee, -EReal.coe_mul]; norm_num

/-! ## The normalized rows and the three projections -/

/-- Column `h * 128 + d`: lane `d` of head `h`. -/
def col (h : Fin 32) (d : Fin 128) : Fin 4096 := ⟨h.val * 128 + d.val, by omega⟩

/-- The mean square of row `p`: the sum of its squares, divided by 4096. -/
def meanSq (X : ArrX) (p : Fin 16) : EReal :=
  Ideal.div (∑ k : Fin 4096, X (ix2 p k) * X (ix2 p k)) ((4096 : ℝ) : EReal)

/-- Row `p` scaled by the reciprocal square root of its mean square. -/
def xn (X : ArrX) (p : Fin 16) (k : Fin 4096) : EReal := X (ix2 p k) * Ideal.rsqrt (meanSq X p)

/-- The scaled rows times a weight matrix, at row `p` and column `c`. -/
def proj (X : ArrX) (W : ArrW) (p : Fin 16) (c : Fin 4096) : EReal := ∑ k : Fin 4096, xn X p k * W (ix2 k c)

/-! ## Keys and values: the cache, then the sixteen new rows -/

/-- Row `j` of head `h`'s keys or values: the cached row for `j` below 8192, else new row `j - 8192` of the
    projection by `W`. -/
def cat (X : ArrX) (W : ArrW) (C : ArrC) (h : Fin 32) (j : Fin 8208) (d : Fin 128) : EReal :=
  if hj : j.val < 8192 then C (ix3 h ⟨j.val, hj⟩ d) else proj X W ⟨j.val - 8192, by omega⟩ (col h d)

/-! ## Scores, weights, output -/

/-- The score of query row `p` of head `h` against key `j`. -/
def score (X : ArrX) (Wq Wk : ArrW) (cK : ArrC) (h : Fin 32) (p : Fin 16) (j : Fin 8208) : EReal :=
  ∑ d : Fin 128, proj X Wq p (col h d) * cat X Wk cK h j d

/-- The greatest score of a row (from minus infinity). -/
def rowMax (X : ArrX) (Wq Wk : ArrW) (cK : ArrC) (h : Fin 32) (p : Fin 16) : EReal :=
  (Finset.univ : Finset (Fin 8208)).fold max ⊥ (score X Wq Wk cK h p)

/-- The exponential of a score shifted by the row's greatest. -/
def expo (X : ArrX) (Wq Wk : ArrW) (cK : ArrC) (h : Fin 32) (p : Fin 16) (j : Fin 8208) : EReal :=
  Ideal.exp (score X Wq Wk cK h p j - rowMax X Wq Wk cK h p)

/-- The sum of a row's exponentials. -/
def denom (X : ArrX) (Wq Wk : ArrW) (cK : ArrC) (h : Fin 32) (p : Fin 16) : EReal :=
  ∑ j : Fin 8208, expo X Wq Wk cK h p j

/-- The weight of key `j`. -/
def weight (X : ArrX) (Wq Wk : ArrW) (cK : ArrC) (h : Fin 32) (p : Fin 16) (j : Fin 8208) : EReal :=
  Ideal.div (expo X Wq Wk cK h p j) (denom X Wq Wk cK h p)

/-- Head `h`, row `p`, lane `d` of the output: the weighted sum of the values. -/
def headOut (X : ArrX) (Wq Wk Wv : ArrW) (cK cV : ArrC) (h : Fin 32) (p : Fin 16) (d : Fin 128) : EReal :=
  ∑ j : Fin 8208, weight X Wq Wk cK h p j * cat X Wv cV h j d

/-- The layer's output, 16 rows of 4096: column `c` is lane `c % 128` of head `c / 128`. -/
def attnOut (X : ArrX) (Wq Wk Wv : ArrW) (cK cV : ArrC) : ArrX := fun i =>
  headOut X Wq Wk Wv cK cV ⟨(i 1).val / 128, by have := idx2_lt1 i; omega⟩ (i 0)
    ⟨(i 1).val % 128, Nat.mod_lt _ (by norm_num)⟩

/-- The output at row `p`, column `h * 128 + d`. -/
theorem attnOut_col (X : ArrX) (Wq Wk Wv : ArrW) (cK cV : ArrC) (p : Fin 16) (h : Fin 32) (d : Fin 128) :
    attnOut X Wq Wk Wv cK cV (ix2 p (col h d)) = headOut X Wq Wk Wv cK cV h p d := by
  have h1 : (h.val * 128 + d.val) / 128 = h.val := by have := d.isLt; omega
  have h2 : (h.val * 128 + d.val) % 128 = d.val := by have := d.isLt; omega
  show headOut X Wq Wk Wv cK cV ⟨(h.val * 128 + d.val) / 128, _⟩ p ⟨(h.val * 128 + d.val) % 128, _⟩ = _
  congr 1 <;> exact Fin.ext (by assumption)

end Cert.Proof.Spec

end
-- ==== Proof.RefProj.lean ====
/-
  The reference program's projections, keys and values are those of `Spec`.

  The reference scales each row of the activations by the reciprocal square root of its mean square, multiplies by
  the three weight matrices, splits the 4096 columns into 32 heads of 128 lanes (a reshape to [16, 32, 128] and a
  transposition to [32, 16, 128]: row `p`, column `h * 128 + d` becomes head `h`, row `p`, lane `d`), and appends the
  sixteen new key rows (value rows) after the 8192 cached ones along the row axis.  Each stage is read at an index
  given by its coordinates.
-/
import proofs.«129545_j317827580172_2_alg».proof.Proof.Gen.ReferenceIdeal.Read
import proofs.«129545_j317827580172_2_alg».proof.Proof.Spec

noncomputable section

open scoped BigOperators

namespace Cert.Proof.RefSpec

open Idealize.ShloMosaic Idealize.ShloMosaic.ValueIdx Cert.Proof Cert.ReferenceIdeal Cert.ReferenceIdeal.Gen
  Cert.ReferenceIdeal.Read

/-- The scaled rows: the reference's product of a row with the broadcast reciprocal square root of its mean
    square. -/
theorem scaled_at (x0 : Spec.ArrX) (p : Fin 16) (k : Fin 4096) :
    val_main_v7 (F := Ideal) x0 (ix2 p k) = Spec.xn x0 p k := by
  have e1 : ∀ k' : Fin 4096, idx_main_v1 (idx_main_v2 (idx_main_v6 (ix2 p k))) k' = ix2 p k' := fun k' =>
    funext fun a => Fin.ext (by match a with | ⟨0, _⟩ => rfl | ⟨1, _⟩ => rfl)
  rw [val_main_v7_apply, val_main_v6_apply, val_main_v5_apply, val_main_v4_apply, val_main_v2_apply,
    val_main_v1_apply, val_main_v3_apply, val_main_cst_0_apply, val_main_cst_apply]
  simp only [val_main_v0_apply, e1, Ideal.mulf_def, Ideal.hostDivf_def, Ideal.hostUnary_rsqrt_def, Ideal.ofBits_def,
    Spec.word_zero, Spec.word_4096, zero_add]
  rfl

/-- The query projection at row `p`, column `c`. -/
theorem projQ_at (x0 : Spec.ArrX) (x1 : Spec.ArrW) (p : Fin 16) (c : Fin 4096) :
    val_main_v8 (F := Ideal) x0 x1 (ix2 p c) = Spec.proj x0 x1 p c := by
  have el : ∀ k : Fin 4096, lidx_main_v8 (ix2 p c) k = ix2 p k := fun k =>
    funext fun a => Fin.ext (by match a with | ⟨0, _⟩ => rfl | ⟨1, _⟩ => rfl)
  have er : ∀ k : Fin 4096, ridx_main_v8 (ix2 p c) k = ix2 k c := fun k =>
    funext fun a => Fin.ext (by match a with | ⟨0, _⟩ => rfl | ⟨1, _⟩ => rfl)
  rw [val_main_v8_apply]
  simp only [el, er, scaled_at]
  rfl

/-- The key projection at row `p`, column `c`. -/
theorem projK_at (x0 : Spec.ArrX) (x2 : Spec.ArrW) (p : Fin 16) (c : Fin 4096) :
    val_main_v11 (F := Ideal) x0 x2 (ix2 p c) = Spec.proj x0 x2 p c := by
  have el : ∀ k : Fin 4096, lidx_main_v11 (ix2 p c) k = ix2 p k := fun k =>
    funext fun a => Fin.ext (by match a with | ⟨0, _⟩ => rfl | ⟨1, _⟩ => rfl)
  have er : ∀ k : Fin 4096, ridx_main_v11 (ix2 p c) k = ix2 k c := fun k =>
    funext fun a => Fin.ext (by match a with | ⟨0, _⟩ => rfl | ⟨1, _⟩ => rfl)
  rw [val_main_v11_apply]
  simp only [el, er, scaled_at]
  rfl

/-- The value projection at row `p`, column `c`. -/
theorem projV_at (x0 : Spec.ArrX) (x3 : Spec.ArrW) (p : Fin 16) (c : Fin 4096) :
    val_main_v14 (F := Ideal) x0 x3 (ix2 p c) = Spec.proj x0 x3 p c := by
  have el : ∀ k : Fin 4096, lidx_main_v14 (ix2 p c) k = ix2 p k := fun k =>
    funext fun a => Fin.ext (by match a with | ⟨0, _⟩ => rfl | ⟨1, _⟩ => rfl)
  have er : ∀ k : Fin 4096, ridx_main_v14 (ix2 p c) k = ix2 k c := fun k =>
    funext fun a => Fin.ext (by match a with | ⟨0, _⟩ => rfl | ⟨1, _⟩ => rfl)
  rw [val_main_v14_apply]
  simp only [el, er, scaled_at]
  rfl

/-- Head `h`, row `p`, lane `d` of a [16, 4096] array split into heads is its row `p`, column `h * 128 + d`. -/
theorem heads_idx (h : Fin 32) (p : Fin 16) (d : Fin 128) :
    idx_main_v9 (idx_main_v10 (ix3 h p d)) = ix2 p (Spec.col h d) := funext fun a => Fin.ext (by
  have hh := h.isLt; have hd := d.isLt; have hp := p.isLt
  match a with
  | ⟨0, _⟩ => show ((p.val * 32 + h.val) * 128 + d.val) / 4096 = p.val; omega
  | ⟨1, _⟩ => show ((p.val * 32 + h.val) * 128 + d.val) % 4096 = h.val * 128 + d.val; omega)

/-- The queries by head. -/
theorem headQ_at (x0 : Spec.ArrX) (x1 : Spec.ArrW) (h : Fin 32) (p : Fin 16) (d : Fin 128) :
    val_main_v10 (F := Ideal) x0 x1 (ix3 h p d) = Spec.proj x0 x1 p (Spec.col h d) := by
  rw [val_main_v10_apply, val_main_v9_apply, heads_idx, projQ_at]

/-- The new keys by head. -/
theorem headK_at (x0 : Spec.ArrX) (x2 : Spec.ArrW) (h : Fin 32) (p : Fin 16) (d : Fin 128) :
    val_main_v13 (F := Ideal) x0 x2 (ix3 h p d) = Spec.proj x0 x2 p (Spec.col h d) := by
  rw [val_main_v13_apply, val_main_v12_apply]
  exact (congrArg (val_main_v11 (F := Ideal) x0 x2) (heads_idx h p d)).trans (projK_at x0 x2 p _)

/-- The new values by head. -/
theorem headV_at (x0 : Spec.ArrX) (x3 : Spec.ArrW) (h : Fin 32) (p : Fin 16) (d : Fin 128) :
    val_main_v16 (F := Ideal) x0 x3 (ix3 h p d) = Spec.proj x0 x3 p (Spec.col h d) := by
  rw [val_main_v16_apply, val_main_v15_apply]
  exact (congrArg (val_main_v14 (F := Ideal) x0 x3) (heads_idx h p d)).trans (projV_at x0 x3 p _)

/-- The cache with sixteen rows appended along the row axis, at head `h`, row `j`, lane `d`: the cached row below
    8192, else appended row `j - 8192`. -/
theorem appended_at (a : Spec.ArrC) (b : S32x16x128.Idx → EReal) (h : Fin 32) (j : Fin 8208) (d : Fin 128) :
    concatenate S32x8208x128 1 [⟨S32x8192x128, a⟩, ⟨S32x16x128, b⟩]
        concatenates_S32x8192x128_S32x16x128_S32x8208x128_d1 (ix3 h j d)
      = if hj : j.val < 8192 then a (ix3 h ⟨j.val, hj⟩ d) else b (ix3 h ⟨j.val - 8192, by omega⟩ d) := by
  split
  · next hj =>
    exact concatenate_pair_apply_left 1 a b _ (ix3 h j d) rfl (ix3 h ⟨j.val, hj⟩ d)
      (fun c => by match c with | ⟨0, _⟩ => rfl | ⟨1, _⟩ => rfl | ⟨2, _⟩ => rfl)
  · next hj =>
    exact concatenate_pair_apply_right 1 a b _ (ix3 h j d) rfl rfl (ix3 h ⟨j.val - 8192, by omega⟩ d)
      (fun c hc => by
        match c, hc with
        | ⟨0, _⟩, _ => rfl
        | ⟨1, _⟩, hc => exact absurd rfl hc
        | ⟨2, _⟩, _ => rfl)
      (by show j.val - 8192 + 8192 = j.val; omega)

/-- The keys of head `h`. -/
theorem keys_at (x0 : Spec.ArrX) (x2 : Spec.ArrW) (x4 : Spec.ArrC) (h : Fin 32) (j : Fin 8208) (d : Fin 128) :
    val_main_v17 (F := Ideal) x0 x2 x4 (ix3 h j d) = Spec.cat x0 x2 x4 h j d := by
  unfold val_main_v17 Spec.cat
  rw [appended_at]
  split
  · rfl
  · exact headK_at x0 x2 h _ d

/-- The values of head `h`. -/
theorem values_at (x0 : Spec.ArrX) (x3 : Spec.ArrW) (x5 : Spec.ArrC) (h : Fin 32) (j : Fin 8208) (d : Fin 128) :
    val_main_v18 (F := Ideal) x0 x3 x5 (ix3 h j d) = Spec.cat x0 x3 x5 h j d := by
  unfold val_main_v18 Spec.cat
  rw [appended_at]
  split
  · rfl
  · exact headV_at x0 x3 h _ d

end Cert.Proof.RefSpec

end
-- ==== Proof.RefSpec.lean ====
/-
  The reference program computes the attention layer of `Spec`.

  With the projections, keys and values read (the module before this one), the rest of the reference is the
  softmax over the 8208 keys and the weighted sum of the values: the scores are the products of the queries with the
  keys over the 128 lanes; their maximum over the keys is a fold from minus infinity; the shifted scores are
  exponentiated, summed from zero and divided; the weights multiply the values; and the heads are laid back side
  by side (a transposition to [16, 32, 128] and a reshape to [16, 4096]).  The result, index by index, is
  `Spec.attnOut` of the six argument arrays.
-/
import proofs.«129545_j317827580172_2_alg».proof.Proof.RefProj

noncomputable section

open scoped BigOperators

namespace Cert.Proof.RefSpec

open Idealize.ShloMosaic Idealize.ShloMosaic.ValueIdx Cert.Proof Cert.ReferenceIdeal Cert.ReferenceIdeal.Gen
  Cert.ReferenceIdeal.Read

/-- The scores: the batched product of the queries with the keys over the 128 lanes. -/
theorem score_at (x0 : Spec.ArrX) (x1 x2 : Spec.ArrW) (x4 : Spec.ArrC) (h : Fin 32) (p : Fin 16) (j : Fin 8208) :
    val_main_v19 (F := Ideal) x0 x1 x2 x4 (ix3 h p j) = Spec.score x0 x1 x2 x4 h p j := by
  have el : ∀ k : Fin 128, lidx_main_v19 (ix3 h p j) k = ix3 h p k := fun k =>
    funext fun a => Fin.ext (by match a with | ⟨0, _⟩ => rfl | ⟨1, _⟩ => rfl | ⟨2, _⟩ => rfl)
  have er : ∀ k : Fin 128, ridx_main_v19 (ix3 h p j) k = ix3 h j k := fun k =>
    funext fun a => Fin.ext (by match a with | ⟨0, _⟩ => rfl | ⟨1, _⟩ => rfl | ⟨2, _⟩ => rfl)
  rw [val_main_v19_apply]
  simp only [el, er, headQ_at, keys_at]
  rfl

/-- Inserting key `k` on the last axis of head `h`, row `p`. -/
theorem lift_key (hr : S32x16x8208.Reduces [2] S32x16) (h : Fin 32) (p : Fin 16) (k : Fin 8208) :
    hr.lift (ix2 h p) k = ix3 h p k :=
  funext fun a => Fin.ext (by match a with | ⟨0, _⟩ => rfl | ⟨1, _⟩ => rfl | ⟨2, _⟩ => rfl)

/-- The reduction by maximum over the keys, from minus infinity, is the row's greatest score. -/
theorem rowMax_at (x0 : Spec.ArrX) (x1 x2 : Spec.ArrW) (x4 : Spec.ArrC) (h : Fin 32) (p : Fin 16) :
    val_main_v20 (F := Ideal) x0 x1 x2 x4 (ix2 h p) = Spec.rowMax x0 x1 x2 x4 h p := by
  have hr : S32x16x8208.Reduces [2] S32x16 := by decide
  unfold val_main_v20
  generalize hy : val_main_v19 (F := Ideal) x0 x1 x2 x4 = y
  refine (Host.reduce_eq_fold_single (FloatOps.maximumf (F := Ideal) (φ := .f32)) y (val_main_cst_1 (F := Ideal))
    reducesTo_S32x16x8208_S32x16_d2 hr h_S_ (ix2 h p)).trans ?_
  show (Finset.univ : Finset (Fin 8208)).fold max (Ideal.ofBits .f32 0xFF800000#32) (fun k => y (hr.lift (ix2 h p) k)) = _
  rw [Spec.word_negInf]
  unfold Spec.rowMax
  refine congrArg (fun f : Fin 8208 → EReal => (Finset.univ : Finset (Fin 8208)).fold max ⊥ f)
    (funext fun (k : Fin 8208) => ?_)
  have hk := score_at x0 x1 x2 x4 h p k
  rw [hy] at hk
  exact (congrArg y (lift_key hr h p k)).trans hk

/-- The maximum of minus infinity and the row's greatest score is the row's greatest score. -/
theorem shift_at (x0 : Spec.ArrX) (x1 x2 : Spec.ArrW) (x4 : Spec.ArrC) (h : Fin 32) (p : Fin 16) :
    val_main_v22 (F := Ideal) x0 x1 x2 x4 (ix2 h p) = Spec.rowMax x0 x1 x2 x4 h p := by
  rw [val_main_v22_apply, val_main_v21_apply, val_main_cst_2_apply, rowMax_at]
  simp only [Ideal.maximumf_def, Ideal.ofBits_def, Spec.word_negInf, max_bot_left]

/-- The exponentials of the shifted scores. -/
theorem expo_at (x0 : Spec.ArrX) (x1 x2 : Spec.ArrW) (x4 : Spec.ArrC) (h : Fin 32) (p : Fin 16) (j : Fin 8208) :
    val_main_v26 (F := Ideal) x0 x1 x2 x4 (ix3 h p j) = Spec.expo x0 x1 x2 x4 h p j := by
  have e : idx_main_v23 (idx_main_v24 (ix3 h p j)) = ix2 h p :=
    funext fun a => Fin.ext (by match a with | ⟨0, _⟩ => rfl | ⟨1, _⟩ => rfl)
  rw [val_main_v26_apply, val_main_v25_apply, val_main_v24_apply, val_main_v23_apply, e, shift_at, score_at]
  simp only [Ideal.hostUnary_exp_def, Ideal.subf_def]
  rfl

/-- The sum of a row's exponentials, from zero. -/
theorem denom_at (x0 : Spec.ArrX) (x1 x2 : Spec.ArrW) (x4 : Spec.ArrC) (h : Fin 32) (p : Fin 16) :
    val_main_v27 (F := Ideal) x0 x1 x2 x4 (ix2 h p) = Spec.denom x0 x1 x2 x4 h p := by
  have e : ∀ k : Fin 8208, idx_main_v27 (ix2 h p) k = ix3 h p k := fun k =>
    funext fun a => Fin.ext (by match a with | ⟨0, _⟩ => rfl | ⟨1, _⟩ => rfl | ⟨2, _⟩ => rfl)
  rw [val_main_v27_apply, val_main_cst_3_apply]
  simp only [e, expo_at, Ideal.ofBits_def, Spec.word_zero, zero_add]
  rfl

/-- The weights: each exponential over the row's sum. -/
theorem weight_at (x0 : Spec.ArrX) (x1 x2 : Spec.ArrW) (x4 : Spec.ArrC) (h : Fin 32) (p : Fin 16) (j : Fin 8208) :
    val_main_v30 (F := Ideal) x0 x1 x2 x4 (ix3 h p j) = Spec.weight x0 x1 x2 x4 h p j := by
  have e : idx_main_v28 (idx_main_v29 (ix3 h p j)) = ix2 h p :=
    funext fun a => Fin.ext (by match a with | ⟨0, _⟩ => rfl | ⟨1, _⟩ => rfl)
  rw [val_main_v30_apply, val_main_v29_apply, val_main_v28_apply, e, denom_at, expo_at]
  simp only [Ideal.hostDivf_def]
  rfl

/-- The weighted sums of the values, by head. -/
theorem head_at (x0 : Spec.ArrX) (x1 x2 x3 : Spec.ArrW) (x4 x5 : Spec.ArrC) (h : Fin 32) (p : Fin 16) (d : Fin 128) :
    val_main_v31 (F := Ideal) x0 x1 x2 x3 x4 x5 (ix3 h p d) = Spec.headOut x0 x1 x2 x3 x4 x5 h p d := by
  have el : ∀ k : Fin 8208, lidx_main_v31 (ix3 h p d) k = ix3 h p k := fun k =>
    funext fun a => Fin.ext (by match a with | ⟨0, _⟩ => rfl | ⟨1, _⟩ => rfl | ⟨2, _⟩ => rfl)
  have er : ∀ k : Fin 8208, ridx_main_v31 (ix3 h p d) k = ix3 h k d := fun k =>
    funext fun a => Fin.ext (by match a with | ⟨0, _⟩ => rfl | ⟨1, _⟩ => rfl | ⟨2, _⟩ => rfl)
  rw [val_main_v31_apply]
  simp only [el, er, weight_at, values_at]
  rfl

/-- The heads laid back side by side: row `p`, column `c` is head `c / 128`, lane `c % 128`. -/
theorem out_at (x0 : Spec.ArrX) (x1 x2 x3 : Spec.ArrW) (x4 x5 : Spec.ArrC) (i : S16x4096.Idx) :
    val_main_v33 (F := Ideal) x0 x1 x2 x3 x4 x5 i = Spec.attnOut x0 x1 x2 x3 x4 x5 i := by
  obtain ⟨p, c, rfl⟩ : ∃ (p : Fin 16) (c : Fin 4096), i = ix2 p c := ⟨i 0, i 1, eq_ix2 i⟩
  have e : idx_main_v32 (idx_main_v33 (ix2 p c))
      = ix3 (⟨c.val / 128, by have := c.isLt; omega⟩ : Fin 32) p
          (⟨c.val % 128, Nat.mod_lt _ (by norm_num)⟩ : Fin 128) := funext fun a => Fin.ext (by
    have h0 := p.isLt; have h1 := c.isLt
    match a with
    | ⟨0, _⟩ => show (p.val * 4096 + c.val) / 128 % 32 = c.val / 128; omega
    | ⟨1, _⟩ => show (p.val * 4096 + c.val) / 4096 = p.val; omega
    | ⟨2, _⟩ => show (p.val * 4096 + c.val) % 128 = c.val % 128; omega)
  rw [val_main_v33_apply, val_main_v32_apply, e, head_at]
  rfl

/-- THE REFERENCE IS THE SPECIFICATION: the result of the reference's run, as the run's module names it, is
    `Spec.attnOut` of the six argument arrays as launched. -/
theorem reference_eq (m : (ℓ : Loc nD τ sig) → Buf (Elt Ideal) ℓ) (c : Dev nD) :
    Cert.ReferenceIdeal.Value.res_main_v33 (F := Ideal) m c
      = Spec.attnOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [val_main_v33_eq]
  exact funext fun i => out_at _ _ _ _ _ _ i

end Cert.Proof.RefSpec

end
-- ==== Proof.KI.Pieces1.lean ====
/-
  The attention kernel's state after a point, as the body's arithmetic.

  Every store here covers its whole buffer, so a buffer ends at its last store's value and a load after a store reads
  that value.  After chunk 0 of a head the three scratch buffers hold one step of the running (maximum, denominator,
  numerator) recurrence from (-inf, 0, 0) on the chunk's scores and values; after chunk 1 they hold two more steps —
  the chunk's, then the 16 new keys' — and the output block holds numerator / denominator.
-/
import proofs.«129545_j317827580172_2_alg».proof.Proof.KI.Reg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem hz2' : (![0, 0] : Fin 2 → Nat) = fun _ => 0 := funext fun a => by fin_cases a <;> rfl
theorem hz3 : (![0, 0, 0] : Fin 3 → Nat) = fun _ => 0 := funext fun a => by fin_cases a <;> rfl

theorem s0_A1 (c : Dev nD) (t : Fin cfg1.N) (hc0 : cond1_0 (grid1.coords t)) (hc1 : ¬cond1_1 (grid1.coords t)) :
    (st1_A V c t hc0 hc1).s0 = k1_pay2 (k1_pay17 (iblk1 V c 0 t) (iblk1 V c 1 t) k1_pay11) := by
  unfold st1_A; dsimp only
  rw [View.read_writes_eq_canon _ _ _ (cover1_A_s0 V c t hc0 hc1)]
  unfold run1_A kernelRun1_A; dsimp only
  sl_unfold_words
  have hrd0 : ∀ (h : (scM1_0).IsWhole) (X : S16x1.Idx → Elt F .f32), View.read (Elt F) (View.whole cc1_scratch0) (h.unread X) = X := fun h X => h.read_unread X
  have hrd1 : ∀ (h : (scM1_1).IsWhole) (X : S16x1.Idx → Elt F .f32), View.read (Elt F) (View.whole cc1_scratch1) (h.unread X) = X := fun h X => h.read_unread X
  have hrd2 : ∀ (h : (scM1_2).IsWhole) (X : S16x128.Idx → Elt F .f32), View.read (Elt F) (View.whole cc1_scratch2) (h.unread X) = X := fun h X => h.read_unread X
  simp only [hrd0, hrd1, hrd2, View.canon_cons_unit_zero (S := S16x1) hz2', View.canon_unit_zero (S := S16x1) hz2', View.ld_unit_zero (S := S16x1) hz2', View.readCov_unit_zero (S := S16x1) _ hz2', View.canon_cons_unit_zero (S := S16x128) hz2', View.canon_unit_zero (S := S16x128) hz2', View.ld_unit_zero (S := S16x128) hz2', View.readCov_unit_zero (S := S16x128) _ hz2', View.canon_cons_unit_zero (S := S16x4096) hz2', View.canon_unit_zero (S := S16x4096) hz2', View.ld_unit_zero (S := S16x4096) hz2', View.readCov_unit_zero (S := S16x4096) _ hz2', View.canon_cons_unit_zero (S := S16x16) hz2', View.canon_unit_zero (S := S16x16) hz2', View.ld_unit_zero (S := S16x16) hz2', View.readCov_unit_zero (S := S16x16) _ hz2', View.canon_cons_unit_zero (S := S1x16x128) hz3, View.canon_unit_zero (S := S1x16x128) hz3, View.ld_unit_zero (S := S1x16x128) hz3, View.readCov_unit_zero (S := S1x16x128) _ hz3, View.canon_cons_unit_zero (S := S1x4096x128) hz3, View.canon_unit_zero (S := S1x4096x128) hz3, View.ld_unit_zero (S := S1x4096x128) hz3, View.readCov_unit_zero (S := S1x4096x128) _ hz3, View.readAt_eq_ld, Memref.IsWhole.read_unread, View.readAt_writes_junk_eq_canon, View.readCov_cons_toLoadRect]
  first | done | rfl

theorem s1_A1 (c : Dev nD) (t : Fin cfg1.N) (hc0 : cond1_0 (grid1.coords t)) (hc1 : ¬cond1_1 (grid1.coords t)) :
    (st1_A V c t hc0 hc1).s1 = k1_pay20 (iblk1 V c 0 t) (iblk1 V c 1 t) k1_pay11 k1_pay11 k1_pay12 := by
  unfold st1_A; dsimp only
  rw [View.read_writes_eq_canon _ _ _ (cover1_A_s1 V c t hc0 hc1)]
  unfold run1_A kernelRun1_A; dsimp only
  sl_unfold_words
  have hrd0 : ∀ (h : (scM1_0).IsWhole) (X : S16x1.Idx → Elt F .f32), View.read (Elt F) (View.whole cc1_scratch0) (h.unread X) = X := fun h X => h.read_unread X
  have hrd1 : ∀ (h : (scM1_1).IsWhole) (X : S16x1.Idx → Elt F .f32), View.read (Elt F) (View.whole cc1_scratch1) (h.unread X) = X := fun h X => h.read_unread X
  have hrd2 : ∀ (h : (scM1_2).IsWhole) (X : S16x128.Idx → Elt F .f32), View.read (Elt F) (View.whole cc1_scratch2) (h.unread X) = X := fun h X => h.read_unread X
  simp only [hrd0, hrd1, hrd2, View.canon_cons_unit_zero (S := S16x1) hz2', View.canon_unit_zero (S := S16x1) hz2', View.ld_unit_zero (S := S16x1) hz2', View.readCov_unit_zero (S := S16x1) _ hz2', View.canon_cons_unit_zero (S := S16x128) hz2', View.canon_unit_zero (S := S16x128) hz2', View.ld_unit_zero (S := S16x128) hz2', View.readCov_unit_zero (S := S16x128) _ hz2', View.canon_cons_unit_zero (S := S16x4096) hz2', View.canon_unit_zero (S := S16x4096) hz2', View.ld_unit_zero (S := S16x4096) hz2', View.readCov_unit_zero (S := S16x4096) _ hz2', View.canon_cons_unit_zero (S := S16x16) hz2', View.canon_unit_zero (S := S16x16) hz2', View.ld_unit_zero (S := S16x16) hz2', View.readCov_unit_zero (S := S16x16) _ hz2', View.canon_cons_unit_zero (S := S1x16x128) hz3, View.canon_unit_zero (S := S1x16x128) hz3, View.ld_unit_zero (S := S1x16x128) hz3, View.readCov_unit_zero (S := S1x16x128) _ hz3, View.canon_cons_unit_zero (S := S1x4096x128) hz3, View.canon_unit_zero (S := S1x4096x128) hz3, View.ld_unit_zero (S := S1x4096x128) hz3, View.readCov_unit_zero (S := S1x4096x128) _ hz3, View.readAt_eq_ld, Memref.IsWhole.read_unread, View.readAt_writes_junk_eq_canon, View.readCov_cons_toLoadRect]
  first | done | rfl

theorem s2_A1 (c : Dev nD) (t : Fin cfg1.N) (hc0 : cond1_0 (grid1.coords t)) (hc1 : ¬cond1_1 (grid1.coords t)) :
    (st1_A V c t hc0 hc1).s2 = k1_pay1 (k1_pay15 (iblk1 V c 2 t)) (k1_pay18 (iblk1 V c 0 t) (iblk1 V c 1 t) k1_pay11 k1_pay11) (k1_pay19 (iblk1 V c 0 t) (iblk1 V c 1 t) k1_pay11) k1_pay13 := by
  unfold st1_A; dsimp only
  rw [View.read_writes_eq_canon _ _ _ (cover1_A_s2 V c t hc0 hc1)]
  unfold run1_A kernelRun1_A; dsimp only
  sl_unfold_words
  have hrd0 : ∀ (h : (scM1_0).IsWhole) (X : S16x1.Idx → Elt F .f32), View.read (Elt F) (View.whole cc1_scratch0) (h.unread X) = X := fun h X => h.read_unread X
  have hrd1 : ∀ (h : (scM1_1).IsWhole) (X : S16x1.Idx → Elt F .f32), View.read (Elt F) (View.whole cc1_scratch1) (h.unread X) = X := fun h X => h.read_unread X
  have hrd2 : ∀ (h : (scM1_2).IsWhole) (X : S16x128.Idx → Elt F .f32), View.read (Elt F) (View.whole cc1_scratch2) (h.unread X) = X := fun h X => h.read_unread X
  simp only [hrd0, hrd1, hrd2, View.canon_cons_unit_zero (S := S16x1) hz2', View.canon_unit_zero (S := S16x1) hz2', View.ld_unit_zero (S := S16x1) hz2', View.readCov_unit_zero (S := S16x1) _ hz2', View.canon_cons_unit_zero (S := S16x128) hz2', View.canon_unit_zero (S := S16x128) hz2', View.ld_unit_zero (S := S16x128) hz2', View.readCov_unit_zero (S := S16x128) _ hz2', View.canon_cons_unit_zero (S := S16x4096) hz2', View.canon_unit_zero (S := S16x4096) hz2', View.ld_unit_zero (S := S16x4096) hz2', View.readCov_unit_zero (S := S16x4096) _ hz2', View.canon_cons_unit_zero (S := S16x16) hz2', View.canon_unit_zero (S := S16x16) hz2', View.ld_unit_zero (S := S16x16) hz2', View.readCov_unit_zero (S := S16x16) _ hz2', View.canon_cons_unit_zero (S := S1x16x128) hz3, View.canon_unit_zero (S := S1x16x128) hz3, View.ld_unit_zero (S := S1x16x128) hz3, View.readCov_unit_zero (S := S1x16x128) _ hz3, View.canon_cons_unit_zero (S := S1x4096x128) hz3, View.canon_unit_zero (S := S1x4096x128) hz3, View.ld_unit_zero (S := S1x4096x128) hz3, View.readCov_unit_zero (S := S1x4096x128) _ hz3, View.readAt_eq_ld, Memref.IsWhole.read_unread, View.readAt_writes_junk_eq_canon, View.readCov_cons_toLoadRect]
  first | done | rfl

theorem s0_B1 (c : Dev nD) (t : Fin cfg1.N) (hc0 : ¬cond1_0 (grid1.coords t)) (hc1 : cond1_1 (grid1.coords t)) (p : St1 F) :
    (st1_B V c t hc0 hc1 p).s0 = k1_pay3 (k1_pay6 (k1_pay14 (iblk1 V c 0 t)) (iblk1 V c 3 t) (k1_pay2 (k1_pay17 (iblk1 V c 0 t) (iblk1 V c 1 t) p.s0))) := by
  unfold st1_B; dsimp only
  rw [View.read_writes_eq_canon _ _ _ (cover1_B_s0 V c t hc0 hc1 p)]
  unfold run1_B kernelRun1_B; dsimp only
  sl_unfold_words
  have hrd0 : ∀ (h : (scM1_0).IsWhole) (X : S16x1.Idx → Elt F .f32), View.read (Elt F) (View.whole cc1_scratch0) (h.unread X) = X := fun h X => h.read_unread X
  have hrd1 : ∀ (h : (scM1_1).IsWhole) (X : S16x1.Idx → Elt F .f32), View.read (Elt F) (View.whole cc1_scratch1) (h.unread X) = X := fun h X => h.read_unread X
  have hrd2 : ∀ (h : (scM1_2).IsWhole) (X : S16x128.Idx → Elt F .f32), View.read (Elt F) (View.whole cc1_scratch2) (h.unread X) = X := fun h X => h.read_unread X
  simp only [hrd0, hrd1, hrd2, View.canon_cons_unit_zero (S := S16x1) hz2', View.canon_unit_zero (S := S16x1) hz2', View.ld_unit_zero (S := S16x1) hz2', View.readCov_unit_zero (S := S16x1) _ hz2', View.canon_cons_unit_zero (S := S16x128) hz2', View.canon_unit_zero (S := S16x128) hz2', View.ld_unit_zero (S := S16x128) hz2', View.readCov_unit_zero (S := S16x128) _ hz2', View.canon_cons_unit_zero (S := S16x4096) hz2', View.canon_unit_zero (S := S16x4096) hz2', View.ld_unit_zero (S := S16x4096) hz2', View.readCov_unit_zero (S := S16x4096) _ hz2', View.canon_cons_unit_zero (S := S16x16) hz2', View.canon_unit_zero (S := S16x16) hz2', View.ld_unit_zero (S := S16x16) hz2', View.readCov_unit_zero (S := S16x16) _ hz2', View.canon_cons_unit_zero (S := S1x16x128) hz3, View.canon_unit_zero (S := S1x16x128) hz3, View.ld_unit_zero (S := S1x16x128) hz3, View.readCov_unit_zero (S := S1x16x128) _ hz3, View.canon_cons_unit_zero (S := S1x4096x128) hz3, View.canon_unit_zero (S := S1x4096x128) hz3, View.ld_unit_zero (S := S1x4096x128) hz3, View.readCov_unit_zero (S := S1x4096x128) _ hz3, View.readAt_eq_ld, Memref.IsWhole.read_unread, View.readAt_writes_junk_eq_canon, View.readCov_cons_toLoadRect]
  first | done | rfl

theorem s1_B1 (c : Dev nD) (t : Fin cfg1.N) (hc0 : ¬cond1_0 (grid1.coords t)) (hc1 : cond1_1 (grid1.coords t)) (p : St1 F) :
    (st1_B V c t hc0 hc1 p).s1 = k1_pay9 (k1_pay14 (iblk1 V c 0 t)) (iblk1 V c 3 t) (k1_pay2 (k1_pay17 (iblk1 V c 0 t) (iblk1 V c 1 t) p.s0)) (k1_pay2 (k1_pay17 (iblk1 V c 0 t) (iblk1 V c 1 t) p.s0)) (k1_pay20 (iblk1 V c 0 t) (iblk1 V c 1 t) p.s0 p.s0 p.s1) := by
  unfold st1_B; dsimp only
  rw [View.read_writes_eq_canon _ _ _ (cover1_B_s1 V c t hc0 hc1 p)]
  unfold run1_B kernelRun1_B; dsimp only
  sl_unfold_words
  have hrd0 : ∀ (h : (scM1_0).IsWhole) (X : S16x1.Idx → Elt F .f32), View.read (Elt F) (View.whole cc1_scratch0) (h.unread X) = X := fun h X => h.read_unread X
  have hrd1 : ∀ (h : (scM1_1).IsWhole) (X : S16x1.Idx → Elt F .f32), View.read (Elt F) (View.whole cc1_scratch1) (h.unread X) = X := fun h X => h.read_unread X
  have hrd2 : ∀ (h : (scM1_2).IsWhole) (X : S16x128.Idx → Elt F .f32), View.read (Elt F) (View.whole cc1_scratch2) (h.unread X) = X := fun h X => h.read_unread X
  simp only [hrd0, hrd1, hrd2, View.canon_cons_unit_zero (S := S16x1) hz2', View.canon_unit_zero (S := S16x1) hz2', View.ld_unit_zero (S := S16x1) hz2', View.readCov_unit_zero (S := S16x1) _ hz2', View.canon_cons_unit_zero (S := S16x128) hz2', View.canon_unit_zero (S := S16x128) hz2', View.ld_unit_zero (S := S16x128) hz2', View.readCov_unit_zero (S := S16x128) _ hz2', View.canon_cons_unit_zero (S := S16x4096) hz2', View.canon_unit_zero (S := S16x4096) hz2', View.ld_unit_zero (S := S16x4096) hz2', View.readCov_unit_zero (S := S16x4096) _ hz2', View.canon_cons_unit_zero (S := S16x16) hz2', View.canon_unit_zero (S := S16x16) hz2', View.ld_unit_zero (S := S16x16) hz2', View.readCov_unit_zero (S := S16x16) _ hz2', View.canon_cons_unit_zero (S := S1x16x128) hz3, View.canon_unit_zero (S := S1x16x128) hz3, View.ld_unit_zero (S := S1x16x128) hz3, View.readCov_unit_zero (S := S1x16x128) _ hz3, View.canon_cons_unit_zero (S := S1x4096x128) hz3, View.canon_unit_zero (S := S1x4096x128) hz3, View.ld_unit_zero (S := S1x4096x128) hz3, View.readCov_unit_zero (S := S1x4096x128) _ hz3, View.readAt_eq_ld, Memref.IsWhole.read_unread, View.readAt_writes_junk_eq_canon, View.readCov_cons_toLoadRect]
  first | done | rfl

theorem s2_B1 (c : Dev nD) (t : Fin cfg1.N) (hc0 : ¬cond1_0 (grid1.coords t)) (hc1 : cond1_1 (grid1.coords t)) (p : St1 F) :
    (st1_B V c t hc0 hc1 p).s2 = k1_pay10 (k1_pay14 (iblk1 V c 0 t)) (iblk1 V c 3 t) (iblk1 V c 4 t) (k1_pay2 (k1_pay17 (iblk1 V c 0 t) (iblk1 V c 1 t) p.s0)) (k1_pay2 (k1_pay17 (iblk1 V c 0 t) (iblk1 V c 1 t) p.s0)) (k1_pay1 (k1_pay15 (iblk1 V c 2 t)) (k1_pay18 (iblk1 V c 0 t) (iblk1 V c 1 t) p.s0 p.s0) (k1_pay19 (iblk1 V c 0 t) (iblk1 V c 1 t) p.s0) p.s2) := by
  unfold st1_B; dsimp only
  rw [View.read_writes_eq_canon _ _ _ (cover1_B_s2 V c t hc0 hc1 p)]
  unfold run1_B kernelRun1_B; dsimp only
  sl_unfold_words
  have hrd0 : ∀ (h : (scM1_0).IsWhole) (X : S16x1.Idx → Elt F .f32), View.read (Elt F) (View.whole cc1_scratch0) (h.unread X) = X := fun h X => h.read_unread X
  have hrd1 : ∀ (h : (scM1_1).IsWhole) (X : S16x1.Idx → Elt F .f32), View.read (Elt F) (View.whole cc1_scratch1) (h.unread X) = X := fun h X => h.read_unread X
  have hrd2 : ∀ (h : (scM1_2).IsWhole) (X : S16x128.Idx → Elt F .f32), View.read (Elt F) (View.whole cc1_scratch2) (h.unread X) = X := fun h X => h.read_unread X
  simp only [hrd0, hrd1, hrd2, View.canon_cons_unit_zero (S := S16x1) hz2', View.canon_unit_zero (S := S16x1) hz2', View.ld_unit_zero (S := S16x1) hz2', View.readCov_unit_zero (S := S16x1) _ hz2', View.canon_cons_unit_zero (S := S16x128) hz2', View.canon_unit_zero (S := S16x128) hz2', View.ld_unit_zero (S := S16x128) hz2', View.readCov_unit_zero (S := S16x128) _ hz2', View.canon_cons_unit_zero (S := S16x4096) hz2', View.canon_unit_zero (S := S16x4096) hz2', View.ld_unit_zero (S := S16x4096) hz2', View.readCov_unit_zero (S := S16x4096) _ hz2', View.canon_cons_unit_zero (S := S16x16) hz2', View.canon_unit_zero (S := S16x16) hz2', View.ld_unit_zero (S := S16x16) hz2', View.readCov_unit_zero (S := S16x16) _ hz2', View.canon_cons_unit_zero (S := S1x16x128) hz3, View.canon_unit_zero (S := S1x16x128) hz3, View.ld_unit_zero (S := S1x16x128) hz3, View.readCov_unit_zero (S := S1x16x128) _ hz3, View.canon_cons_unit_zero (S := S1x4096x128) hz3, View.canon_unit_zero (S := S1x4096x128) hz3, View.ld_unit_zero (S := S1x4096x128) hz3, View.readCov_unit_zero (S := S1x4096x128) _ hz3, View.readAt_eq_ld, Memref.IsWhole.read_unread, View.readAt_writes_junk_eq_canon, View.readCov_cons_toLoadRect]
  first | done | rfl

theorem o5_B1 (c : Dev nD) (t : Fin cfg1.N) (hc0 : ¬cond1_0 (grid1.coords t)) (hc1 : cond1_1 (grid1.coords t)) (p : St1 F) :
    (st1_B V c t hc0 hc1 p).o5 = k1_pay4 (k1_pay10 (k1_pay14 (iblk1 V c 0 t)) (iblk1 V c 3 t) (iblk1 V c 4 t) (k1_pay2 (k1_pay17 (iblk1 V c 0 t) (iblk1 V c 1 t) p.s0)) (k1_pay2 (k1_pay17 (iblk1 V c 0 t) (iblk1 V c 1 t) p.s0)) (k1_pay1 (k1_pay15 (iblk1 V c 2 t)) (k1_pay18 (iblk1 V c 0 t) (iblk1 V c 1 t) p.s0 p.s0) (k1_pay19 (iblk1 V c 0 t) (iblk1 V c 1 t) p.s0) p.s2)) (k1_pay9 (k1_pay14 (iblk1 V c 0 t)) (iblk1 V c 3 t) (k1_pay2 (k1_pay17 (iblk1 V c 0 t) (iblk1 V c 1 t) p.s0)) (k1_pay2 (k1_pay17 (iblk1 V c 0 t) (iblk1 V c 1 t) p.s0)) (k1_pay20 (iblk1 V c 0 t) (iblk1 V c 1 t) p.s0 p.s0 p.s1)) := by
  unfold st1_B; dsimp only
  rw [View.read_writes_eq_canon _ _ _ (cover1_B_o5 V c t hc0 hc1 p)]
  unfold run1_B kernelRun1_B; dsimp only
  sl_unfold_words
  have hrd0 : ∀ (h : (scM1_0).IsWhole) (X : S16x1.Idx → Elt F .f32), View.read (Elt F) (View.whole cc1_scratch0) (h.unread X) = X := fun h X => h.read_unread X
  have hrd1 : ∀ (h : (scM1_1).IsWhole) (X : S16x1.Idx → Elt F .f32), View.read (Elt F) (View.whole cc1_scratch1) (h.unread X) = X := fun h X => h.read_unread X
  have hrd2 : ∀ (h : (scM1_2).IsWhole) (X : S16x128.Idx → Elt F .f32), View.read (Elt F) (View.whole cc1_scratch2) (h.unread X) = X := fun h X => h.read_unread X
  simp only [hrd0, hrd1, hrd2, View.canon_cons_unit_zero (S := S16x1) hz2', View.canon_unit_zero (S := S16x1) hz2', View.ld_unit_zero (S := S16x1) hz2', View.readCov_unit_zero (S := S16x1) _ hz2', View.canon_cons_unit_zero (S := S16x128) hz2', View.canon_unit_zero (S := S16x128) hz2', View.ld_unit_zero (S := S16x128) hz2', View.readCov_unit_zero (S := S16x128) _ hz2', View.canon_cons_unit_zero (S := S16x4096) hz2', View.canon_unit_zero (S := S16x4096) hz2', View.ld_unit_zero (S := S16x4096) hz2', View.readCov_unit_zero (S := S16x4096) _ hz2', View.canon_cons_unit_zero (S := S16x16) hz2', View.canon_unit_zero (S := S16x16) hz2', View.ld_unit_zero (S := S16x16) hz2', View.readCov_unit_zero (S := S16x16) _ hz2', View.canon_cons_unit_zero (S := S1x16x128) hz3, View.canon_unit_zero (S := S1x16x128) hz3, View.ld_unit_zero (S := S1x16x128) hz3, View.readCov_unit_zero (S := S1x16x128) _ hz3, View.canon_cons_unit_zero (S := S1x4096x128) hz3, View.canon_unit_zero (S := S1x4096x128) hz3, View.ld_unit_zero (S := S1x4096x128) hz3, View.readCov_unit_zero (S := S1x4096x128) _ hz3, View.readAt_eq_ld, Memref.IsWhole.read_unread, View.readAt_writes_junk_eq_canon, View.readCov_cons_toLoadRect]
  first | done | rfl

end Cert.KernelIdeal.Hand

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibDotNT.lean ====
/-
  A matrix product that contracts the last axes of both operands, read at coordinates. For dimension numbers that
  contract the left operand's columns with the right operand's columns and have no batch axis, the product of an
  `[M, K]` by an `[N, K]` matrix into a zero accumulator is, at the extended reals and at `(p, q)`, the sum over `k` of
  `l (p, k) · r (q, k)`: the left operand times the transpose of the right one.
-/
import Idealize.ShloMosaic.PureOps.Ideal.Laws
import Idealize.ShloMosaic.Lib.ValueIdx

noncomputable section

namespace Cert.LibDotNT

open Idealize.ShloMosaic Idealize.ShloMosaic.ValueIdx
open scoped BigOperators

variable {M K N : Nat} (d : DotDims ⟨2, ![M, K]⟩ ⟨2, ![N, K]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's row coordinate is the result's column. -/
theorem rhsIdx_row (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_nt_apply {φ₁ φ₂ : FTy} (hlc : d.lhsContracting = [1]) (hrc : d.rhsContracting = [1])
    (hlb : d.lhsBatch = []) (hrb : d.rhsBatch = []) (hln : d.lhsNonContracting = [0]) (hrn : d.rhsNonContracting = [0])
    (prec : Option ContractPrecision) (l : FVec Ideal ⟨2, ![M, K]⟩ φ₁) (r : FVec Ideal ⟨2, ![N, K]⟩ φ₂) (p : Fin M) (q : Fin N) :
    FloatOps.matmul d prec l r (constant ⟨2, ![M, N]⟩ .f32 0x00000000#32) (ix2 p q) = ∑ k : Fin K, l (ix2 p k) * r (ix2 q k) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 q k := by
    refine funext fun a => Fin.ext ?_
    match a with
    | ⟨0, _⟩ => exact rhsIdx_row d hlb hrb hln hrn (ix2 p q) _
    | ⟨1, _⟩ => exact (d.rhsIdx_val_of_single (cr := 1) hrc (ix2 p q) _).trans e0
  rw [hl, hrr]

end Cert.LibDotNT

end
-- ==== Proof.LibOnlineSoftmax.lean ====
/-
  The online-softmax law over the extended reals.

  A row of scores is walked in blocks. Per block the running maximum m, the running denominator l
  and the running numerator acc are updated by
      m'   = max m (max of the block)
      a    = exp (m - m')
      l'   = a * l   + Σ_t exp (s t - m')
      acc' = a * acc + Σ_t exp (s t - m') * v t
  starting from m = -∞, l = 0, acc = 0, and the result is acc / l. The max-shifted softmax over the
  whole row, M the row's maximum, e x = exp (s x - M), L = 0 + Σ e, result = Σ_x (e x / L) * v x,
  is the same extended real whenever every score and value is finite: after k ≥ 1 blocks the state is
  (μ, Σ exp (s - μ), Σ exp (s - μ) v) for a real μ, because exp (μ - μ') * exp (s - μ) = exp (s - μ');
  at the first block a = exp (-∞) = 0 multiplies l = acc = 0; the final m and M have the same upper
  bounds, so they are equal; and (Σ e v) / L = Σ (e / L) v for the positive real L.

  The operations are the ideal instance's: x - y, x * y, x + y, max x y of the extended reals,
  Ideal.exp and Ideal.div (one function for a kernel's division and the host's).
-/
import Idealize.ShloMosaic.PureOps.Ideal

open scoped BigOperators
open Idealize.ShloMosaic

noncomputable section

namespace OnlineSoftmax

/-! ### Coercions -/

/-- The coercion of a finite real sum is the sum of the coercions. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- exp of a difference of two reals, read in the extended reals. -/
theorem exp_coe_sub (x y : ℝ) : Ideal.exp ((x : EReal) - (y : EReal)) = ((Real.exp (x - y) : ℝ) : EReal) := rfl

/-- The fold of max from -∞ over a nonempty finite family of reals is a real. -/
theorem fold_max_coe {ι : Type*} (S : Finset ι) (hS : S.Nonempty) (f : ι → ℝ) :
    ∃ r : ℝ, S.fold max (⊥ : EReal) (fun t => (f t : EReal)) = (r : EReal) := by
  induction hS using Finset.Nonempty.cons_induction with
  | singleton a => exact ⟨f a, by rw [Finset.fold_singleton]; exact max_eq_left bot_le⟩
  | cons a S ha _ ih =>
    obtain ⟨r, hr⟩ := ih
    exact ⟨max (f a) r, by rw [Finset.fold_cons, hr]; exact (EReal.coe_strictMono.monotone.map_max).symm⟩

/-! ### The recurrence -/

/-- One block of the recurrence on the state (m, l, acc), for the block's scores s and values v. -/
def step {B : ℕ} (st : EReal × EReal × EReal) (s v : Fin B → EReal) : EReal × EReal × EReal :=
  (max st.1 ((Finset.univ : Finset (Fin B)).fold max ⊥ s),
   Ideal.exp (st.1 - max st.1 ((Finset.univ : Finset (Fin B)).fold max ⊥ s)) * st.2.1
     + ∑ t, Ideal.exp (s t - max st.1 ((Finset.univ : Finset (Fin B)).fold max ⊥ s)),
   Ideal.exp (st.1 - max st.1 ((Finset.univ : Finset (Fin B)).fold max ⊥ s)) * st.2.2
     + ∑ t, Ideal.exp (s t - max st.1 ((Finset.univ : Finset (Fin B)).fold max ⊥ s)) * v t)

/-- The state after k blocks, from (-∞, 0, 0); block i has scores s i and values v i. -/
def state {B : ℕ} (s v : ℕ → Fin B → EReal) : ℕ → EReal × EReal × EReal
  | 0 => (⊥, 0, 0)
  | k + 1 => step (state s v k) (s k) (v k)

@[simp] theorem state_zero {B : ℕ} (s v : ℕ → Fin B → EReal) : state s v 0 = (⊥, 0, 0) := rfl
theorem state_succ {B : ℕ} (s v : ℕ → Fin B → EReal) (k : ℕ) :
    state s v (k + 1) = step (state s v k) (s k) (v k) := rfl

/-- The state after k blocks reads only the first k blocks. -/
theorem state_congr {B : ℕ} {s v s' v' : ℕ → Fin B → EReal} {k : ℕ}
    (hs : ∀ i < k, s i = s' i) (hv : ∀ i < k, v i = v' i) : state s v k = state s' v' k := by
  induction k with
  | zero => rfl
  | succ k ih =>
    rw [state_succ, state_succ, ih (fun i hi => hs i (Nat.lt_succ_of_lt hi)) (fun i hi => hv i (Nat.lt_succ_of_lt hi)),
      hs k (Nat.lt_succ_self k), hv k (Nat.lt_succ_self k)]

/-- The running maximum after k blocks has exactly the upper bounds of the first k blocks' scores. -/
theorem state_max_le {B : ℕ} (s v : ℕ → Fin B → EReal) (k : ℕ) (x : EReal) :
    (state s v k).1 ≤ x ↔ ∀ i < k, ∀ t, s i t ≤ x := by
  induction k with
  | zero => simp
  | succ k ih =>
    rw [state_succ]
    show max (state s v k).1 _ ≤ x ↔ _
    rw [max_le_iff, ih, Finset.fold_max_le, Nat.forall_lt_succ_right]
    simp

/-- A block from the start: the state is real, shifted by the block's own maximum. -/
theorem step_bot {B : ℕ} (hB : 0 < B) (s v : Fin B → ℝ) :
    ∃ μ : ℝ, step (⊥, 0, 0) (fun t => (s t : EReal)) (fun t => (v t : EReal))
      = ((μ : EReal), ((∑ t, Real.exp (s t - μ) : ℝ) : EReal), ((∑ t, Real.exp (s t - μ) * v t : ℝ) : EReal)) := by
  haveI : Nonempty (Fin B) := ⟨⟨0, hB⟩⟩
  obtain ⟨r, hr⟩ := fold_max_coe (Finset.univ : Finset (Fin B)) Finset.univ_nonempty s
  refine ⟨r, ?_⟩
  have hm : max (⊥ : EReal) (r : EReal) = (r : EReal) := max_eq_right bot_le
  simp only [step, hr, hm, EReal.bot_sub, Ideal.exp_bot, zero_mul, zero_add, exp_coe_sub, coe_sum, EReal.coe_mul]

/-- A block from a real state shifted by μ: the state is real again, shifted by the new maximum. -/
theorem step_coe {B : ℕ} (hB : 0 < B) (s v : Fin B → ℝ) (μ L A : ℝ) :
    ∃ μ' : ℝ, step ((μ : EReal), (L : EReal), (A : EReal)) (fun t => (s t : EReal)) (fun t => (v t : EReal))
      = ((μ' : EReal), ((Real.exp (μ - μ') * L + ∑ t, Real.exp (s t - μ') : ℝ) : EReal),
          ((Real.exp (μ - μ') * A + ∑ t, Real.exp (s t - μ') * v t : ℝ) : EReal)) := by
  haveI : Nonempty (Fin B) := ⟨⟨0, hB⟩⟩
  obtain ⟨r, hr⟩ := fold_max_coe (Finset.univ : Finset (Fin B)) Finset.univ_nonempty s
  refine ⟨max μ r, ?_⟩
  have hm : max (μ : EReal) (r : EReal) = ((max μ r : ℝ) : EReal) := (EReal.coe_strictMono.monotone.map_max).symm
  simp only [step, hr, hm, exp_coe_sub, coe_sum, EReal.coe_mul, EReal.coe_add]

/-- The invariant: after k ≥ 1 blocks of finite scores and values the state is
    (μ, Σ exp (s - μ), Σ exp (s - μ) * v), the sums over the first k blocks, for a real μ. -/
theorem state_coe {B : ℕ} (hB : 0 < B) (s v : ℕ → Fin B → ℝ) (k : ℕ) (hk : 0 < k) :
    ∃ μ : ℝ, state (fun i t => (s i t : EReal)) (fun i t => (v i t : EReal)) k
      = ((μ : EReal), ((∑ i ∈ Finset.range k, ∑ t, Real.exp (s i t - μ) : ℝ) : EReal),
          ((∑ i ∈ Finset.range k, ∑ t, Real.exp (s i t - μ) * v i t : ℝ) : EReal)) := by
  induction k, hk using Nat.le_induction with
  | base =>
    obtain ⟨μ, hμ⟩ := step_bot hB (s 0) (v 0)
    refine ⟨μ, ?_⟩
    show step (⊥, 0, 0) _ _ = _
    rw [hμ, Finset.sum_range_one, Finset.sum_range_one]
  | succ k hk ih =>
    obtain ⟨μ, hμ⟩ := ih
    obtain ⟨μ', hμ'⟩ := step_coe hB (s k) (v k) μ (∑ i ∈ Finset.range k, ∑ t, Real.exp (s i t - μ))
      (∑ i ∈ Finset.range k, ∑ t, Real.exp (s i t - μ) * v i t)
    refine ⟨μ', ?_⟩
    have e : ∀ x : ℝ, Real.exp (μ - μ') * Real.exp (x - μ) = Real.exp (x - μ') := fun x => by
      rw [← Real.exp_add]; congr 1; ring
    rw [state_succ, hμ, hμ', Finset.sum_range_succ, Finset.sum_range_succ]
    simp only [Finset.mul_sum, ← mul_assoc, e]

/-! ### The two results as reals -/

/-- The quotient of two reals, the divisor not zero. -/
theorem div_coe_coe (A : ℝ) {L : ℝ} (hL : L ≠ 0) : Ideal.div (A : EReal) (L : EReal) = ((A / L : ℝ) : EReal) := by
  rw [Ideal.div, if_neg (EReal.coe_ne_zero.mpr hL), ← EReal.coe_inv, ← EReal.coe_mul, div_eq_mul_inv]

/-- The max-shifted softmax-weighted sum over a nonempty finite index set, the shift a real μ:
    Σ_x (exp (σ x - μ) / (0 + Σ_y exp (σ y - μ))) * ν x is the real (Σ exp (σ - μ) ν) / Σ exp (σ - μ). -/
theorem softmax_coe {ι : Type*} (S : Finset ι) (hS : S.Nonempty) (σ ν : ι → ℝ) (μ : ℝ) :
    ∑ x ∈ S, Ideal.div (Ideal.exp ((σ x : EReal) - (μ : EReal)))
        (0 + ∑ y ∈ S, Ideal.exp ((σ y : EReal) - (μ : EReal))) * (ν x : EReal)
      = (((∑ x ∈ S, Real.exp (σ x - μ) * ν x) / ∑ y ∈ S, Real.exp (σ y - μ) : ℝ) : EReal) := by
  have hL : (∑ y ∈ S, Real.exp (σ y - μ)) ≠ 0 := (Finset.sum_pos (fun y _ => Real.exp_pos _) hS).ne'
  simp only [exp_coe_sub, zero_add, ← coe_sum, div_coe_coe _ hL, ← EReal.coe_mul]
  refine congrArg _ ?_
  rw [Finset.sum_div]
  exact Finset.sum_congr rfl fun x _ => by ring

/-! ### The law -/

/-- The online-softmax law, blocks indexed by ℕ. For finite scores s i t and values v i t
    (block i < nb, entry t < B; nb, B positive), the recurrence's acc / l after nb blocks is the max-shifted
    softmax-weighted sum over the nb * B entries, written as a double sum over i < nb and t; M is any
    extended real with exactly the upper bounds of the scores (the row's maximum however it is folded). -/
theorem online_softmax {B : ℕ} (hB : 0 < B) {nb : ℕ} (hnb : 0 < nb) (s v : ℕ → Fin B → ℝ) (M : EReal)
    (hM : ∀ x : EReal, M ≤ x ↔ ∀ i < nb, ∀ t, (s i t : EReal) ≤ x) :
    Ideal.div (state (fun i t => (s i t : EReal)) (fun i t => (v i t : EReal)) nb).2.2
        (state (fun i t => (s i t : EReal)) (fun i t => (v i t : EReal)) nb).2.1
      = ∑ i ∈ Finset.range nb, ∑ t, Ideal.div (Ideal.exp ((s i t : EReal) - M))
          (0 + ∑ i' ∈ Finset.range nb, ∑ t', Ideal.exp ((s i' t' : EReal) - M)) * (v i t : EReal) := by
  obtain ⟨μ, hμ⟩ := state_coe hB s v nb hnb
  have hMμ : M = (μ : EReal) := by
    refine eq_of_forall_ge_iff fun x => ?_
    rw [hM, ← state_max_le (fun i t => (s i t : EReal)) (fun i t => (v i t : EReal)) nb x, hμ]
  haveI : Nonempty (Fin B) := ⟨⟨0, hB⟩⟩
  have hS : (Finset.range nb ×ˢ (Finset.univ : Finset (Fin B))).Nonempty :=
    Finset.Nonempty.product (Finset.nonempty_range_iff.mpr hnb.ne') Finset.univ_nonempty
  have h := softmax_coe (Finset.range nb ×ˢ (Finset.univ : Finset (Fin B))) hS
    (fun p => s p.1 p.2) (fun p => v p.1 p.2) μ
  rw [Finset.sum_product, Finset.sum_product, Finset.sum_product, Finset.sum_product] at h
  have hL : (∑ i ∈ Finset.range nb, ∑ t, Real.exp (s i t - μ)) ≠ 0 := by
    rw [← Finset.sum_product (f := fun p : ℕ × Fin B => Real.exp (s p.1 p.2 - μ))]
    exact (Finset.sum_pos (fun y _ => Real.exp_pos _) hS).ne'
  rw [hμ, hMμ, h]
  exact div_coe_coe _ hL

/-! ### Blocks indexed by Fin nb -/

/-- The state after k ≤ nb blocks, from (-∞, 0, 0), for blocks indexed by Fin nb. -/
def stateFin {nb B : ℕ} (s v : Fin nb → Fin B → EReal) : (k : ℕ) → k ≤ nb → EReal × EReal × EReal
  | 0, _ => (⊥, 0, 0)
  | k + 1, h => step (stateFin s v k (Nat.le_of_succ_le h)) (s ⟨k, h⟩) (v ⟨k, h⟩)

@[simp] theorem stateFin_zero {nb B : ℕ} (s v : Fin nb → Fin B → EReal) (h : 0 ≤ nb) :
    stateFin s v 0 h = (⊥, 0, 0) := rfl
theorem stateFin_succ {nb B : ℕ} (s v : Fin nb → Fin B → EReal) (k : ℕ) (h : k + 1 ≤ nb) :
    stateFin s v (k + 1) h = step (stateFin s v k (Nat.le_of_succ_le h)) (s ⟨k, h⟩) (v ⟨k, h⟩) := rfl

/-- It is the state of any ℕ-indexed families that agree with s and v below nb. -/
theorem stateFin_eq_state {nb B : ℕ} (s v : Fin nb → Fin B → EReal) (s' v' : ℕ → Fin B → EReal)
    (hs : ∀ i (h : i < nb), s' i = s ⟨i, h⟩) (hv : ∀ i (h : i < nb), v' i = v ⟨i, h⟩) (k : ℕ) (h : k ≤ nb) :
    stateFin s v k h = state s' v' k := by
  induction k with
  | zero => rfl
  | succ k ih => rw [stateFin_succ, state_succ, ih (Nat.le_of_succ_le h), hs k h, hv k h]

/-- A family over Fin nb read at a natural number: the index reduced mod nb, so at i < nb it is f i. -/
def ofFin {nb : ℕ} {α : Type*} (hnb : 0 < nb) (f : Fin nb → α) (i : ℕ) : α := f ⟨i % nb, Nat.mod_lt i hnb⟩

theorem ofFin_of_lt {nb : ℕ} {α : Type*} (hnb : 0 < nb) (f : Fin nb → α) (i : ℕ) (h : i < nb) :
    ofFin hnb f i = f ⟨i, h⟩ :=
  congrArg f (Fin.ext (Nat.mod_eq_of_lt h))

theorem ofFin_coe {nb : ℕ} {α : Type*} (hnb : 0 < nb) (f : Fin nb → α) (i : Fin nb) : ofFin hnb f i = f i :=
  ofFin_of_lt hnb f i i.isLt

/-- The online-softmax law, blocks indexed by Fin nb: for finite scores s i t and values v i t, the
    recurrence's acc / l after all nb blocks is the max-shifted softmax-weighted sum, a double sum over
    the blocks i and the entries t; M is any extended real with exactly the scores' upper bounds. -/
theorem online_softmax_fin {nb B : ℕ} (hnb : 0 < nb) (hB : 0 < B) (s v : Fin nb → Fin B → ℝ) (M : EReal)
    (hM : ∀ x : EReal, M ≤ x ↔ ∀ i t, (s i t : EReal) ≤ x) :
    Ideal.div (stateFin (fun i t => (s i t : EReal)) (fun i t => (v i t : EReal)) nb le_rfl).2.2
        (stateFin (fun i t => (s i t : EReal)) (fun i t => (v i t : EReal)) nb le_rfl).2.1
      = ∑ i, ∑ t, Ideal.div (Ideal.exp ((s i t : EReal) - M))
          (0 + ∑ i', ∑ t', Ideal.exp ((s i' t' : EReal) - M)) * (v i t : EReal) := by
  have hst := stateFin_eq_state (fun i t => (s i t : EReal)) (fun i t => (v i t : EReal))
    (fun i t => (ofFin hnb s i t : EReal)) (fun i t => (ofFin hnb v i t : EReal))
    (fun i h => by rw [ofFin_of_lt hnb s i h]) (fun i h => by rw [ofFin_of_lt hnb v i h]) nb le_rfl
  have hM' : ∀ x : EReal, M ≤ x ↔ ∀ i < nb, ∀ t, (ofFin hnb s i t : EReal) ≤ x := fun x => by
    rw [hM]
    exact ⟨fun H i hi t => by rw [ofFin_of_lt hnb s i hi]; exact H ⟨i, hi⟩ t,
      fun H i t => by have := H i i.isLt t; rwa [ofFin_coe] at this⟩
  rw [hst, online_softmax hB hnb (ofFin hnb s) (ofFin hnb v) M hM', Finset.sum_range, Finset.sum_range]
  simp only [ofFin_coe]

/-- The fold of max from -∞ over all blocks and entries, under one more max with -∞ (as a host
    softmax takes it), has exactly the scores' upper bounds. -/
theorem max_bot_fold_le {nb B : ℕ} (s : Fin nb → Fin B → EReal) (x : EReal) :
    max ⊥ ((Finset.univ : Finset (Fin nb × Fin B)).fold max ⊥ fun p => s p.1 p.2) ≤ x ↔ ∀ i t, s i t ≤ x := by
  rw [max_le_iff, Finset.fold_max_le]
  simp

/-- The law with the reference's maximum written as that fold. -/
theorem online_softmax_fin_fold {nb B : ℕ} (hnb : 0 < nb) (hB : 0 < B) (s v : Fin nb → Fin B → ℝ) :
    Ideal.div (stateFin (fun i t => (s i t : EReal)) (fun i t => (v i t : EReal)) nb le_rfl).2.2
        (stateFin (fun i t => (s i t : EReal)) (fun i t => (v i t : EReal)) nb le_rfl).2.1
      = ∑ i, ∑ t, Ideal.div (Ideal.exp ((s i t : EReal)
            - max ⊥ ((Finset.univ : Finset (Fin nb × Fin B)).fold max ⊥ fun p => (s p.1 p.2 : EReal))))
          (0 + ∑ i', ∑ t', Ideal.exp ((s i' t' : EReal)
            - max ⊥ ((Finset.univ : Finset (Fin nb × Fin B)).fold max ⊥ fun p => (s p.1 p.2 : EReal))))
          * (v i t : EReal) :=
  online_softmax_fin hnb hB s v _ (max_bot_fold_le fun i t => (s i t : EReal))

/-- The law for a row indexed by any finite type ι that splits into nb blocks of B entries by an
    equivalence e (the entry j is entry (e j).2 of block (e j).1): the recurrence run on the blocks of the
    finite scores σ and values ν gives the max-shifted softmax-weighted sum over ι. -/
theorem online_softmax_equiv {nb B : ℕ} (hnb : 0 < nb) (hB : 0 < B) {ι : Type*} [Fintype ι]
    (e : ι ≃ Fin nb × Fin B) (σ ν : ι → ℝ) (M : EReal) (hM : ∀ x : EReal, M ≤ x ↔ ∀ j, (σ j : EReal) ≤ x) :
    Ideal.div (stateFin (fun i t => (σ (e.symm (i, t)) : EReal)) (fun i t => (ν (e.symm (i, t)) : EReal)) nb le_rfl).2.2
        (stateFin (fun i t => (σ (e.symm (i, t)) : EReal)) (fun i t => (ν (e.symm (i, t)) : EReal)) nb le_rfl).2.1
      = ∑ j, Ideal.div (Ideal.exp ((σ j : EReal) - M)) (0 + ∑ j', Ideal.exp ((σ j' : EReal) - M)) * (ν j : EReal) := by
  have hM' : ∀ x : EReal, M ≤ x ↔ ∀ i t, (σ (e.symm (i, t)) : EReal) ≤ x := fun x => by
    rw [hM]
    exact ⟨fun H i t => H _, fun H j => by have := H (e j).1 (e j).2; rwa [Prod.mk.eta, e.symm_apply_apply] at this⟩
  rw [online_softmax_fin hnb hB (fun i t => σ (e.symm (i, t))) (fun i t => ν (e.symm (i, t))) M hM']
  have hsum : ∀ g : ι → EReal, ∑ i, ∑ t, g (e.symm (i, t)) = ∑ j, g j := fun g => by
    rw [← Fintype.sum_prod_type']
    exact Equiv.sum_comp e.symm g
  rw [hsum fun j => Ideal.exp ((σ j : EReal) - M)]
  exact hsum fun j => Ideal.div (Ideal.exp ((σ j : EReal) - M)) (0 + ∑ j', Ideal.exp ((σ j' : EReal) - M)) * (ν j : EReal)

/-! ### The recurrence walked point by point over several rows of blocks -/

/-- A walk visits the blocks in runs of nb points, point n being block n % nb of run n / nb; the triple
    after point n is one step from (-∞, 0, 0) at the head of a run and one step from the triple after
    point n - 1 elsewhere. Then the triple after point n is the state after the first n % nb + 1 blocks of
    its run, the run's blocks being those of the points nb * (n / nb) + i. -/
theorem sweep_state {B : ℕ} (nb N : ℕ) (hnb : 0 < nb) (T : ℕ → EReal × EReal × EReal) (S Vv : ℕ → Fin B → EReal)
    (h0 : ∀ n, n < N → n % nb = 0 → T n = step (⊥, 0, 0) (S n) (Vv n))
    (h1 : ∀ n, n < N → n % nb ≠ 0 → T n = step (T (n - 1)) (S n) (Vv n)) :
    ∀ n, n < N → T n = state (fun i => S (nb * (n / nb) + i)) (fun i => Vv (nb * (n / nb) + i)) (n % nb + 1) := by
  intro n
  induction n using Nat.strong_induction_on with
  | _ n ih =>
    intro hn
    have hqr : nb * (n / nb) + n % nb = n := Nat.div_add_mod n nb
    by_cases hz : n % nb = 0
    · rw [h0 n hn hz, hz, state_succ, state_zero]
      have e : nb * (n / nb) + 0 = n := by rw [hz] at hqr; exact hqr
      simp only [e]
    · have hr : n % nb < nb := Nat.mod_lt n hnb
      have e : n - 1 = nb * (n / nb) + (n % nb - 1) := by omega
      have hdiv : (n - 1) / nb = n / nb := by
        rw [e, Nat.mul_add_div hnb, Nat.div_eq_of_lt (show n % nb - 1 < nb by omega), add_zero]
      have hmod : (n - 1) % nb + 1 = n % nb := by
        rw [e, Nat.mul_add_mod, Nat.mod_eq_of_lt (show n % nb - 1 < nb by omega)]; omega
      rw [h1 n hn hz, ih (n - 1) (by omega) (by omega), hdiv, hmod, state_succ]
      simp only [hqr]

end OnlineSoftmax
-- ==== Proof.Pay1.lean ====
/-
  The attention kernel's arithmetic, read at coordinates over the extended reals.

  For one head the kernel keeps, per query row, a running maximum and a running denominator, and per row and lane a
  running numerator.  They start at minus infinity, zero and zero.  On a block of 4096 cached keys, and at the end on
  the 16 new keys, it scores the block (queries times keys over the 128 lanes), raises the maximum, rescales the
  denominator and the numerator by the exponential of the old maximum less the new one, and adds the block's
  exponentials (times the block's values, for the numerator): exactly one step of the online-softmax recurrence per
  row and lane.  The output is the numerator over the denominator.  A change of float format is the identity here;
  a reshape that adds or drops a leading axis of extent one keeps the other coordinates.
-/
import proofs.«129545_j317827580172_2_alg».proof.Proof.Gen.KernelIdeal.Skeleton
import proofs.«129545_j317827580172_2_alg».proof.Proof.Spec
import proofs.«129545_j317827580172_2_alg».proof.Proof.LibPlainDot
import proofs.«129545_j317827580172_2_alg».proof.Proof.LibDotNT
import proofs.«129545_j317827580172_2_alg».proof.Proof.LibOnlineSoftmax
import Idealize.ShloMosaic.Lib.Pipeline.Value
import Idealize.ShloMosaic.Lib.ValueIdx
import Idealize.ShloMosaic.PureOps.Ideal.Laws

noncomputable section

open scoped BigOperators

namespace Cert.Proof.Pay1

open Idealize.ShloMosaic Idealize.ShloMosaic.ValueIdx Cert.Proof Cert.KernelIdeal Cert.KernelIdeal.Gen OnlineSoftmax

/-! ## Layout: a leading axis of extent one -/

/-- A [1, 16, 128] block as a [16, 128] matrix. -/
theorem squeeze16_at {α : Type} (v : S1x16x128.Idx → α) (p : Fin 16) (d : Fin 128) :
    shapeCast S16x128 v shapeCasts_S1x16x128_S16x128 (ix2 p d) = v (ix3 (0 : Fin 1) p d) := by
  refine shapeCast_apply v shapeCasts_S1x16x128_S16x128 (ix2 p d) (ix3 (0 : Fin 1) p d) ?_
  rewrite [Shape.rowMajor_val_three, Shape.rowMajor_val_two]
  show (0 * 16 + p.val) * 128 + d.val = p.val * 128 + d.val
  omega

/-- A [1, 4096, 128] block as a [4096, 128] matrix. -/
theorem squeeze4096_at {α : Type} (v : S1x4096x128.Idx → α) (j : Fin 4096) (d : Fin 128) :
    shapeCast S4096x128 v shapeCasts_S1x4096x128_S4096x128 (ix2 j d) = v (ix3 (0 : Fin 1) j d) := by
  refine shapeCast_apply v shapeCasts_S1x4096x128_S4096x128 (ix2 j d) (ix3 (0 : Fin 1) j d) ?_
  rewrite [Shape.rowMajor_val_three, Shape.rowMajor_val_two]
  show (0 * 4096 + j.val) * 128 + d.val = j.val * 128 + d.val
  omega

/-- A [16, 128] matrix as a [1, 16, 128] block. -/
theorem unsqueeze16_at {α : Type} (v : S16x128.Idx → α) (p : Fin 16) (d : Fin 128) :
    shapeCast S1x16x128 v shapeCasts_S16x128_S1x16x128 (ix3 (0 : Fin 1) p d) = v (ix2 p d) := by
  refine shapeCast_apply v shapeCasts_S16x128_S1x16x128 (ix3 (0 : Fin 1) p d) (ix2 p d) ?_
  rewrite [Shape.rowMajor_val_three, Shape.rowMajor_val_two]
  show p.val * 128 + d.val = (0 * 16 + p.val) * 128 + d.val
  omega

/-- A column of 16 as a [16, 1] matrix. -/
theorem column_at {α : Type} (v : S16.Idx → α) (p : Fin 16) :
    shapeCast S16x1 v shapeCasts_S16_S16x1 (ix2 p (0 : Fin 1)) = v (ix1 p) := by
  refine shapeCast_apply v shapeCasts_S16_S16x1 (ix2 p (0 : Fin 1)) (ix1 p) ?_
  rewrite [Shape.rowMajor_val_one, Shape.rowMajor_val_two]
  show p.val = p.val * 1 + 0
  omega

/-- A [16, 1] column spread over 128 lanes. -/
theorem spread128_at {α : Type} (v : S16x1.Idx → α) (p : Fin 16) (d : Fin 128) :
    broadcastTo S16x128 v broadcasts_S16x1_S16x128 (ix2 p d) = v (ix2 p (0 : Fin 1)) :=
  broadcastTo_apply v broadcasts_S16x1_S16x128 (ix2 p d) (ix2 p (0 : Fin 1)) (fun a => match a with
    | ⟨0, _⟩ => by show p.val = if (16 : Nat) = 1 then 0 else p.val; rw [if_neg (by decide)]
    | ⟨1, _⟩ => by show 0 = if (1 : Nat) = 1 then 0 else d.val; rw [if_pos rfl])

/-- A [16, 1] column spread over 4096 keys. -/
theorem spread4096_at {α : Type} (v : S16x1.Idx → α) (p : Fin 16) (j : Fin 4096) :
    broadcastTo S16x4096 v broadcasts_S16x1_S16x4096 (ix2 p j) = v (ix2 p (0 : Fin 1)) :=
  broadcastTo_apply v broadcasts_S16x1_S16x4096 (ix2 p j) (ix2 p (0 : Fin 1)) (fun a => match a with
    | ⟨0, _⟩ => by show p.val = if (16 : Nat) = 1 then 0 else p.val; rw [if_neg (by decide)]
    | ⟨1, _⟩ => by show 0 = if (1 : Nat) = 1 then 0 else j.val; rw [if_pos rfl])

/-- A [16, 1] column spread over 16 keys. -/
theorem spread16_at {α : Type} (v : S16x1.Idx → α) (p : Fin 16) (j : Fin 16) :
    broadcastTo S16x16 v broadcasts_S16x1_S16x16 (ix2 p j) = v (ix2 p (0 : Fin 1)) :=
  broadcastTo_apply v broadcasts_S16x1_S16x16 (ix2 p j) (ix2 p (0 : Fin 1)) (fun a => match a with
    | ⟨0, _⟩ => by show p.val = if (16 : Nat) = 1 then 0 else p.val; rw [if_neg (by decide)]
    | ⟨1, _⟩ => by show 0 = if (1 : Nat) = 1 then 0 else j.val; rw [if_pos rfl])

/-! ## The start of a head: minus infinity, zero, zero -/

theorem pay11_at (p : Fin 16) : k1_pay11 (F := Ideal) (ix2 p (0 : Fin 1)) = ⊥ := by
  show shapeCast S16x1 (broadcast S16x1 (Scalar.ofBits (F := Ideal) .f32 0xFF800000#32)) shapeCasts_S16x1_S16x1
    (ix2 p (0 : Fin 1)) = ⊥
  rw [shapeCast_self]
  exact Spec.word_negInf

theorem pay12_at (p : Fin 16) : k1_pay12 (F := Ideal) (ix2 p (0 : Fin 1)) = 0 := by
  show shapeCast S16x1 (broadcast S16x1 (Scalar.ofBits (F := Ideal) .f32 0x00000000#32)) shapeCasts_S16x1_S16x1
    (ix2 p (0 : Fin 1)) = 0
  rw [shapeCast_self]
  exact Spec.word_zero

theorem pay13_at (p : Fin 16) (d : Fin 128) : k1_pay13 (F := Ideal) (ix2 p d) = 0 := by
  show shapeCast S16x128 (broadcast S16x128 (Scalar.ofBits (F := Ideal) .f32 0x00000000#32)) shapeCasts_S16x128_S16x128
    (ix2 p d) = 0
  rw [shapeCast_self]
  exact Spec.word_zero

/-- Storing the running maximum back is the identity. -/
theorem pay2_eq (v : FVec Ideal S16x1 .f32) : k1_pay2 (F := Ideal) v = v := shapeCast_self v _
theorem pay3_eq (v : FVec Ideal S16x1 .f32) : k1_pay3 (F := Ideal) v = v := shapeCast_self v _

/-! ## A block of 4096 cached keys -/

/-- The queries of the head, row `p`, lane `d`. -/
theorem pay14_at (v3 : Vec Ideal S1x16x128 .f32) (p : Fin 16) (d : Fin 128) :
    k1_pay14 (F := Ideal) v3 (ix2 p d) = v3 (ix3 (0 : Fin 1) p d) :=
  squeeze16_at v3 p d

/-- The cached values of the block, row `j`, lane `d`. -/
theorem pay15_at (v9 : Vec Ideal S1x4096x128 .f32) (j : Fin 4096) (d : Fin 128) :
    k1_pay15 (F := Ideal) v9 (ix2 j d) = v9 (ix3 (0 : Fin 1) j d) :=
  squeeze4096_at v9 j d

/-- The scores of the block: queries times keys over the 128 lanes. -/
theorem pay16_at (v3 : Vec Ideal S1x16x128 .f32) (v6 : Vec Ideal S1x4096x128 .f32) (p : Fin 16) (j : Fin 4096) :
    k1_pay16 (F := Ideal) v3 v6 (ix2 p j) = ∑ d : Fin 128, v3 (ix3 (0 : Fin 1) p d) * v6 (ix3 (0 : Fin 1) j d) := by
  show matmul (F := Ideal) dot_S16x128_S4096x128_S16x4096_1_1_0_0_n_n none (k1_pay14 v3)
    (truncf .bf16 (shapeCast S4096x128 v6 shapeCasts_S1x4096x128_S4096x128) bitsLt_bf16_f32)
    (constant S16x4096 .f32 0x00000000#32) (ix2 p j) = _
  refine (Cert.LibDotNT.matmul_nt_apply (M := 16) (K := 128) (N := 4096) dot_S16x128_S4096x128_S16x4096_1_1_0_0_n_n
    rfl rfl rfl rfl rfl rfl none _ _ p j).trans ?_
  refine Finset.sum_congr rfl fun d _ => ?_
  show shapeCast S16x128 v3 shapeCasts_S1x16x128_S16x128 (ix2 p d)
    * shapeCast S4096x128 v6 shapeCasts_S1x4096x128_S4096x128 (ix2 j d) = _
  rw [squeeze16_at, squeeze4096_at]

/-- The new running maximum of row `p`. -/
theorem pay17_at (v3 : Vec Ideal S1x16x128 .f32) (v6 : Vec Ideal S1x4096x128 .f32) (v13 : Vec Ideal S16x1 .f32)
    (p : Fin 16) :
    k1_pay17 (F := Ideal) v3 v6 v13 (ix2 p (0 : Fin 1))
      = max (v13 (ix2 p (0 : Fin 1)))
          ((Finset.univ : Finset (Fin 4096)).fold max ⊥ fun j => k1_pay16 (F := Ideal) v3 v6 (ix2 p j)) := by
  show max (v13 (ix2 p (0 : Fin 1))) (shapeCast S16x1 (multiReduction (F := Ideal) .maximumf [1] S16 (k1_pay16 v3 v6)
    0xFF800000#32 reduces_S16x4096_S16 (.inl rfl) rfl) shapeCasts_S16_S16x1 (ix2 p (0 : Fin 1))) = _
  rw [column_at]
  refine congrArg (max (v13 (ix2 p (0 : Fin 1)))) ?_
  refine (Ideal.multiReduction_maximumf_single (k1_pay16 (F := Ideal) v3 v6) 0xFF800000#32 reduces_S16x4096_S16
    (.inl rfl) rfl (ix1 p)).trans ?_
  show (Finset.univ : Finset (Fin 4096)).fold max (Ideal.ofBits .f32 0xFF800000#32)
    (fun j => k1_pay16 (F := Ideal) v3 v6 (reduces_S16x4096_S16.lift (ix1 p) j)) = _
  rw [Spec.word_negInf]
  refine congrArg (fun f : Fin 4096 → EReal => (Finset.univ : Finset (Fin 4096)).fold max ⊥ f)
    (funext fun (j : Fin 4096) => ?_)
  exact congrArg (k1_pay16 (F := Ideal) v3 v6)
    (funext fun a => Fin.ext (by match a with | ⟨0, _⟩ => rfl | ⟨1, _⟩ => rfl))

/-- The factor that rescales the old denominator and numerator. -/
theorem pay18_at (v3 : Vec Ideal S1x16x128 .f32) (v6 : Vec Ideal S1x4096x128 .f32) (v13 v17 : Vec Ideal S16x1 .f32)
    (i : S16x1.Idx) :
    k1_pay18 (F := Ideal) v3 v6 v13 v17 i = Ideal.exp (v17 i - k1_pay17 (F := Ideal) v3 v6 v13 i) := rfl

/-- The exponentials of the block's shifted scores. -/
theorem pay19_at (v3 : Vec Ideal S1x16x128 .f32) (v6 : Vec Ideal S1x4096x128 .f32) (v13 : Vec Ideal S16x1 .f32)
    (p : Fin 16) (j : Fin 4096) :
    k1_pay19 (F := Ideal) v3 v6 v13 (ix2 p j)
      = Ideal.exp (k1_pay16 (F := Ideal) v3 v6 (ix2 p j) - k1_pay17 (F := Ideal) v3 v6 v13 (ix2 p (0 : Fin 1))) := by
  show Ideal.exp (k1_pay16 (F := Ideal) v3 v6 (ix2 p j)
    - broadcastTo S16x4096 (k1_pay17 (F := Ideal) v3 v6 v13) broadcasts_S16x1_S16x4096 (ix2 p j)) = _
  rw [spread4096_at]

/-- The new running denominator of row `p`. -/
theorem pay20_at (v3 : Vec Ideal S1x16x128 .f32) (v6 : Vec Ideal S1x4096x128 .f32) (v13 v17 v23 : Vec Ideal S16x1 .f32)
    (p : Fin 16) :
    k1_pay20 (F := Ideal) v3 v6 v13 v17 v23 (ix2 p (0 : Fin 1))
      = k1_pay18 (F := Ideal) v3 v6 v13 v17 (ix2 p (0 : Fin 1)) * v23 (ix2 p (0 : Fin 1))
        + ∑ j : Fin 4096, k1_pay19 (F := Ideal) v3 v6 v13 (ix2 p j) := by
  show shapeCast S16x1 (addf (mulf (k1_pay18 (F := Ideal) v3 v6 v13 v17) v23)
    (shapeCast S16x1 (multiReduction (F := Ideal) .add [1] S16 (k1_pay19 v3 v6 v13) 0x00000000#32 reduces_S16x4096_S16
      (.inl rfl) rfl) shapeCasts_S16_S16x1)) shapeCasts_S16x1_S16x1 (ix2 p (0 : Fin 1)) = _
  rw [shapeCast_self]
  show k1_pay18 (F := Ideal) v3 v6 v13 v17 (ix2 p (0 : Fin 1)) * v23 (ix2 p (0 : Fin 1))
    + shapeCast S16x1 _ shapeCasts_S16_S16x1 (ix2 p (0 : Fin 1)) = _
  rw [column_at]
  refine congrArg (k1_pay18 (F := Ideal) v3 v6 v13 v17 (ix2 p (0 : Fin 1)) * v23 (ix2 p (0 : Fin 1)) + ·) ?_
  refine (Ideal.multiReduction_add_single (k1_pay19 (F := Ideal) v3 v6 v13) 0x00000000#32 reduces_S16x4096_S16
    (.inl rfl) rfl (ix1 p)).trans ?_
  show ∑ j : Fin 4096, k1_pay19 (F := Ideal) v3 v6 v13 (reduces_S16x4096_S16.lift (ix1 p) j) = _
  refine Finset.sum_congr rfl fun (j : Fin 4096) _ => ?_
  exact congrArg (k1_pay19 (F := Ideal) v3 v6 v13)
    (funext fun a => Fin.ext (by match a with | ⟨0, _⟩ => rfl | ⟨1, _⟩ => rfl))

/-- The new running numerator of row `p`, lane `d`. -/
theorem pay1_at (v11 : FVec Ideal S4096x128 .bf16) (v19 : FVec Ideal S16x1 .f32) (v22 : FVec Ideal S16x4096 .f32)
    (v31 : Vec Ideal S16x128 .f32) (p : Fin 16) (d : Fin 128) :
    k1_pay1 (F := Ideal) v11 v19 v22 v31 (ix2 p d)
      = v19 (ix2 p (0 : Fin 1)) * v31 (ix2 p d) + ∑ j : Fin 4096, v22 (ix2 p j) * v11 (ix2 j d) := by
  show shapeCast S16x128 (addf (mulf (broadcastTo S16x128 v19 broadcasts_S16x1_S16x128) v31)
    (matmul (F := Ideal) dot_S16x4096_S4096x128_S16x128_1_0_0_1_n_n none (truncf .bf16 v22 bitsLt_bf16_f32) v11
      (constant S16x128 .f32 0x00000000#32))) shapeCasts_S16x128_S16x128 (ix2 p d) = _
  rw [shapeCast_self]
  show broadcastTo S16x128 v19 broadcasts_S16x1_S16x128 (ix2 p d) * v31 (ix2 p d)
    + matmul (F := Ideal) dot_S16x4096_S4096x128_S16x128_1_0_0_1_n_n none (truncf .bf16 v22 bitsLt_bf16_f32) v11
      (constant S16x128 .f32 0x00000000#32) (ix2 p d) = _
  rw [spread128_at]
  exact congrArg (v19 (ix2 p (0 : Fin 1)) * v31 (ix2 p d) + ·)
    (Cert.LibPlainDot.matmul_plain_apply (M := 16) (K := 4096) (N := 128) dot_S16x4096_S4096x128_S16x128_1_0_0_1_n_n
      rfl rfl rfl rfl rfl rfl none (truncf .bf16 v22 bitsLt_bf16_f32) v11 p d)

/-- ONE STEP ON A CACHE BLOCK. For row `p` and lane `d`, the new running maximum, denominator and numerator are one
    step of the online-softmax recurrence from the old ones, on the block's 4096 scores (queries times keys over the
    lanes) and the block's values at lane `d`. -/
theorem cache_step (v3 : Vec Ideal S1x16x128 .f32) (v6 v9 : Vec Ideal S1x4096x128 .f32) (m l : Vec Ideal S16x1 .f32)
    (acc : Vec Ideal S16x128 .f32) (p : Fin 16) (d : Fin 128) :
    (k1_pay17 (F := Ideal) v3 v6 m (ix2 p (0 : Fin 1)),
      k1_pay20 (F := Ideal) v3 v6 m m l (ix2 p (0 : Fin 1)),
      k1_pay1 (F := Ideal) (k1_pay15 (F := Ideal) v9) (k1_pay18 (F := Ideal) v3 v6 m m) (k1_pay19 (F := Ideal) v3 v6 m)
        acc (ix2 p d))
      = step (m (ix2 p (0 : Fin 1)), l (ix2 p (0 : Fin 1)), acc (ix2 p d))
          (fun j : Fin 4096 => ∑ dd : Fin 128, v3 (ix3 (0 : Fin 1) p dd) * v6 (ix3 (0 : Fin 1) j dd))
          (fun j : Fin 4096 => v9 (ix3 (0 : Fin 1) j d)) := by
  have h16 : (fun j : Fin 4096 => k1_pay16 (F := Ideal) v3 v6 (ix2 p j))
      = fun j : Fin 4096 => ∑ dd : Fin 128, v3 (ix3 (0 : Fin 1) p dd) * v6 (ix3 (0 : Fin 1) j dd) :=
    funext fun j => pay16_at v3 v6 p j
  have e17 := pay17_at v3 v6 m p
  rw [h16] at e17
  have e19 : ∀ j : Fin 4096, k1_pay19 (F := Ideal) v3 v6 m (ix2 p j)
      = Ideal.exp ((∑ dd : Fin 128, v3 (ix3 (0 : Fin 1) p dd) * v6 (ix3 (0 : Fin 1) j dd))
          - k1_pay17 (F := Ideal) v3 v6 m (ix2 p (0 : Fin 1))) := fun j => by
    rw [pay19_at, pay16_at]
  refine Prod.ext e17 (Prod.ext ?_ ?_)
  · show k1_pay20 (F := Ideal) v3 v6 m m l (ix2 p (0 : Fin 1)) = _
    rw [pay20_at, pay18_at]
    simp only [e19, e17]
    rfl
  · show k1_pay1 (F := Ideal) (k1_pay15 (F := Ideal) v9) (k1_pay18 (F := Ideal) v3 v6 m m) (k1_pay19 (F := Ideal) v3 v6 m)
      acc (ix2 p d) = _
    rw [pay1_at, pay18_at]
    simp only [e19, e17, pay15_at]
    rfl

/-! ## The sixteen new keys -/

/-- The scores of the new keys. -/
theorem pay5_at (v5 : FVec Ideal S16x128 .bf16) (v46 : Vec Ideal S1x16x128 .f32) (p : Fin 16) (j : Fin 16) :
    k1_pay5 (F := Ideal) v5 v46 (ix2 p j) = ∑ d : Fin 128, v5 (ix2 p d) * v46 (ix3 (0 : Fin 1) j d) := by
  show matmul (F := Ideal) dot_S16x128_S16x128_S16x16_1_1_0_0_n_n none v5
    (truncf .bf16 (shapeCast S16x128 v46 shapeCasts_S1x16x128_S16x128) bitsLt_bf16_f32)
    (constant S16x16 .f32 0x00000000#32) (ix2 p j) = _
  refine (Cert.LibDotNT.matmul_nt_apply (M := 16) (K := 128) (N := 16) dot_S16x128_S16x128_S16x16_1_1_0_0_n_n
    rfl rfl rfl rfl rfl rfl none _ _ p j).trans ?_
  refine Finset.sum_congr rfl fun d _ => ?_
  show v5 (ix2 p d) * shapeCast S16x128 v46 shapeCasts_S1x16x128_S16x128 (ix2 j d) = _
  rw [squeeze16_at]

/-- The final running maximum of row `p`. -/
theorem pay6_at (v5 : FVec Ideal S16x128 .bf16) (v46 : Vec Ideal S1x16x128 .f32) (v53 : Vec Ideal S16x1 .f32)
    (p : Fin 16) :
    k1_pay6 (F := Ideal) v5 v46 v53 (ix2 p (0 : Fin 1))
      = max (v53 (ix2 p (0 : Fin 1)))
          ((Finset.univ : Finset (Fin 16)).fold max ⊥ fun j => k1_pay5 (F := Ideal) v5 v46 (ix2 p j)) := by
  show max (v53 (ix2 p (0 : Fin 1))) (shapeCast S16x1 (multiReduction (F := Ideal) .maximumf [1] S16 (k1_pay5 v5 v46)
    0xFF800000#32 reduces_S16x16_S16 (.inl rfl) rfl) shapeCasts_S16_S16x1 (ix2 p (0 : Fin 1))) = _
  rw [column_at]
  refine congrArg (max (v53 (ix2 p (0 : Fin 1)))) ?_
  refine (Ideal.multiReduction_maximumf_single (k1_pay5 (F := Ideal) v5 v46) 0xFF800000#32 reduces_S16x16_S16
    (.inl rfl) rfl (ix1 p)).trans ?_
  show (Finset.univ : Finset (Fin 16)).fold max (Ideal.ofBits .f32 0xFF800000#32)
    (fun j => k1_pay5 (F := Ideal) v5 v46 (reduces_S16x16_S16.lift (ix1 p) j)) = _
  rw [Spec.word_negInf]
  refine congrArg (fun f : Fin 16 → EReal => (Finset.univ : Finset (Fin 16)).fold max ⊥ f)
    (funext fun (j : Fin 16) => ?_)
  exact congrArg (k1_pay5 (F := Ideal) v5 v46)
    (funext fun a => Fin.ext (by match a with | ⟨0, _⟩ => rfl | ⟨1, _⟩ => rfl))

theorem pay7_at (v5 : FVec Ideal S16x128 .bf16) (v46 : Vec Ideal S1x16x128 .f32) (v53 v57 : Vec Ideal S16x1 .f32)
    (i : S16x1.Idx) :
    k1_pay7 (F := Ideal) v5 v46 v53 v57 i = Ideal.exp (v57 i - k1_pay6 (F := Ideal) v5 v46 v53 i) := rfl

theorem pay8_at (v5 : FVec Ideal S16x128 .bf16) (v46 : Vec Ideal S1x16x128 .f32) (v53 : Vec Ideal S16x1 .f32)
    (p : Fin 16) (j : Fin 16) :
    k1_pay8 (F := Ideal) v5 v46 v53 (ix2 p j)
      = Ideal.exp (k1_pay5 (F := Ideal) v5 v46 (ix2 p j) - k1_pay6 (F := Ideal) v5 v46 v53 (ix2 p (0 : Fin 1))) := by
  show Ideal.exp (k1_pay5 (F := Ideal) v5 v46 (ix2 p j)
    - broadcastTo S16x16 (k1_pay6 (F := Ideal) v5 v46 v53) broadcasts_S16x1_S16x16 (ix2 p j)) = _
  rw [spread16_at]

theorem pay9_at (v5 : FVec Ideal S16x128 .bf16) (v46 : Vec Ideal S1x16x128 .f32) (v53 v57 v63 : Vec Ideal S16x1 .f32)
    (p : Fin 16) :
    k1_pay9 (F := Ideal) v5 v46 v53 v57 v63 (ix2 p (0 : Fin 1))
      = k1_pay7 (F := Ideal) v5 v46 v53 v57 (ix2 p (0 : Fin 1)) * v63 (ix2 p (0 : Fin 1))
        + ∑ j : Fin 16, k1_pay8 (F := Ideal) v5 v46 v53 (ix2 p j) := by
  show shapeCast S16x1 (addf (mulf (k1_pay7 (F := Ideal) v5 v46 v53 v57) v63)
    (shapeCast S16x1 (multiReduction (F := Ideal) .add [1] S16 (k1_pay8 v5 v46 v53) 0x00000000#32 reduces_S16x16_S16
      (.inl rfl) rfl) shapeCasts_S16_S16x1)) shapeCasts_S16x1_S16x1 (ix2 p (0 : Fin 1)) = _
  rw [shapeCast_self]
  show k1_pay7 (F := Ideal) v5 v46 v53 v57 (ix2 p (0 : Fin 1)) * v63 (ix2 p (0 : Fin 1))
    + shapeCast S16x1 _ shapeCasts_S16_S16x1 (ix2 p (0 : Fin 1)) = _
  rw [column_at]
  refine congrArg (k1_pay7 (F := Ideal) v5 v46 v53 v57 (ix2 p (0 : Fin 1)) * v63 (ix2 p (0 : Fin 1)) + ·) ?_
  refine (Ideal.multiReduction_add_single (k1_pay8 (F := Ideal) v5 v46 v53) 0x00000000#32 reduces_S16x16_S16
    (.inl rfl) rfl (ix1 p)).trans ?_
  show ∑ j : Fin 16, k1_pay8 (F := Ideal) v5 v46 v53 (reduces_S16x16_S16.lift (ix1 p) j) = _
  refine Finset.sum_congr rfl fun (j : Fin 16) _ => ?_
  exact congrArg (k1_pay8 (F := Ideal) v5 v46 v53)
    (funext fun a => Fin.ext (by match a with | ⟨0, _⟩ => rfl | ⟨1, _⟩ => rfl))

theorem pay10_at (v5 : FVec Ideal S16x128 .bf16) (v46 v49 : Vec Ideal S1x16x128 .f32) (v53 v57 : Vec Ideal S16x1 .f32)
    (v71 : Vec Ideal S16x128 .f32) (p : Fin 16) (d : Fin 128) :
    k1_pay10 (F := Ideal) v5 v46 v49 v53 v57 v71 (ix2 p d)
      = k1_pay7 (F := Ideal) v5 v46 v53 v57 (ix2 p (0 : Fin 1)) * v71 (ix2 p d)
        + ∑ j : Fin 16, k1_pay8 (F := Ideal) v5 v46 v53 (ix2 p j) * v49 (ix3 (0 : Fin 1) j d) := by
  show shapeCast S16x128 (addf (mulf (broadcastTo S16x128 (k1_pay7 (F := Ideal) v5 v46 v53 v57) broadcasts_S16x1_S16x128) v71)
    (matmul (F := Ideal) dot_S16x16_S16x128_S16x128_1_0_0_1_n_n none (truncf .bf16 (k1_pay8 (F := Ideal) v5 v46 v53) bitsLt_bf16_f32)
      (truncf .bf16 (shapeCast S16x128 v49 shapeCasts_S1x16x128_S16x128) bitsLt_bf16_f32)
      (constant S16x128 .f32 0x00000000#32))) shapeCasts_S16x128_S16x128 (ix2 p d) = _
  rw [shapeCast_self]
  show broadcastTo S16x128 (k1_pay7 (F := Ideal) v5 v46 v53 v57) broadcasts_S16x1_S16x128 (ix2 p d) * v71 (ix2 p d)
    + matmul (F := Ideal) dot_S16x16_S16x128_S16x128_1_0_0_1_n_n none (truncf .bf16 (k1_pay8 (F := Ideal) v5 v46 v53) bitsLt_bf16_f32)
      (truncf .bf16 (shapeCast S16x128 v49 shapeCasts_S1x16x128_S16x128) bitsLt_bf16_f32)
      (constant S16x128 .f32 0x00000000#32) (ix2 p d) = _
  rw [spread128_at]
  refine congrArg (k1_pay7 (F := Ideal) v5 v46 v53 v57 (ix2 p (0 : Fin 1)) * v71 (ix2 p d) + ·) ?_
  refine (Cert.LibPlainDot.matmul_plain_apply (M := 16) (K := 16) (N := 128) dot_S16x16_S16x128_S16x128_1_0_0_1_n_n
    rfl rfl rfl rfl rfl rfl none _ _ p d).trans ?_
  refine Finset.sum_congr rfl fun j _ => ?_
  show k1_pay8 (F := Ideal) v5 v46 v53 (ix2 p j) * shapeCast S16x128 v49 shapeCasts_S1x16x128_S16x128 (ix2 j d) = _
  rw [squeeze16_at]

/-- ONE STEP ON THE NEW KEYS. For row `p` and lane `d`, the final running maximum, denominator and numerator are one
    step of the recurrence from the ones the cache blocks left, on the 16 scores against the new keys and the new values
    at lane `d`. -/
theorem new_step (v5 : FVec Ideal S16x128 .bf16) (v46 v49 : Vec Ideal S1x16x128 .f32) (m l : Vec Ideal S16x1 .f32)
    (acc : Vec Ideal S16x128 .f32) (p : Fin 16) (d : Fin 128) :
    (k1_pay6 (F := Ideal) v5 v46 m (ix2 p (0 : Fin 1)),
      k1_pay9 (F := Ideal) v5 v46 m m l (ix2 p (0 : Fin 1)),
      k1_pay10 (F := Ideal) v5 v46 v49 m m acc (ix2 p d))
      = step (m (ix2 p (0 : Fin 1)), l (ix2 p (0 : Fin 1)), acc (ix2 p d))
          (fun j : Fin 16 => ∑ dd : Fin 128, v5 (ix2 p dd) * v46 (ix3 (0 : Fin 1) j dd))
          (fun j : Fin 16 => v49 (ix3 (0 : Fin 1) j d)) := by
  have h5 : (fun j : Fin 16 => k1_pay5 (F := Ideal) v5 v46 (ix2 p j))
      = fun j : Fin 16 => ∑ dd : Fin 128, v5 (ix2 p dd) * v46 (ix3 (0 : Fin 1) j dd) :=
    funext fun j => pay5_at v5 v46 p j
  have e6 := pay6_at v5 v46 m p
  rw [h5] at e6
  have e8 : ∀ j : Fin 16, k1_pay8 (F := Ideal) v5 v46 m (ix2 p j)
      = Ideal.exp ((∑ dd : Fin 128, v5 (ix2 p dd) * v46 (ix3 (0 : Fin 1) j dd))
          - k1_pay6 (F := Ideal) v5 v46 m (ix2 p (0 : Fin 1))) := fun j => by
    rw [pay8_at, pay5_at]
  refine Prod.ext e6 (Prod.ext ?_ ?_)
  · show k1_pay9 (F := Ideal) v5 v46 m m l (ix2 p (0 : Fin 1)) = _
    rw [pay9_at, pay7_at]
    simp only [e8, e6]
    rfl
  · show k1_pay10 (F := Ideal) v5 v46 v49 m m acc (ix2 p d) = _
    rw [pay10_at, pay7_at]
    simp only [e8, e6]
    rfl

/-- The output block: numerator over denominator. -/
theorem pay4_at (v83 : Vec Ideal S16x128 .f32) (v84 : Vec Ideal S16x1 .f32) (p : Fin 16) (d : Fin 128) :
    k1_pay4 (F := Ideal) v83 v84 (ix3 (0 : Fin 1) p d) = Ideal.div (v83 (ix2 p d)) (v84 (ix2 p (0 : Fin 1))) := by
  show shapeCast S1x16x128 (divf (F := Ideal) (φ := .f32) v83
    (broadcastTo S16x128 (v84 : FVec Ideal S16x1 .f32) broadcasts_S16x1_S16x128)) shapeCasts_S16x128_S1x16x128
    (ix3 (0 : Fin 1) p d) = _
  rw [unsqueeze16_at]
  show Ideal.div (v83 (ix2 p d)) (broadcastTo S16x128 (v84 : FVec Ideal S16x1 .f32) broadcasts_S16x1_S16x128 (ix2 p d)) = _
  rw [spread128_at]

end Cert.Proof.Pay1

end
-- ==== Proof.LibOnline3.lean ====
/-
  The online-softmax law for three key blocks of unequal sizes.

  A flash-attention kernel walks a row of scores in blocks, updating a running maximum m, a running denominator l
  and a running numerator acc by one step per block (`OnlineSoftmax.step`).  When the blocks have different sizes
  the walk is not the equal-block recurrence; here it is three steps from (-∞, 0, 0) over blocks of any three
  positive sizes.  For finite scores and values the state after the three blocks is (μ, Σ exp (s - μ), Σ exp (s - μ) v)
  for a real μ, the sums over all three blocks, because exp (μ - μ') * exp (s - μ) = exp (s - μ'); μ has the same
  upper bounds as the row's maximum, so it is the row's maximum; and (Σ e v) / (Σ e) = Σ (e / Σ e) v for the positive
  real Σ e.  So acc / l is the max-shifted softmax-weighted sum over the whole row.
-/
import Idealize.ShloMosaic.PureOps.Ideal
import proofs.«129545_j317827580172_2_alg».proof.Proof.LibOnlineSoftmax

open scoped BigOperators
open Idealize.ShloMosaic

noncomputable section

namespace OnlineSoftmax

variable {B1 B2 B3 : ℕ}

/-- The state after three blocks, from (-∞, 0, 0); block i has the scores s i and the values v i. -/
def state3 (s1 v1 : Fin B1 → EReal) (s2 v2 : Fin B2 → EReal) (s3 v3 : Fin B3 → EReal) : EReal × EReal × EReal :=
  step (step (step (⊥, 0, 0) s1 v1) s2 v2) s3 v3

/-- The running maximum after the three blocks has exactly the upper bounds of their scores. -/
theorem state3_max_le (s1 v1 : Fin B1 → EReal) (s2 v2 : Fin B2 → EReal) (s3 v3 : Fin B3 → EReal) (x : EReal) :
    (state3 s1 v1 s2 v2 s3 v3).1 ≤ x ↔ (∀ t, s1 t ≤ x) ∧ (∀ t, s2 t ≤ x) ∧ ∀ t, s3 t ≤ x := by
  show max (max (max ⊥ _) _) _ ≤ x ↔ _
  simp [max_le_iff, Finset.fold_max_le, and_assoc]

/-- After three nonempty blocks of finite scores and values the state is
    (μ, Σ exp (s - μ), Σ exp (s - μ) * v), the sums over the three blocks, for a real μ. -/
theorem state3_coe (h1 : 0 < B1) (h2 : 0 < B2) (h3 : 0 < B3) (s1 v1 : Fin B1 → ℝ) (s2 v2 : Fin B2 → ℝ)
    (s3 v3 : Fin B3 → ℝ) :
    ∃ μ : ℝ, state3 (fun t => (s1 t : EReal)) (fun t => (v1 t : EReal)) (fun t => (s2 t : EReal))
        (fun t => (v2 t : EReal)) (fun t => (s3 t : EReal)) (fun t => (v3 t : EReal))
      = ((μ : EReal),
          ((∑ t, Real.exp (s1 t - μ) + ∑ t, Real.exp (s2 t - μ) + ∑ t, Real.exp (s3 t - μ) : ℝ) : EReal),
          ((∑ t, Real.exp (s1 t - μ) * v1 t + ∑ t, Real.exp (s2 t - μ) * v2 t
              + ∑ t, Real.exp (s3 t - μ) * v3 t : ℝ) : EReal)) := by
  obtain ⟨μ1, e1⟩ := step_bot h1 s1 v1
  obtain ⟨μ2, e2⟩ := step_coe h2 s2 v2 μ1 (∑ t, Real.exp (s1 t - μ1)) (∑ t, Real.exp (s1 t - μ1) * v1 t)
  obtain ⟨μ3, e3⟩ := step_coe h3 s3 v3 μ2
    (Real.exp (μ1 - μ2) * (∑ t, Real.exp (s1 t - μ1)) + ∑ t, Real.exp (s2 t - μ2))
    (Real.exp (μ1 - μ2) * (∑ t, Real.exp (s1 t - μ1) * v1 t) + ∑ t, Real.exp (s2 t - μ2) * v2 t)
  refine ⟨μ3, ?_⟩
  have c12 : ∀ x : ℝ, Real.exp (μ1 - μ2) * Real.exp (x - μ1) = Real.exp (x - μ2) := fun x => by
    rw [← Real.exp_add]; congr 1; ring
  have c23 : ∀ x : ℝ, Real.exp (μ2 - μ3) * Real.exp (x - μ2) = Real.exp (x - μ3) := fun x => by
    rw [← Real.exp_add]; congr 1; ring
  have c13 : ∀ x : ℝ, Real.exp (μ2 - μ3) * (Real.exp (μ1 - μ2) * Real.exp (x - μ1)) = Real.exp (x - μ3) := fun x => by
    rw [c12, c23]
  unfold state3
  rw [e1, e2, e3]
  have eL : Real.exp (μ2 - μ3) * (Real.exp (μ1 - μ2) * (∑ t, Real.exp (s1 t - μ1)) + ∑ t, Real.exp (s2 t - μ2))
        + ∑ t, Real.exp (s3 t - μ3)
      = ∑ t, Real.exp (s1 t - μ3) + ∑ t, Real.exp (s2 t - μ3) + ∑ t, Real.exp (s3 t - μ3) := by
    rw [mul_add, Finset.mul_sum, Finset.mul_sum, Finset.mul_sum]
    simp only [c13, c23]
  have eA : Real.exp (μ2 - μ3) * (Real.exp (μ1 - μ2) * (∑ t, Real.exp (s1 t - μ1) * v1 t)
          + ∑ t, Real.exp (s2 t - μ2) * v2 t) + ∑ t, Real.exp (s3 t - μ3) * v3 t
      = ∑ t, Real.exp (s1 t - μ3) * v1 t + ∑ t, Real.exp (s2 t - μ3) * v2 t + ∑ t, Real.exp (s3 t - μ3) * v3 t := by
    rw [mul_add, Finset.mul_sum, Finset.mul_sum, Finset.mul_sum]
    simp only [← mul_assoc, c12, c23]
  rw [eL, eA]

/-- The online-softmax law for three blocks of any (positive) sizes. A row indexed by a finite type ι splits into
    the three blocks by an equivalence e; the scores σ and values ν are finite. The recurrence's acc / l after the
    three blocks is the max-shifted softmax-weighted sum over ι; M is any extended real with exactly the scores'
    upper bounds (the row's maximum however it is folded). -/
theorem online_softmax3 (h1 : 0 < B1) (h2 : 0 < B2) (h3 : 0 < B3) {ι : Type*} [Fintype ι]
    (e : Fin B1 ⊕ Fin B2 ⊕ Fin B3 ≃ ι) (σ ν : ι → ℝ) (M : EReal)
    (hM : ∀ x : EReal, M ≤ x ↔ ∀ j, (σ j : EReal) ≤ x) :
    Ideal.div
        (state3 (fun t => (σ (e (.inl t)) : EReal)) (fun t => (ν (e (.inl t)) : EReal))
          (fun t => (σ (e (.inr (.inl t))) : EReal)) (fun t => (ν (e (.inr (.inl t))) : EReal))
          (fun t => (σ (e (.inr (.inr t))) : EReal)) (fun t => (ν (e (.inr (.inr t))) : EReal))).2.2
        (state3 (fun t => (σ (e (.inl t)) : EReal)) (fun t => (ν (e (.inl t)) : EReal))
          (fun t => (σ (e (.inr (.inl t))) : EReal)) (fun t => (ν (e (.inr (.inl t))) : EReal))
          (fun t => (σ (e (.inr (.inr t))) : EReal)) (fun t => (ν (e (.inr (.inr t))) : EReal))).2.1
      = ∑ j, Ideal.div (Ideal.exp ((σ j : EReal) - M)) (∑ j', Ideal.exp ((σ j' : EReal) - M)) * (ν j : EReal) := by
  obtain ⟨μ, hμ⟩ := state3_coe h1 h2 h3 (fun t => σ (e (.inl t))) (fun t => ν (e (.inl t)))
    (fun t => σ (e (.inr (.inl t)))) (fun t => ν (e (.inr (.inl t))))
    (fun t => σ (e (.inr (.inr t)))) (fun t => ν (e (.inr (.inr t))))
  beta_reduce at hμ
  have hMμ : M = (μ : EReal) := by
    refine eq_of_forall_ge_iff fun x => ?_
    have hm := state3_max_le (fun t => (σ (e (.inl t)) : EReal)) (fun t => (ν (e (.inl t)) : EReal))
      (fun t => (σ (e (.inr (.inl t))) : EReal)) (fun t => (ν (e (.inr (.inl t))) : EReal))
      (fun t => (σ (e (.inr (.inr t))) : EReal)) (fun t => (ν (e (.inr (.inr t))) : EReal)) x
    rw [hμ] at hm
    rw [hM]
    refine Iff.trans ?_ hm.symm
    constructor
    · intro H; exact ⟨fun t => H _, fun t => H _, fun t => H _⟩
    · rintro ⟨Ha, Hb, Hc⟩ j
      obtain ⟨a, rfl⟩ := e.surjective j
      rcases a with t | t | t
      · exact Ha t
      · exact Hb t
      · exact Hc t
  have hsplit : ∀ g : ι → ℝ,
      ∑ t, g (e (.inl t)) + ∑ t, g (e (.inr (.inl t))) + ∑ t, g (e (.inr (.inr t))) = ∑ j, g j := fun g => by
    rw [← Equiv.sum_comp e g, Fintype.sum_sum_type, Fintype.sum_sum_type, add_assoc]
  haveI : Nonempty ι := ⟨e (.inl ⟨0, h1⟩)⟩
  have h := softmax_coe (Finset.univ : Finset ι) Finset.univ_nonempty σ ν μ
  rw [zero_add] at h
  have hL : (∑ j, Real.exp (σ j - μ)) ≠ 0 :=
    (Finset.sum_pos (fun y _ => Real.exp_pos _) Finset.univ_nonempty).ne'
  rw [hμ, hMμ, h, hsplit (fun j => Real.exp (σ j - μ)), hsplit (fun j => Real.exp (σ j - μ) * ν j)]
  exact div_coe_coe _ hL

end OnlineSoftmax

end
-- ==== Proof.Rows.lean ====
/-
  One head of the attention kernel, start to finish, for one query row and one lane.

  From minus infinity, zero and zero the kernel takes one online-softmax step on the first half of the head's cache,
  one on the second half and one on the sixteen new keys, and divides the numerator by the denominator.  The
  intermediate running values are named here as the kernel's own arithmetic composed in that order, so that what a
  run of the kernel leaves in its buffers can be matched against them term by term.
-/
import proofs.«129545_j317827580172_2_alg».proof.Proof.Pay1
import proofs.«129545_j317827580172_2_alg».proof.Proof.LibOnline3

noncomputable section

open scoped BigOperators

namespace Cert.Proof.Rows

open Idealize.ShloMosaic Idealize.ShloMosaic.ValueIdx Cert.Proof Cert.KernelIdeal Cert.KernelIdeal.Gen OnlineSoftmax
  Cert.Proof.Pay1

/-! ## The running values, as the kernel composes them -/

/-- The running maximum, denominator and numerator at the start of a head. -/
abbrev m0 : FVec Ideal S16x1 .f32 := k1_pay11 (F := Ideal)
abbrev l0 : FVec Ideal S16x1 .f32 := k1_pay12 (F := Ideal)
abbrev a0 : FVec Ideal S16x128 .f32 := k1_pay13 (F := Ideal)

section
variable (q : Vec Ideal S1x16x128 .f32) (K1 V1 K2 V2 : Vec Ideal S1x4096x128 .f32) (KN VN : Vec Ideal S1x16x128 .f32)

/-- After the first cache half. -/
abbrev m1 : FVec Ideal S16x1 .f32 := k1_pay2 (F := Ideal) (k1_pay17 (F := Ideal) q K1 m0)
abbrev l1 : FVec Ideal S16x1 .f32 := k1_pay20 (F := Ideal) q K1 m0 m0 l0
abbrev a1 : FVec Ideal S16x128 .f32 :=
  k1_pay1 (F := Ideal) (k1_pay15 (F := Ideal) V1) (k1_pay18 (F := Ideal) q K1 m0 m0) (k1_pay19 (F := Ideal) q K1 m0) a0

/-- After the second cache half. -/
abbrev m2 : FVec Ideal S16x1 .f32 := k1_pay2 (F := Ideal) (k1_pay17 (F := Ideal) q K2 (m1 q K1))
abbrev l2 : FVec Ideal S16x1 .f32 := k1_pay20 (F := Ideal) q K2 (m1 q K1) (m1 q K1) (l1 q K1)
abbrev a2 : FVec Ideal S16x128 .f32 :=
  k1_pay1 (F := Ideal) (k1_pay15 (F := Ideal) V2) (k1_pay18 (F := Ideal) q K2 (m1 q K1) (m1 q K1))
    (k1_pay19 (F := Ideal) q K2 (m1 q K1)) (a1 q K1 V1)

/-- After the new keys. -/
abbrev l3 : FVec Ideal S16x1 .f32 :=
  k1_pay9 (F := Ideal) (k1_pay14 (F := Ideal) q) KN (m2 q K1 K2) (m2 q K1 K2) (l2 q K1 K2)
abbrev a3 : FVec Ideal S16x128 .f32 :=
  k1_pay10 (F := Ideal) (k1_pay14 (F := Ideal) q) KN VN (m2 q K1 K2) (m2 q K1 K2) (a2 q K1 V1 K2 V2)

/-- The head's output block. -/
abbrev outBlock : FVec Ideal S1x16x128 .f32 := k1_pay4 (F := Ideal) (a3 q K1 V1 K2 V2 KN VN) (l3 q K1 K2 KN)

/-- The triple after the first cache half, for row `p` and lane `d`, is one step from (-∞, 0, 0). -/
theorem rowState1 (p : Fin 16) (d : Fin 128) :
    (m1 q K1 (ix2 p (0 : Fin 1)), l1 q K1 (ix2 p (0 : Fin 1)), a1 q K1 V1 (ix2 p d))
      = step (⊥, 0, 0)
          (fun j : Fin 4096 => ∑ dd : Fin 128, q (ix3 (0 : Fin 1) p dd) * K1 (ix3 (0 : Fin 1) j dd))
          (fun j : Fin 4096 => V1 (ix3 (0 : Fin 1) j d)) := by
  have e := cache_step q K1 V1 (k1_pay11 (F := Ideal)) (k1_pay12 (F := Ideal)) (k1_pay13 (F := Ideal)) p d
  rw [pay11_at, pay12_at, pay13_at] at e
  have hm : m1 q K1 (ix2 p (0 : Fin 1)) = k1_pay17 (F := Ideal) q K1 m0 (ix2 p (0 : Fin 1)) :=
    congrFun (pay2_eq (k1_pay17 (F := Ideal) q K1 m0)) (ix2 p (0 : Fin 1))
  rw [hm]
  exact e

/-- The triple after the second cache half is one more step. -/
theorem rowState2 (p : Fin 16) (d : Fin 128) :
    (m2 q K1 K2 (ix2 p (0 : Fin 1)), l2 q K1 K2 (ix2 p (0 : Fin 1)), a2 q K1 V1 K2 V2 (ix2 p d))
      = step (step (⊥, 0, 0)
          (fun j : Fin 4096 => ∑ dd : Fin 128, q (ix3 (0 : Fin 1) p dd) * K1 (ix3 (0 : Fin 1) j dd))
          (fun j : Fin 4096 => V1 (ix3 (0 : Fin 1) j d)))
          (fun j : Fin 4096 => ∑ dd : Fin 128, q (ix3 (0 : Fin 1) p dd) * K2 (ix3 (0 : Fin 1) j dd))
          (fun j : Fin 4096 => V2 (ix3 (0 : Fin 1) j d)) := by
  have e := cache_step q K2 V2 (m1 q K1) (l1 q K1) (a1 q K1 V1) p d
  rw [rowState1 q K1 V1 p d] at e
  have hm : m2 q K1 K2 (ix2 p (0 : Fin 1)) = k1_pay17 (F := Ideal) q K2 (m1 q K1) (ix2 p (0 : Fin 1)) :=
    congrFun (pay2_eq (k1_pay17 (F := Ideal) q K2 (m1 q K1))) (ix2 p (0 : Fin 1))
  rw [hm]
  exact e

/-- THE HEAD'S OUTPUT at row `p`, lane `d`: the numerator over the denominator of the three-block walk. -/
theorem outBlock_at (p : Fin 16) (d : Fin 128) :
    outBlock q K1 V1 K2 V2 KN VN (ix3 (0 : Fin 1) p d)
      = Ideal.div
          (state3
            (fun j : Fin 4096 => ∑ dd : Fin 128, q (ix3 (0 : Fin 1) p dd) * K1 (ix3 (0 : Fin 1) j dd))
            (fun j : Fin 4096 => V1 (ix3 (0 : Fin 1) j d))
            (fun j : Fin 4096 => ∑ dd : Fin 128, q (ix3 (0 : Fin 1) p dd) * K2 (ix3 (0 : Fin 1) j dd))
            (fun j : Fin 4096 => V2 (ix3 (0 : Fin 1) j d))
            (fun j : Fin 16 => ∑ dd : Fin 128, q (ix3 (0 : Fin 1) p dd) * KN (ix3 (0 : Fin 1) j dd))
            (fun j : Fin 16 => VN (ix3 (0 : Fin 1) j d))).2.2
          (state3
            (fun j : Fin 4096 => ∑ dd : Fin 128, q (ix3 (0 : Fin 1) p dd) * K1 (ix3 (0 : Fin 1) j dd))
            (fun j : Fin 4096 => V1 (ix3 (0 : Fin 1) j d))
            (fun j : Fin 4096 => ∑ dd : Fin 128, q (ix3 (0 : Fin 1) p dd) * K2 (ix3 (0 : Fin 1) j dd))
            (fun j : Fin 4096 => V2 (ix3 (0 : Fin 1) j d))
            (fun j : Fin 16 => ∑ dd : Fin 128, q (ix3 (0 : Fin 1) p dd) * KN (ix3 (0 : Fin 1) j dd))
            (fun j : Fin 16 => VN (ix3 (0 : Fin 1) j d))).2.1 := by
  have e := new_step (k1_pay14 (F := Ideal) q) KN VN (m2 q K1 K2) (l2 q K1 K2) (a2 q K1 V1 K2 V2) p d
  rw [rowState2 q K1 V1 K2 V2 p d] at e
  simp only [pay14_at] at e
  show k1_pay4 (F := Ideal) (a3 q K1 V1 K2 V2 KN VN) (l3 q K1 K2 KN) (ix3 (0 : Fin 1) p d) = _
  rw [pay4_at]
  unfold state3
  rw [← e]

end

end Cert.Proof.Rows

end
-- ==== Proof.SpecOnline.lean ====
/-
  The attention layer of `Spec` on finite inputs: every intermediate is a real, and each output entry is what the
  three-block online-softmax walk leaves.

  Finite inputs make the mean square of a row a nonnegative real.  If it is zero the row is zero and the scaled row
  is `0 * ⊤ = 0`; otherwise its reciprocal square root is a real.  Either way the scaled rows, the projections, the
  keys, the values and the scores are reals.  The 8208 keys of a head split into the two halves of the cache (4096
  rows each) and the 16 new rows; walking the three blocks with the running maximum, denominator and numerator and
  dividing at the end gives the softmax-weighted sum of the values.
-/
import proofs.«129545_j317827580172_2_alg».proof.Proof.Spec
import proofs.«129545_j317827580172_2_alg».proof.Proof.LibOnline3

noncomputable section

open scoped BigOperators

namespace Cert.Proof.Spec

open Idealize.ShloMosaic Idealize.ShloMosaic.ValueIdx OnlineSoftmax

/-! ## The keys in three blocks -/

/-- Key `t` of the first cache half. -/
def k1 (t : Fin 4096) : Fin 8208 := ⟨t.val, by omega⟩
/-- Key `t` of the second cache half: row `4096 + t`. -/
def k2 (t : Fin 4096) : Fin 8208 := ⟨4096 + t.val, by omega⟩
/-- New key `t`: row `8192 + t`. -/
def k3 (t : Fin 16) : Fin 8208 := ⟨8192 + t.val, by omega⟩

/-- The 8208 keys are the two cache halves and the new rows, in this order. -/
def keyEquiv : Fin 4096 ⊕ Fin 4096 ⊕ Fin 16 ≃ Fin 8208 :=
  (Equiv.sumCongr (Equiv.refl (Fin 4096)) (finSumFinEquiv : Fin 4096 ⊕ Fin 16 ≃ Fin (4096 + 16))).trans
    (finSumFinEquiv : Fin 4096 ⊕ Fin (4096 + 16) ≃ Fin (4096 + (4096 + 16)))

theorem keyEquiv_inl (t : Fin 4096) : keyEquiv (.inl t) = k1 t := Fin.ext rfl
theorem keyEquiv_inr_inl (t : Fin 4096) : keyEquiv (.inr (.inl t)) = k2 t := Fin.ext rfl
theorem keyEquiv_inr_inr (t : Fin 16) : keyEquiv (.inr (.inr t)) = k3 t :=
  Fin.ext (show 4096 + (4096 + t.val) = 8192 + t.val by omega)

/-- A key of the first cache half is cached row `t`. -/
theorem cat_k1 (X : ArrX) (W : ArrW) (C : ArrC) (h : Fin 32) (t : Fin 4096) (d : Fin 128) :
    cat X W C h (k1 t) d = C (ix3 h ⟨t.val, by omega⟩ d) := by
  unfold cat k1
  rw [dif_pos (show t.val < 8192 by omega)]
/-- A key of the second cache half is cached row `4096 + t`. -/
theorem cat_k2 (X : ArrX) (W : ArrW) (C : ArrC) (h : Fin 32) (t : Fin 4096) (d : Fin 128) :
    cat X W C h (k2 t) d = C (ix3 h ⟨4096 + t.val, by omega⟩ d) := by
  unfold cat k2
  rw [dif_pos (show 4096 + t.val < 8192 by omega)]
/-- A new key is a row of the projection. -/
theorem cat_k3 (X : ArrX) (W : ArrW) (C : ArrC) (h : Fin 32) (t : Fin 16) (d : Fin 128) :
    cat X W C h (k3 t) d = proj X W t (col h d) := by
  unfold cat k3
  rw [dif_neg (show ¬ 8192 + t.val < 8192 by omega)]
  exact congrArg (fun r => proj X W r (col h d)) (Fin.ext (show 8192 + t.val - 8192 = t.val by omega))

/-! ## Everything is a real -/

section Real

variable {X : ArrX} (hX : ∀ i, ∃ r : ℝ, X i = (r : EReal))
include hX

/-- A scaled entry is a real: the mean square is a nonnegative real, and where it is zero the row is zero. -/
theorem xn_real (p : Fin 16) (k : Fin 4096) : ∃ r : ℝ, xn X p k = (r : EReal) := by
  choose x hx using hX
  have hS : (∑ k : Fin 4096, X (ix2 p k) * X (ix2 p k))
      = ((∑ k : Fin 4096, x (ix2 p k) * x (ix2 p k) : ℝ) : EReal) := by
    rw [coe_sum]; exact Finset.sum_congr rfl fun k _ => by rw [hx, EReal.coe_mul]
  have hm : meanSq X p = (((∑ k : Fin 4096, x (ix2 p k) * x (ix2 p k)) / 4096 : ℝ) : EReal) := by
    unfold meanSq; rw [hS]; exact div_coe_coe _ (by norm_num)
  have hnn : 0 ≤ (∑ k : Fin 4096, x (ix2 p k) * x (ix2 p k)) / 4096 :=
    div_nonneg (Finset.sum_nonneg fun k _ => mul_self_nonneg _) (by norm_num)
  unfold xn
  rw [hm, Ideal.rsqrt_coe, if_neg (not_lt.mpr hnn)]
  by_cases hz : (∑ k : Fin 4096, x (ix2 p k) * x (ix2 p k)) / 4096 = 0
  · have hs0 : ∑ k : Fin 4096, x (ix2 p k) * x (ix2 p k) = 0 := by
      rcases div_eq_zero_iff.mp hz with h | h
      · exact h
      · norm_num at h
    have hk : x (ix2 p k) * x (ix2 p k) = 0 :=
      (Finset.sum_eq_zero_iff_of_nonneg fun k _ => mul_self_nonneg _).mp hs0 k (Finset.mem_univ k)
    have hxk : x (ix2 p k) = 0 := mul_self_eq_zero.mp hk
    refine ⟨0, ?_⟩
    rw [if_pos hz, hx, hxk, EReal.coe_zero, zero_mul]
  · exact ⟨x (ix2 p k) * (Real.sqrt ((∑ k : Fin 4096, x (ix2 p k) * x (ix2 p k)) / 4096))⁻¹, by
      rw [if_neg hz, hx, EReal.coe_mul]⟩

variable {W : ArrW} (hW : ∀ i, ∃ r : ℝ, W i = (r : EReal))
include hW

/-- An entry of a projection is a real. -/
theorem proj_real (p : Fin 16) (c : Fin 4096) : ∃ r : ℝ, proj X W p c = (r : EReal) := by
  choose y hy using xn_real hX p
  choose w hw using hW
  exact ⟨∑ k : Fin 4096, y k * w (ix2 k c), by
    unfold proj; rw [coe_sum]; exact Finset.sum_congr rfl fun k _ => by rw [hy, hw, EReal.coe_mul]⟩

variable {C : ArrC} (hC : ∀ i, ∃ r : ℝ, C i = (r : EReal))
include hC

/-- A key or value entry is a real. -/
theorem cat_real (h : Fin 32) (j : Fin 8208) (d : Fin 128) : ∃ r : ℝ, cat X W C h j d = (r : EReal) := by
  unfold cat
  split
  · exact hC _
  · exact proj_real hX hW _ _

end Real

/-- A score is a real. -/
theorem score_real {X : ArrX} {Wq Wk : ArrW} {cK : ArrC} (hX : ∀ i, ∃ r : ℝ, X i = (r : EReal))
    (hWq : ∀ i, ∃ r : ℝ, Wq i = (r : EReal)) (hWk : ∀ i, ∃ r : ℝ, Wk i = (r : EReal))
    (hcK : ∀ i, ∃ r : ℝ, cK i = (r : EReal)) (h : Fin 32) (p : Fin 16) (j : Fin 8208) :
    ∃ r : ℝ, score X Wq Wk cK h p j = (r : EReal) := by
  choose q hq using fun d : Fin 128 => proj_real hX hWq p (col h d)
  choose κ hκ using fun d : Fin 128 => cat_real hX hWk hcK h j d
  exact ⟨∑ d : Fin 128, q d * κ d, by
    unfold score; rw [coe_sum]; exact Finset.sum_congr rfl fun d _ => by rw [hq, hκ, EReal.coe_mul]⟩

/-! ## The output as the three-block walk -/

/-- On finite inputs, head `h`, row `p`, lane `d` of the output is the numerator over the denominator of the
    online-softmax walk over the two cache halves and then the new rows, from (-∞, 0, 0). -/
theorem headOut_eq_walk {X : ArrX} {Wq Wk Wv : ArrW} {cK cV : ArrC} (hX : ∀ i, ∃ r : ℝ, X i = (r : EReal))
    (hWq : ∀ i, ∃ r : ℝ, Wq i = (r : EReal)) (hWk : ∀ i, ∃ r : ℝ, Wk i = (r : EReal))
    (hWv : ∀ i, ∃ r : ℝ, Wv i = (r : EReal)) (hcK : ∀ i, ∃ r : ℝ, cK i = (r : EReal))
    (hcV : ∀ i, ∃ r : ℝ, cV i = (r : EReal)) (h : Fin 32) (p : Fin 16) (d : Fin 128) :
    headOut X Wq Wk Wv cK cV h p d
      = Ideal.div
          (state3 (fun t => score X Wq Wk cK h p (k1 t)) (fun t => cat X Wv cV h (k1 t) d)
            (fun t => score X Wq Wk cK h p (k2 t)) (fun t => cat X Wv cV h (k2 t) d)
            (fun t => score X Wq Wk cK h p (k3 t)) (fun t => cat X Wv cV h (k3 t) d)).2.2
          (state3 (fun t => score X Wq Wk cK h p (k1 t)) (fun t => cat X Wv cV h (k1 t) d)
            (fun t => score X Wq Wk cK h p (k2 t)) (fun t => cat X Wv cV h (k2 t) d)
            (fun t => score X Wq Wk cK h p (k3 t)) (fun t => cat X Wv cV h (k3 t) d)).2.1 := by
  choose σ hσ using score_real hX hWq hWk hcK h p
  choose ν hν using fun j : Fin 8208 => cat_real hX hWv hcV h j d
  have hM : ∀ x : EReal, (Finset.univ : Finset (Fin 8208)).fold max ⊥ (fun j => (σ j : EReal)) ≤ x
      ↔ ∀ j, (σ j : EReal) ≤ x := fun x => by
    rw [Finset.fold_max_le]; simp
  have hlaw := online_softmax3 (B1 := 4096) (B2 := 4096) (B3 := 16) (by norm_num) (by norm_num) (by norm_num)
    keyEquiv σ ν _ hM
  simp only [keyEquiv_inl, keyEquiv_inr_inl, keyEquiv_inr_inr] at hlaw
  have hs : score X Wq Wk cK h p = fun j => (σ j : EReal) := funext hσ
  simp only [headOut, weight, denom, expo, rowMax, hs, hν]
  exact hlaw.symm

end Cert.Proof.Spec

end
-- ==== Proof.SpecWalk.lean ====
/-
  The attention layer's output as the online-softmax walk over the blocks as the kernel sees them.

  The walk of `headOut_eq_walk` is over the scores and values of `Spec`.  Spelt out block by block: the first two
  blocks score the queries against the two halves of the key cache and weigh the two halves of the value cache; the
  third scores them against the sixteen new key rows and weighs the sixteen new value rows.
-/
import proofs.«129545_j317827580172_2_alg».proof.Proof.SpecOnline

noncomputable section

open scoped BigOperators

namespace Cert.Proof.Spec

open Idealize.ShloMosaic Idealize.ShloMosaic.ValueIdx OnlineSoftmax

/-- A score against a key of the first cache half. -/
theorem score_k1 (X : ArrX) (Wq Wk : ArrW) (cK : ArrC) (h : Fin 32) (p : Fin 16) (t : Fin 4096) :
    score X Wq Wk cK h p (k1 t) = ∑ dd : Fin 128, proj X Wq p (col h dd) * cK (ix3 h ⟨t.val, by omega⟩ dd) := by
  unfold score
  simp only [cat_k1]

/-- A score against a key of the second cache half. -/
theorem score_k2 (X : ArrX) (Wq Wk : ArrW) (cK : ArrC) (h : Fin 32) (p : Fin 16) (t : Fin 4096) :
    score X Wq Wk cK h p (k2 t) = ∑ dd : Fin 128, proj X Wq p (col h dd) * cK (ix3 h ⟨4096 + t.val, by omega⟩ dd) := by
  unfold score
  simp only [cat_k2]

/-- A score against a new key. -/
theorem score_k3 (X : ArrX) (Wq Wk : ArrW) (cK : ArrC) (h : Fin 32) (p : Fin 16) (t : Fin 16) :
    score X Wq Wk cK h p (k3 t) = ∑ dd : Fin 128, proj X Wq p (col h dd) * proj X Wk t (col h dd) := by
  unfold score
  simp only [cat_k3]

/-- On finite inputs, head `h`, row `p`, lane `d` of the output is the numerator over the denominator of the walk over
    the first cache half, the second cache half and the new rows, each block given by its own rows. -/
theorem headOut_eq_walk_blocks {X : ArrX} {Wq Wk Wv : ArrW} {cK cV : ArrC} (hX : ∀ i, ∃ r : ℝ, X i = (r : EReal))
    (hWq : ∀ i, ∃ r : ℝ, Wq i = (r : EReal)) (hWk : ∀ i, ∃ r : ℝ, Wk i = (r : EReal))
    (hWv : ∀ i, ∃ r : ℝ, Wv i = (r : EReal)) (hcK : ∀ i, ∃ r : ℝ, cK i = (r : EReal))
    (hcV : ∀ i, ∃ r : ℝ, cV i = (r : EReal)) (h : Fin 32) (p : Fin 16) (d : Fin 128) :
    headOut X Wq Wk Wv cK cV h p d
      = Ideal.div
          (state3
            (fun t : Fin 4096 => ∑ dd : Fin 128, proj X Wq p (col h dd) * cK (ix3 h ⟨t.val, by omega⟩ dd))
            (fun t : Fin 4096 => cV (ix3 h ⟨t.val, by omega⟩ d))
            (fun t : Fin 4096 => ∑ dd : Fin 128, proj X Wq p (col h dd) * cK (ix3 h ⟨4096 + t.val, by omega⟩ dd))
            (fun t : Fin 4096 => cV (ix3 h ⟨4096 + t.val, by omega⟩ d))
            (fun t : Fin 16 => ∑ dd : Fin 128, proj X Wq p (col h dd) * proj X Wk t (col h dd))
            (fun t : Fin 16 => proj X Wv t (col h d))).2.2
          (state3
            (fun t : Fin 4096 => ∑ dd : Fin 128, proj X Wq p (col h dd) * cK (ix3 h ⟨t.val, by omega⟩ dd))
            (fun t : Fin 4096 => cV (ix3 h ⟨t.val, by omega⟩ d))
            (fun t : Fin 4096 => ∑ dd : Fin 128, proj X Wq p (col h dd) * cK (ix3 h ⟨4096 + t.val, by omega⟩ dd))
            (fun t : Fin 4096 => cV (ix3 h ⟨4096 + t.val, by omega⟩ d))
            (fun t : Fin 16 => ∑ dd : Fin 128, proj X Wq p (col h dd) * proj X Wk t (col h dd))
            (fun t : Fin 16 => proj X Wv t (col h d))).2.1 := by
  rw [headOut_eq_walk hX hWq hWk hWv hcK hcV h p d]
  simp only [score_k1, score_k2, score_k3, cat_k1, cat_k2, cat_k3]

end Cert.Proof.Spec

end
-- ==== Proof.HeadOut.lean ====
/-
  One head of the attention kernel computes one head of the attention layer.

  When the kernel's query block is the head's queries, its two cache blocks are the two halves of the head's key and
  value caches and its new-row blocks are the head's new keys and values, the block it writes is, entry by entry, the
  head's output of `Spec`: the kernel's walk is the online-softmax walk of `headOut_eq_walk_blocks`.
-/
import proofs.«129545_j317827580172_2_alg».proof.Proof.Rows
import proofs.«129545_j317827580172_2_alg».proof.Proof.SpecWalk

noncomputable section

open scoped BigOperators

namespace Cert.Proof.Rows

open Idealize.ShloMosaic Idealize.ShloMosaic.ValueIdx Cert.Proof Cert.KernelIdeal Cert.KernelIdeal.Gen OnlineSoftmax
  Cert.Proof.Pay1

/-- The head's output block is the head's output of the specification. -/
theorem outBlock_eq_headOut {X : Spec.ArrX} {Wq Wk Wv : Spec.ArrW} {cK cV : Spec.ArrC}
    (hX : ∀ i, ∃ r : ℝ, X i = (r : EReal)) (hWq : ∀ i, ∃ r : ℝ, Wq i = (r : EReal))
    (hWk : ∀ i, ∃ r : ℝ, Wk i = (r : EReal)) (hWv : ∀ i, ∃ r : ℝ, Wv i = (r : EReal))
    (hcK : ∀ i, ∃ r : ℝ, cK i = (r : EReal)) (hcV : ∀ i, ∃ r : ℝ, cV i = (r : EReal)) (h : Fin 32)
    (q : Vec Ideal S1x16x128 .f32) (K1 V1 K2 V2 : Vec Ideal S1x4096x128 .f32) (KN VN : Vec Ideal S1x16x128 .f32)
    (hq : ∀ (p : Fin 16) (d : Fin 128), q (ix3 (0 : Fin 1) p d) = Spec.proj X Wq p (Spec.col h d))
    (hK1 : ∀ (j : Fin 4096) (d : Fin 128), K1 (ix3 (0 : Fin 1) j d) = cK (ix3 h ⟨j.val, by omega⟩ d))
    (hV1 : ∀ (j : Fin 4096) (d : Fin 128), V1 (ix3 (0 : Fin 1) j d) = cV (ix3 h ⟨j.val, by omega⟩ d))
    (hK2 : ∀ (j : Fin 4096) (d : Fin 128), K2 (ix3 (0 : Fin 1) j d) = cK (ix3 h ⟨4096 + j.val, by omega⟩ d))
    (hV2 : ∀ (j : Fin 4096) (d : Fin 128), V2 (ix3 (0 : Fin 1) j d) = cV (ix3 h ⟨4096 + j.val, by omega⟩ d))
    (hKN : ∀ (j : Fin 16) (d : Fin 128), KN (ix3 (0 : Fin 1) j d) = Spec.proj X Wk j (Spec.col h d))
    (hVN : ∀ (j : Fin 16) (d : Fin 128), VN (ix3 (0 : Fin 1) j d) = Spec.proj X Wv j (Spec.col h d))
    (p : Fin 16) (d : Fin 128) :
    outBlock q K1 V1 K2 V2 KN VN (ix3 (0 : Fin 1) p d) = Spec.headOut X Wq Wk Wv cK cV h p d := by
  rw [outBlock_at, Spec.headOut_eq_walk_blocks hX hWq hWk hWv hcK hcV h p d]
  simp only [hq, hK1, hV1, hK2, hV2, hKN, hVN]

end Cert.Proof.Rows

end
-- ==== Proof.Blocks.lean ====
/-
  The blocks the two kernels' windows cut out of their arrays, read at coordinates.

  The projection kernel walks a grid of 2 column halves by 8 row slabs, point `t` being slab `t % 8` of half `t / 8`:
  it sees the whole activation array at every point, rows `(t % 8) * 512 ..` and columns `(t / 8) * 2048 ..` of each
  weight matrix, and writes columns `(t / 8) * 2048 ..` of each of its three results.  The attention kernel walks 32
  heads by 2 cache halves, point `t` being half `t % 2` of head `t / 2`: it sees head `t / 2` of the queries, of the
  new keys and of the new values, rows `(t % 2) * 4096 ..` of that head's key and value caches, and writes head `t / 2`
  of its result.  The index maps are decided once over each grid.
-/
import proofs.«129545_j317827580172_2_alg».proof.Proof.Gen.KernelIdeal.Launch
import proofs.«129545_j317827580172_2_alg».proof.Proof.Gen.KernelIdeal.Points
import Idealize.ShloMosaic.Lib.Pipeline.Value
import Idealize.ShloMosaic.Lib.ValueIdx

noncomputable section

namespace Cert.Proof.Blocks

open Idealize.ShloMosaic Idealize.ShloMosaic.ValueIdx Idealize.ShloMosaic.TcCoe Cert.KernelIdeal Cert.KernelIdeal.Gen

variable {F : FTy → Type} [FloatOps F]

/-- The projection grid has 16 points. -/
theorem lt16 (t : Fin cfg0.N) : t.val < 16 := lt_of_lt_of_eq t.isLt N_0
/-- The attention grid has 64 points. -/
theorem lt64 (t : Fin cfg1.N) : t.val < 64 := lt_of_lt_of_eq t.isLt N_1

/-! ## The index maps, decided over the grids -/

theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 2) = t.val % 8 ∧ win0_1.index t (1 : Fin 2) = t.val / 8 :=
  (by decide +kernel : ∀ t : Fin grid0.N, _)
theorem idx0_2 : ∀ t : Fin cfg0.N, win0_2.index t (0 : Fin 2) = t.val % 8 ∧ win0_2.index t (1 : Fin 2) = t.val / 8 :=
  (by decide +kernel : ∀ t : Fin grid0.N, _)
theorem idx0_3 : ∀ t : Fin cfg0.N, win0_3.index t (0 : Fin 2) = t.val % 8 ∧ win0_3.index t (1 : Fin 2) = t.val / 8 :=
  (by decide +kernel : ∀ t : Fin grid0.N, _)
theorem idx0_4 : ∀ t : Fin cfg0.N, win0_4.index t (0 : Fin 2) = 0 ∧ win0_4.index t (1 : Fin 2) = t.val / 8 :=
  (by decide +kernel : ∀ t : Fin grid0.N, _)
theorem idx0_5 : ∀ t : Fin cfg0.N, win0_5.index t (0 : Fin 2) = 0 ∧ win0_5.index t (1 : Fin 2) = t.val / 8 :=
  (by decide +kernel : ∀ t : Fin grid0.N, _)
theorem idx0_6 : ∀ t : Fin cfg0.N, win0_6.index t (0 : Fin 2) = 0 ∧ win0_6.index t (1 : Fin 2) = t.val / 8 :=
  (by decide +kernel : ∀ t : Fin grid0.N, _)
theorem idx1_0 : ∀ t : Fin cfg1.N, win1_0.index t (0 : Fin 3) = t.val / 2 ∧ win1_0.index t (1 : Fin 3) = 0
    ∧ win1_0.index t (2 : Fin 3) = 0 :=
  (by decide +kernel : ∀ t : Fin grid1.N, _)
theorem idx1_3 : ∀ t : Fin cfg1.N, win1_3.index t (0 : Fin 3) = t.val / 2 ∧ win1_3.index t (1 : Fin 3) = 0
    ∧ win1_3.index t (2 : Fin 3) = 0 :=
  (by decide +kernel : ∀ t : Fin grid1.N, _)
theorem idx1_4 : ∀ t : Fin cfg1.N, win1_4.index t (0 : Fin 3) = t.val / 2 ∧ win1_4.index t (1 : Fin 3) = 0
    ∧ win1_4.index t (2 : Fin 3) = 0 :=
  (by decide +kernel : ∀ t : Fin grid1.N, _)
theorem idx1_5 : ∀ t : Fin cfg1.N, win1_5.index t (0 : Fin 3) = t.val / 2 ∧ win1_5.index t (1 : Fin 3) = 0
    ∧ win1_5.index t (2 : Fin 3) = 0 :=
  (by decide +kernel : ∀ t : Fin grid1.N, _)
theorem idx1_1 : ∀ t : Fin cfg1.N, win1_1.index t (0 : Fin 3) = t.val / 2 ∧ win1_1.index t (1 : Fin 3) = t.val % 2
    ∧ win1_1.index t (2 : Fin 3) = 0 :=
  (by decide +kernel : ∀ t : Fin grid1.N, _)
theorem idx1_2 : ∀ t : Fin cfg1.N, win1_2.index t (0 : Fin 3) = t.val / 2 ∧ win1_2.index t (1 : Fin 3) = t.val % 2
    ∧ win1_2.index t (2 : Fin 3) = 0 :=
  (by decide +kernel : ∀ t : Fin grid1.N, _)

/-! ## The projection kernel's blocks -/

/-- The activations are seen whole at every point. -/
theorem read0_0 (t : Fin cfg0.N) (A : S16x4096.Idx → Elt F .f32) :
    ((cfg0.win 0).blk t).view.read (Elt F) A = A := by
  funext j
  show A (((cfg0.win 0).blk t).view.emb j) = A j
  refine congrArg A (funext fun a => Fin.ext ?_)
  obtain ⟨e0, e1⟩ := idx0_0 t
  match a with
  | ⟨0, _⟩ => show win0_0.index t (0 : Fin 2) * 16 + 1 * (j 0).val = (j 0).val; omega
  | ⟨1, _⟩ => show win0_0.index t (1 : Fin 2) * 4096 + 1 * (j 1).val = (j 1).val; omega

/-- A weight block: rows `(t % 8) * 512 ..`, columns `(t / 8) * 2048 ..`. -/
theorem read0_1 (t : Fin cfg0.N) (A : S4096x4096.Idx → Elt F .f32) (i : Fin 512) (q : Fin 2048) :
    ((cfg0.win 1).blk t).view.read (Elt F) A (ix2 i q)
      = A (ix2 (⟨(t.val % 8) * 512 + i.val, by omega⟩ : Fin 4096)
          (⟨(t.val / 8) * 2048 + q.val, by have := lt16 t; omega⟩ : Fin 4096)) := by
  show A (((cfg0.win 1).blk t).view.emb (ix2 i q)) = _
  refine congrArg A (funext fun a => Fin.ext ?_)
  obtain ⟨e0, e1⟩ := idx0_1 t
  match a with
  | ⟨0, _⟩ => show win0_1.index t (0 : Fin 2) * 512 + 1 * i.val = (t.val % 8) * 512 + i.val; omega
  | ⟨1, _⟩ => show win0_1.index t (1 : Fin 2) * 2048 + 1 * q.val = (t.val / 8) * 2048 + q.val; omega

/-- A weight block: rows `(t % 8) * 512 ..`, columns `(t / 8) * 2048 ..`. -/
theorem read0_2 (t : Fin cfg0.N) (A : S4096x4096.Idx → Elt F .f32) (i : Fin 512) (q : Fin 2048) :
    ((cfg0.win 2).blk t).view.read (Elt F) A (ix2 i q)
      = A (ix2 (⟨(t.val % 8) * 512 + i.val, by omega⟩ : Fin 4096)
          (⟨(t.val / 8) * 2048 + q.val, by have := lt16 t; omega⟩ : Fin 4096)) := by
  show A (((cfg0.win 2).blk t).view.emb (ix2 i q)) = _
  refine congrArg A (funext fun a => Fin.ext ?_)
  obtain ⟨e0, e1⟩ := idx0_2 t
  match a with
  | ⟨0, _⟩ => show win0_2.index t (0 : Fin 2) * 512 + 1 * i.val = (t.val % 8) * 512 + i.val; omega
  | ⟨1, _⟩ => show win0_2.index t (1 : Fin 2) * 2048 + 1 * q.val = (t.val / 8) * 2048 + q.val; omega

/-- A weight block: rows `(t % 8) * 512 ..`, columns `(t / 8) * 2048 ..`. -/
theorem read0_3 (t : Fin cfg0.N) (A : S4096x4096.Idx → Elt F .f32) (i : Fin 512) (q : Fin 2048) :
    ((cfg0.win 3).blk t).view.read (Elt F) A (ix2 i q)
      = A (ix2 (⟨(t.val % 8) * 512 + i.val, by omega⟩ : Fin 4096)
          (⟨(t.val / 8) * 2048 + q.val, by have := lt16 t; omega⟩ : Fin 4096)) := by
  show A (((cfg0.win 3).blk t).view.emb (ix2 i q)) = _
  refine congrArg A (funext fun a => Fin.ext ?_)
  obtain ⟨e0, e1⟩ := idx0_3 t
  match a with
  | ⟨0, _⟩ => show win0_3.index t (0 : Fin 2) * 512 + 1 * i.val = (t.val % 8) * 512 + i.val; omega
  | ⟨1, _⟩ => show win0_3.index t (1 : Fin 2) * 2048 + 1 * q.val = (t.val / 8) * 2048 + q.val; omega

/-- A result block: all 16 rows, columns `(t / 8) * 2048 ..`. -/
theorem read0_4 (t : Fin cfg0.N) (A : S16x4096.Idx → Elt F .f32) (p : Fin 16) (q : Fin 2048) :
    ((cfg0.win 4).blk t).view.read (Elt F) A (ix2 p q)
      = A (ix2 p (⟨(t.val / 8) * 2048 + q.val, by have := lt16 t; omega⟩ : Fin 4096)) := by
  show A (((cfg0.win 4).blk t).view.emb (ix2 p q)) = _
  refine congrArg A (funext fun a => Fin.ext ?_)
  obtain ⟨e0, e1⟩ := idx0_4 t
  match a with
  | ⟨0, _⟩ => show win0_4.index t (0 : Fin 2) * 16 + 1 * p.val = p.val; omega
  | ⟨1, _⟩ => show win0_4.index t (1 : Fin 2) * 2048 + 1 * q.val = (t.val / 8) * 2048 + q.val; omega

/-- A result block: all 16 rows, columns `(t / 8) * 2048 ..`. -/
theorem read0_5 (t : Fin cfg0.N) (A : S16x4096.Idx → Elt F .f32) (p : Fin 16) (q : Fin 2048) :
    ((cfg0.win 5).blk t).view.read (Elt F) A (ix2 p q)
      = A (ix2 p (⟨(t.val / 8) * 2048 + q.val, by have := lt16 t; omega⟩ : Fin 4096)) := by
  show A (((cfg0.win 5).blk t).view.emb (ix2 p q)) = _
  refine congrArg A (funext fun a => Fin.ext ?_)
  obtain ⟨e0, e1⟩ := idx0_5 t
  match a with
  | ⟨0, _⟩ => show win0_5.index t (0 : Fin 2) * 16 + 1 * p.val = p.val; omega
  | ⟨1, _⟩ => show win0_5.index t (1 : Fin 2) * 2048 + 1 * q.val = (t.val / 8) * 2048 + q.val; omega

/-- A result block: all 16 rows, columns `(t / 8) * 2048 ..`. -/
theorem read0_6 (t : Fin cfg0.N) (A : S16x4096.Idx → Elt F .f32) (p : Fin 16) (q : Fin 2048) :
    ((cfg0.win 6).blk t).view.read (Elt F) A (ix2 p q)
      = A (ix2 p (⟨(t.val / 8) * 2048 + q.val, by have := lt16 t; omega⟩ : Fin 4096)) := by
  show A (((cfg0.win 6).blk t).view.emb (ix2 p q)) = _
  refine congrArg A (funext fun a => Fin.ext ?_)
  obtain ⟨e0, e1⟩ := idx0_6 t
  match a with
  | ⟨0, _⟩ => show win0_6.index t (0 : Fin 2) * 16 + 1 * p.val = p.val; omega
  | ⟨1, _⟩ => show win0_6.index t (1 : Fin 2) * 2048 + 1 * q.val = (t.val / 8) * 2048 + q.val; omega

/-! ## The attention kernel's blocks -/

/-- Head `t / 2` of a [32, 16, 128] array. -/
theorem read1_0 (t : Fin cfg1.N) (A : S32x16x128.Idx → Elt F .f32) (p : Fin 16) (d : Fin 128) :
    ((cfg1.win 0).blk t).view.read (Elt F) A (ix3 (0 : Fin 1) p d)
      = A (ix3 (⟨t.val / 2, by have := lt64 t; omega⟩ : Fin 32) p d) := by
  show A (((cfg1.win 0).blk t).view.emb (ix3 (0 : Fin 1) p d)) = _
  refine congrArg A (funext fun a => Fin.ext ?_)
  obtain ⟨e0, e1, e2⟩ := idx1_0 t
  match a with
  | ⟨0, _⟩ => show win1_0.index t (0 : Fin 3) * 1 + 1 * 0 = t.val / 2; omega
  | ⟨1, _⟩ => show win1_0.index t (1 : Fin 3) * 16 + 1 * p.val = p.val; omega
  | ⟨2, _⟩ => show win1_0.index t (2 : Fin 3) * 128 + 1 * d.val = d.val; omega

/-- Head `t / 2` of a [32, 16, 128] array. -/
theorem read1_3 (t : Fin cfg1.N) (A : S32x16x128.Idx → Elt F .f32) (p : Fin 16) (d : Fin 128) :
    ((cfg1.win 3).blk t).view.read (Elt F) A (ix3 (0 : Fin 1) p d)
      = A (ix3 (⟨t.val / 2, by have := lt64 t; omega⟩ : Fin 32) p d) := by
  show A (((cfg1.win 3).blk t).view.emb (ix3 (0 : Fin 1) p d)) = _
  refine congrArg A (funext fun a => Fin.ext ?_)
  obtain ⟨e0, e1, e2⟩ := idx1_3 t
  match a with
  | ⟨0, _⟩ => show win1_3.index t (0 : Fin 3) * 1 + 1 * 0 = t.val / 2; omega
  | ⟨1, _⟩ => show win1_3.index t (1 : Fin 3) * 16 + 1 * p.val = p.val; omega
  | ⟨2, _⟩ => show win1_3.index t (2 : Fin 3) * 128 + 1 * d.val = d.val; omega

/-- Head `t / 2` of a [32, 16, 128] array. -/
theorem read1_4 (t : Fin cfg1.N) (A : S32x16x128.Idx → Elt F .f32) (p : Fin 16) (d : Fin 128) :
    ((cfg1.win 4).blk t).view.read (Elt F) A (ix3 (0 : Fin 1) p d)
      = A (ix3 (⟨t.val / 2, by have := lt64 t; omega⟩ : Fin 32) p d) := by
  show A (((cfg1.win 4).blk t).view.emb (ix3 (0 : Fin 1) p d)) = _
  refine congrArg A (funext fun a => Fin.ext ?_)
  obtain ⟨e0, e1, e2⟩ := idx1_4 t
  match a with
  | ⟨0, _⟩ => show win1_4.index t (0 : Fin 3) * 1 + 1 * 0 = t.val / 2; omega
  | ⟨1, _⟩ => show win1_4.index t (1 : Fin 3) * 16 + 1 * p.val = p.val; omega
  | ⟨2, _⟩ => show win1_4.index t (2 : Fin 3) * 128 + 1 * d.val = d.val; omega

/-- Head `t / 2` of a [32, 16, 128] array. -/
theorem read1_5 (t : Fin cfg1.N) (A : S32x16x128.Idx → Elt F .f32) (p : Fin 16) (d : Fin 128) :
    ((cfg1.win 5).blk t).view.read (Elt F) A (ix3 (0 : Fin 1) p d)
      = A (ix3 (⟨t.val / 2, by have := lt64 t; omega⟩ : Fin 32) p d) := by
  show A (((cfg1.win 5).blk t).view.emb (ix3 (0 : Fin 1) p d)) = _
  refine congrArg A (funext fun a => Fin.ext ?_)
  obtain ⟨e0, e1, e2⟩ := idx1_5 t
  match a with
  | ⟨0, _⟩ => show win1_5.index t (0 : Fin 3) * 1 + 1 * 0 = t.val / 2; omega
  | ⟨1, _⟩ => show win1_5.index t (1 : Fin 3) * 16 + 1 * p.val = p.val; omega
  | ⟨2, _⟩ => show win1_5.index t (2 : Fin 3) * 128 + 1 * d.val = d.val; omega

/-- Rows `(t % 2) * 4096 ..` of head `t / 2` of a cache. -/
theorem read1_1 (t : Fin cfg1.N) (A : S32x8192x128.Idx → Elt F .f32) (j : Fin 4096) (d : Fin 128) :
    ((cfg1.win 1).blk t).view.read (Elt F) A (ix3 (0 : Fin 1) j d)
      = A (ix3 (⟨t.val / 2, by have := lt64 t; omega⟩ : Fin 32) (⟨(t.val % 2) * 4096 + j.val, by omega⟩ : Fin 8192) d) := by
  show A (((cfg1.win 1).blk t).view.emb (ix3 (0 : Fin 1) j d)) = _
  refine congrArg A (funext fun a => Fin.ext ?_)
  obtain ⟨e0, e1, e2⟩ := idx1_1 t
  match a with
  | ⟨0, _⟩ => show win1_1.index t (0 : Fin 3) * 1 + 1 * 0 = t.val / 2; omega
  | ⟨1, _⟩ => show win1_1.index t (1 : Fin 3) * 4096 + 1 * j.val = (t.val % 2) * 4096 + j.val; omega
  | ⟨2, _⟩ => show win1_1.index t (2 : Fin 3) * 128 + 1 * d.val = d.val; omega

/-- Rows `(t % 2) * 4096 ..` of head `t / 2` of a cache. -/
theorem read1_2 (t : Fin cfg1.N) (A : S32x8192x128.Idx → Elt F .f32) (j : Fin 4096) (d : Fin 128) :
    ((cfg1.win 2).blk t).view.read (Elt F) A (ix3 (0 : Fin 1) j d)
      = A (ix3 (⟨t.val / 2, by have := lt64 t; omega⟩ : Fin 32) (⟨(t.val % 2) * 4096 + j.val, by omega⟩ : Fin 8192) d) := by
  show A (((cfg1.win 2).blk t).view.emb (ix3 (0 : Fin 1) j d)) = _
  refine congrArg A (funext fun a => Fin.ext ?_)
  obtain ⟨e0, e1, e2⟩ := idx1_2 t
  match a with
  | ⟨0, _⟩ => show win1_2.index t (0 : Fin 3) * 1 + 1 * 0 = t.val / 2; omega
  | ⟨1, _⟩ => show win1_2.index t (1 : Fin 3) * 4096 + 1 * j.val = (t.val % 2) * 4096 + j.val; omega
  | ⟨2, _⟩ => show win1_2.index t (2 : Fin 3) * 128 + 1 * d.val = d.val; omega

end Cert.Proof.Blocks

end
-- ==== Proof.Arrays.lean ====
/-
  An output array from the blocks written back into it.

  Each of the projection kernel's three results is written in two blocks of 2048 columns, block `t / 8` at the last
  reduction step of its column half (the points `t` with `t % 8 = 7`); the attention kernel's result is written one
  head at a time, head `t / 2` at the second cache half (the points with `t % 2 = 1`).  The written blocks tile the
  array.  So if what every writing point leaves in its staging buffer is its block of one whole-array function, the
  array ends holding that function.
-/
import proofs.«129545_j317827580172_2_alg».proof.Proof.Blocks
import Idealize.ShloMosaic.Lib.Pipeline.Frame

noncomputable section

namespace Cert.Proof.Arrays

open Idealize.ShloMosaic Idealize.ShloMosaic.ValueIdx Idealize.ShloMosaic.TcCoe Idealize.SL.Sem Cert.KernelIdeal
  Cert.KernelIdeal.Gen Cert.Proof.Blocks
open Idealize.ShloMosaic.Pipeline (Dat)

variable {F : FTy → Type} [FloatOps F]
variable {Ix : Type} [DecidableEq Ix] {Name : Type} [DecidableEq Name] {U : Type} [Idealize.SL.RA.URA U] {Lvl : Type}

/-! ## The projection kernel's results -/

/-- An index is in point `t`'s block of result 0 iff each coordinate is in the block's range on its axis. -/
theorem mem_blk0_4 (t : Fin cfg0.N) (i : S16x4096.Idx) :
    i ∈ ((cfg0.win 4).blk t).view.set ↔ ∀ a : Fin 2, win0_4.index t a * S16x2048.size a ≤ (i a).val
      ∧ (i a).val < win0_4.index t a * S16x2048.size a + S16x2048.size a := by
  show i ∈ ((View.whole main_v0_0).slice (win0_4.rect t)).set ↔ _
  rw [View.set_slice_whole, Rect.mem_set_unit]
  exact Iff.rfl

/-- Result 0 of the projection kernel after the run. -/
theorem out0_4 (c : Dev nD) (dat : Dat τ (Elt F) Ix Name U Lvl cfg0 c) (G : S16x4096.Idx → Elt F .f32)
    (h : ∀ t : Fin cfg0.N, t.val % 8 = 7 → ∀ (p : Fin 16) (q : Fin 2048),
      dat.after 4 t (ix2 p q) = G (ix2 p (⟨(t.val / 8) * 2048 + q.val, by have := lt16 t; omega⟩ : Fin 4096))) :
    dat.arrAt 4 cfg0.N = G := by
  refine dat.arrAt_eq_of_cover 4 G (fun t hf => ?_) (fun i => ?_)
  · have key : ∀ j : S16x2048.Idx, dat.after 4 t j = ((cfg0.win 4).blk t).view.read (Elt F) G j := fun j => by
      obtain ⟨p, q, rfl⟩ : ∃ (p : Fin 16) (q : Fin 2048), j = ix2 p q := ⟨j 0, j 1, eq_ix2 j⟩
      rw [read0_4]
      exact h t ((flush0_4 t).mp hf) p q
    exact funext fun j => key j
  · have h0 := idx2_lt0 i
    have h1 := idx2_lt1 i
    refine ⟨⟨8 * ((i 1).val / 2048) + 7, lt_of_lt_of_eq (by omega) N_0.symm⟩, (flush0_4 _).mpr ?_, ?_⟩
    · show (8 * ((i 1).val / 2048) + 7) % 8 = 7
      omega
    · rw [mem_blk0_4]
      obtain ⟨e0, e1⟩ := idx0_4 ⟨8 * ((i 1).val / 2048) + 7, lt_of_lt_of_eq (by omega) N_0.symm⟩
      have e1' : win0_4.index ⟨8 * ((i 1).val / 2048) + 7, lt_of_lt_of_eq (by omega) N_0.symm⟩ (1 : Fin 2)
          = (8 * ((i 1).val / 2048) + 7) / 8 := e1
      intro a
      match a with
      | ⟨0, _⟩ =>
        show win0_4.index _ (0 : Fin 2) * 16 ≤ (i 0).val ∧ (i 0).val < win0_4.index _ (0 : Fin 2) * 16 + 16
        omega
      | ⟨1, _⟩ =>
        show win0_4.index _ (1 : Fin 2) * 2048 ≤ (i 1).val ∧ (i 1).val < win0_4.index _ (1 : Fin 2) * 2048 + 2048
        omega

/-- An index is in point `t`'s block of result 1 iff each coordinate is in the block's range on its axis. -/
theorem mem_blk0_5 (t : Fin cfg0.N) (i : S16x4096.Idx) :
    i ∈ ((cfg0.win 5).blk t).view.set ↔ ∀ a : Fin 2, win0_5.index t a * S16x2048.size a ≤ (i a).val
      ∧ (i a).val < win0_5.index t a * S16x2048.size a + S16x2048.size a := by
  show i ∈ ((View.whole main_v0_1).slice (win0_5.rect t)).set ↔ _
  rw [View.set_slice_whole, Rect.mem_set_unit]
  exact Iff.rfl

/-- Result 1 of the projection kernel after the run. -/
theorem out0_5 (c : Dev nD) (dat : Dat τ (Elt F) Ix Name U Lvl cfg0 c) (G : S16x4096.Idx → Elt F .f32)
    (h : ∀ t : Fin cfg0.N, t.val % 8 = 7 → ∀ (p : Fin 16) (q : Fin 2048),
      dat.after 5 t (ix2 p q) = G (ix2 p (⟨(t.val / 8) * 2048 + q.val, by have := lt16 t; omega⟩ : Fin 4096))) :
    dat.arrAt 5 cfg0.N = G := by
  refine dat.arrAt_eq_of_cover 5 G (fun t hf => ?_) (fun i => ?_)
  · have key : ∀ j : S16x2048.Idx, dat.after 5 t j = ((cfg0.win 5).blk t).view.read (Elt F) G j := fun j => by
      obtain ⟨p, q, rfl⟩ : ∃ (p : Fin 16) (q : Fin 2048), j = ix2 p q := ⟨j 0, j 1, eq_ix2 j⟩
      rw [read0_5]
      exact h t ((flush0_5 t).mp hf) p q
    exact funext fun j => key j
  · have h0 := idx2_lt0 i
    have h1 := idx2_lt1 i
    refine ⟨⟨8 * ((i 1).val / 2048) + 7, lt_of_lt_of_eq (by omega) N_0.symm⟩, (flush0_5 _).mpr ?_, ?_⟩
    · show (8 * ((i 1).val / 2048) + 7) % 8 = 7
      omega
    · rw [mem_blk0_5]
      obtain ⟨e0, e1⟩ := idx0_5 ⟨8 * ((i 1).val / 2048) + 7, lt_of_lt_of_eq (by omega) N_0.symm⟩
      have e1' : win0_5.index ⟨8 * ((i 1).val / 2048) + 7, lt_of_lt_of_eq (by omega) N_0.symm⟩ (1 : Fin 2)
          = (8 * ((i 1).val / 2048) + 7) / 8 := e1
      intro a
      match a with
      | ⟨0, _⟩ =>
        show win0_5.index _ (0 : Fin 2) * 16 ≤ (i 0).val ∧ (i 0).val < win0_5.index _ (0 : Fin 2) * 16 + 16
        omega
      | ⟨1, _⟩ =>
        show win0_5.index _ (1 : Fin 2) * 2048 ≤ (i 1).val ∧ (i 1).val < win0_5.index _ (1 : Fin 2) * 2048 + 2048
        omega

/-- An index is in point `t`'s block of result 2 iff each coordinate is in the block's range on its axis. -/
theorem mem_blk0_6 (t : Fin cfg0.N) (i : S16x4096.Idx) :
    i ∈ ((cfg0.win 6).blk t).view.set ↔ ∀ a : Fin 2, win0_6.index t a * S16x2048.size a ≤ (i a).val
      ∧ (i a).val < win0_6.index t a * S16x2048.size a + S16x2048.size a := by
  show i ∈ ((View.whole main_v0_2).slice (win0_6.rect t)).set ↔ _
  rw [View.set_slice_whole, Rect.mem_set_unit]
  exact Iff.rfl

/-- Result 2 of the projection kernel after the run. -/
theorem out0_6 (c : Dev nD) (dat : Dat τ (Elt F) Ix Name U Lvl cfg0 c) (G : S16x4096.Idx → Elt F .f32)
    (h : ∀ t : Fin cfg0.N, t.val % 8 = 7 → ∀ (p : Fin 16) (q : Fin 2048),
      dat.after 6 t (ix2 p q) = G (ix2 p (⟨(t.val / 8) * 2048 + q.val, by have := lt16 t; omega⟩ : Fin 4096))) :
    dat.arrAt 6 cfg0.N = G := by
  refine dat.arrAt_eq_of_cover 6 G (fun t hf => ?_) (fun i => ?_)
  · have key : ∀ j : S16x2048.Idx, dat.after 6 t j = ((cfg0.win 6).blk t).view.read (Elt F) G j := fun j => by
      obtain ⟨p, q, rfl⟩ : ∃ (p : Fin 16) (q : Fin 2048), j = ix2 p q := ⟨j 0, j 1, eq_ix2 j⟩
      rw [read0_6]
      exact h t ((flush0_6 t).mp hf) p q
    exact funext fun j => key j
  · have h0 := idx2_lt0 i
    have h1 := idx2_lt1 i
    refine ⟨⟨8 * ((i 1).val / 2048) + 7, lt_of_lt_of_eq (by omega) N_0.symm⟩, (flush0_6 _).mpr ?_, ?_⟩
    · show (8 * ((i 1).val / 2048) + 7) % 8 = 7
      omega
    · rw [mem_blk0_6]
      obtain ⟨e0, e1⟩ := idx0_6 ⟨8 * ((i 1).val / 2048) + 7, lt_of_lt_of_eq (by omega) N_0.symm⟩
      have e1' : win0_6.index ⟨8 * ((i 1).val / 2048) + 7, lt_of_lt_of_eq (by omega) N_0.symm⟩ (1 : Fin 2)
          = (8 * ((i 1).val / 2048) + 7) / 8 := e1
      intro a
      match a with
      | ⟨0, _⟩ =>
        show win0_6.index _ (0 : Fin 2) * 16 ≤ (i 0).val ∧ (i 0).val < win0_6.index _ (0 : Fin 2) * 16 + 16
        omega
      | ⟨1, _⟩ =>
        show win0_6.index _ (1 : Fin 2) * 2048 ≤ (i 1).val ∧ (i 1).val < win0_6.index _ (1 : Fin 2) * 2048 + 2048
        omega

/-! ## The attention kernel's result -/

/-- An index is in point `t`'s block of the result iff each coordinate is in the block's range on its axis. -/
theorem mem_blk1_5 (t : Fin cfg1.N) (i : S32x16x128.Idx) :
    i ∈ ((cfg1.win 5).blk t).view.set ↔ ∀ a : Fin 3, win1_5.index t a * S1x16x128.size a ≤ (i a).val
      ∧ (i a).val < win1_5.index t a * S1x16x128.size a + S1x16x128.size a := by
  show i ∈ ((View.whole main_v7).slice (win1_5.rect t)).set ↔ _
  rw [View.set_slice_whole, Rect.mem_set_unit]
  exact Iff.rfl

/-- The attention kernel's result after the run. -/
theorem out1_5 (c : Dev nD) (dat : Dat τ (Elt F) Ix Name U Lvl cfg1 c) (G : S32x16x128.Idx → Elt F .f32)
    (h : ∀ t : Fin cfg1.N, t.val % 2 = 1 → ∀ (p : Fin 16) (d : Fin 128),
      dat.after 5 t (ix3 (0 : Fin 1) p d) = G (ix3 (⟨t.val / 2, by have := lt64 t; omega⟩ : Fin 32) p d)) :
    dat.arrAt 5 cfg1.N = G := by
  refine dat.arrAt_eq_of_cover 5 G (fun t hf => ?_) (fun i => ?_)
  · have key : ∀ j : S1x16x128.Idx, dat.after 5 t j = ((cfg1.win 5).blk t).view.read (Elt F) G j := fun j => by
      obtain ⟨z, p, d, rfl⟩ : ∃ (z : Fin 1) (p : Fin 16) (d : Fin 128), j = ix3 z p d := ⟨j 0, j 1, j 2, eq_ix3 j⟩
      obtain rfl : z = (0 : Fin 1) := Subsingleton.elim _ _
      rw [read1_5]
      exact h t ((flush1_5 t).mp hf) p d
    exact funext fun j => key j
  · have h0 : (i 0).val < 32 := (i 0).isLt
    have h1 : (i 1).val < 16 := (i 1).isLt
    have h2 : (i 2).val < 128 := (i 2).isLt
    refine ⟨⟨2 * (i 0).val + 1, lt_of_lt_of_eq (by omega) N_1.symm⟩, (flush1_5 _).mpr ?_, ?_⟩
    · show (2 * (i 0).val + 1) % 2 = 1
      omega
    · rw [mem_blk1_5]
      obtain ⟨e0, e1, e2⟩ := idx1_5 ⟨2 * (i 0).val + 1, lt_of_lt_of_eq (by omega) N_1.symm⟩
      have e0' : win1_5.index ⟨2 * (i 0).val + 1, lt_of_lt_of_eq (by omega) N_1.symm⟩ (0 : Fin 3)
          = (2 * (i 0).val + 1) / 2 := e0
      intro a
      match a with
      | ⟨0, _⟩ =>
        show win1_5.index _ (0 : Fin 3) * 1 ≤ (i 0).val ∧ (i 0).val < win1_5.index _ (0 : Fin 3) * 1 + 1
        omega
      | ⟨1, _⟩ =>
        show win1_5.index _ (1 : Fin 3) * 16 ≤ (i 1).val ∧ (i 1).val < win1_5.index _ (1 : Fin 3) * 16 + 16
        omega
      | ⟨2, _⟩ =>
        show win1_5.index _ (2 : Fin 3) * 128 ≤ (i 2).val ∧ (i 2).val < win1_5.index _ (2 : Fin 3) * 128 + 128
        omega

end Cert.Proof.Arrays

end
-- ==== Proof.KI.Att.lean ====
/-
  The attention call's result array, at the extended reals.

  A head's output block is stored at the head's second point.  There the scratch holds what the first point left —
  one step of the running recurrence from (-inf, 0, 0) on the first half of the head's cache — and the body takes the
  step on the second half, the step on the 16 new keys, and divides.  So the block is the three-step walk of the
  head's query block, the two cache halves and the new keys and values; when those blocks are the head's slices of
  the projected queries, the caches and the projected new keys and values, the walk is the head's softmax-weighted
  sum, and the result array, block by block, is that sum for every head, row and lane.
-/
import proofs.«129545_j317827580172_2_alg».proof.Proof.KI.Pieces1
import proofs.«129545_j317827580172_2_alg».proof.Proof.HeadOut
import proofs.«129545_j317827580172_2_alg».proof.Proof.Blocks
import proofs.«129545_j317827580172_2_alg».proof.Proof.Arrays

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

open Cert.Proof Idealize.ShloMosaic.ValueIdx

variable (V : (c : Dev nD) → (b : Ref sig .tc) → Buf (Elt Ideal) ((c : Thread nD τ).loc b))

/-- The point before a point. -/
abbrev prevPt (t : Fin cfg1.N) : Fin cfg1.N := ⟨t.val - 1, Nat.lt_of_le_of_lt (Nat.sub_le _ _) t.isLt⟩

/-- Both points of a head read the same query block. -/
theorem q_same (c : Dev nD) (t : Fin cfg1.N) (h1 : t.val % 2 = 1) :
    (iblk1 V c 0 (prevPt t) : Vec Ideal S1x16x128 .f32) = (iblk1 V c 0 t : Vec Ideal S1x16x128 .f32) := by
  funext y
  obtain ⟨a, p, d, rfl⟩ : ∃ (a : Fin 1) (p : Fin 16) (d : Fin 128), y = ix3 a p d := ⟨y 0, y 1, y 2, eq_ix3 y⟩
  obtain rfl : a = 0 := Subsingleton.elim _ _
  show ((cfg1.win 0).blk (prevPt t)).view.read (Elt Ideal) (V c (Pipeline.arrRef spec1 0)) (ix3 (0 : Fin 1) p d)
    = ((cfg1.win 0).blk t).view.read (Elt Ideal) (V c (Pipeline.arrRef spec1 0)) (ix3 (0 : Fin 1) p d)
  rw [Blocks.read1_0, Blocks.read1_0]
  congr 2
  exact Fin.ext (by show (t.val - 1) / 2 = t.val / 2; omega)

/-- At a head's second point the output block is the three-step walk of the point's blocks and the first point's
    cache blocks. -/
theorem o5_odd (c : Dev nD) (t : Fin cfg1.N) (h1 : t.val % 2 = 1) :
    (outsAt1 V c t.val t.isLt).o5
      = Rows.outBlock (iblk1 V c 0 t) (iblk1 V c 1 (prevPt t)) (iblk1 V c 2 (prevPt t)) (iblk1 V c 1 t) (iblk1 V c 2 t)
          (iblk1 V c 3 t) (iblk1 V c 4 t) := by
  have h0 : ¬ t.val % 2 = 0 := by omega
  have h0' : (prevPt t).val % 2 = 0 := by show (t.val - 1) % 2 = 0; omega
  have h1' : ¬ (prevPt t).val % 2 = 1 := by show ¬ (t.val - 1) % 2 = 1; omega
  rw [outsAt1_B V c t h0 h1, o5_B1]
  rw [show outsAt1 V c (t.val - 1) (Nat.lt_of_le_of_lt (Nat.sub_le _ _) t.isLt) = _ from outsAt1_A V c (prevPt t) h0' h1']
  rw [s0_A1, s1_A1, s2_A1, q_same V c t h1]

/-- The result array of the attention call, when the arrays it is entered with are the head slices of the projected
    queries, the caches, and the projected new keys and values of finite inputs. -/
theorem att_array (c : Dev nD) {X : Spec.ArrX} {Wq Wk Wv : Spec.ArrW} {cK cV : Spec.ArrC}
    (hX : ∀ i, ∃ r : ℝ, X i = (r : EReal)) (hWq : ∀ i, ∃ r : ℝ, Wq i = (r : EReal))
    (hWk : ∀ i, ∃ r : ℝ, Wk i = (r : EReal)) (hWv : ∀ i, ∃ r : ℝ, Wv i = (r : EReal))
    (hcK : ∀ i, ∃ r : ℝ, cK i = (r : EReal)) (hcV : ∀ i, ∃ r : ℝ, cV i = (r : EReal))
    (hq : ∀ (h : Fin 32) (p : Fin 16) (d : Fin 128), (V c main_v2 : S32x16x128.Idx → EReal) (ix3 h p d) = Spec.proj X Wq p (Spec.col h d))
    (hkn : ∀ (h : Fin 32) (p : Fin 16) (d : Fin 128), (V c main_v4 : S32x16x128.Idx → EReal) (ix3 h p d) = Spec.proj X Wk p (Spec.col h d))
    (hvn : ∀ (h : Fin 32) (p : Fin 16) (d : Fin 128), (V c main_v6 : S32x16x128.Idx → EReal) (ix3 h p d) = Spec.proj X Wv p (Spec.col h d))
    (hck : (V c main_arg4 : S32x8192x128.Idx → EReal) = cK) (hcv : (V c main_arg5 : S32x8192x128.Idx → EReal) = cV) :
    ((dat1 V c).arrAt 5 cfg1.N : S32x16x128.Idx → EReal) = fun i => Spec.headOut X Wq Wk Wv cK cV (i 0) (i 1) (i 2) := by
  refine Arrays.out1_5 c (dat1 V c) _ (fun t h1 p d => ?_)
  have ht : t.val < 64 := Blocks.lt64 t
  rw [after1_5, o5_odd V c t h1]
  refine (Rows.outBlock_eq_headOut hX hWq hWk hWv hcK hcV ⟨t.val / 2, by omega⟩ _ _ _ _ _ _ _ ?_ ?_ ?_ ?_ ?_ ?_ ?_ p d).trans rfl
  · intro p d
    show ((cfg1.win 0).blk t).view.read (Elt Ideal) (V c (Pipeline.arrRef spec1 0)) (ix3 (0 : Fin 1) p d) = _
    rw [Blocks.read1_0]; exact hq _ p d
  · intro j d
    show ((cfg1.win 1).blk (prevPt t)).view.read (Elt Ideal) (V c (Pipeline.arrRef spec1 1)) (ix3 (0 : Fin 1) j d) = _
    rw [Blocks.read1_1, ← hck]; congr 1
    exact congrArg₂ (fun a b => ix3 a b d) (Fin.ext (by show (t.val - 1) / 2 = t.val / 2; omega)) (Fin.ext (by show (t.val - 1) % 2 * 4096 + j.val = j.val; omega))
  · intro j d
    show ((cfg1.win 2).blk (prevPt t)).view.read (Elt Ideal) (V c (Pipeline.arrRef spec1 2)) (ix3 (0 : Fin 1) j d) = _
    rw [Blocks.read1_2, ← hcv]; congr 1
    exact congrArg₂ (fun a b => ix3 a b d) (Fin.ext (by show (t.val - 1) / 2 = t.val / 2; omega)) (Fin.ext (by show (t.val - 1) % 2 * 4096 + j.val = j.val; omega))
  · intro j d
    show ((cfg1.win 1).blk t).view.read (Elt Ideal) (V c (Pipeline.arrRef spec1 1)) (ix3 (0 : Fin 1) j d) = _
    rw [Blocks.read1_1, ← hck]; congr 1
    exact congrArg₂ (fun a b => ix3 a b d) rfl (Fin.ext (by show t.val % 2 * 4096 + j.val = 4096 + j.val; omega))
  · intro j d
    show ((cfg1.win 2).blk t).view.read (Elt Ideal) (V c (Pipeline.arrRef spec1 2)) (ix3 (0 : Fin 1) j d) = _
    rw [Blocks.read1_2, ← hcv]; congr 1
    exact congrArg₂ (fun a b => ix3 a b d) rfl (Fin.ext (by show t.val % 2 * 4096 + j.val = 4096 + j.val; omega))
  · intro j d
    show ((cfg1.win 3).blk t).view.read (Elt Ideal) (V c (Pipeline.arrRef spec1 3)) (ix3 (0 : Fin 1) j d) = _
    rw [Blocks.read1_3]; exact hkn _ j d
  · intro j d
    show ((cfg1.win 4).blk t).view.read (Elt Ideal) (V c (Pipeline.arrRef spec1 4)) (ix3 (0 : Fin 1) j d) = _
    rw [Blocks.read1_4]; exact hvn _ j d

end Cert.KernelIdeal.Hand

end
-- ==== Proof.KI.Pieces0.lean ====
/-
  The projection kernel's state after a point, as the body's arithmetic.

  Each buffer a case stores into was recorded as the list of pieces its stores wrote; every store here covers its
  whole buffer, so the buffer ends at its last store's value, and a load after a store reads that value.  After a
  point: the row scratch holds X·rsqrt(mean square) (stored when the slab index is 0, kept afterwards); each
  accumulator holds its former value (zero when the slab index is 0) plus the product of the point's 512-column slab
  of the row scratch with the point's weight block; when the slab index is 7 each output block holds its accumulator.
-/
import proofs.«129545_j317827580172_2_alg».proof.Proof.KI.Reg0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-- The 512 columns of a [16, 4096] array that the point with coordinates `i` loads: columns 512·(i 1) onwards. -/
def slab0 (i : grid0.Coords) (Y : Vec F S16x4096 .f32) : Vec F S16x512 .f32 :=
  View.ld Y (Rect.unit (s := S16x4096) (k0_off1 i) S16x512.size (k0_off1_inb i))

theorem s3_A0 (c : Dev nD) (t : Fin cfg0.N) (hc0 : cond0_0 (grid0.coords t)) (hc1 : ¬cond0_1 (grid0.coords t)) :
    (st0_A V c t hc0 hc1).s3 = k0_pay2 (iblk0 V c 0 t) := by
  unfold st0_A; dsimp only
  rw [View.read_writes_eq_canon _ _ _ (cover0_A_s3 V c t hc0 hc1)]
  unfold run0_A kernelRun0_A; dsimp only
  sl_unfold_words
  have hrd0 : ∀ (h : (scM0_0).IsWhole) (X : S16x2048.Idx → Elt F .f32), View.read (Elt F) (View.whole cc0_scratch0) (h.unread X) = X := fun h X => h.read_unread X
  have hrd1 : ∀ (h : (scM0_1).IsWhole) (X : S16x2048.Idx → Elt F .f32), View.read (Elt F) (View.whole cc0_scratch1) (h.unread X) = X := fun h X => h.read_unread X
  have hrd2 : ∀ (h : (scM0_2).IsWhole) (X : S16x2048.Idx → Elt F .f32), View.read (Elt F) (View.whole cc0_scratch2) (h.unread X) = X := fun h X => h.read_unread X
  have hrd3 : ∀ (h : (scM0_3).IsWhole) (X : S16x4096.Idx → Elt F .f32), View.read (Elt F) (View.whole cc0_scratch3) (h.unread X) = X := fun h X => h.read_unread X
  simp only [hrd0, hrd1, hrd2, hrd3, View.canon_cons_unit_zero (S := S16x4096) hz2, View.canon_unit_zero (S := S16x4096) hz2, View.ld_unit_zero (S := S16x4096) hz2, View.readCov_unit_zero (S := S16x4096) _ hz2, View.canon_cons_unit_zero (S := S512x2048) hz2, View.canon_unit_zero (S := S512x2048) hz2, View.ld_unit_zero (S := S512x2048) hz2, View.readCov_unit_zero (S := S512x2048) _ hz2, View.canon_cons_unit_zero (S := S16x2048) hz2, View.canon_unit_zero (S := S16x2048) hz2, View.ld_unit_zero (S := S16x2048) hz2, View.readCov_unit_zero (S := S16x2048) _ hz2, View.canon_cons_unit_zero (S := S16x512) hz2, View.canon_unit_zero (S := S16x512) hz2, View.ld_unit_zero (S := S16x512) hz2, View.readCov_unit_zero (S := S16x512) _ hz2, View.readAt_eq_ld, Memref.IsWhole.read_unread, View.readAt_writes_junk_eq_canon, View.readCov_cons_toLoadRect]
  first | done | rfl

theorem s0_A0 (c : Dev nD) (t : Fin cfg0.N) (hc0 : cond0_0 (grid0.coords t)) (hc1 : ¬cond0_1 (grid0.coords t)) :
    (st0_A V c t hc0 hc1).s0 = k0_pay7 (slab0 (grid0.coords t) (k0_pay2 (iblk0 V c 0 t))) (iblk0 V c 1 t) k0_pay3 := by
  unfold st0_A; dsimp only
  rw [View.read_writes_eq_canon _ _ _ (cover0_A_s0 V c t hc0 hc1)]
  unfold run0_A kernelRun0_A; dsimp only
  sl_unfold_words
  have hrd0 : ∀ (h : (scM0_0).IsWhole) (X : S16x2048.Idx → Elt F .f32), View.read (Elt F) (View.whole cc0_scratch0) (h.unread X) = X := fun h X => h.read_unread X
  have hrd1 : ∀ (h : (scM0_1).IsWhole) (X : S16x2048.Idx → Elt F .f32), View.read (Elt F) (View.whole cc0_scratch1) (h.unread X) = X := fun h X => h.read_unread X
  have hrd2 : ∀ (h : (scM0_2).IsWhole) (X : S16x2048.Idx → Elt F .f32), View.read (Elt F) (View.whole cc0_scratch2) (h.unread X) = X := fun h X => h.read_unread X
  have hrd3 : ∀ (h : (scM0_3).IsWhole) (X : S16x4096.Idx → Elt F .f32), View.read (Elt F) (View.whole cc0_scratch3) (h.unread X) = X := fun h X => h.read_unread X
  simp only [hrd0, hrd1, hrd2, hrd3, View.canon_cons_unit_zero (S := S16x4096) hz2, View.canon_unit_zero (S := S16x4096) hz2, View.ld_unit_zero (S := S16x4096) hz2, View.readCov_unit_zero (S := S16x4096) _ hz2, View.canon_cons_unit_zero (S := S512x2048) hz2, View.canon_unit_zero (S := S512x2048) hz2, View.ld_unit_zero (S := S512x2048) hz2, View.readCov_unit_zero (S := S512x2048) _ hz2, View.canon_cons_unit_zero (S := S16x2048) hz2, View.canon_unit_zero (S := S16x2048) hz2, View.ld_unit_zero (S := S16x2048) hz2, View.readCov_unit_zero (S := S16x2048) _ hz2, View.canon_cons_unit_zero (S := S16x512) hz2, View.canon_unit_zero (S := S16x512) hz2, View.ld_unit_zero (S := S16x512) hz2, View.readCov_unit_zero (S := S16x512) _ hz2, View.readAt_eq_ld, Memref.IsWhole.read_unread, View.readAt_writes_junk_eq_canon, View.readCov_cons_toLoadRect]
  first | done | rfl

theorem s1_A0 (c : Dev nD) (t : Fin cfg0.N) (hc0 : cond0_0 (grid0.coords t)) (hc1 : ¬cond0_1 (grid0.coords t)) :
    (st0_A V c t hc0 hc1).s1 = k0_pay8 (slab0 (grid0.coords t) (k0_pay2 (iblk0 V c 0 t))) (iblk0 V c 2 t) k0_pay4 := by
  unfold st0_A; dsimp only
  rw [View.read_writes_eq_canon _ _ _ (cover0_A_s1 V c t hc0 hc1)]
  unfold run0_A kernelRun0_A; dsimp only
  sl_unfold_words
  have hrd0 : ∀ (h : (scM0_0).IsWhole) (X : S16x2048.Idx → Elt F .f32), View.read (Elt F) (View.whole cc0_scratch0) (h.unread X) = X := fun h X => h.read_unread X
  have hrd1 : ∀ (h : (scM0_1).IsWhole) (X : S16x2048.Idx → Elt F .f32), View.read (Elt F) (View.whole cc0_scratch1) (h.unread X) = X := fun h X => h.read_unread X
  have hrd2 : ∀ (h : (scM0_2).IsWhole) (X : S16x2048.Idx → Elt F .f32), View.read (Elt F) (View.whole cc0_scratch2) (h.unread X) = X := fun h X => h.read_unread X
  have hrd3 : ∀ (h : (scM0_3).IsWhole) (X : S16x4096.Idx → Elt F .f32), View.read (Elt F) (View.whole cc0_scratch3) (h.unread X) = X := fun h X => h.read_unread X
  simp only [hrd0, hrd1, hrd2, hrd3, View.canon_cons_unit_zero (S := S16x4096) hz2, View.canon_unit_zero (S := S16x4096) hz2, View.ld_unit_zero (S := S16x4096) hz2, View.readCov_unit_zero (S := S16x4096) _ hz2, View.canon_cons_unit_zero (S := S512x2048) hz2, View.canon_unit_zero (S := S512x2048) hz2, View.ld_unit_zero (S := S512x2048) hz2, View.readCov_unit_zero (S := S512x2048) _ hz2, View.canon_cons_unit_zero (S := S16x2048) hz2, View.canon_unit_zero (S := S16x2048) hz2, View.ld_unit_zero (S := S16x2048) hz2, View.readCov_unit_zero (S := S16x2048) _ hz2, View.canon_cons_unit_zero (S := S16x512) hz2, View.canon_unit_zero (S := S16x512) hz2, View.ld_unit_zero (S := S16x512) hz2, View.readCov_unit_zero (S := S16x512) _ hz2, View.readAt_eq_ld, Memref.IsWhole.read_unread, View.readAt_writes_junk_eq_canon, View.readCov_cons_toLoadRect]
  first | done | rfl

theorem s2_A0 (c : Dev nD) (t : Fin cfg0.N) (hc0 : cond0_0 (grid0.coords t)) (hc1 : ¬cond0_1 (grid0.coords t)) :
    (st0_A V c t hc0 hc1).s2 = k0_pay1 (k0_pay9 (slab0 (grid0.coords t) (k0_pay2 (iblk0 V c 0 t))) (iblk0 V c 3 t) k0_pay5) := by
  unfold st0_A; dsimp only
  rw [View.read_writes_eq_canon _ _ _ (cover0_A_s2 V c t hc0 hc1)]
  unfold run0_A kernelRun0_A; dsimp only
  sl_unfold_words
  have hrd0 : ∀ (h : (scM0_0).IsWhole) (X : S16x2048.Idx → Elt F .f32), View.read (Elt F) (View.whole cc0_scratch0) (h.unread X) = X := fun h X => h.read_unread X
  have hrd1 : ∀ (h : (scM0_1).IsWhole) (X : S16x2048.Idx → Elt F .f32), View.read (Elt F) (View.whole cc0_scratch1) (h.unread X) = X := fun h X => h.read_unread X
  have hrd2 : ∀ (h : (scM0_2).IsWhole) (X : S16x2048.Idx → Elt F .f32), View.read (Elt F) (View.whole cc0_scratch2) (h.unread X) = X := fun h X => h.read_unread X
  have hrd3 : ∀ (h : (scM0_3).IsWhole) (X : S16x4096.Idx → Elt F .f32), View.read (Elt F) (View.whole cc0_scratch3) (h.unread X) = X := fun h X => h.read_unread X
  simp only [hrd0, hrd1, hrd2, hrd3, View.canon_cons_unit_zero (S := S16x4096) hz2, View.canon_unit_zero (S := S16x4096) hz2, View.ld_unit_zero (S := S16x4096) hz2, View.readCov_unit_zero (S := S16x4096) _ hz2, View.canon_cons_unit_zero (S := S512x2048) hz2, View.canon_unit_zero (S := S512x2048) hz2, View.ld_unit_zero (S := S512x2048) hz2, View.readCov_unit_zero (S := S512x2048) _ hz2, View.canon_cons_unit_zero (S := S16x2048) hz2, View.canon_unit_zero (S := S16x2048) hz2, View.ld_unit_zero (S := S16x2048) hz2, View.readCov_unit_zero (S := S16x2048) _ hz2, View.canon_cons_unit_zero (S := S16x512) hz2, View.canon_unit_zero (S := S16x512) hz2, View.ld_unit_zero (S := S16x512) hz2, View.readCov_unit_zero (S := S16x512) _ hz2, View.readAt_eq_ld, Memref.IsWhole.read_unread, View.readAt_writes_junk_eq_canon, View.readCov_cons_toLoadRect]
  first | done | rfl

theorem s0_B0 (c : Dev nD) (t : Fin cfg0.N) (hc0 : ¬cond0_0 (grid0.coords t)) (hc1 : ¬cond0_1 (grid0.coords t)) (p : St0 F) :
    (st0_B V c t hc0 hc1 p).s0 = k0_pay7 (slab0 (grid0.coords t) p.s3) (iblk0 V c 1 t) p.s0 := by
  unfold st0_B; dsimp only
  rw [View.read_writes_eq_canon _ _ _ (cover0_B_s0 V c t hc0 hc1 p)]
  unfold run0_B kernelRun0_B; dsimp only
  sl_unfold_words
  have hrd0 : ∀ (h : (scM0_0).IsWhole) (X : S16x2048.Idx → Elt F .f32), View.read (Elt F) (View.whole cc0_scratch0) (h.unread X) = X := fun h X => h.read_unread X
  have hrd1 : ∀ (h : (scM0_1).IsWhole) (X : S16x2048.Idx → Elt F .f32), View.read (Elt F) (View.whole cc0_scratch1) (h.unread X) = X := fun h X => h.read_unread X
  have hrd2 : ∀ (h : (scM0_2).IsWhole) (X : S16x2048.Idx → Elt F .f32), View.read (Elt F) (View.whole cc0_scratch2) (h.unread X) = X := fun h X => h.read_unread X
  have hrd3 : ∀ (h : (scM0_3).IsWhole) (X : S16x4096.Idx → Elt F .f32), View.read (Elt F) (View.whole cc0_scratch3) (h.unread X) = X := fun h X => h.read_unread X
  simp only [hrd0, hrd1, hrd2, hrd3, View.canon_cons_unit_zero (S := S16x4096) hz2, View.canon_unit_zero (S := S16x4096) hz2, View.ld_unit_zero (S := S16x4096) hz2, View.readCov_unit_zero (S := S16x4096) _ hz2, View.canon_cons_unit_zero (S := S512x2048) hz2, View.canon_unit_zero (S := S512x2048) hz2, View.ld_unit_zero (S := S512x2048) hz2, View.readCov_unit_zero (S := S512x2048) _ hz2, View.canon_cons_unit_zero (S := S16x2048) hz2, View.canon_unit_zero (S := S16x2048) hz2, View.ld_unit_zero (S := S16x2048) hz2, View.readCov_unit_zero (S := S16x2048) _ hz2, View.canon_cons_unit_zero (S := S16x512) hz2, View.canon_unit_zero (S := S16x512) hz2, View.ld_unit_zero (S := S16x512) hz2, View.readCov_unit_zero (S := S16x512) _ hz2, View.readAt_eq_ld, Memref.IsWhole.read_unread, View.readAt_writes_junk_eq_canon, View.readCov_cons_toLoadRect]
  first | done | rfl

theorem s1_B0 (c : Dev nD) (t : Fin cfg0.N) (hc0 : ¬cond0_0 (grid0.coords t)) (hc1 : ¬cond0_1 (grid0.coords t)) (p : St0 F) :
    (st0_B V c t hc0 hc1 p).s1 = k0_pay8 (slab0 (grid0.coords t) p.s3) (iblk0 V c 2 t) p.s1 := by
  unfold st0_B; dsimp only
  rw [View.read_writes_eq_canon _ _ _ (cover0_B_s1 V c t hc0 hc1 p)]
  unfold run0_B kernelRun0_B; dsimp only
  sl_unfold_words
  have hrd0 : ∀ (h : (scM0_0).IsWhole) (X : S16x2048.Idx → Elt F .f32), View.read (Elt F) (View.whole cc0_scratch0) (h.unread X) = X := fun h X => h.read_unread X
  have hrd1 : ∀ (h : (scM0_1).IsWhole) (X : S16x2048.Idx → Elt F .f32), View.read (Elt F) (View.whole cc0_scratch1) (h.unread X) = X := fun h X => h.read_unread X
  have hrd2 : ∀ (h : (scM0_2).IsWhole) (X : S16x2048.Idx → Elt F .f32), View.read (Elt F) (View.whole cc0_scratch2) (h.unread X) = X := fun h X => h.read_unread X
  have hrd3 : ∀ (h : (scM0_3).IsWhole) (X : S16x4096.Idx → Elt F .f32), View.read (Elt F) (View.whole cc0_scratch3) (h.unread X) = X := fun h X => h.read_unread X
  simp only [hrd0, hrd1, hrd2, hrd3, View.canon_cons_unit_zero (S := S16x4096) hz2, View.canon_unit_zero (S := S16x4096) hz2, View.ld_unit_zero (S := S16x4096) hz2, View.readCov_unit_zero (S := S16x4096) _ hz2, View.canon_cons_unit_zero (S := S512x2048) hz2, View.canon_unit_zero (S := S512x2048) hz2, View.ld_unit_zero (S := S512x2048) hz2, View.readCov_unit_zero (S := S512x2048) _ hz2, View.canon_cons_unit_zero (S := S16x2048) hz2, View.canon_unit_zero (S := S16x2048) hz2, View.ld_unit_zero (S := S16x2048) hz2, View.readCov_unit_zero (S := S16x2048) _ hz2, View.canon_cons_unit_zero (S := S16x512) hz2, View.canon_unit_zero (S := S16x512) hz2, View.ld_unit_zero (S := S16x512) hz2, View.readCov_unit_zero (S := S16x512) _ hz2, View.readAt_eq_ld, Memref.IsWhole.read_unread, View.readAt_writes_junk_eq_canon, View.readCov_cons_toLoadRect]
  first | done | rfl

theorem s2_B0 (c : Dev nD) (t : Fin cfg0.N) (hc0 : ¬cond0_0 (grid0.coords t)) (hc1 : ¬cond0_1 (grid0.coords t)) (p : St0 F) :
    (st0_B V c t hc0 hc1 p).s2 = k0_pay1 (k0_pay9 (slab0 (grid0.coords t) p.s3) (iblk0 V c 3 t) p.s2) := by
  unfold st0_B; dsimp only
  rw [View.read_writes_eq_canon _ _ _ (cover0_B_s2 V c t hc0 hc1 p)]
  unfold run0_B kernelRun0_B; dsimp only
  sl_unfold_words
  have hrd0 : ∀ (h : (scM0_0).IsWhole) (X : S16x2048.Idx → Elt F .f32), View.read (Elt F) (View.whole cc0_scratch0) (h.unread X) = X := fun h X => h.read_unread X
  have hrd1 : ∀ (h : (scM0_1).IsWhole) (X : S16x2048.Idx → Elt F .f32), View.read (Elt F) (View.whole cc0_scratch1) (h.unread X) = X := fun h X => h.read_unread X
  have hrd2 : ∀ (h : (scM0_2).IsWhole) (X : S16x2048.Idx → Elt F .f32), View.read (Elt F) (View.whole cc0_scratch2) (h.unread X) = X := fun h X => h.read_unread X
  have hrd3 : ∀ (h : (scM0_3).IsWhole) (X : S16x4096.Idx → Elt F .f32), View.read (Elt F) (View.whole cc0_scratch3) (h.unread X) = X := fun h X => h.read_unread X
  simp only [hrd0, hrd1, hrd2, hrd3, View.canon_cons_unit_zero (S := S16x4096) hz2, View.canon_unit_zero (S := S16x4096) hz2, View.ld_unit_zero (S := S16x4096) hz2, View.readCov_unit_zero (S := S16x4096) _ hz2, View.canon_cons_unit_zero (S := S512x2048) hz2, View.canon_unit_zero (S := S512x2048) hz2, View.ld_unit_zero (S := S512x2048) hz2, View.readCov_unit_zero (S := S512x2048) _ hz2, View.canon_cons_unit_zero (S := S16x2048) hz2, View.canon_unit_zero (S := S16x2048) hz2, View.ld_unit_zero (S := S16x2048) hz2, View.readCov_unit_zero (S := S16x2048) _ hz2, View.canon_cons_unit_zero (S := S16x512) hz2, View.canon_unit_zero (S := S16x512) hz2, View.ld_unit_zero (S := S16x512) hz2, View.readCov_unit_zero (S := S16x512) _ hz2, View.readAt_eq_ld, Memref.IsWhole.read_unread, View.readAt_writes_junk_eq_canon, View.readCov_cons_toLoadRect]
  first | done | rfl

theorem s0_C0 (c : Dev nD) (t : Fin cfg0.N) (hc0 : ¬cond0_0 (grid0.coords t)) (hc1 : cond0_1 (grid0.coords t)) (p : St0 F) :
    (st0_C V c t hc0 hc1 p).s0 = k0_pay7 (slab0 (grid0.coords t) p.s3) (iblk0 V c 1 t) p.s0 := by
  unfold st0_C; dsimp only
  rw [View.read_writes_eq_canon _ _ _ (cover0_C_s0 V c t hc0 hc1 p)]
  unfold run0_C kernelRun0_C; dsimp only
  sl_unfold_words
  have hrd0 : ∀ (h : (scM0_0).IsWhole) (X : S16x2048.Idx → Elt F .f32), View.read (Elt F) (View.whole cc0_scratch0) (h.unread X) = X := fun h X => h.read_unread X
  have hrd1 : ∀ (h : (scM0_1).IsWhole) (X : S16x2048.Idx → Elt F .f32), View.read (Elt F) (View.whole cc0_scratch1) (h.unread X) = X := fun h X => h.read_unread X
  have hrd2 : ∀ (h : (scM0_2).IsWhole) (X : S16x2048.Idx → Elt F .f32), View.read (Elt F) (View.whole cc0_scratch2) (h.unread X) = X := fun h X => h.read_unread X
  have hrd3 : ∀ (h : (scM0_3).IsWhole) (X : S16x4096.Idx → Elt F .f32), View.read (Elt F) (View.whole cc0_scratch3) (h.unread X) = X := fun h X => h.read_unread X
  simp only [hrd0, hrd1, hrd2, hrd3, View.canon_cons_unit_zero (S := S16x4096) hz2, View.canon_unit_zero (S := S16x4096) hz2, View.ld_unit_zero (S := S16x4096) hz2, View.readCov_unit_zero (S := S16x4096) _ hz2, View.canon_cons_unit_zero (S := S512x2048) hz2, View.canon_unit_zero (S := S512x2048) hz2, View.ld_unit_zero (S := S512x2048) hz2, View.readCov_unit_zero (S := S512x2048) _ hz2, View.canon_cons_unit_zero (S := S16x2048) hz2, View.canon_unit_zero (S := S16x2048) hz2, View.ld_unit_zero (S := S16x2048) hz2, View.readCov_unit_zero (S := S16x2048) _ hz2, View.canon_cons_unit_zero (S := S16x512) hz2, View.canon_unit_zero (S := S16x512) hz2, View.ld_unit_zero (S := S16x512) hz2, View.readCov_unit_zero (S := S16x512) _ hz2, View.readAt_eq_ld, Memref.IsWhole.read_unread, View.readAt_writes_junk_eq_canon, View.readCov_cons_toLoadRect]
  first | done | rfl

theorem s1_C0 (c : Dev nD) (t : Fin cfg0.N) (hc0 : ¬cond0_0 (grid0.coords t)) (hc1 : cond0_1 (grid0.coords t)) (p : St0 F) :
    (st0_C V c t hc0 hc1 p).s1 = k0_pay8 (slab0 (grid0.coords t) p.s3) (iblk0 V c 2 t) p.s1 := by
  unfold st0_C; dsimp only
  rw [View.read_writes_eq_canon _ _ _ (cover0_C_s1 V c t hc0 hc1 p)]
  unfold run0_C kernelRun0_C; dsimp only
  sl_unfold_words
  have hrd0 : ∀ (h : (scM0_0).IsWhole) (X : S16x2048.Idx → Elt F .f32), View.read (Elt F) (View.whole cc0_scratch0) (h.unread X) = X := fun h X => h.read_unread X
  have hrd1 : ∀ (h : (scM0_1).IsWhole) (X : S16x2048.Idx → Elt F .f32), View.read (Elt F) (View.whole cc0_scratch1) (h.unread X) = X := fun h X => h.read_unread X
  have hrd2 : ∀ (h : (scM0_2).IsWhole) (X : S16x2048.Idx → Elt F .f32), View.read (Elt F) (View.whole cc0_scratch2) (h.unread X) = X := fun h X => h.read_unread X
  have hrd3 : ∀ (h : (scM0_3).IsWhole) (X : S16x4096.Idx → Elt F .f32), View.read (Elt F) (View.whole cc0_scratch3) (h.unread X) = X := fun h X => h.read_unread X
  simp only [hrd0, hrd1, hrd2, hrd3, View.canon_cons_unit_zero (S := S16x4096) hz2, View.canon_unit_zero (S := S16x4096) hz2, View.ld_unit_zero (S := S16x4096) hz2, View.readCov_unit_zero (S := S16x4096) _ hz2, View.canon_cons_unit_zero (S := S512x2048) hz2, View.canon_unit_zero (S := S512x2048) hz2, View.ld_unit_zero (S := S512x2048) hz2, View.readCov_unit_zero (S := S512x2048) _ hz2, View.canon_cons_unit_zero (S := S16x2048) hz2, View.canon_unit_zero (S := S16x2048) hz2, View.ld_unit_zero (S := S16x2048) hz2, View.readCov_unit_zero (S := S16x2048) _ hz2, View.canon_cons_unit_zero (S := S16x512) hz2, View.canon_unit_zero (S := S16x512) hz2, View.ld_unit_zero (S := S16x512) hz2, View.readCov_unit_zero (S := S16x512) _ hz2, View.readAt_eq_ld, Memref.IsWhole.read_unread, View.readAt_writes_junk_eq_canon, View.readCov_cons_toLoadRect]
  first | done | rfl

theorem s2_C0 (c : Dev nD) (t : Fin cfg0.N) (hc0 : ¬cond0_0 (grid0.coords t)) (hc1 : cond0_1 (grid0.coords t)) (p : St0 F) :
    (st0_C V c t hc0 hc1 p).s2 = k0_pay1 (k0_pay9 (slab0 (grid0.coords t) p.s3) (iblk0 V c 3 t) p.s2) := by
  unfold st0_C; dsimp only
  rw [View.read_writes_eq_canon _ _ _ (cover0_C_s2 V c t hc0 hc1 p)]
  unfold run0_C kernelRun0_C; dsimp only
  sl_unfold_words
  have hrd0 : ∀ (h : (scM0_0).IsWhole) (X : S16x2048.Idx → Elt F .f32), View.read (Elt F) (View.whole cc0_scratch0) (h.unread X) = X := fun h X => h.read_unread X
  have hrd1 : ∀ (h : (scM0_1).IsWhole) (X : S16x2048.Idx → Elt F .f32), View.read (Elt F) (View.whole cc0_scratch1) (h.unread X) = X := fun h X => h.read_unread X
  have hrd2 : ∀ (h : (scM0_2).IsWhole) (X : S16x2048.Idx → Elt F .f32), View.read (Elt F) (View.whole cc0_scratch2) (h.unread X) = X := fun h X => h.read_unread X
  have hrd3 : ∀ (h : (scM0_3).IsWhole) (X : S16x4096.Idx → Elt F .f32), View.read (Elt F) (View.whole cc0_scratch3) (h.unread X) = X := fun h X => h.read_unread X
  simp only [hrd0, hrd1, hrd2, hrd3, View.canon_cons_unit_zero (S := S16x4096) hz2, View.canon_unit_zero (S := S16x4096) hz2, View.ld_unit_zero (S := S16x4096) hz2, View.readCov_unit_zero (S := S16x4096) _ hz2, View.canon_cons_unit_zero (S := S512x2048) hz2, View.canon_unit_zero (S := S512x2048) hz2, View.ld_unit_zero (S := S512x2048) hz2, View.readCov_unit_zero (S := S512x2048) _ hz2, View.canon_cons_unit_zero (S := S16x2048) hz2, View.canon_unit_zero (S := S16x2048) hz2, View.ld_unit_zero (S := S16x2048) hz2, View.readCov_unit_zero (S := S16x2048) _ hz2, View.canon_cons_unit_zero (S := S16x512) hz2, View.canon_unit_zero (S := S16x512) hz2, View.ld_unit_zero (S := S16x512) hz2, View.readCov_unit_zero (S := S16x512) _ hz2, View.readAt_eq_ld, Memref.IsWhole.read_unread, View.readAt_writes_junk_eq_canon, View.readCov_cons_toLoadRect]
  first | done | rfl

theorem o4_C0 (c : Dev nD) (t : Fin cfg0.N) (hc0 : ¬cond0_0 (grid0.coords t)) (hc1 : cond0_1 (grid0.coords t)) (p : St0 F) :
    (st0_C V c t hc0 hc1 p).o4 = k0_pay7 (slab0 (grid0.coords t) p.s3) (iblk0 V c 1 t) p.s0 := by
  unfold st0_C; dsimp only
  rw [View.read_writes_eq_canon _ _ _ (cover0_C_o4 V c t hc0 hc1 p)]
  unfold run0_C kernelRun0_C; dsimp only
  sl_unfold_words
  have hrd0 : ∀ (h : (scM0_0).IsWhole) (X : S16x2048.Idx → Elt F .f32), View.read (Elt F) (View.whole cc0_scratch0) (h.unread X) = X := fun h X => h.read_unread X
  have hrd1 : ∀ (h : (scM0_1).IsWhole) (X : S16x2048.Idx → Elt F .f32), View.read (Elt F) (View.whole cc0_scratch1) (h.unread X) = X := fun h X => h.read_unread X
  have hrd2 : ∀ (h : (scM0_2).IsWhole) (X : S16x2048.Idx → Elt F .f32), View.read (Elt F) (View.whole cc0_scratch2) (h.unread X) = X := fun h X => h.read_unread X
  have hrd3 : ∀ (h : (scM0_3).IsWhole) (X : S16x4096.Idx → Elt F .f32), View.read (Elt F) (View.whole cc0_scratch3) (h.unread X) = X := fun h X => h.read_unread X
  simp only [hrd0, hrd1, hrd2, hrd3, View.canon_cons_unit_zero (S := S16x4096) hz2, View.canon_unit_zero (S := S16x4096) hz2, View.ld_unit_zero (S := S16x4096) hz2, View.readCov_unit_zero (S := S16x4096) _ hz2, View.canon_cons_unit_zero (S := S512x2048) hz2, View.canon_unit_zero (S := S512x2048) hz2, View.ld_unit_zero (S := S512x2048) hz2, View.readCov_unit_zero (S := S512x2048) _ hz2, View.canon_cons_unit_zero (S := S16x2048) hz2, View.canon_unit_zero (S := S16x2048) hz2, View.ld_unit_zero (S := S16x2048) hz2, View.readCov_unit_zero (S := S16x2048) _ hz2, View.canon_cons_unit_zero (S := S16x512) hz2, View.canon_unit_zero (S := S16x512) hz2, View.ld_unit_zero (S := S16x512) hz2, View.readCov_unit_zero (S := S16x512) _ hz2, View.readAt_eq_ld, Memref.IsWhole.read_unread, View.readAt_writes_junk_eq_canon, View.readCov_cons_toLoadRect]
  first | done | rfl

theorem o5_C0 (c : Dev nD) (t : Fin cfg0.N) (hc0 : ¬cond0_0 (grid0.coords t)) (hc1 : cond0_1 (grid0.coords t)) (p : St0 F) :
    (st0_C V c t hc0 hc1 p).o5 = k0_pay8 (slab0 (grid0.coords t) p.s3) (iblk0 V c 2 t) p.s1 := by
  unfold st0_C; dsimp only
  rw [View.read_writes_eq_canon _ _ _ (cover0_C_o5 V c t hc0 hc1 p)]
  unfold run0_C kernelRun0_C; dsimp only
  sl_unfold_words
  have hrd0 : ∀ (h : (scM0_0).IsWhole) (X : S16x2048.Idx → Elt F .f32), View.read (Elt F) (View.whole cc0_scratch0) (h.unread X) = X := fun h X => h.read_unread X
  have hrd1 : ∀ (h : (scM0_1).IsWhole) (X : S16x2048.Idx → Elt F .f32), View.read (Elt F) (View.whole cc0_scratch1) (h.unread X) = X := fun h X => h.read_unread X
  have hrd2 : ∀ (h : (scM0_2).IsWhole) (X : S16x2048.Idx → Elt F .f32), View.read (Elt F) (View.whole cc0_scratch2) (h.unread X) = X := fun h X => h.read_unread X
  have hrd3 : ∀ (h : (scM0_3).IsWhole) (X : S16x4096.Idx → Elt F .f32), View.read (Elt F) (View.whole cc0_scratch3) (h.unread X) = X := fun h X => h.read_unread X
  simp only [hrd0, hrd1, hrd2, hrd3, View.canon_cons_unit_zero (S := S16x4096) hz2, View.canon_unit_zero (S := S16x4096) hz2, View.ld_unit_zero (S := S16x4096) hz2, View.readCov_unit_zero (S := S16x4096) _ hz2, View.canon_cons_unit_zero (S := S512x2048) hz2, View.canon_unit_zero (S := S512x2048) hz2, View.ld_unit_zero (S := S512x2048) hz2, View.readCov_unit_zero (S := S512x2048) _ hz2, View.canon_cons_unit_zero (S := S16x2048) hz2, View.canon_unit_zero (S := S16x2048) hz2, View.ld_unit_zero (S := S16x2048) hz2, View.readCov_unit_zero (S := S16x2048) _ hz2, View.canon_cons_unit_zero (S := S16x512) hz2, View.canon_unit_zero (S := S16x512) hz2, View.ld_unit_zero (S := S16x512) hz2, View.readCov_unit_zero (S := S16x512) _ hz2, View.readAt_eq_ld, Memref.IsWhole.read_unread, View.readAt_writes_junk_eq_canon, View.readCov_cons_toLoadRect]
  first | done | rfl

theorem o6_C0 (c : Dev nD) (t : Fin cfg0.N) (hc0 : ¬cond0_0 (grid0.coords t)) (hc1 : cond0_1 (grid0.coords t)) (p : St0 F) :
    (st0_C V c t hc0 hc1 p).o6 = k0_pay1 (k0_pay9 (slab0 (grid0.coords t) p.s3) (iblk0 V c 3 t) p.s2) := by
  unfold st0_C; dsimp only
  rw [View.read_writes_eq_canon _ _ _ (cover0_C_o6 V c t hc0 hc1 p)]
  unfold run0_C kernelRun0_C; dsimp only
  sl_unfold_words
  have hrd0 : ∀ (h : (scM0_0).IsWhole) (X : S16x2048.Idx → Elt F .f32), View.read (Elt F) (View.whole cc0_scratch0) (h.unread X) = X := fun h X => h.read_unread X
  have hrd1 : ∀ (h : (scM0_1).IsWhole) (X : S16x2048.Idx → Elt F .f32), View.read (Elt F) (View.whole cc0_scratch1) (h.unread X) = X := fun h X => h.read_unread X
  have hrd2 : ∀ (h : (scM0_2).IsWhole) (X : S16x2048.Idx → Elt F .f32), View.read (Elt F) (View.whole cc0_scratch2) (h.unread X) = X := fun h X => h.read_unread X
  have hrd3 : ∀ (h : (scM0_3).IsWhole) (X : S16x4096.Idx → Elt F .f32), View.read (Elt F) (View.whole cc0_scratch3) (h.unread X) = X := fun h X => h.read_unread X
  simp only [hrd0, hrd1, hrd2, hrd3, View.canon_cons_unit_zero (S := S16x4096) hz2, View.canon_unit_zero (S := S16x4096) hz2, View.ld_unit_zero (S := S16x4096) hz2, View.readCov_unit_zero (S := S16x4096) _ hz2, View.canon_cons_unit_zero (S := S512x2048) hz2, View.canon_unit_zero (S := S512x2048) hz2, View.ld_unit_zero (S := S512x2048) hz2, View.readCov_unit_zero (S := S512x2048) _ hz2, View.canon_cons_unit_zero (S := S16x2048) hz2, View.canon_unit_zero (S := S16x2048) hz2, View.ld_unit_zero (S := S16x2048) hz2, View.readCov_unit_zero (S := S16x2048) _ hz2, View.canon_cons_unit_zero (S := S16x512) hz2, View.canon_unit_zero (S := S16x512) hz2, View.ld_unit_zero (S := S16x512) hz2, View.readCov_unit_zero (S := S16x512) _ hz2, View.readAt_eq_ld, Memref.IsWhole.read_unread, View.readAt_writes_junk_eq_canon, View.readCov_cons_toLoadRect]
  first | done | rfl

end Cert.KernelIdeal.Hand

end
-- ==== Proof.Pay0.lean ====
/-
  The projection kernel's arithmetic, read at coordinates over the extended reals.

  At the first reduction step the kernel scales every row of the activations by the reciprocal square root of its
  mean square (the row's sum of squares over 4096) and clears its three accumulators.  At every step it multiplies
  a [16, 512] slab of the scaled rows by a [512, 2048] block of each weight matrix and adds the product to the
  accumulator: entry (p, q) gains the sum over the slab's 512 columns `i` of slab (p, i) times block (i, q).  A change
  of float format is the identity here, and a reshape to the same shape is the identity.
-/
import proofs.«129545_j317827580172_2_alg».proof.Proof.Gen.KernelIdeal.Skeleton
import proofs.«129545_j317827580172_2_alg».proof.Proof.Spec
import proofs.«129545_j317827580172_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.Proof.Pay0

open Idealize.ShloMosaic Idealize.ShloMosaic.ValueIdx Cert.Proof Cert.KernelIdeal Cert.KernelIdeal.Gen

/-! ## The scaled rows -/

/-- The payload with its intermediate values substituted. -/
theorem pay2_eq (x : Vec Ideal S16x4096 .f32) :
    k0_pay2 (F := Ideal) x
      = shapeCast S16x4096 (mulf x (broadcastTo S16x4096 (rsqrt (divf
          (shapeCast S16x1 (multiReduction .add [1] S16 (mulf x x) 0x00000000#32 reduces_S16x4096_S16 (.inl rfl) rfl)
            shapeCasts_S16_S16x1)
          (broadcast S16x1 (Scalar.ofBits .f32 0x45800000#32)))) broadcasts_S16x1_S16x4096))
          shapeCasts_S16x4096_S16x4096 := rfl

/-- The sum of squares of row `p`, as the kernel's lane reduction gives it. -/
theorem sumsq_at (x : FVec Ideal S16x4096 .f32) (p : Fin 16) :
    multiReduction (F := Ideal) .add [1] S16 (mulf x x) 0x00000000#32 reduces_S16x4096_S16 (.inl rfl) rfl (ix1 p)
      = ∑ k : Fin 4096, x (ix2 p k) * x (ix2 p k) := by
  refine (Ideal.multiReduction_add_single (mulf x x) 0x00000000#32 reduces_S16x4096_S16 (.inl rfl) rfl (ix1 p)).trans ?_
  show ∑ k : Fin 4096, (mulf x x) (reduces_S16x4096_S16.lift (ix1 p) k) = _
  refine Finset.sum_congr rfl fun (k : Fin 4096) _ => ?_
  have e : reduces_S16x4096_S16.lift (ix1 p) k = ix2 p k :=
    funext fun a => Fin.ext (by match a with | ⟨0, _⟩ => rfl | ⟨1, _⟩ => rfl)
  exact (congrArg (mulf x x) e).trans rfl

/-- The scaled rows, at row `p`, column `k`. -/
theorem pay2_at (x : Vec Ideal S16x4096 .f32) (p : Fin 16) (k : Fin 4096) :
    k0_pay2 (F := Ideal) x (ix2 p k) = Spec.xn x p k := by
  rw [pay2_eq, shapeCast_self]
  show x (ix2 p k) * broadcastTo S16x4096 _ broadcasts_S16x1_S16x4096 (ix2 p k) = _
  rw [broadcastTo_apply _ broadcasts_S16x1_S16x4096 (ix2 p k) (ix2 p (0 : Fin 1)) (fun a => match a with
    | ⟨0, _⟩ => by show p.val = if (16 : Nat) = 1 then 0 else p.val; rw [if_neg (by decide)]
    | ⟨1, _⟩ => by show 0 = if (1 : Nat) = 1 then 0 else k.val; rw [if_pos rfl])]
  show x (ix2 p k) * Ideal.rsqrt (Ideal.div (shapeCast S16x1 _ shapeCasts_S16_S16x1 (ix2 p (0 : Fin 1)))
    (Ideal.ofBits .f32 0x45800000#32)) = _
  rw [shapeCast_apply _ shapeCasts_S16_S16x1 (ix2 p (0 : Fin 1)) (ix1 p)
    (by rewrite [Shape.rowMajor_val_one, Shape.rowMajor_val_two]; show p.val = p.val * 1 + 0; omega),
    sumsq_at, Spec.word_4096]
  rfl

/-! ## The cleared accumulators -/

theorem pay3_at (p : Fin 16) (q : Fin 2048) : k0_pay3 (F := Ideal) (ix2 p q) = 0 := by
  show shapeCast S16x2048 (broadcast S16x2048 (Scalar.ofBits (F := Ideal) .f32 0x00000000#32))
    shapeCasts_S16x2048_S16x2048 (ix2 p q) = 0
  rw [shapeCast_self]
  exact Spec.word_zero

theorem pay4_at (p : Fin 16) (q : Fin 2048) : k0_pay4 (F := Ideal) (ix2 p q) = 0 := by
  show shapeCast S16x2048 (broadcast S16x2048 (Scalar.ofBits (F := Ideal) .f32 0x00000000#32))
    shapeCasts_S16x2048_S16x2048 (ix2 p q) = 0
  rw [shapeCast_self]
  exact Spec.word_zero

theorem pay5_at (p : Fin 16) (q : Fin 2048) : k0_pay5 (F := Ideal) (ix2 p q) = 0 := by
  show shapeCast S16x2048 (broadcast S16x2048 (Scalar.ofBits (F := Ideal) .f32 0x00000000#32))
    shapeCasts_S16x2048_S16x2048 (ix2 p q) = 0
  rw [shapeCast_self]
  exact Spec.word_zero

/-! ## One reduction step -/

/-- A slab times a weight block into a zero accumulator, at (p, q). -/
theorem slab_dot_at (v6 : Vec Ideal S16x512 .f32) (w : Vec Ideal S512x2048 .f32) (p : Fin 16) (q : Fin 2048) :
    matmul (F := Ideal) dot_S16x512_S512x2048_S16x2048_1_0_0_1_n_n none (k0_pay6 v6) (truncf .bf16 w bitsLt_bf16_f32)
        (constant S16x2048 .f32 0x00000000#32) (ix2 p q)
      = ∑ i : Fin 512, v6 (ix2 p i) * w (ix2 i q) :=
  Cert.LibPlainDot.matmul_plain_apply (M := 16) (K := 512) (N := 2048) dot_S16x512_S512x2048_S16x2048_1_0_0_1_n_n
    rfl rfl rfl rfl rfl rfl none (k0_pay6 v6) (truncf .bf16 w bitsLt_bf16_f32) p q

/-- The query accumulator after a step. -/
theorem pay7_at (v6 : Vec Ideal S16x512 .f32) (w : Vec Ideal S512x2048 .f32) (acc : Vec Ideal S16x2048 .f32)
    (p : Fin 16) (q : Fin 2048) :
    k0_pay7 (F := Ideal) v6 w acc (ix2 p q) = acc (ix2 p q) + ∑ i : Fin 512, v6 (ix2 p i) * w (ix2 i q) := by
  show shapeCast S16x2048 (addf acc (matmul (F := Ideal) dot_S16x512_S512x2048_S16x2048_1_0_0_1_n_n none (k0_pay6 v6)
    (truncf .bf16 w bitsLt_bf16_f32) (constant S16x2048 .f32 0x00000000#32))) shapeCasts_S16x2048_S16x2048 (ix2 p q) = _
  rw [shapeCast_self]
  exact congrArg (acc (ix2 p q) + ·) (slab_dot_at v6 w p q)

/-- The key accumulator after a step. -/
theorem pay8_at (v6 : Vec Ideal S16x512 .f32) (w : Vec Ideal S512x2048 .f32) (acc : Vec Ideal S16x2048 .f32)
    (p : Fin 16) (q : Fin 2048) :
    k0_pay8 (F := Ideal) v6 w acc (ix2 p q) = acc (ix2 p q) + ∑ i : Fin 512, v6 (ix2 p i) * w (ix2 i q) := by
  show shapeCast S16x2048 (addf acc (matmul (F := Ideal) dot_S16x512_S512x2048_S16x2048_1_0_0_1_n_n none (k0_pay6 v6)
    (truncf .bf16 w bitsLt_bf16_f32) (constant S16x2048 .f32 0x00000000#32))) shapeCasts_S16x2048_S16x2048 (ix2 p q) = _
  rw [shapeCast_self]
  exact congrArg (acc (ix2 p q) + ·) (slab_dot_at v6 w p q)

/-- The value accumulator after a step. -/
theorem pay9_at (v6 : Vec Ideal S16x512 .f32) (w : Vec Ideal S512x2048 .f32) (acc : Vec Ideal S16x2048 .f32)
    (p : Fin 16) (q : Fin 2048) :
    k0_pay1 (F := Ideal) (k0_pay9 (F := Ideal) v6 w acc) (ix2 p q)
      = acc (ix2 p q) + ∑ i : Fin 512, v6 (ix2 p i) * w (ix2 i q) := by
  show shapeCast S16x2048 (addf acc (matmul (F := Ideal) dot_S16x512_S512x2048_S16x2048_1_0_0_1_n_n none (k0_pay6 v6)
    (truncf .bf16 w bitsLt_bf16_f32) (constant S16x2048 .f32 0x00000000#32))) shapeCasts_S16x2048_S16x2048 (ix2 p q) = _
  rw [shapeCast_self]
  exact congrArg (acc (ix2 p q) + ·) (slab_dot_at v6 w p q)

end Cert.Proof.Pay0

end
-- ==== Proof.Slabs.lean ====
/-
  A sum over 4096 terms taken in eight slabs of 512.

  A reduction walked slab by slab starts from zero plus the first slab's sum and adds one slab's sum per step.  Since
  addition of extended reals is commutative and associative, after the eighth slab the running value is the sum of
  all 4096 terms.
-/
import Idealize.ShloMosaic.PureOps.Ideal

noncomputable section

open scoped BigOperators

namespace Cert.Proof.Slabs

/-- The sum of slab `k`: the 512 terms from `k * 512` on (zero past the eighth slab). -/
def slab (f : Fin 4096 → EReal) (k : ℕ) : EReal :=
  if h : k < 8 then ∑ i : Fin 512, f ⟨k * 512 + i.val, by omega⟩ else 0

theorem slab_of_lt (f : Fin 4096 → EReal) {k : ℕ} (h : k < 8) :
    slab f k = ∑ i : Fin 512, f ⟨k * 512 + i.val, by omega⟩ := dif_pos h

/-- The running value after slab `k`: zero plus the first slab's sum, then one slab's sum more per step. -/
def accK (f : Fin 4096 → EReal) : ℕ → EReal
  | 0 => 0 + slab f 0
  | k + 1 => accK f k + slab f (k + 1)

@[simp] theorem accK_zero (f : Fin 4096 → EReal) : accK f 0 = 0 + slab f 0 := rfl
theorem accK_succ (f : Fin 4096 → EReal) (k : ℕ) : accK f (k + 1) = accK f k + slab f (k + 1) := rfl

/-- The running value is the sum of the slabs so far. -/
theorem accK_eq_sum (f : Fin 4096 → EReal) (k : ℕ) : accK f k = ∑ j ∈ Finset.range (k + 1), slab f j := by
  induction k with
  | zero => rw [accK_zero, zero_add, Finset.sum_range_one]
  | succ k ih => rw [accK_succ, ih, Finset.sum_range_succ _ (k + 1)]

/-- The 4096 terms are the eight slabs. -/
theorem sum_slabs (f : Fin 4096 → EReal) : ∑ kk : Fin 4096, f kk = ∑ b : Fin 8, slab f b.val := by
  rw [← Equiv.sum_comp (finProdFinEquiv : Fin 8 × Fin 512 ≃ Fin (8 * 512)) f, Fintype.sum_prod_type]
  refine Finset.sum_congr rfl fun b _ => ?_
  rw [slab_of_lt f b.isLt]
  refine Finset.sum_congr rfl fun t _ => congrArg f (Fin.ext ?_)
  show t.val + 512 * b.val = b.val * 512 + t.val
  omega

/-- After the eighth slab the running value is the whole sum. -/
theorem accK_seven (f : Fin 4096 → EReal) : accK f 7 = ∑ kk : Fin 4096, f kk := by
  rw [accK_eq_sum, sum_slabs, Finset.sum_range]

end Cert.Proof.Slabs

end
-- ==== Proof.Slab0.lean ====
/-
  The slab of the scaled rows that a point of the projection kernel loads.

  At the point with row-slab index `k` the kernel loads 16 rows of 512 columns of its row scratch starting at column
  `k * 512`; the offset is computed from the grid coordinate in 32-bit arithmetic and does not wrap.  Read at
  coordinates: row `p`, column `ii` of the slab is row `p`, column `k * 512 + ii` of the scratch.
-/
import proofs.«129545_j317827580172_2_alg».proof.Proof.Blocks

noncomputable section

namespace Cert.Proof.Blocks

open Idealize.ShloMosaic Idealize.ShloMosaic.ValueIdx Idealize.ShloMosaic.TcCoe Cert.KernelIdeal Cert.KernelIdeal.Gen

variable {F : FTy → Type} [FloatOps F]

/-- The load's offsets, decided over the grid: row 0, column `(t % 8) * 512`. -/
theorem off1 : ∀ t : Fin cfg0.N, k0_off1 (grid0.coords t) (0 : Fin 2) = 0
    ∧ k0_off1 (grid0.coords t) (1 : Fin 2) = (t.val % 8) * 512 :=
  (by decide +kernel : ∀ t : Fin grid0.N, _)

/-- The slab at row `p`, column `ii`. -/
theorem slab0_at (t : Fin cfg0.N) (Y : Vec F S16x4096 .f32) (p : Fin 16) (ii : Fin 512) :
    (View.ld Y (Rect.unit (s := S16x4096) (k0_off1 (grid0.coords t)) S16x512.size (k0_off1_inb (grid0.coords t)))
        : Vec F S16x512 .f32) (ix2 p ii)
      = Y (ix2 p (⟨(t.val % 8) * 512 + ii.val, by omega⟩ : Fin 4096)) := by
  show Y ((Rect.unit (s := S16x4096) (k0_off1 (grid0.coords t)) S16x512.size (k0_off1_inb (grid0.coords t))).idx (ix2 p ii)) = _
  refine congrArg Y (funext fun a => Fin.ext ?_)
  obtain ⟨e0, e1⟩ := off1 t
  match a with
  | ⟨0, _⟩ => show k0_off1 (grid0.coords t) (0 : Fin 2) + 1 * p.val = p.val; omega
  | ⟨1, _⟩ => show k0_off1 (grid0.coords t) (1 : Fin 2) + 1 * ii.val = (t.val % 8) * 512 + ii.val; omega

end Cert.Proof.Blocks

end
-- ==== Proof.KI.Acc0.lean ====
/-
  The projection kernel's accumulation over its grid is the projection of `Spec`.

  The kernel walks two column halves of eight row slabs each.  Within a half, the first slab stores the scaled rows in
  the row scratch and starts each accumulator at zero plus the slab's product; every later slab adds its product; the
  eighth also copies the accumulators into the output blocks.  By induction on the slab the accumulators hold the
  running sums of `Slabs.accK`, so after the eighth slab they hold the sums over all 4096 columns: the query, key and
  value projections at the half's columns.
-/
import proofs.«129545_j317827580172_2_alg».proof.Proof.KI.Pieces0
import proofs.«129545_j317827580172_2_alg».proof.Proof.Pay0
import proofs.«129545_j317827580172_2_alg».proof.Proof.Slabs
import proofs.«129545_j317827580172_2_alg».proof.Proof.Slab0

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Proof Cert.Proof.Slabs Cert.Proof.Blocks

variable (V : (c : Dev nD) → (b : Ref sig .tc) → Buf (Elt Ideal) ((c : Thread nD τ).loc b))

/-- Column `j * 2048 + q` of a [·, 4096] array, `j` the column half. -/
def colAt (j : ℕ) (hj : j < 2) (q : Fin 2048) : Fin 4096 := ⟨j * 2048 + q.val, by omega⟩

/-- The term slab `kk` contributes to entry (p, column) of a projection. -/
def term (X : Spec.ArrX) (W : Spec.ArrW) (p : Fin 16) (cl : Fin 4096) : Fin 4096 → EReal :=
  fun kk => Spec.xn X p kk * W (ix2 kk cl)

/-- The activations are seen whole at every point. -/
theorem x0_eq (c : Dev nD) (t : Fin cfg0.N) : iblk0 V c 0 t = V c main_arg0 := by
  unfold iblk0
  exact read0_0 t _

/-- The weight blocks the point sees, at coordinates. -/
theorem x1_at (c : Dev nD) (t : Fin cfg0.N) (i : Fin 512) (q : Fin 2048) :
    iblk0 V c 1 t (ix2 i q) = V c main_arg1 (ix2 (⟨(t.val % 8) * 512 + i.val, by omega⟩ : Fin 4096)
      (⟨(t.val / 8) * 2048 + q.val, by have := lt16 t; omega⟩ : Fin 4096)) := by
  unfold iblk0
  exact read0_1 t _ i q
theorem x2_at (c : Dev nD) (t : Fin cfg0.N) (i : Fin 512) (q : Fin 2048) :
    iblk0 V c 2 t (ix2 i q) = V c main_arg2 (ix2 (⟨(t.val % 8) * 512 + i.val, by omega⟩ : Fin 4096)
      (⟨(t.val / 8) * 2048 + q.val, by have := lt16 t; omega⟩ : Fin 4096)) := by
  unfold iblk0
  exact read0_2 t _ i q
theorem x3_at (c : Dev nD) (t : Fin cfg0.N) (i : Fin 512) (q : Fin 2048) :
    iblk0 V c 3 t (ix2 i q) = V c main_arg3 (ix2 (⟨(t.val % 8) * 512 + i.val, by omega⟩ : Fin 4096)
      (⟨(t.val / 8) * 2048 + q.val, by have := lt16 t; omega⟩ : Fin 4096)) := by
  unfold iblk0
  exact read0_3 t _ i q

/-- A point that is not the first of its column half keeps the row scratch. -/
theorem s3_B0 (c : Dev nD) (t : Fin cfg0.N) (hc0 : ¬cond0_0 (grid0.coords t)) (hc1 : ¬cond0_1 (grid0.coords t))
    (p : St0 Ideal) : (st0_B V c t hc0 hc1 p).s3 = p.s3 := by
  unfold st0_B
  dsimp only
theorem s3_C0 (c : Dev nD) (t : Fin cfg0.N) (hc0 : ¬cond0_0 (grid0.coords t)) (hc1 : cond0_1 (grid0.coords t))
    (p : St0 Ideal) : (st0_C V c t hc0 hc1 p).s3 = p.s3 := by
  unfold st0_C
  dsimp only

/-- What one reduction step adds at (p, q): the point's slab of the scaled rows times the point's weight block. -/
theorem slab_term (X : Spec.ArrX) (W : Spec.ArrW) (j k : ℕ) (hj : j < 2) (hk : k < 8) (t : Fin cfg0.N)
    (ht : t.val = 8 * j + k) (xw : Vec Ideal S512x2048 .f32)
    (hxw : ∀ (i : Fin 512) (q : Fin 2048), xw (ix2 i q)
      = W (ix2 (⟨(t.val % 8) * 512 + i.val, by omega⟩ : Fin 4096)
          (⟨(t.val / 8) * 2048 + q.val, by have := lt16 t; omega⟩ : Fin 4096)))
    (p : Fin 16) (q : Fin 2048) :
    ∑ i : Fin 512, slab0 (F := Ideal) (grid0.coords t) (k0_pay2 (F := Ideal) X) (ix2 p i) * xw (ix2 i q)
      = slab (term X W p (colAt j hj q)) k := by
  have hk8 : t.val % 8 = k := by omega
  have hj8 : t.val / 8 = j := by omega
  rw [slab_of_lt _ hk]
  refine Finset.sum_congr rfl fun i _ => ?_
  rw [hxw i q]
  show slab0 (F := Ideal) (grid0.coords t) (k0_pay2 (F := Ideal) X) (ix2 p i) * _ = Spec.xn X p _ * W (ix2 _ (colAt j hj q))
  have e1 : slab0 (F := Ideal) (grid0.coords t) (k0_pay2 (F := Ideal) X) (ix2 p i)
      = Spec.xn X p (⟨(t.val % 8) * 512 + i.val, by omega⟩ : Fin 4096) := by
    unfold slab0
    exact (slab0_at (F := Ideal) t (k0_pay2 (F := Ideal) X) p i).trans (Pay0.pay2_at X p _)
  rw [e1]
  have ea : (⟨(t.val % 8) * 512 + i.val, by omega⟩ : Fin 4096) = ⟨k * 512 + i.val, by omega⟩ :=
    Fin.ext (by show (t.val % 8) * 512 + i.val = k * 512 + i.val; omega)
  have eb : (⟨(t.val / 8) * 2048 + q.val, by have := lt16 t; omega⟩ : Fin 4096) = colAt j hj q :=
    Fin.ext (by show (t.val / 8) * 2048 + q.val = j * 2048 + q.val; omega)
  rw [ea, eb]

/-- THE INVARIANT between the points of the projection kernel. After the point of column half `j` and slab `k`, the
    row scratch holds the scaled rows and each accumulator holds the running sum, over the slabs so far, of the scaled
    rows' slab times the weight's slab, for its weight matrix and the columns of half `j`. -/
theorem acc_inv (c : Dev nD) (j : ℕ) (hj : j < 2) : ∀ (k : ℕ) (hk : k < 8) (hn : 8 * j + k < cfg0.N),
    (outsAt0 V c (8 * j + k) hn).s3 = k0_pay2 (F := Ideal) (V c main_arg0)
    ∧ ∀ (p : Fin 16) (q : Fin 2048),
        (outsAt0 V c (8 * j + k) hn).s0 (ix2 p q) = accK (term (V c main_arg0) (V c main_arg1) p (colAt j hj q)) k
        ∧ (outsAt0 V c (8 * j + k) hn).s1 (ix2 p q) = accK (term (V c main_arg0) (V c main_arg2) p (colAt j hj q)) k
        ∧ (outsAt0 V c (8 * j + k) hn).s2 (ix2 p q) = accK (term (V c main_arg0) (V c main_arg3) p (colAt j hj q)) k := by
  intro k
  induction k with
  | zero =>
    intro hk hn
    have h0 : (⟨8 * j + 0, hn⟩ : Fin cfg0.N).val % 8 = 0 := by show (8 * j + 0) % 8 = 0; omega
    have h1 : ¬(⟨8 * j + 0, hn⟩ : Fin cfg0.N).val % 8 = 7 := by show ¬(8 * j + 0) % 8 = 7; omega
    have e : outsAt0 V c (8 * j + 0) hn = st0_A V c ⟨8 * j + 0, hn⟩ _ _ := outsAt0_A V c ⟨8 * j + 0, hn⟩ h0 h1
    rw [e]
    refine ⟨by rw [s3_A0, x0_eq], fun p q => ⟨?_, ?_, ?_⟩⟩
    · rw [s0_A0, x0_eq, Pay0.pay7_at, Pay0.pay3_at,
        slab_term (V c main_arg0) (V c main_arg1) j 0 hj hk ⟨8 * j + 0, hn⟩ rfl (iblk0 V c 1 _) (x1_at V c _) p q]
      rfl
    · rw [s1_A0, x0_eq, Pay0.pay8_at, Pay0.pay4_at,
        slab_term (V c main_arg0) (V c main_arg2) j 0 hj hk ⟨8 * j + 0, hn⟩ rfl (iblk0 V c 2 _) (x2_at V c _) p q]
      rfl
    · rw [s2_A0, x0_eq, Pay0.pay9_at, Pay0.pay5_at,
        slab_term (V c main_arg0) (V c main_arg3) j 0 hj hk ⟨8 * j + 0, hn⟩ rfl (iblk0 V c 3 _) (x3_at V c _) p q]
      rfl
  | succ k ih =>
    intro hk hn
    have hn' : 8 * j + k < cfg0.N := Nat.lt_of_succ_lt hn
    obtain ⟨i3, iacc⟩ := ih (by omega) hn'
    have h0 : ¬(⟨8 * j + (k + 1), hn⟩ : Fin cfg0.N).val % 8 = 0 := by show ¬(8 * j + (k + 1)) % 8 = 0; omega
    by_cases h1 : (⟨8 * j + (k + 1), hn⟩ : Fin cfg0.N).val % 8 = 7
    · have e : outsAt0 V c (8 * j + (k + 1)) hn
          = st0_C V c ⟨8 * j + (k + 1), hn⟩ _ _ (outsAt0 V c (8 * j + k) hn') :=
        outsAt0_C V c ⟨8 * j + (k + 1), hn⟩ h0 h1
      rw [e]
      refine ⟨(s3_C0 V c _ _ _ _).trans i3, fun p q => ?_⟩
      obtain ⟨a0, a1, a2⟩ := iacc p q
      refine ⟨?_, ?_, ?_⟩
      · rw [s0_C0, i3, Pay0.pay7_at, a0,
          slab_term (V c main_arg0) (V c main_arg1) j (k + 1) hj hk ⟨8 * j + (k + 1), hn⟩ rfl (iblk0 V c 1 _)
            (x1_at V c _) p q]
        rfl
      · rw [s1_C0, i3, Pay0.pay8_at, a1,
          slab_term (V c main_arg0) (V c main_arg2) j (k + 1) hj hk ⟨8 * j + (k + 1), hn⟩ rfl (iblk0 V c 2 _)
            (x2_at V c _) p q]
        rfl
      · rw [s2_C0, i3, Pay0.pay9_at, a2,
          slab_term (V c main_arg0) (V c main_arg3) j (k + 1) hj hk ⟨8 * j + (k + 1), hn⟩ rfl (iblk0 V c 3 _)
            (x3_at V c _) p q]
        rfl
    · have e : outsAt0 V c (8 * j + (k + 1)) hn
          = st0_B V c ⟨8 * j + (k + 1), hn⟩ _ _ (outsAt0 V c (8 * j + k) hn') :=
        outsAt0_B V c ⟨8 * j + (k + 1), hn⟩ h0 h1
      rw [e]
      refine ⟨(s3_B0 V c _ _ _ _).trans i3, fun p q => ?_⟩
      obtain ⟨a0, a1, a2⟩ := iacc p q
      refine ⟨?_, ?_, ?_⟩
      · rw [s0_B0, i3, Pay0.pay7_at, a0,
          slab_term (V c main_arg0) (V c main_arg1) j (k + 1) hj hk ⟨8 * j + (k + 1), hn⟩ rfl (iblk0 V c 1 _)
            (x1_at V c _) p q]
        rfl
      · rw [s1_B0, i3, Pay0.pay8_at, a1,
          slab_term (V c main_arg0) (V c main_arg2) j (k + 1) hj hk ⟨8 * j + (k + 1), hn⟩ rfl (iblk0 V c 2 _)
            (x2_at V c _) p q]
        rfl
      · rw [s2_B0, i3, Pay0.pay9_at, a2,
          slab_term (V c main_arg0) (V c main_arg3) j (k + 1) hj hk ⟨8 * j + (k + 1), hn⟩ rfl (iblk0 V c 3 _)
            (x3_at V c _) p q]
        rfl

/-- WHAT THE PROJECTION KERNEL WRITES BACK. At a point that ends a column half (`t % 8 = 7`) the three output blocks
    hold the query, key and value projections of `Spec` at the half's columns. -/
theorem outs_at_flush (c : Dev nD) (t : Fin cfg0.N) (h7 : t.val % 8 = 7) (p : Fin 16) (q : Fin 2048) :
    (outsAt0 V c t.val t.isLt).o4 (ix2 p q)
        = Spec.proj (V c main_arg0) (V c main_arg1) p (⟨(t.val / 8) * 2048 + q.val, by have := lt16 t; omega⟩ : Fin 4096)
      ∧ (outsAt0 V c t.val t.isLt).o5 (ix2 p q)
        = Spec.proj (V c main_arg0) (V c main_arg2) p (⟨(t.val / 8) * 2048 + q.val, by have := lt16 t; omega⟩ : Fin 4096)
      ∧ (outsAt0 V c t.val t.isLt).o6 (ix2 p q)
        = Spec.proj (V c main_arg0) (V c main_arg3) p (⟨(t.val / 8) * 2048 + q.val, by have := lt16 t; omega⟩ : Fin 4096) := by
  have hlt := lt16 t
  have hj : t.val / 8 < 2 := by omega
  have hdec : t.val = 8 * (t.val / 8) + 7 := by omega
  have hne : ¬t.val % 8 = 0 := by omega
  have hprev : 8 * (t.val / 8) + 6 < cfg0.N := lt_of_lt_of_eq (by omega) N_0.symm
  obtain ⟨i3, iacc⟩ := acc_inv V c (t.val / 8) hj 6 (by norm_num) hprev
  obtain ⟨a0, a1, a2⟩ := iacc p q
  have hpe : outsAt0 V c (t.val - 1) (Nat.lt_of_le_of_lt (Nat.sub_le _ _) t.isLt)
      = outsAt0 V c (8 * (t.val / 8) + 6) hprev := by
    have : t.val - 1 = 8 * (t.val / 8) + 6 := by omega
    congr 1
  have ecol : colAt (t.val / 8) hj q = (⟨(t.val / 8) * 2048 + q.val, by omega⟩ : Fin 4096) := rfl
  rw [outsAt0_C V c t hne h7, hpe]
  refine ⟨?_, ?_, ?_⟩
  · rw [o4_C0, i3, Pay0.pay7_at, a0,
      slab_term (V c main_arg0) (V c main_arg1) (t.val / 8) 7 hj (by norm_num) t hdec (iblk0 V c 1 t) (x1_at V c t) p q,
      ← accK_succ, accK_seven]
    rfl
  · rw [o5_C0, i3, Pay0.pay8_at, a1,
      slab_term (V c main_arg0) (V c main_arg2) (t.val / 8) 7 hj (by norm_num) t hdec (iblk0 V c 2 t) (x2_at V c t) p q,
      ← accK_succ, accK_seven]
    rfl
  · rw [o6_C0, i3, Pay0.pay9_at, a2,
      slab_term (V c main_arg0) (V c main_arg3) (t.val / 8) 7 hj (by norm_num) t hdec (iblk0 V c 3 t) (x3_at V c t) p q,
      ← accK_succ, accK_seven]
    rfl

/-- The query projection's output block at a writing point. -/
theorem o4_last (c : Dev nD) (t : Fin cfg0.N) (h : t.val % 8 = 7) (p : Fin 16) (q : Fin 2048) :
    (outsAt0 V c t.val t.isLt).o4 (ix2 p q)
      = Spec.proj (V c main_arg0) (V c main_arg1) p (⟨(t.val / 8) * 2048 + q.val, by have := lt16 t; omega⟩ : Fin 4096) :=
  (outs_at_flush V c t h p q).1

/-- The key projection's output block at a writing point. -/
theorem o5_last (c : Dev nD) (t : Fin cfg0.N) (h : t.val % 8 = 7) (p : Fin 16) (q : Fin 2048) :
    (outsAt0 V c t.val t.isLt).o5 (ix2 p q)
      = Spec.proj (V c main_arg0) (V c main_arg2) p (⟨(t.val / 8) * 2048 + q.val, by have := lt16 t; omega⟩ : Fin 4096) :=
  (outs_at_flush V c t h p q).2.1

/-- The value projection's output block at a writing point. -/
theorem o6_last (c : Dev nD) (t : Fin cfg0.N) (h : t.val % 8 = 7) (p : Fin 16) (q : Fin 2048) :
    (outsAt0 V c t.val t.isLt).o6 (ix2 p q)
      = Spec.proj (V c main_arg0) (V c main_arg3) p (⟨(t.val / 8) * 2048 + q.val, by have := lt16 t; omega⟩ : Fin 4096) :=
  (outs_at_flush V c t h p q).2.2

end Cert.KernelIdeal.Hand

end
-- ==== Proof.HostIdx.lean ====
/-
  Splitting 4096 columns into 32 heads of 128 lanes, and back.

  A [16, 4096] array is reshaped to [16, 32, 128] (column `h * 128 + d` of row `p` becomes entry `(p, h, d)`: both
  are position `p * 4096 + h * 128 + d` in row-major order) and its first two axes are exchanged, giving [32, 16, 128]
  with entry `(h, p, d)` the source's row `p`, column `h * 128 + d`.  The inverse exchanges the axes back and
  reshapes to [16, 4096].  Both are stated for any element type and any array.
-/
import Idealize.ShloMosaic.Lib.Pipeline.Value
import Idealize.ShloMosaic.Lib.ValueIdx
import proofs.«129545_j317827580172_2_alg».proof.Proof.Spec

noncomputable section

namespace Cert.Proof.HostIdx

open Idealize.ShloMosaic Idealize.ShloMosaic.ValueIdx Cert.Proof

/-- Split into heads: entry `(h, p, d)` of the reshaped and transposed array is the source's row `p`, column
    `h * 128 + d`. -/
theorem toHeads_apply {α : Type} (x : (⟨2, ![16, 4096]⟩ : Shape).Idx → α)
    (hc : (⟨2, ![16, 4096]⟩ : Shape).ShapeCasts ⟨3, ![16, 32, 128]⟩)
    (ht : (⟨3, ![16, 32, 128]⟩ : Shape).Transposes [1, 0, 2] ⟨3, ![32, 16, 128]⟩)
    (h : Fin 32) (p : Fin 16) (d : Fin 128) :
    transpose (⟨3, ![32, 16, 128]⟩ : Shape) [1, 0, 2] (shapeCast (⟨3, ![16, 32, 128]⟩ : Shape) x hc) ht (ix3 h p d)
      = x (ix2 p (Spec.col h d)) := by
  refine (transpose_apply [1, 0, 2] _ ht (ix3 h p d) (ix3 p h d) (fun b => match b with
    | ⟨0, _⟩ => rfl
    | ⟨1, _⟩ => rfl
    | ⟨2, _⟩ => rfl)).trans ?_
  refine shapeCast_apply x hc (ix3 p h d) (ix2 p (Spec.col h d)) ?_
  rewrite [Shape.rowMajor_val_two, Shape.rowMajor_val_three]
  have := h.isLt; have := d.isLt
  show p.val * 4096 + (h.val * 128 + d.val) = (p.val * 32 + h.val) * 128 + d.val
  omega

/-- Lay the heads back side by side: row `p`, column `h * 128 + d` of the transposed and reshaped array is the
    source's entry `(h, p, d)`. -/
theorem fromHeads_apply {α : Type} (y : (⟨3, ![32, 16, 128]⟩ : Shape).Idx → α)
    (ht : (⟨3, ![32, 16, 128]⟩ : Shape).Transposes [1, 0, 2] ⟨3, ![16, 32, 128]⟩)
    (hc : (⟨3, ![16, 32, 128]⟩ : Shape).ShapeCasts ⟨2, ![16, 4096]⟩)
    (p : Fin 16) (h : Fin 32) (d : Fin 128) :
    shapeCast (⟨2, ![16, 4096]⟩ : Shape) (transpose (⟨3, ![16, 32, 128]⟩ : Shape) [1, 0, 2] y ht) hc
        (ix2 p (Spec.col h d))
      = y (ix3 h p d) := by
  refine (shapeCast_apply _ hc (ix2 p (Spec.col h d)) (ix3 p h d) ?_).trans ?_
  · rewrite [Shape.rowMajor_val_three, Shape.rowMajor_val_two]
    have := h.isLt; have := d.isLt
    show (p.val * 32 + h.val) * 128 + d.val = p.val * 4096 + (h.val * 128 + d.val)
    omega
  · exact transpose_apply [1, 0, 2] y ht (ix3 p h d) (ix3 h p d) (fun b => match b with
      | ⟨0, _⟩ => rfl
      | ⟨1, _⟩ => rfl
      | ⟨2, _⟩ => rfl)

/-- Every column is `h * 128 + d` for its head and lane. -/
theorem col_surj (c : Fin 4096) : ∃ (h : Fin 32) (d : Fin 128), c = Spec.col h d :=
  ⟨⟨c.val / 128, by have := c.isLt; omega⟩, ⟨c.val % 128, Nat.mod_lt _ (by norm_num)⟩,
    Fin.ext (by show c.val = c.val / 128 * 128 + c.val % 128; omega)⟩

end Cert.Proof.HostIdx

end
-- ==== Proof.KI.Val.lean ====
/-
  The idealized kernel's result, at the extended reals, is the specification's array.

  Reading the run's last boundary backwards: the result is the attention call's array transposed and reshaped back;
  that array is, head by head, the softmax-weighted sum of the attention call's input arrays; those are the two
  caches, untouched since launch, and the projection call's three arrays reshaped into heads; and each of those is
  the normalised rows of X times a weight matrix, eight slabs' sums being the whole sum.
-/
import proofs.«129545_j317827580172_2_alg».proof.Proof.KI.Main
import proofs.«129545_j317827580172_2_alg».proof.Proof.KI.Att
import proofs.«129545_j317827580172_2_alg».proof.Proof.KI.Acc0
import proofs.«129545_j317827580172_2_alg».proof.Proof.HostIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

open Cert.Proof Idealize.ShloMosaic.ValueIdx

variable (m : (ℓ : Loc nD τ sig) → Buf (Elt Ideal) ℓ)

/-- The projection call's three result arrays, from the eight slabs' accumulation. -/
theorem proj_arrays (c : Dev nD) :
    ((dat0 (V0 m) c).arrAt 4 cfg0.N : S16x4096.Idx → EReal) = (fun i => Spec.proj (V0 m c main_arg0) (V0 m c main_arg1) (i 0) (i 1))
    ∧ ((dat0 (V0 m) c).arrAt 5 cfg0.N : S16x4096.Idx → EReal) = (fun i => Spec.proj (V0 m c main_arg0) (V0 m c main_arg2) (i 0) (i 1))
    ∧ ((dat0 (V0 m) c).arrAt 6 cfg0.N : S16x4096.Idx → EReal) = (fun i => Spec.proj (V0 m c main_arg0) (V0 m c main_arg3) (i 0) (i 1)) :=
  ⟨Arrays.out0_4 c (dat0 (V0 m) c) _ (fun t h p q => by rw [after0_4]; exact o4_last (V0 m) c t h p q),
   Arrays.out0_5 c (dat0 (V0 m) c) _ (fun t h p q => by rw [after0_5]; exact o5_last (V0 m) c t h p q),
   Arrays.out0_6 c (dat0 (V0 m) c) _ (fun t h p q => by rw [after0_6]; exact o6_last (V0 m) c t h p q)⟩

/-- The host operations between the calls: each projection result reshaped to [16, 32, 128] and transposed to heads. -/
theorem heads (c : Dev nD) :
    (W2 m c (Proc.devRef .tc main_v2) : S32x16x128.Idx → EReal)
        = transpose S32x16x128 [1, 0, 2] (shapeCast S16x32x128 (W1 m c (Proc.devRef .tc main_v0_0) : S16x4096.Idx → EReal) shapeCasts_S16x4096_S16x32x128) transposes_S16x32x128_S32x16x128_1_0_2
    ∧ (W2 m c (Proc.devRef .tc main_v4) : S32x16x128.Idx → EReal)
        = transpose S32x16x128 [1, 0, 2] (shapeCast S16x32x128 (W1 m c (Proc.devRef .tc main_v0_1) : S16x4096.Idx → EReal) shapeCasts_S16x4096_S16x32x128) transposes_S16x32x128_S32x16x128_1_0_2
    ∧ (W2 m c (Proc.devRef .tc main_v6) : S32x16x128.Idx → EReal)
        = transpose S32x16x128 [1, 0, 2] (shapeCast S16x32x128 (W1 m c (Proc.devRef .tc main_v0_2) : S16x4096.Idx → EReal) shapeCasts_S16x4096_S16x32x128) transposes_S16x32x128_S32x16x128_1_0_2 := by
  refine ⟨?_, ?_, ?_⟩ <;>
  · unfold W2
    show StableHlo.after hostOps1 _ _ = _
    after_results
    rfl

/-- The host operations after the attention call: its result transposed back and reshaped to [16, 4096]. -/
theorem tail (c : Dev nD) :
    (W4 m c (Proc.devRef .tc main_v9) : S16x4096.Idx → EReal)
      = shapeCast S16x4096 (transpose S16x32x128 [1, 0, 2] (W3 m c (Proc.devRef .tc main_v7) : S32x16x128.Idx → EReal) transposes_S32x16x128_S16x32x128_1_0_2) shapeCasts_S16x32x128_S16x4096 := by
  unfold W4
  show StableHlo.after hostOps2 _ _ = _
  after_results
  rfl

/-- THE VALUE: for finite inputs the result's buffer at the last boundary is the specification's array of the six
    arguments as launched. -/
theorem value_eq (c : Dev nD)
    (hX : ∀ i, ∃ r : ℝ, (m ((c.tc : Thread nD τ).loc main_arg0) : S16x4096.Idx → EReal) i = (r : EReal))
    (hWq : ∀ i, ∃ r : ℝ, (m ((c.tc : Thread nD τ).loc main_arg1) : S4096x4096.Idx → EReal) i = (r : EReal))
    (hWk : ∀ i, ∃ r : ℝ, (m ((c.tc : Thread nD τ).loc main_arg2) : S4096x4096.Idx → EReal) i = (r : EReal))
    (hWv : ∀ i, ∃ r : ℝ, (m ((c.tc : Thread nD τ).loc main_arg3) : S4096x4096.Idx → EReal) i = (r : EReal))
    (hcK : ∀ i, ∃ r : ℝ, (m ((c.tc : Thread nD τ).loc main_arg4) : S32x8192x128.Idx → EReal) i = (r : EReal))
    (hcV : ∀ i, ∃ r : ℝ, (m ((c.tc : Thread nD τ).loc main_arg5) : S32x8192x128.Idx → EReal) i = (r : EReal)) :
    (W4 m c (Proc.devRef .tc main_v9) : S16x4096.Idx → EReal)
      = Spec.attnOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  obtain ⟨hQ, hK, hVv⟩ := proj_arrays m c
  obtain ⟨h2, h4, h6⟩ := heads m c
  have hatt := att_array (V2 m) c hX hWq hWk hWv hcK hcV
    (fun h p d => by
      show (W2 m c (Proc.devRef .tc main_v2) : S32x16x128.Idx → EReal) (ix3 h p d) = _
      rw [h2, HostIdx.toHeads_apply, show (W1 m c (Proc.devRef .tc main_v0_0) : S16x4096.Idx → EReal) = _ from (W1_arr m c 4).trans hQ]; rfl)
    (fun h p d => by
      show (W2 m c (Proc.devRef .tc main_v4) : S32x16x128.Idx → EReal) (ix3 h p d) = _
      rw [h4, HostIdx.toHeads_apply, show (W1 m c (Proc.devRef .tc main_v0_1) : S16x4096.Idx → EReal) = _ from (W1_arr m c 5).trans hK]; rfl)
    (fun h p d => by
      show (W2 m c (Proc.devRef .tc main_v6) : S32x16x128.Idx → EReal) (ix3 h p d) = _
      rw [h6, HostIdx.toHeads_apply, show (W1 m c (Proc.devRef .tc main_v0_2) : S16x4096.Idx → EReal) = _ from (W1_arr m c 6).trans hVv]; rfl)
    ((W2_of_not_written m c main_arg4 (by decide)).trans ((W1_of_ne m c main_arg4 (by decide)).trans rfl))
    ((W2_of_not_written m c main_arg5 (by decide)).trans ((W1_of_ne m c main_arg5 (by decide)).trans rfl))
  funext i
  obtain ⟨p, cc, rfl⟩ : ∃ (p : Fin 16) (cc : Fin 4096), i = ix2 p cc := ⟨i 0, i 1, eq_ix2 i⟩
  obtain ⟨h, d, rfl⟩ := HostIdx.col_surj cc
  rw [tail, HostIdx.fromHeads_apply, show (W3 m c (Proc.devRef .tc main_v7) : S32x16x128.Idx → EReal) = _ from (W3_arr m c 5).trans hatt, Spec.attnOut_col]
  rfl

end Cert.KernelIdeal.Hand

end
-- ==== Proof.lean ====
/-
  The five claims about the fused RMSNorm + QKV projection + cached attention kernel.

  The program is two kernel calls joined by host reshapes and transposes.  The projection call normalises each row of X
  by the reciprocal root of its mean square and multiplies it by W_q, W_k, W_v, accumulating eight 512-row slabs per
  2048-column block; the attention call, per head, folds the 8192 cached keys in two chunks and then the 16 new keys
  into a running (maximum, denominator, numerator) and stores numerator / denominator.  The reference computes the
  same normalisation and projections, appends the new keys and values to the cache, and takes a softmax over all
  8208 keys at once.

  * The frames of the word-level and the idealized kernel: every weakly fair execution ends, faults nowhere and leaves
    the six arguments as launched — @main as a list of segments, each call's body run case by case.
  * The reference's frame: its run, the result dropped.
  * The idealization rewrote nothing.
  * At the extended reals, for finite inputs, both programs end with the same [16, 4096] array: the running
    recurrence over three key blocks equals the softmax-weighted sum, and a sum over eight slabs is the whole sum.
-/
import proofs.«129545_j317827580172_2_alg».proof.Defs
import proofs.«129545_j317827580172_2_alg».proof.Proof.RefFrame
import proofs.«129545_j317827580172_2_alg».proof.Proof.K.Main
import proofs.«129545_j317827580172_2_alg».proof.Proof.KI.Main
import proofs.«129545_j317827580172_2_alg».proof.Proof.Finite
import proofs.«129545_j317827580172_2_alg».proof.Proof.RefSpec
import proofs.«129545_j317827580172_2_alg».proof.Proof.KI.Val

noncomputable section

namespace Cert.Proof

open Idealize.ShloMosaic Idealize.ShloMosaic.TcCoe Idealize.SL.Sem

/-- The word-level kernel's frame. -/
theorem frame_k : Cert.frame_Kernel := fun m ρ _ => Cert.Kernel.Hand.frame m ρ
/-- The idealized kernel's frame. -/
theorem frame_ki : Cert.frame_KernelIdeal := fun m ρ _ => Cert.KernelIdeal.Hand.frame m ρ
/-- At the extended reals, from memories agreeing on the six arguments and finite there, both programs run to the
    end, leave the arguments as launched, and end with the same [16, 4096] array: the specification's
    `Spec.attnOut` of the arguments.  The kernel's result is read off its run's last boundary (`value_eq`); the
    reference's off its run (`reference_eq`). -/
theorem algebraic : Cert.algebraic_KernelIdeal_ReferenceIdeal := by
  intro m ρ m' ρ' hpre hagree
  have hreal := fun c : Dev Cert.KernelIdeal.nD => Cert.Proof.Finite.args_real _ _ _ _ _ _ (hpre c)
  refine ⟨fun c => Cert.Proof.Spec.attnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.value_eq m c (hreal c).1 (hreal c).2.1 (hreal c).2.2.1 (hreal c).2.2.2.1 (hreal c).2.2.2.2.1 (hreal c).2.2.2.2.2), (h c).2⟩)
      (Cert.KernelIdeal.Hand.run_main m ρ)
  · refine (θ_run Cert.ReferenceIdeal.defs _ _).mono (fun r h c => ⟨(h c).1.trans ?_, (h c).2⟩)
      (Cert.ReferenceIdeal.Value.run (F := Ideal) m' ρ')
    rw [Cert.Proof.RefSpec.reference_eq m' c, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, Claims.frame_ri, Claims.preserves, algebraic⟩

end Cert.Proof

end
